-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v80)) (v1 : (c : Dev Cert.KernelIdeal.nD) → Buf (Elt Ideal) ((c.tc : Thread Cert.KernelIdeal.nD Cert.KernelIdeal.τ).loc Cert.KernelIdeal.main_v154)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v80) = v0 c
          ∧ r.2.mem ((c.tc : Thread Cert.KernelIdeal.nD Cert.KernelIdeal.τ).loc Cert.KernelIdeal.main_v154) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v131) = v0 c
          ∧ r.2.mem ((c.tc : Thread Cert.ReferenceIdeal.nD Cert.ReferenceIdeal.τ).loc Cert.ReferenceIdeal.main_v209) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x16384 : Shape := ⟨2, ![16384, 16384]⟩
abbrev S16384x128 : Shape := ⟨2, ![16384, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S16384x32 : Shape := ⟨2, ![16384, 32]⟩
abbrev S2x524288 : Shape := ⟨2, ![2, 524288]⟩
abbrev S_ : Shape := ⟨0, ![]⟩

class Facts : Prop where
  bcast_S_S16384x16384 : S_.BroadcastsInDim S16384x16384 (![] : Fin 0 → Fin S16384x16384.rank)
  reducesTo_S16384x16384_S_d0_1 : S16384x16384.ReducesTo [0, 1] S_
  h_S_ : 0 < S_.numel
  bcast_S_S16384x128 : S_.BroadcastsInDim S16384x128 (![] : Fin 0 → Fin S16384x128.rank)
  reducesTo_S16384x128_S_d0_1 : S16384x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S16384x32 : S_.BroadcastsInDim S16384x32 (![] : Fin 0 → Fin S16384x32.rank)
  reducesTo_S16384x32_S_d0_1 : S16384x32.ReducesTo [0, 1] S_
  bcast_S_S2x524288 : S_.BroadcastsInDim S2x524288 (![] : Fin 0 → Fin S2x524288.rank)
  reducesTo_S2x524288_S_d0_1 : S2x524288.ReducesTo [0, 1] S_

variable [Facts]

def fn_part4 {F : FTy → Type} [FloatOps F] (main_v63 : IVec S_ 1) (main_v65 : IVec S2x524288 1) (main_v67 : IVec S2x524288 1) : IVec S_ 1 :=
  let main_v68 : IVec S2x524288 1 := andi main_v65 main_v67
  let main_c_26 : IVec S_ 1 := constantI S_ 1 1#1
  let main_v69 : IVec S_ 1 := (fun x v => Host.reduce IntOp.andi x v reducesTo_S2x524288_S_d0_1 h_S_) main_v68 main_c_26
  let main_v70 : IVec S_ 1 := andi main_v63 main_v69
  main_v70

def fn_part3 {F : FTy → Type} [FloatOps F] (main_arg11 : FVec F S32 .f32) (main_arg12 : FVec F S16384x32 .f32) (main_arg13 : IVec S2x524288 32) (main_v48 : IVec S_ 1) (main_v49 : FVec F S64x32 .f32) (main_v50 : FVec F S64x32 .f32) : IVec S_ 1 :=
  let main_v51 : IVec S64x32 1 := cmpf .olt main_v49 main_v50
  let main_c_19 : IVec S_ 1 := constantI S_ 1 1#1
  let main_v52 : IVec S_ 1 := (fun x v => Host.reduce IntOp.andi x v reducesTo_S64x32_S_d0_1 h_S_) main_v51 main_c_19
  let main_v53 : IVec S_ 1 := andi main_v48 main_v52
  let main_v54 : FVec F S32 .f32 := Host.absf main_arg11
  let main_cst_20 : FVec F S_ .f32 := constant S_ .f32 0x7F800000#32
  let main_v55 : FVec F S32 .f32 := broadcastInDim S32 ![] bcast_S_S32 main_cst_20
  let main_v56 : IVec S32 1 := cmpf .olt main_v54 main_v55
  let main_c_21 : IVec S_ 1 := constantI S_ 1 1#1
  let main_v57 : IVec S_ 1 := (fun x v => Host.reduce IntOp.andi x v reducesTo_S32_S_d0 h_S_) main_v56 main_c_21
  let main_v58 : IVec S_ 1 := andi main_v53 main_v57
  let main_v59 : FVec F S16384x32 .f32 := Host.absf main_arg12
  let main_cst_22 : FVec F S_ .f32 := constant S_ .f32 0x7F800000#32
  let main_v60 : FVec F S16384x32 .f32 := broadcastInDim S16384x32 ![] bcast_S_S16384x32 main_cst_22
  let main_v61 : IVec S16384x32 1 := cmpf .olt main_v59 main_v60
  let main_c_23 : IVec S_ 1 := constantI S_ 1 1#1
  let main_v62 : IVec S_ 1 := (fun x v => Host.reduce IntOp.andi x v reducesTo_S16384x32_S_d0_1 h_S_) main_v61 main_c_23
  let main_v63 : IVec S_ 1 := andi main_v58 main_v62
  let main_c_24 : IVec S_ 32 := constantI S_ 32 0#32
  let main_v64 : IVec S2x524288 32 := broadcastInDim S2x524288 ![] bcast_S_S2x524288 main_c_24
  let main_v65 : IVec S2x524288 1 := cmpi .sge main_arg13 main_v64
  let main_c_25 : IVec S_ 32 := constantI S_ 32 16384#32
  let main_v66 : IVec S2x524288 32 := broadcastInDim S2x524288 ![] bcast_S_S2x524288 main_c_25
  let main_v67 : IVec S2x524288 1 := cmpi .slt main_arg13 main_v66
  fn_part4 (F := F) main_v63 main_v65 main_v67

def fn_part2 {F : FTy → Type} [FloatOps F] (main_arg7 : FVec F S64x32 .f32) (main_arg8 : FVec F S32 .f32) (main_arg9 : FVec F S64x32 .f32) (main_arg10 : FVec F S64x32 .f32) (main_arg11 : FVec F S32 .f32) (main_arg12 : FVec F S16384x32 .f32) (main_arg13 : IVec S2x524288 32) (main_v33 : IVec S_ 1) : IVec S_ 1 :=
  let main_v34 : FVec F S64x32 .f32 := Host.absf main_arg7
  let main_cst_12 : FVec F S_ .f32 := constant S_ .f32 0x7F800000#32
  let main_v35 : FVec F S64x32 .f32 := broadcastInDim S64x32 ![] bcast_S_S64x32 main_cst_12
  let main_v36 : IVec S64x32 1 := cmpf .olt main_v34 main_v35
  let main_c_13 : IVec S_ 1 := constantI S_ 1 1#1
  let main_v37 : IVec S_ 1 := (fun x v => Host.reduce IntOp.andi x v reducesTo_S64x32_S_d0_1 h_S_) main_v36 main_c_13
  let main_v38 : IVec S_ 1 := andi main_v33 main_v37
  let main_v39 : FVec F S32 .f32 := Host.absf main_arg8
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S64x32 .f32 := Host.absf main_arg9
  let main_cst_16 : FVec F S_ .f32 := constant S_ .f32 0x7F800000#32
  let main_v45 : FVec F S64x32 .f32 := broadcastInDim S64x32 ![] bcast_S_S64x32 main_cst_16
  let main_v46 : IVec S64x32 1 := cmpf .olt main_v44 main_v45
  let main_c_17 : IVec S_ 1 := constantI S_ 1 1#1
  let main_v47 : IVec S_ 1 := (fun x v => Host.reduce IntOp.andi x v reducesTo_S64x32_S_d0_1 h_S_) main_v46 main_c_17
  let main_v48 : IVec S_ 1 := andi main_v43 main_v47
  let main_v49 : FVec F S64x32 .f32 := Host.absf main_arg10
  let main_cst_18 : FVec F S_ .f32 := constant S_ .f32 0x7F800000#32
  let main_v50 : FVec F S64x32 .f32 := broadcastInDim S64x32 ![] bcast_S_S64x32 main_cst_18
  fn_part3 (F := F) main_arg11 main_arg12 main_arg13 main_v48 main_v49 main_v50

def fn_part1 {F : FTy → Type} [FloatOps F] (main_arg4 : FVec F S128x64 .f32) (main_arg5 : FVec F S64 .f32) (main_arg6 : FVec F S64x32 .f32) (main_arg7 : FVec F S64x32 .f32) (main_arg8 : FVec F S32 .f32) (main_arg9 : FVec F S64x32 .f32) (main_arg10 : FVec F S64x32 .f32) (main_arg11 : FVec F S32 .f32) (main_arg12 : FVec F S16384x32 .f32) (main_arg13 : IVec S2x524288 32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S128x64 .f32 := Host.absf main_arg4
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x32 .f32 := Host.absf main_arg6
  let main_cst_10 : FVec F S_ .f32 := constant S_ .f32 0x7F800000#32
  let main_v30 : FVec F S64x32 .f32 := broadcastInDim S64x32 ![] bcast_S_S64x32 main_cst_10
  let main_v31 : IVec S64x32 1 := cmpf .olt main_v29 main_v30
  let main_c_11 : IVec S_ 1 := constantI S_ 1 1#1
  let main_v32 : IVec S_ 1 := (fun x v => Host.reduce IntOp.andi x v reducesTo_S64x32_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S16384x16384 .f32) (main_arg1 : FVec F S16384x128 .f32) (main_arg2 : FVec F S128 .f32) (main_arg3 : FVec F S128x64 .f32) (main_arg4 : FVec F S128x64 .f32) (main_arg5 : FVec F S64 .f32) (main_arg6 : FVec F S64x32 .f32) (main_arg7 : FVec F S64x32 .f32) (main_arg8 : FVec F S32 .f32) (main_arg9 : FVec F S64x32 .f32) (main_arg10 : FVec F S64x32 .f32) (main_arg11 : FVec F S32 .f32) (main_arg12 : FVec F S16384x32 .f32) (main_arg13 : IVec S2x524288 32) (main_arg14 : IVec S2x524288 32) : IVec S_ 1 :=
  let main_v0 : FVec F S16384x16384 .f32 := Host.absf main_arg0
  let main_cst : FVec F S_ .f32 := constant S_ .f32 0x7F800000#32
  let main_v1 : FVec F S16384x16384 .f32 := broadcastInDim S16384x16384 ![] bcast_S_S16384x16384 main_cst
  let main_v2 : IVec S16384x16384 1 := cmpf .olt main_v0 main_v1
  let main_c : IVec S_ 1 := constantI S_ 1 1#1
  let main_v3 : IVec S_ 1 := (fun x v => Host.reduce IntOp.andi x v reducesTo_S16384x16384_S_d0_1 h_S_) main_v2 main_c
  let main_v4 : FVec F S16384x128 .f32 := Host.absf main_arg1
  let main_cst_0 : FVec F S_ .f32 := constant S_ .f32 0x7F800000#32
  let main_v5 : FVec F S16384x128 .f32 := broadcastInDim S16384x128 ![] bcast_S_S16384x128 main_cst_0
  let main_v6 : IVec S16384x128 1 := cmpf .olt main_v4 main_v5
  let main_c_1 : IVec S_ 1 := constantI S_ 1 1#1
  let main_v7 : IVec S_ 1 := (fun x v => Host.reduce IntOp.andi x v reducesTo_S16384x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg3
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg4 main_arg5 main_arg6 main_arg7 main_arg8 main_arg9 main_arg10 main_arg11 main_arg12 main_arg13 main_v13 main_v16
-- ==== Kernel.lean ====
abbrev S16384x16384 : Shape := ⟨2, ![16384, 16384]⟩
abbrev S16384x128 : Shape := ⟨2, ![16384, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S16384x32 : Shape := ⟨2, ![16384, 32]⟩
abbrev S2x524288 : Shape := ⟨2, ![2, 524288]⟩
abbrev S1x524288 : Shape := ⟨2, ![1, 524288]⟩
abbrev S524288 : Shape := ⟨1, ![524288]⟩
abbrev S_ : Shape := ⟨0, ![]⟩
abbrev S16384 : Shape := ⟨1, ![16384]⟩
abbrev S524288x1 : Shape := ⟨2, ![524288, 1]⟩
abbrev S524288x2 : Shape := ⟨2, ![524288, 2]⟩
abbrev S1x128 : Shape := ⟨2, ![1, 128]⟩
abbrev S1024x2048 : Shape := ⟨2, ![1024, 2048]⟩
abbrev S1024x128 : Shape := ⟨2, ![1024, 128]⟩
abbrev S2048x128 : Shape := ⟨2, ![2048, 128]⟩
abbrev S16384x64 : Shape := ⟨2, ![16384, 64]⟩
abbrev S1x64 : Shape := ⟨2, ![1, 64]⟩
abbrev S1024x64 : Shape := ⟨2, ![1024, 64]⟩
abbrev S2048x64 : Shape := ⟨2, ![2048, 64]⟩
abbrev S1x32 : Shape := ⟨2, ![1, 32]⟩
abbrev S524288x32 : Shape := ⟨2, ![524288, 32]⟩

abbrev nBuf : Space → Nat
  | .hbm => 220
  | .vmem => 21
  | .smem => 0
  | _ => 0

abbrev hbmTy0_0 (i : Nat) : BufTy := match i % 128 with
  | 0 => ⟨S16384x16384, .f32⟩
  | 1 => ⟨S16384x128, .f32⟩
  | 2 => ⟨S128, .f32⟩
  | 3 => ⟨S128x64, .f32⟩
  | 4 => ⟨S128x64, .f32⟩
  | 5 => ⟨S64, .f32⟩
  | 6 => ⟨S64x32, .f32⟩
  | 7 => ⟨S64x32, .f32⟩
  | 8 => ⟨S32, .f32⟩
  | 9 => ⟨S64x32, .f32⟩
  | 10 => ⟨S64x32, .f32⟩
  | 11 => ⟨S32, .f32⟩
  | 12 => ⟨S16384x32, .f32⟩
  | 13 => ⟨S2x524288, .i32⟩
  | 14 => ⟨S2x524288, .i32⟩
  | 15 => ⟨S1x524288, .i32⟩
  | 16 => ⟨S524288, .i32⟩
  | 17 => ⟨S1x524288, .i32⟩
  | 18 => ⟨S524288, .i32⟩
  | 19 => ⟨S1x524288, .i32⟩
  | 20 => ⟨S524288, .i32⟩
  | 21 => ⟨S1x524288, .i32⟩
  | 22 => ⟨S524288, .i32⟩
  | 23 => ⟨S_, .f32⟩
  | 24 => ⟨S524288, .f32⟩
  | 25 => ⟨S_, .f32⟩
  | 26 => ⟨S16384, .f32⟩
  | 27 => ⟨S524288x1, .i32⟩
  | 28 => ⟨S16384, .f32⟩
  | 29 => ⟨S_, .f32⟩
  | 30 => ⟨S16384, .f32⟩
  | 31 => ⟨S16384, .i1⟩
  | 32 => ⟨S_, .f32⟩
  | 33 => ⟨S16384, .f32⟩
  | 34 => ⟨S16384, .f32⟩
  | 35 => ⟨S16384, .f32⟩
  | 36 => ⟨S_, .f32⟩
  | 37 => ⟨S16384, .f32⟩
  | 38 => ⟨S16384, .f32⟩
  | 39 => ⟨S_, .f32⟩
  | 40 => ⟨S_, .f32⟩
  | 41 => ⟨S16384, .f32⟩
  | 42 => ⟨S16384, .f32⟩
  | 43 => ⟨S_, .i32⟩
  | 44 => ⟨S524288, .i32⟩
  | 45 => ⟨S524288, .i1⟩
  | 46 => ⟨S_, .i32⟩
  | 47 => ⟨S524288, .i32⟩
  | 48 => ⟨S524288, .i32⟩
  | 49 => ⟨S524288, .i32⟩
  | 50 => ⟨S524288x1, .i32⟩
  | 51 => ⟨S524288, .f32⟩
  | 52 => ⟨S_, .i32⟩
  | 53 => ⟨S524288, .i32⟩
  | 54 => ⟨S524288, .i1⟩
  | 55 => ⟨S_, .i32⟩
  | 56 => ⟨S524288, .i32⟩
  | 57 => ⟨S524288, .i32⟩
  | 58 => ⟨S524288, .i32⟩
  | 59 => ⟨S524288x1, .i32⟩
  | 60 => ⟨S524288, .f32⟩
  | 61 => ⟨S524288, .f32⟩
  | 62 => ⟨S524288, .f32⟩
  | 63 => ⟨S_, .f32⟩
  | 64 => ⟨S16384x16384, .f32⟩
  | 65 => ⟨S_, .i32⟩
  | 66 => ⟨S524288, .i32⟩
  | 67 => ⟨S524288, .i1⟩
  | 68 => ⟨S_, .i32⟩
  | 69 => ⟨S524288, .i32⟩
  | 70 => ⟨S524288, .i32⟩
  | 71 => ⟨S524288, .i32⟩
  | 72 => ⟨S_, .i32⟩
  | 73 => ⟨S524288, .i32⟩
  | 74 => ⟨S524288, .i1⟩
  | 75 => ⟨S_, .i32⟩
  | 76 => ⟨S524288, .i32⟩
  | 77 => ⟨S524288, .i32⟩
  | 78 => ⟨S524288, .i32⟩
  | 79 => ⟨S524288x1, .i32⟩
  | 80 => ⟨S524288x1, .i32⟩
  | 81 => ⟨S524288x2, .i32⟩
  | 82 => ⟨S16384x16384, .f32⟩
  | 83 => ⟨S1x128, .f32⟩
  | 84 => ⟨S16384x128, .f32⟩
  | 85 => ⟨S_, .f32⟩
  | 86 => ⟨S1x128, .f32⟩
  | 87 => ⟨S16384x128, .f32⟩
  | 88 => ⟨S16384x64, .f32⟩
  | 89 => ⟨S16384x64, .f32⟩
  | 90 => ⟨S16384x64, .f32⟩
  | 91 => ⟨S1x64, .f32⟩
  | 92 => ⟨S16384x64, .f32⟩
  | 93 => ⟨S16384x64, .f32⟩
  | 94 => ⟨S_, .f32⟩
  | 95 => ⟨S16384x64, .f32⟩
  | 96 => ⟨S16384x64, .f32⟩
  | 97 => ⟨S_, .f32⟩
  | 98 => ⟨S1x64, .f32⟩
  | 99 => ⟨S16384x64, .f32⟩
  | 100 => ⟨S16384x32, .f32⟩
  | 101 => ⟨S16384x32, .f32⟩
  | 102 => ⟨S16384x32, .f32⟩
  | 103 => ⟨S1x32, .f32⟩
  | 104 => ⟨S16384x32, .f32⟩
  | 105 => ⟨S16384x32, .f32⟩
  | 106 => ⟨S16384x32, .f32⟩
  | 107 => ⟨S16384x32, .f32⟩
  | 108 => ⟨S16384x32, .f32⟩
  | 109 => ⟨S1x32, .f32⟩
  | 110 => ⟨S16384x32, .f32⟩
  | 111 => ⟨S16384x32, .f32⟩
  | 112 => ⟨S_, .f32⟩
  | 113 => ⟨S16384x32, .f32⟩
  | 114 => ⟨S16384x32, .f32⟩
  | 115 => ⟨S16384x32, .f32⟩
  | 116 => ⟨S16384x32, .f32⟩
  | 117 => ⟨S16384x32, .f32⟩
  | 118 => ⟨S_, .i32⟩
  | 119 => ⟨S524288, .i32⟩
  | 120 => ⟨S524288, .i1⟩
  | 121 => ⟨S_, .i32⟩
  | 122 => ⟨S524288, .i32⟩
  | 123 => ⟨S524288, .i32⟩
  | 124 => ⟨S524288, .i32⟩
  | 125 => ⟨S524288x1, .i32⟩
  | 126 => ⟨S524288x32, .f32⟩
  | 127 => ⟨S_, .i32⟩
  | _ => ⟨S16384x16384, .f32⟩

abbrev hbmTy0_1 (i : Nat) : BufTy := match i % 128 with
  | 0 => ⟨S524288, .i32⟩
  | 1 => ⟨S524288, .i1⟩
  | 2 => ⟨S_, .i32⟩
  | 3 => ⟨S524288, .i32⟩
  | 4 => ⟨S524288, .i32⟩
  | 5 => ⟨S524288, .i32⟩
  | 6 => ⟨S524288x1, .i32⟩
  | 7 => ⟨S524288x32, .f32⟩
  | 8 => ⟨S524288x32, .f32⟩
  | 9 => ⟨S_, .f32⟩
  | 10 => ⟨S524288, .f32⟩
  | 11 => ⟨S524288, .f32⟩
  | 12 => ⟨S524288, .f32⟩
  | 13 => ⟨S_, .f32⟩
  | 14 => ⟨S524288, .f32⟩
  | 15 => ⟨S524288, .f32⟩
  | 16 => ⟨S_, .f32⟩
  | 17 => ⟨S524288, .f32⟩
  | 18 => ⟨S524288, .f32⟩
  | 19 => ⟨S_, .f32⟩
  | 20 => ⟨S524288, .f32⟩
  | 21 => ⟨S524288, .f32⟩
  | 22 => ⟨S524288, .f32⟩
  | 23 => ⟨S_, .f32⟩
  | 24 => ⟨S_, .f32⟩
  | 25 => ⟨S_, .f32⟩
  | 26 => ⟨S_, .f32⟩
  | 27 => ⟨S_, .f32⟩
  | 28 => ⟨S_, .i32⟩
  | 29 => ⟨S524288, .i32⟩
  | 30 => ⟨S524288, .i1⟩
  | 31 => ⟨S_, .i32⟩
  | 32 => ⟨S524288, .i32⟩
  | 33 => ⟨S524288, .i32⟩
  | 34 => ⟨S524288, .i32⟩
  | 35 => ⟨S524288x1, .i32⟩
  | 36 => ⟨S524288x32, .f32⟩
  | 37 => ⟨S_, .i32⟩
  | 38 => ⟨S524288, .i32⟩
  | 39 => ⟨S524288, .i1⟩
  | 40 => ⟨S_, .i32⟩
  | 41 => ⟨S524288, .i32⟩
  | 42 => ⟨S524288, .i32⟩
  | 43 => ⟨S524288, .i32⟩
  | 44 => ⟨S524288x1, .i32⟩
  | 45 => ⟨S524288x32, .f32⟩
  | 46 => ⟨S524288x32, .f32⟩
  | 47 => ⟨S_, .f32⟩
  | 48 => ⟨S524288, .f32⟩
  | 49 => ⟨S524288, .f32⟩
  | 50 => ⟨S524288, .f32⟩
  | 51 => ⟨S_, .f32⟩
  | 52 => ⟨S524288, .f32⟩
  | 53 => ⟨S524288, .f32⟩
  | 54 => ⟨S_, .f32⟩
  | 55 => ⟨S524288, .f32⟩
  | 56 => ⟨S524288, .f32⟩
  | 57 => ⟨S_, .f32⟩
  | 58 => ⟨S524288, .f32⟩
  | 59 => ⟨S524288, .f32⟩
  | 60 => ⟨S_, .f32⟩
  | 61 => ⟨S524288, .f32⟩
  | 62 => ⟨S524288, .f32⟩
  | 63 => ⟨S524288, .f32⟩
  | 64 => ⟨S_, .f32⟩
  | 65 => ⟨S_, .f32⟩
  | 66 => ⟨S_, .f32⟩
  | 67 => ⟨S_, .f32⟩
  | 68 => ⟨S_, .f32⟩
  | 69 => ⟨S_, .f32⟩
  | 70 => ⟨S16384x32, .f32⟩
  | 71 => ⟨S16384x32, .f32⟩
  | 72 => ⟨S_, .f32⟩
  | 73 => ⟨S16384x32, .f32⟩
  | 74 => ⟨S16384x32, .f32⟩
  | 75 => ⟨S16384x32, .f32⟩
  | 76 => ⟨S16384x32, .f32⟩
  | 77 => ⟨S16384x32, .f32⟩
  | 78 => ⟨S16384x32, .f32⟩
  | 79 => ⟨S16384x32, .f32⟩
  | 80 => ⟨S_, .f32⟩
  | 81 => ⟨S16384, .f32⟩
  | 82 => ⟨S_, .f32⟩
  | 83 => ⟨S_, .f32⟩
  | 84 => ⟨S_, .f32⟩
  | 85 => ⟨S_, .f32⟩
  | 86 => ⟨S_, .f32⟩
  | 87 => ⟨S_, .f32⟩
  | 88 => ⟨S_, .f32⟩
  | 89 => ⟨S_, .f32⟩
  | 90 => ⟨S_, .f32⟩
  | 91 => ⟨S_, .f32⟩
  | _ => ⟨S16384x16384, .f32⟩

abbrev hbmTy (i : Nat) : BufTy := match i / 128 with
  | 0 => hbmTy0_0 i
  | 1 => hbmTy0_1 i
  | _ => ⟨S16384x16384, .f32⟩

abbrev bufTy : (tb : Table) → Fin (tcTables nBuf tb) → BufTy
  | .hbm, ⟨i, _⟩ => hbmTy i
  | .local _ .vmem, ⟨0, _⟩ => ⟨S1024x2048, .f32⟩
  | .local _ .vmem, ⟨1, _⟩ => ⟨S1024x2048, .f32⟩
  | .local _ .vmem, ⟨2, _⟩ => ⟨S16384x128, .f32⟩
  | .local _ .vmem, ⟨3, _⟩ => ⟨S1x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x2048, .f32⟩
  | .local _ .vmem, ⟨8, _⟩ => ⟨S1024x2048, .f32⟩
  | .local _ .vmem, ⟨9, _⟩ => ⟨S16384x128, .f32⟩
  | .local _ .vmem, ⟨10, _⟩ => ⟨S1x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S1024x2048, .f32⟩
  | .local _ .vmem, ⟨15, _⟩ => ⟨S1024x2048, .f32⟩
  | .local _ .vmem, ⟨16, _⟩ => ⟨S16384x64, .f32⟩
  | .local _ .vmem, ⟨17, _⟩ => ⟨S1x64, .f32⟩
  | .local _ .vmem, ⟨18, _⟩ => ⟨S1024x64, .f32⟩
  | .local _ .vmem, ⟨19, _⟩ => ⟨S1024x64, .f32⟩
  | .local _ .vmem, ⟨20, _⟩ => ⟨S1024x64, .f32⟩
  | _, _ => ⟨S16384x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst : Ref sig .tc := ⟨.hbm, 23, rfl⟩
abbrev main_v8 : Ref sig .tc := ⟨.hbm, 24, rfl⟩
abbrev main_cst_0 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_cst_1 : Ref sig .tc := ⟨.hbm, 29, rfl⟩
abbrev main_v12 : Ref sig .tc := ⟨.hbm, 30, rfl⟩
abbrev main_v13 : Ref sig .tc := ⟨.hbm, 31, rfl⟩
abbrev main_cst_2 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_cst_3 : Ref sig .tc := ⟨.hbm, 36, rfl⟩
abbrev main_v17 : Ref sig .tc := ⟨.hbm, 37, rfl⟩
abbrev main_v18 : Ref sig .tc := ⟨.hbm, 38, rfl⟩
abbrev main_cst_4 : Ref sig .tc := ⟨.hbm, 39, rfl⟩
abbrev main_call0_v0 : Ref sig .tc := ⟨.hbm, 40, rfl⟩
abbrev main_call0_v1 : Ref sig .tc := ⟨.hbm, 41, rfl⟩
abbrev main_v19 : Ref sig .tc := ⟨.hbm, 42, rfl⟩
abbrev main_c : Ref sig .tc := ⟨.hbm, 43, rfl⟩
abbrev main_v20 : Ref sig .tc := ⟨.hbm, 44, rfl⟩
abbrev main_v21 : Ref sig .tc := ⟨.hbm, 45, rfl⟩
abbrev main_c_5 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_c_6 : Ref sig .tc := ⟨.hbm, 52, rfl⟩
abbrev main_v27 : Ref sig .tc := ⟨.hbm, 53, rfl⟩
abbrev main_v28 : Ref sig .tc := ⟨.hbm, 54, rfl⟩
abbrev main_c_7 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_cst_8 : Ref sig .tc := ⟨.hbm, 63, rfl⟩
abbrev main_v36 : Ref sig .tc := ⟨.hbm, 64, rfl⟩
abbrev main_c_9 : Ref sig .tc := ⟨.hbm, 65, rfl⟩
abbrev main_v37 : Ref sig .tc := ⟨.hbm, 66, rfl⟩
abbrev main_v38 : Ref sig .tc := ⟨.hbm, 67, rfl⟩
abbrev main_c_10 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_c_11 : Ref sig .tc := ⟨.hbm, 72, rfl⟩
abbrev main_v42 : Ref sig .tc := ⟨.hbm, 73, rfl⟩
abbrev main_v43 : Ref sig .tc := ⟨.hbm, 74, rfl⟩
abbrev main_c_12 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_13 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_call1_cst : Ref sig .tc := ⟨.hbm, 94, rfl⟩
abbrev main_call1_v0 : Ref sig .tc := ⟨.hbm, 95, rfl⟩
abbrev main_v61 : Ref sig .tc := ⟨.hbm, 96, rfl⟩
abbrev main_cst_14 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_cst_15 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_c_16 : Ref sig .tc := ⟨.hbm, 118, rfl⟩
abbrev main_v81 : Ref sig .tc := ⟨.hbm, 119, rfl⟩
abbrev main_v82 : Ref sig .tc := ⟨.hbm, 120, rfl⟩
abbrev main_c_17 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_c_18 : Ref sig .tc := ⟨.hbm, 127, rfl⟩
abbrev main_v88 : Ref sig .tc := ⟨.hbm, 128, rfl⟩
abbrev main_v89 : Ref sig .tc := ⟨.hbm, 129, rfl⟩
abbrev main_c_19 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_cst_20 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_cst_21 : Ref sig .tc := ⟨.hbm, 141, rfl⟩
abbrev main_v99 : Ref sig .tc := ⟨.hbm, 142, rfl⟩
abbrev main_v100 : Ref sig .tc := ⟨.hbm, 143, rfl⟩
abbrev main_cst_22 : Ref sig .tc := ⟨.hbm, 144, rfl⟩
abbrev main_v101 : Ref sig .tc := ⟨.hbm, 145, rfl⟩
abbrev main_v102 : Ref sig .tc := ⟨.hbm, 146, rfl⟩
abbrev main_cst_23 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_cst_24 : Ref sig .tc := ⟨.hbm, 151, rfl⟩
abbrev main_v106 : Ref sig .tc := ⟨.hbm, 152, rfl⟩
abbrev main_cst_25 : Ref sig .tc := ⟨.hbm, 153, rfl⟩
abbrev main_v107 : Ref sig .tc := ⟨.hbm, 154, rfl⟩
abbrev main_v108 : Ref sig .tc := ⟨.hbm, 155, rfl⟩
abbrev main_c_26 : Ref sig .tc := ⟨.hbm, 156, rfl⟩
abbrev main_v109 : Ref sig .tc := ⟨.hbm, 157, rfl⟩
abbrev main_v110 : Ref sig .tc := ⟨.hbm, 158, rfl⟩
abbrev main_c_27 : Ref sig .tc := ⟨.hbm, 159, rfl⟩
abbrev main_v111 : Ref sig .tc := ⟨.hbm, 160, rfl⟩
abbrev main_v112 : Ref sig .tc := ⟨.hbm, 161, rfl⟩
abbrev main_v113 : Ref sig .tc := ⟨.hbm, 162, rfl⟩
abbrev main_v114 : Ref sig .tc := ⟨.hbm, 163, rfl⟩
abbrev main_v115 : Ref sig .tc := ⟨.hbm, 164, rfl⟩
abbrev main_c_28 : Ref sig .tc := ⟨.hbm, 165, rfl⟩
abbrev main_v116 : Ref sig .tc := ⟨.hbm, 166, rfl⟩
abbrev main_v117 : Ref sig .tc := ⟨.hbm, 167, rfl⟩
abbrev main_c_29 : Ref sig .tc := ⟨.hbm, 168, rfl⟩
abbrev main_v118 : Ref sig .tc := ⟨.hbm, 169, rfl⟩
abbrev main_v119 : Ref sig .tc := ⟨.hbm, 170, rfl⟩
abbrev main_v120 : Ref sig .tc := ⟨.hbm, 171, rfl⟩
abbrev main_v121 : Ref sig .tc := ⟨.hbm, 172, rfl⟩
abbrev main_v122 : Ref sig .tc := ⟨.hbm, 173, rfl⟩
abbrev main_v123 : Ref sig .tc := ⟨.hbm, 174, rfl⟩
abbrev main_cst_30 : Ref sig .tc := ⟨.hbm, 175, rfl⟩
abbrev main_v124 : Ref sig .tc := ⟨.hbm, 176, rfl⟩
abbrev main_v125 : Ref sig .tc := ⟨.hbm, 177, rfl⟩
abbrev main_v126 : Ref sig .tc := ⟨.hbm, 178, rfl⟩
abbrev main_cst_31 : Ref sig .tc := ⟨.hbm, 179, rfl⟩
abbrev main_v127 : Ref sig .tc := ⟨.hbm, 180, rfl⟩
abbrev main_v128 : Ref sig .tc := ⟨.hbm, 181, rfl⟩
abbrev main_cst_32 : Ref sig .tc := ⟨.hbm, 182, rfl⟩
abbrev main_v129 : Ref sig .tc := ⟨.hbm, 183, rfl⟩
abbrev main_v130 : Ref sig .tc := ⟨.hbm, 184, rfl⟩
abbrev main_cst_33 : Ref sig .tc := ⟨.hbm, 185, rfl⟩
abbrev main_v131 : Ref sig .tc := ⟨.hbm, 186, rfl⟩
abbrev main_v132 : Ref sig .tc := ⟨.hbm, 187, rfl⟩
abbrev main_cst_34 : Ref sig .tc := ⟨.hbm, 188, rfl⟩
abbrev main_v133 : Ref sig .tc := ⟨.hbm, 189, rfl⟩
abbrev main_v134 : Ref sig .tc := ⟨.hbm, 190, rfl⟩
abbrev main_v135 : Ref sig .tc := ⟨.hbm, 191, rfl⟩
abbrev main_cst_35 : Ref sig .tc := ⟨.hbm, 192, rfl⟩
abbrev main_v136 : Ref sig .tc := ⟨.hbm, 193, rfl⟩
abbrev main_cst_36 : Ref sig .tc := ⟨.hbm, 194, rfl⟩
abbrev main_v137 : Ref sig .tc := ⟨.hbm, 195, rfl⟩
abbrev main_v138 : Ref sig .tc := ⟨.hbm, 196, rfl⟩
abbrev main_cst_37 : Ref sig .tc := ⟨.hbm, 197, rfl⟩
abbrev main_v139 : Ref sig .tc := ⟨.hbm, 198, rfl⟩
abbrev main_v140 : Ref sig .tc := ⟨.hbm, 199, rfl⟩
abbrev main_cst_38 : Ref sig .tc := ⟨.hbm, 200, rfl⟩
abbrev main_v141 : Ref sig .tc := ⟨.hbm, 201, rfl⟩
abbrev main_v142 : Ref sig .tc := ⟨.hbm, 202, rfl⟩
abbrev main_v143 : Ref sig .tc := ⟨.hbm, 203, rfl⟩
abbrev main_v144 : Ref sig .tc := ⟨.hbm, 204, rfl⟩
abbrev main_v145 : Ref sig .tc := ⟨.hbm, 205, rfl⟩
abbrev main_v146 : Ref sig .tc := ⟨.hbm, 206, rfl⟩
abbrev main_v147 : Ref sig .tc := ⟨.hbm, 207, rfl⟩
abbrev main_cst_39 : Ref sig .tc := ⟨.hbm, 208, rfl⟩
abbrev main_v148 : Ref sig .tc := ⟨.hbm, 209, rfl⟩
abbrev main_cst_40 : Ref sig .tc := ⟨.hbm, 210, rfl⟩
abbrev main_v149 : Ref sig .tc := ⟨.hbm, 211, rfl⟩
abbrev main_cst_41 : Ref sig .tc := ⟨.hbm, 212, rfl⟩
abbrev main_v150 : Ref sig .tc := ⟨.hbm, 213, rfl⟩
abbrev main_cst_42 : Ref sig .tc := ⟨.hbm, 214, rfl⟩
abbrev main_v151 : Ref sig .tc := ⟨.hbm, 215, rfl⟩
abbrev main_v152 : Ref sig .tc := ⟨.hbm, 216, rfl⟩
abbrev main_cst_43 : Ref sig .tc := ⟨.hbm, 217, rfl⟩
abbrev main_v153 : Ref sig .tc := ⟨.hbm, 218, rfl⟩
abbrev main_v154 : Ref sig .tc := ⟨.hbm, 219, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc1_scratch0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc2_scratch0 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17

abbrev nD : Nat := 1
abbrev τ : Topo := Topo.v7x

variable {F : FTy → Type} [FloatOps F]

abbrev grid0 : Pipeline.Grid := ⟨2, ![16, 8], ![false, false]⟩

def k0_mult1 (i : grid0.Coords) : BitVec 32 :=
  let arg1 : BitVec 32 := BitVec.ofNat 32 (i 1).val
  let c2048_i32 : BitVec 32 := 2048#32
  let v3 : BitVec 32 := Scalar.muli arg1 c2048_i32
  v3
def k0_off1 (i : grid0.Coords) : Fin 2 → Nat :=
  let arg1 : BitVec 32 := BitVec.ofNat 32 (i 1).val
  let c2048_i32 : BitVec 32 := 2048#32
  let v3 : BitVec 32 := Scalar.muli arg1 c2048_i32
  let v4 : BitVec 32 := v3
  let v5 : Index := Scalar.indexCast v4
  let c0 : Index := 0#32
  ![v5.toNat, 0]
def k0_cond2 (i : grid0.Coords) : BitVec 1 :=
  let arg1 : BitVec 32 := BitVec.ofNat 32 (i 1).val
  let c7_i32 : BitVec 32 := 7#32
  let v16 : BitVec 1 := Scalar.cmpi .eq arg1 c7_i32
  let v17 : BitVec 32 := Scalar.extui v16
  let c0_i32_7 : BitVec 32 := 0#32
  let v18 : BitVec 1 := Scalar.cmpi .ne v17 c0_i32_7
  v18

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S16384x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![16, 8], ![false, false]⟩

def k1_mult1 (i : grid1.Coords) : BitVec 32 :=
  let arg1 : BitVec 32 := BitVec.ofNat 32 (i 1).val
  let c2048_i32 : BitVec 32 := 2048#32
  let v3 : BitVec 32 := Scalar.muli arg1 c2048_i32
  v3
def k1_off1 (i : grid1.Coords) : Fin 2 → Nat :=
  let arg1 : BitVec 32 := BitVec.ofNat 32 (i 1).val
  let c2048_i32 : BitVec 32 := 2048#32
  let v3 : BitVec 32 := Scalar.muli arg1 c2048_i32
  let v4 : BitVec 32 := v3
  let v5 : Index := Scalar.indexCast v4
  let c0 : Index := 0#32
  ![v5.toNat, 0]
def k1_cond2 (i : grid1.Coords) : BitVec 1 :=
  let arg1 : BitVec 32 := BitVec.ofNat 32 (i 1).val
  let c7_i32 : BitVec 32 := 7#32
  let v18 : BitVec 1 := Scalar.cmpi .eq arg1 c7_i32
  let v19 : BitVec 32 := Scalar.extui v18
  let c0_i32_7 : BitVec 32 := 0#32
  let v20 : BitVec 1 := Scalar.cmpi .ne v19 c0_i32_7
  v20

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S16384x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1024x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨2, ![16, 8], ![false, false]⟩

def k2_mult1 (i : grid2.Coords) : BitVec 32 :=
  let arg1 : BitVec 32 := BitVec.ofNat 32 (i 1).val
  let c2048_i32 : BitVec 32 := 2048#32
  let v3 : BitVec 32 := Scalar.muli arg1 c2048_i32
  v3
def k2_off1 (i : grid2.Coords) : Fin 2 → Nat :=
  let arg1 : BitVec 32 := BitVec.ofNat 32 (i 1).val
  let c2048_i32 : BitVec 32 := 2048#32
  let v3 : BitVec 32 := Scalar.muli arg1 c2048_i32
  let v4 : BitVec 32 := v3
  let v5 : Index := Scalar.indexCast v4
  let c0 : Index := 0#32
  ![v5.toNat, 0]
def k2_cond2 (i : grid2.Coords) : BitVec 1 :=
  let arg1 : BitVec 32 := BitVec.ofNat 32 (i 1).val
  let c7_i32 : BitVec 32 := 7#32
  let v18 : BitVec 1 := Scalar.cmpi .eq arg1 c7_i32
  let v19 : BitVec 32 := Scalar.extui v18
  let c0_i32_7 : BitVec 32 := 0#32
  let v20 : BitVec 1 := Scalar.cmpi .ne v19 c0_i32_7
  v20

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1024x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S16384x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 2 → Memref sig .tc .vmem S1024x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

class Facts₀ : Prop where
  slices_S2x524288_S1x524288_0_0 : S2x524288.Slices ![0, 0] S1x524288
  shapeCasts_S1x524288_S524288 : S1x524288.ShapeCasts S524288
  slices_S2x524288_S1x524288_1_0 : S2x524288.Slices ![1, 0] S1x524288
  bcast_S_S524288 : S_.BroadcastsInDim S524288 (![] : Fin 0 → Fin S524288.rank)
  bcast_S_S16384 : S_.BroadcastsInDim S16384 (![] : Fin 0 → Fin S16384.rank)
  bcast_S524288_S524288x1_0 : S524288.BroadcastsInDim S524288x1 (![0] : Fin 1 → Fin S524288x1.rank)
  bcast_S_S16384x16384 : S_.BroadcastsInDim S16384x16384 (![] : Fin 0 → Fin S16384x16384.rank)
  concatenates_S524288x1_S524288x1_S524288x2_d1 : Shape.Concatenates [S524288x1, S524288x1] S524288x2 1
  shapeCasts_S128_S1x128 : S128.ShapeCasts S1x128
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  h_S2048x128 : 0 < S2048x128.numel
  inb_S1024x2048_S1024x2048_0_0 : ∀ a, (![0, 0] : Fin 2 → Nat) a + S1024x2048.size a ≤ S1024x2048.size a
  h_S1024x2048 : 0 < S1024x2048.numel
  bitsLt_bf16_f32 : FTy.bits .bf16 < FTy.bits .f32
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  bcast_S_S1x128 : S_.BroadcastsInDim S1x128 (![] : Fin 0 → Fin S1x128.rank)
  shapeCasts_S2048x128_S2048x128 : S2048x128.ShapeCasts S2048x128
  shapeCasts_S1024x2048_S1024x2048 : S1024x2048.ShapeCasts S1024x2048
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  bcast_S_S16384x64 : S_.BroadcastsInDim S16384x64 (![] : Fin 0 → Fin S16384x64.rank)
  bcast_S_S1x64 : S_.BroadcastsInDim S1x64 (![] : Fin 0 → Fin S1x64.rank)
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  h_S2048x64 : 0 < S2048x64.numel
  shapeCasts_S2048x64_S2048x64 : S2048x64.ShapeCasts S2048x64
  bcast_S32_S1x32_1 : S32.BroadcastsInDim S1x32 (![1] : Fin 1 → Fin S1x32.rank)
  bcast_S1x32_S16384x32_0_1 : S1x32.BroadcastsInDim S16384x32 (![0, 1] : Fin 2 → Fin S16384x32.rank)
  bcast_S_S16384x32 : S_.BroadcastsInDim S16384x32 (![] : Fin 0 → Fin S16384x32.rank)
  reducesTo_S524288x32_S524288_d1 : S524288x32.ReducesTo [1] S524288
  h_S_ : 0 < S_.numel
  reducesTo_S524288_S_d0 : S524288.ReducesTo [0] S_
  reducesTo_S16384x32_S16384_d1 : S16384x32.ReducesTo [1] S16384
  reducesTo_S16384_S_d0 : S16384.ReducesTo [0] S_
  scatter_S16384_S524288x1_S524288_n_0_0_1_wf : ScatterDims.WF S16384 S524288x1 S524288 [] [0] [0] 1
  gather_S16384_S524288x1_S524288_n_0_n_n_0_1_1_wf : GatherDims.WF S16384 S524288x1 S524288 [] [0] [] [0] [] 1 ![1]
  scatter_S16384x16384_S524288x2_S524288_n_01_01_1_wf : ScatterDims.WF S16384x16384 S524288x2 S524288 [] [0, 1] [0, 1] 1
  dot_S1024x2048_S2048x128_S1024x128_1_0_0_1_n_n_wf : DotDims.WF S1024x2048 S2048x128 S1024x128 [1] [0] [0] [1] [] []
  dot_S16384x128_S128x64_S16384x64_1_0_0_1_n_n_wf : DotDims.WF S16384x128 S128x64 S16384x64 [1] [0] [0] [1] [] []
  dot_S1024x2048_S2048x64_S1024x64_1_0_0_1_n_n_wf : DotDims.WF S1024x2048 S2048x64 S1024x64 [1] [0] [0] [1] [] []
  dot_S16384x64_S64x32_S16384x32_1_0_0_1_n_n_wf : DotDims.WF S16384x64 S64x32 S16384x32 [1] [0] [0] [1] [] []
  gather_S16384x32_S524288x1_S524288x32_1_0_n_n_0_1_132_wf : GatherDims.WF S16384x32 S524288x1 S524288x32 [1] [0] [] [0] [] 1 ![1, 32]
  hrank0 : 0 < grid0.rank
  k0_mult1_dvd : ∀ i : grid0.Coords, 2048 ∣ (k0_mult1 i).toNat
  k0_off1_inb : ∀ i : grid0.Coords, ∀ a, (k0_off1 i) a + S2048x128.size a ≤ S16384x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S16384x16384.size a
  hwx0_0 : ∀ i : grid0.Coords, EltTy.bits .f32 = 32 ∨ (Rect.block (s := S16384x16384) S1024x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16384x128.size a ≤ S16384x128.size a
  hwx0_1 : ∀ i : grid0.Coords, EltTy.bits .f32 = 32 ∨ (Rect.block (s := S16384x128) S16384x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x128.size a ≤ S16384x128.size a
  hwx0_3 : ∀ i : grid0.Coords, EltTy.bits .f32 = 32 ∨ (Rect.block (s := S16384x128) S1024x128.size (cc0_transform_3 i) (hinb0_3 i)).WholeWords (EltTy.packing .f32)
  hrank1 : 0 < grid1.rank
  k1_mult1_dvd : ∀ i : grid1.Coords, 2048 ∣ (k1_mult1 i).toNat
  k1_off1_inb : ∀ i : grid1.Coords, ∀ a, (k1_off1 i) a + S2048x128.size a ≤ S16384x128.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S16384x16384.size a
  hwx1_0 : ∀ i : grid1.Coords, EltTy.bits .f32 = 32 ∨ (Rect.block (s := S16384x16384) S1024x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16384x128.size a ≤ S16384x128.size a
  hwx1_1 : ∀ i : grid1.Coords, EltTy.bits .f32 = 32 ∨ (Rect.block (s := S16384x128) S16384x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x128.size a ≤ S16384x128.size a
  hwx1_3 : ∀ i : grid1.Coords, EltTy.bits .f32 = 32 ∨ (Rect.block (s := S16384x128) S1024x128.size (cc1_transform_3 i) (hinb1_3 i)).WholeWords (EltTy.packing .f32)
  hrank2 : 0 < grid2.rank
  k2_mult1_dvd : ∀ i : grid2.Coords, 2048 ∣ (k2_mult1 i).toNat
  k2_off1_inb : ∀ i : grid2.Coords, ∀ a, (k2_off1 i) a + S2048x64.size a ≤ S16384x64.size a
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x2048.size a ≤ S16384x16384.size a
  hwx2_0 : ∀ i : grid2.Coords, EltTy.bits .f32 = 32 ∨ (Rect.block (s := S16384x16384) S1024x2048.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S16384x64.size a ≤ S16384x64.size a
  hwx2_1 : ∀ i : grid2.Coords, EltTy.bits .f32 = 32 ∨ (Rect.block (s := S16384x64) S16384x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x64.size a ≤ S16384x64.size a
  hwx2_3 : ∀ i : grid2.Coords, EltTy.bits .f32 = 32 ∨ (Rect.block (s := S16384x64) S1024x64.size (cc2_transform_3 i) (hinb2_3 i)).WholeWords (EltTy.packing .f32)

variable [Facts₀]

def scatter_S16384_S524288x1_S524288_n_0_0_1 : ScatterDims S16384 S524288x1 S524288 where
  updateWindowDims := []
  insertedWindowDims := [0]
  scatterDimsToOperandDims := [0]
  indexVectorDim := 1
  wf := scatter_S16384_S524288x1_S524288_n_0_0_1_wf
def gather_S16384_S524288x1_S524288_n_0_n_n_0_1_1 : GatherDims S16384 S524288x1 S524288 where
  offsetDims := []
  collapsedSliceDims := [0]
  operandBatchingDims := []
  startIndicesBatchingDims := []
  startIndexMap := [0]
  indexVectorDim := 1
  sliceSizes := ![1]
  wf := gather_S16384_S524288x1_S524288_n_0_n_n_0_1_1_wf
def scatter_S16384x16384_S524288x2_S524288_n_01_01_1 : ScatterDims S16384x16384 S524288x2 S524288 where
  updateWindowDims := []
  insertedWindowDims := [0, 1]
  scatterDimsToOperandDims := [0, 1]
  indexVectorDim := 1
  wf := scatter_S16384x16384_S524288x2_S524288_n_01_01_1_wf
def dot_S1024x2048_S2048x128_S1024x128_1_0_0_1_n_n : DotDims S1024x2048 S2048x128 S1024x128 where
  lhsContracting := [1]
  rhsContracting := [0]
  lhsNonContracting := [0]
  rhsNonContracting := [1]
  lhsBatch := []
  rhsBatch := []
  wf := dot_S1024x2048_S2048x128_S1024x128_1_0_0_1_n_n_wf
def dot_S16384x128_S128x64_S16384x64_1_0_0_1_n_n : DotDims S16384x128 S128x64 S16384x64 where
  lhsContracting := [1]
  rhsContracting := [0]
  lhsNonContracting := [0]
  rhsNonContracting := [1]
  lhsBatch := []
  rhsBatch := []
  wf := dot_S16384x128_S128x64_S16384x64_1_0_0_1_n_n_wf
def dot_S1024x2048_S2048x64_S1024x64_1_0_0_1_n_n : DotDims S1024x2048 S2048x64 S1024x64 where
  lhsContracting := [1]
  rhsContracting := [0]
  lhsNonContracting := [0]
  rhsNonContracting := [1]
  lhsBatch := []
  rhsBatch := []
  wf := dot_S1024x2048_S2048x64_S1024x64_1_0_0_1_n_n_wf
def dot_S16384x64_S64x32_S16384x32_1_0_0_1_n_n : DotDims S16384x64 S64x32 S16384x32 where
  lhsContracting := [1]
  rhsContracting := [0]
  lhsNonContracting := [0]
  rhsNonContracting := [1]
  lhsBatch := []
  rhsBatch := []
  wf := dot_S16384x64_S64x32_S16384x32_1_0_0_1_n_n_wf
def gather_S16384x32_S524288x1_S524288x32_1_0_n_n_0_1_132 : GatherDims S16384x32 S524288x1 S524288x32 where
  offsetDims := [1]
  collapsedSliceDims := [0]
  operandBatchingDims := []
  startIndicesBatchingDims := []
  startIndexMap := [0]
  indexVectorDim := 1
  sliceSizes := ![1, 32]
  wf := gather_S16384x32_S524288x1_S524288x32_1_0_n_n_0_1_132_wf

abbrev win0_0 : Pipeline.Window sig grid0 :=
  Pipeline.Window.ofSpec (Memref.whole main_arg0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16384x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v51) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v52) S1024x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v50) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v52) S16384x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v53) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v54) S1024x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v50) S1024x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v61) S16384x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v62) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v63) S1024x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

class Facts : Prop extends Facts₀ where

variable [Facts]
-- ==== ReferenceIdeal.lean ====
abbrev S16384x16384 : Shape := ⟨2, ![16384, 16384]⟩
abbrev S16384x128 : Shape := ⟨2, ![16384, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S16384x32 : Shape := ⟨2, ![16384, 32]⟩
abbrev S2x524288 : Shape := ⟨2, ![2, 524288]⟩
abbrev S1x524288 : Shape := ⟨2, ![1, 524288]⟩
abbrev S524288 : Shape := ⟨1, ![524288]⟩
abbrev S_ : Shape := ⟨0, ![]⟩
abbrev S16384 : Shape := ⟨1, ![16384]⟩
abbrev S524288x1 : Shape := ⟨2, ![524288, 1]⟩
abbrev S1x128 : Shape := ⟨2, ![1, 128]⟩
abbrev S524288x128 : Shape := ⟨2, ![524288, 128]⟩
abbrev S16384x64 : Shape := ⟨2, ![16384, 64]⟩
abbrev S1x64 : Shape := ⟨2, ![1, 64]⟩
abbrev S524288x64 : Shape := ⟨2, ![524288, 64]⟩
abbrev S1x32 : Shape := ⟨2, ![1, 32]⟩
abbrev S524288x32 : Shape := ⟨2, ![524288, 32]⟩

abbrev nBuf : Space → Nat
  | .hbm => 287
  | .vmem => 0
  | .smem => 0
  | _ => 0

abbrev hbmTy0_0 (i : Nat) : BufTy := match i % 128 with
  | 0 => ⟨S16384x16384, .f32⟩
  | 1 => ⟨S16384x128, .f32⟩
  | 2 => ⟨S128, .f32⟩
  | 3 => ⟨S128x64, .f32⟩
  | 4 => ⟨S128x64, .f32⟩
  | 5 => ⟨S64, .f32⟩
  | 6 => ⟨S64x32, .f32⟩
  | 7 => ⟨S64x32, .f32⟩
  | 8 => ⟨S32, .f32⟩
  | 9 => ⟨S64x32, .f32⟩
  | 10 => ⟨S64x32, .f32⟩
  | 11 => ⟨S32, .f32⟩
  | 12 => ⟨S16384x32, .f32⟩
  | 13 => ⟨S2x524288, .i32⟩
  | 14 => ⟨S2x524288, .i32⟩
  | 15 => ⟨S1x524288, .i32⟩
  | 16 => ⟨S524288, .i32⟩
  | 17 => ⟨S1x524288, .i32⟩
  | 18 => ⟨S524288, .i32⟩
  | 19 => ⟨S_, .f32⟩
  | 20 => ⟨S524288, .f32⟩
  | 21 => ⟨S_, .f32⟩
  | 22 => ⟨S16384, .f32⟩
  | 23 => ⟨S524288x1, .i32⟩
  | 24 => ⟨S16384, .f32⟩
  | 25 => ⟨S_, .f32⟩
  | 26 => ⟨S16384, .f32⟩
  | 27 => ⟨S16384, .i1⟩
  | 28 => ⟨S_, .f32⟩
  | 29 => ⟨S16384, .f32⟩
  | 30 => ⟨S16384, .f32⟩
  | 31 => ⟨S16384, .f32⟩
  | 32 => ⟨S_, .f32⟩
  | 33 => ⟨S16384, .f32⟩
  | 34 => ⟨S16384, .f32⟩
  | 35 => ⟨S_, .f32⟩
  | 36 => ⟨S_, .f32⟩
  | 37 => ⟨S16384, .f32⟩
  | 38 => ⟨S16384, .f32⟩
  | 39 => ⟨S16384x128, .f32⟩
  | 40 => ⟨S1x128, .f32⟩
  | 41 => ⟨S16384x128, .f32⟩
  | 42 => ⟨S16384x128, .f32⟩
  | 43 => ⟨S_, .f32⟩
  | 44 => ⟨S16384x128, .f32⟩
  | 45 => ⟨S16384x128, .f32⟩
  | 46 => ⟨S_, .i32⟩
  | 47 => ⟨S524288, .i32⟩
  | 48 => ⟨S524288, .i1⟩
  | 49 => ⟨S_, .i32⟩
  | 50 => ⟨S524288, .i32⟩
  | 51 => ⟨S524288, .i32⟩
  | 52 => ⟨S524288, .i32⟩
  | 53 => ⟨S524288x1, .i32⟩
  | 54 => ⟨S524288, .f32⟩
  | 55 => ⟨S_, .i32⟩
  | 56 => ⟨S524288, .i32⟩
  | 57 => ⟨S524288, .i1⟩
  | 58 => ⟨S_, .i32⟩
  | 59 => ⟨S524288, .i32⟩
  | 60 => ⟨S524288, .i32⟩
  | 61 => ⟨S524288, .i32⟩
  | 62 => ⟨S524288x1, .i32⟩
  | 63 => ⟨S524288, .f32⟩
  | 64 => ⟨S524288, .f32⟩
  | 65 => ⟨S524288, .f32⟩
  | 66 => ⟨S524288x1, .f32⟩
  | 67 => ⟨S_, .i32⟩
  | 68 => ⟨S524288, .i32⟩
  | 69 => ⟨S524288, .i1⟩
  | 70 => ⟨S_, .i32⟩
  | 71 => ⟨S524288, .i32⟩
  | 72 => ⟨S524288, .i32⟩
  | 73 => ⟨S524288, .i32⟩
  | 74 => ⟨S524288x1, .i32⟩
  | 75 => ⟨S524288x128, .f32⟩
  | 76 => ⟨S524288x128, .f32⟩
  | 77 => ⟨S524288x128, .f32⟩
  | 78 => ⟨S_, .f32⟩
  | 79 => ⟨S16384x128, .f32⟩
  | 80 => ⟨S524288x1, .i32⟩
  | 81 => ⟨S16384x128, .f32⟩
  | 82 => ⟨S16384x64, .f32⟩
  | 83 => ⟨S16384x64, .f32⟩
  | 84 => ⟨S16384x64, .f32⟩
  | 85 => ⟨S1x64, .f32⟩
  | 86 => ⟨S16384x64, .f32⟩
  | 87 => ⟨S16384x64, .f32⟩
  | 88 => ⟨S_, .f32⟩
  | 89 => ⟨S16384x64, .f32⟩
  | 90 => ⟨S16384x64, .f32⟩
  | 91 => ⟨S_, .i32⟩
  | 92 => ⟨S524288, .i32⟩
  | 93 => ⟨S524288, .i1⟩
  | 94 => ⟨S_, .i32⟩
  | 95 => ⟨S524288, .i32⟩
  | 96 => ⟨S524288, .i32⟩
  | 97 => ⟨S524288, .i32⟩
  | 98 => ⟨S524288x1, .i32⟩
  | 99 => ⟨S524288, .f32⟩
  | 100 => ⟨S_, .i32⟩
  | 101 => ⟨S524288, .i32⟩
  | 102 => ⟨S524288, .i1⟩
  | 103 => ⟨S_, .i32⟩
  | 104 => ⟨S524288, .i32⟩
  | 105 => ⟨S524288, .i32⟩
  | 106 => ⟨S524288, .i32⟩
  | 107 => ⟨S524288x1, .i32⟩
  | 108 => ⟨S524288, .f32⟩
  | 109 => ⟨S524288, .f32⟩
  | 110 => ⟨S524288, .f32⟩
  | 111 => ⟨S524288x1, .f32⟩
  | 112 => ⟨S_, .i32⟩
  | 113 => ⟨S524288, .i32⟩
  | 114 => ⟨S524288, .i1⟩
  | 115 => ⟨S_, .i32⟩
  | 116 => ⟨S524288, .i32⟩
  | 117 => ⟨S524288, .i32⟩
  | 118 => ⟨S524288, .i32⟩
  | 119 => ⟨S524288x1, .i32⟩
  | 120 => ⟨S524288x64, .f32⟩
  | 121 => ⟨S524288x64, .f32⟩
  | 122 => ⟨S524288x64, .f32⟩
  | 123 => ⟨S_, .f32⟩
  | 124 => ⟨S16384x64, .f32⟩
  | 125 => ⟨S524288x1, .i32⟩
  | 126 => ⟨S16384x64, .f32⟩
  | 127 => ⟨S16384x32, .f32⟩
  | _ => ⟨S16384x16384, .f32⟩

abbrev hbmTy0_1 (i : Nat) : BufTy := match i % 128 with
  | 0 => ⟨S16384x32, .f32⟩
  | 1 => ⟨S16384x32, .f32⟩
  | 2 => ⟨S1x32, .f32⟩
  | 3 => ⟨S16384x32, .f32⟩
  | 4 => ⟨S16384x32, .f32⟩
  | 5 => ⟨S_, .i32⟩
  | 6 => ⟨S524288, .i32⟩
  | 7 => ⟨S524288, .i1⟩
  | 8 => ⟨S_, .i32⟩
  | 9 => ⟨S524288, .i32⟩
  | 10 => ⟨S524288, .i32⟩
  | 11 => ⟨S524288, .i32⟩
  | 12 => ⟨S524288x1, .i32⟩
  | 13 => ⟨S524288, .f32⟩
  | 14 => ⟨S_, .i32⟩
  | 15 => ⟨S524288, .i32⟩
  | 16 => ⟨S524288, .i1⟩
  | 17 => ⟨S_, .i32⟩
  | 18 => ⟨S524288, .i32⟩
  | 19 => ⟨S524288, .i32⟩
  | 20 => ⟨S524288, .i32⟩
  | 21 => ⟨S524288x1, .i32⟩
  | 22 => ⟨S524288, .f32⟩
  | 23 => ⟨S524288, .f32⟩
  | 24 => ⟨S524288, .f32⟩
  | 25 => ⟨S524288x1, .f32⟩
  | 26 => ⟨S_, .i32⟩
  | 27 => ⟨S524288, .i32⟩
  | 28 => ⟨S524288, .i1⟩
  | 29 => ⟨S_, .i32⟩
  | 30 => ⟨S524288, .i32⟩
  | 31 => ⟨S524288, .i32⟩
  | 32 => ⟨S524288, .i32⟩
  | 33 => ⟨S524288x1, .i32⟩
  | 34 => ⟨S524288x64, .f32⟩
  | 35 => ⟨S524288x64, .f32⟩
  | 36 => ⟨S524288x64, .f32⟩
  | 37 => ⟨S_, .f32⟩
  | 38 => ⟨S16384x64, .f32⟩
  | 39 => ⟨S524288x1, .i32⟩
  | 40 => ⟨S16384x64, .f32⟩
  | 41 => ⟨S16384x32, .f32⟩
  | 42 => ⟨S16384x32, .f32⟩
  | 43 => ⟨S16384x32, .f32⟩
  | 44 => ⟨S1x32, .f32⟩
  | 45 => ⟨S16384x32, .f32⟩
  | 46 => ⟨S16384x32, .f32⟩
  | 47 => ⟨S_, .f32⟩
  | 48 => ⟨S16384x32, .f32⟩
  | 49 => ⟨S16384x32, .f32⟩
  | 50 => ⟨S16384x32, .f32⟩
  | 51 => ⟨S16384x32, .f32⟩
  | 52 => ⟨S16384x32, .f32⟩
  | 53 => ⟨S_, .i32⟩
  | 54 => ⟨S524288, .i32⟩
  | 55 => ⟨S524288, .i1⟩
  | 56 => ⟨S_, .i32⟩
  | 57 => ⟨S524288, .i32⟩
  | 58 => ⟨S524288, .i32⟩
  | 59 => ⟨S524288, .i32⟩
  | 60 => ⟨S524288x1, .i32⟩
  | 61 => ⟨S524288x32, .f32⟩
  | 62 => ⟨S_, .i32⟩
  | 63 => ⟨S524288, .i32⟩
  | 64 => ⟨S524288, .i1⟩
  | 65 => ⟨S_, .i32⟩
  | 66 => ⟨S524288, .i32⟩
  | 67 => ⟨S524288, .i32⟩
  | 68 => ⟨S524288, .i32⟩
  | 69 => ⟨S524288x1, .i32⟩
  | 70 => ⟨S524288x32, .f32⟩
  | 71 => ⟨S524288x32, .f32⟩
  | 72 => ⟨S_, .f32⟩
  | 73 => ⟨S524288, .f32⟩
  | 74 => ⟨S524288, .f32⟩
  | 75 => ⟨S524288, .f32⟩
  | 76 => ⟨S_, .f32⟩
  | 77 => ⟨S524288, .f32⟩
  | 78 => ⟨S524288, .f32⟩
  | 79 => ⟨S_, .f32⟩
  | 80 => ⟨S524288, .f32⟩
  | 81 => ⟨S524288, .f32⟩
  | 82 => ⟨S_, .f32⟩
  | 83 => ⟨S524288, .f32⟩
  | 84 => ⟨S524288, .f32⟩
  | 85 => ⟨S524288, .f32⟩
  | 86 => ⟨S_, .f32⟩
  | 87 => ⟨S_, .f32⟩
  | 88 => ⟨S_, .f32⟩
  | 89 => ⟨S_, .f32⟩
  | 90 => ⟨S_, .f32⟩
  | 91 => ⟨S1x524288, .i32⟩
  | 92 => ⟨S524288, .i32⟩
  | 93 => ⟨S1x524288, .i32⟩
  | 94 => ⟨S524288, .i32⟩
  | 95 => ⟨S_, .i32⟩
  | 96 => ⟨S524288, .i32⟩
  | 97 => ⟨S524288, .i1⟩
  | 98 => ⟨S_, .i32⟩
  | 99 => ⟨S524288, .i32⟩
  | 100 => ⟨S524288, .i32⟩
  | 101 => ⟨S524288, .i32⟩
  | 102 => ⟨S524288x1, .i32⟩
  | 103 => ⟨S524288x32, .f32⟩
  | 104 => ⟨S_, .i32⟩
  | 105 => ⟨S524288, .i32⟩
  | 106 => ⟨S524288, .i1⟩
  | 107 => ⟨S_, .i32⟩
  | 108 => ⟨S524288, .i32⟩
  | 109 => ⟨S524288, .i32⟩
  | 110 => ⟨S524288, .i32⟩
  | 111 => ⟨S524288x1, .i32⟩
  | 112 => ⟨S524288x32, .f32⟩
  | 113 => ⟨S524288x32, .f32⟩
  | 114 => ⟨S_, .f32⟩
  | 115 => ⟨S524288, .f32⟩
  | 116 => ⟨S524288, .f32⟩
  | 117 => ⟨S524288, .f32⟩
  | 118 => ⟨S_, .f32⟩
  | 119 => ⟨S524288, .f32⟩
  | 120 => ⟨S524288, .f32⟩
  | 121 => ⟨S_, .f32⟩
  | 122 => ⟨S524288, .f32⟩
  | 123 => ⟨S524288, .f32⟩
  | 124 => ⟨S_, .f32⟩
  | 125 => ⟨S524288, .f32⟩
  | 126 => ⟨S524288, .f32⟩
  | 127 => ⟨S_, .f32⟩
  | _ => ⟨S16384x16384, .f32⟩

abbrev hbmTy0_2 (i : Nat) : BufTy := match i % 128 with
  | 0 => ⟨S524288, .f32⟩
  | 1 => ⟨S524288, .f32⟩
  | 2 => ⟨S524288, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | 9 => ⟨S16384x32, .f32⟩
  | 10 => ⟨S16384x32, .f32⟩
  | 11 => ⟨S_, .f32⟩
  | 12 => ⟨S16384x32, .f32⟩
  | 13 => ⟨S16384x32, .f32⟩
  | 14 => ⟨S16384x32, .f32⟩
  | 15 => ⟨S16384x32, .f32⟩
  | 16 => ⟨S16384x32, .f32⟩
  | 17 => ⟨S16384x32, .f32⟩
  | 18 => ⟨S16384x32, .f32⟩
  | 19 => ⟨S_, .f32⟩
  | 20 => ⟨S16384, .f32⟩
  | 21 => ⟨S_, .f32⟩
  | 22 => ⟨S_, .f32⟩
  | 23 => ⟨S_, .f32⟩
  | 24 => ⟨S_, .f32⟩
  | 25 => ⟨S_, .f32⟩
  | 26 => ⟨S_, .f32⟩
  | 27 => ⟨S_, .f32⟩
  | 28 => ⟨S_, .f32⟩
  | 29 => ⟨S_, .f32⟩
  | 30 => ⟨S_, .f32⟩
  | _ => ⟨S16384x16384, .f32⟩

abbrev hbmTy (i : Nat) : BufTy := match i / 128 with
  | 0 => hbmTy0_0 i
  | 1 => hbmTy0_1 i
  | 2 => hbmTy0_2 i
  | _ => ⟨S16384x16384, .f32⟩

abbrev bufTy : (tb : Table) → Fin (tcTables nBuf tb) → BufTy
  | .hbm, ⟨i, _⟩ => hbmTy i
  | _, _ => ⟨S16384x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_cst_0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst_1 : Ref sig .tc := ⟨.hbm, 25, rfl⟩
abbrev main_v8 : Ref sig .tc := ⟨.hbm, 26, rfl⟩
abbrev main_v9 : Ref sig .tc := ⟨.hbm, 27, rfl⟩
abbrev main_cst_2 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_cst_3 : Ref sig .tc := ⟨.hbm, 32, rfl⟩
abbrev main_v13 : Ref sig .tc := ⟨.hbm, 33, rfl⟩
abbrev main_v14 : Ref sig .tc := ⟨.hbm, 34, rfl⟩
abbrev main_cst_4 : Ref sig .tc := ⟨.hbm, 35, rfl⟩
abbrev main_call0_v0 : Ref sig .tc := ⟨.hbm, 36, rfl⟩
abbrev main_call0_v1 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_call1_cst : Ref sig .tc := ⟨.hbm, 43, rfl⟩
abbrev main_call1_v0 : Ref sig .tc := ⟨.hbm, 44, rfl⟩
abbrev main_v20 : Ref sig .tc := ⟨.hbm, 45, rfl⟩
abbrev main_c : Ref sig .tc := ⟨.hbm, 46, rfl⟩
abbrev main_v21 : Ref sig .tc := ⟨.hbm, 47, rfl⟩
abbrev main_v22 : Ref sig .tc := ⟨.hbm, 48, rfl⟩
abbrev main_c_5 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_c_6 : Ref sig .tc := ⟨.hbm, 55, rfl⟩
abbrev main_v28 : Ref sig .tc := ⟨.hbm, 56, rfl⟩
abbrev main_v29 : Ref sig .tc := ⟨.hbm, 57, rfl⟩
abbrev main_c_7 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_c_8 : Ref sig .tc := ⟨.hbm, 67, rfl⟩
abbrev main_v38 : Ref sig .tc := ⟨.hbm, 68, rfl⟩
abbrev main_v39 : Ref sig .tc := ⟨.hbm, 69, rfl⟩
abbrev main_c_9 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_cst_10 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_call2_cst : Ref sig .tc := ⟨.hbm, 88, rfl⟩
abbrev main_call2_v0 : Ref sig .tc := ⟨.hbm, 89, rfl⟩
abbrev main_v56 : Ref sig .tc := ⟨.hbm, 90, rfl⟩
abbrev main_c_11 : Ref sig .tc := ⟨.hbm, 91, rfl⟩
abbrev main_v57 : Ref sig .tc := ⟨.hbm, 92, rfl⟩
abbrev main_v58 : Ref sig .tc := ⟨.hbm, 93, rfl⟩
abbrev main_c_12 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_c_13 : Ref sig .tc := ⟨.hbm, 100, rfl⟩
abbrev main_v64 : Ref sig .tc := ⟨.hbm, 101, rfl⟩
abbrev main_v65 : Ref sig .tc := ⟨.hbm, 102, rfl⟩
abbrev main_c_14 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_c_15 : Ref sig .tc := ⟨.hbm, 112, rfl⟩
abbrev main_v74 : Ref sig .tc := ⟨.hbm, 113, rfl⟩
abbrev main_v75 : Ref sig .tc := ⟨.hbm, 114, rfl⟩
abbrev main_c_16 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_cst_17 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_c_18 : Ref sig .tc := ⟨.hbm, 133, rfl⟩
abbrev main_v92 : Ref sig .tc := ⟨.hbm, 134, rfl⟩
abbrev main_v93 : Ref sig .tc := ⟨.hbm, 135, rfl⟩
abbrev main_c_19 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_c_20 : Ref sig .tc := ⟨.hbm, 142, rfl⟩
abbrev main_v99 : Ref sig .tc := ⟨.hbm, 143, rfl⟩
abbrev main_v100 : Ref sig .tc := ⟨.hbm, 144, rfl⟩
abbrev main_c_21 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_c_22 : Ref sig .tc := ⟨.hbm, 154, rfl⟩
abbrev main_v109 : Ref sig .tc := ⟨.hbm, 155, rfl⟩
abbrev main_v110 : Ref sig .tc := ⟨.hbm, 156, rfl⟩
abbrev main_c_23 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_cst_24 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩
abbrev main_v123 : Ref sig .tc := ⟨.hbm, 171, rfl⟩
abbrev main_v124 : Ref sig .tc := ⟨.hbm, 172, rfl⟩
abbrev main_v125 : Ref sig .tc := ⟨.hbm, 173, rfl⟩
abbrev main_v126 : Ref sig .tc := ⟨.hbm, 174, rfl⟩
abbrev main_cst_25 : Ref sig .tc := ⟨.hbm, 175, rfl⟩
abbrev main_v127 : Ref sig .tc := ⟨.hbm, 176, rfl⟩
abbrev main_v128 : Ref sig .tc := ⟨.hbm, 177, rfl⟩
abbrev main_v129 : Ref sig .tc := ⟨.hbm, 178, rfl⟩
abbrev main_v130 : Ref sig .tc := ⟨.hbm, 179, rfl⟩
abbrev main_v131 : Ref sig .tc := ⟨.hbm, 180, rfl⟩
abbrev main_c_26 : Ref sig .tc := ⟨.hbm, 181, rfl⟩
abbrev main_v132 : Ref sig .tc := ⟨.hbm, 182, rfl⟩
abbrev main_v133 : Ref sig .tc := ⟨.hbm, 183, rfl⟩
abbrev main_c_27 : Ref sig .tc := ⟨.hbm, 184, rfl⟩
abbrev main_v134 : Ref sig .tc := ⟨.hbm, 185, rfl⟩
abbrev main_v135 : Ref sig .tc := ⟨.hbm, 186, rfl⟩
abbrev main_v136 : Ref sig .tc := ⟨.hbm, 187, rfl⟩
abbrev main_v137 : Ref sig .tc := ⟨.hbm, 188, rfl⟩
abbrev main_v138 : Ref sig .tc := ⟨.hbm, 189, rfl⟩
abbrev main_c_28 : Ref sig .tc := ⟨.hbm, 190, rfl⟩
abbrev main_v139 : Ref sig .tc := ⟨.hbm, 191, rfl⟩
abbrev main_v140 : Ref sig .tc := ⟨.hbm, 192, rfl⟩
abbrev main_c_29 : Ref sig .tc := ⟨.hbm, 193, rfl⟩
abbrev main_v141 : Ref sig .tc := ⟨.hbm, 194, rfl⟩
abbrev main_v142 : Ref sig .tc := ⟨.hbm, 195, rfl⟩
abbrev main_v143 : Ref sig .tc := ⟨.hbm, 196, rfl⟩
abbrev main_v144 : Ref sig .tc := ⟨.hbm, 197, rfl⟩
abbrev main_v145 : Ref sig .tc := ⟨.hbm, 198, rfl⟩
abbrev main_v146 : Ref sig .tc := ⟨.hbm, 199, rfl⟩
abbrev main_cst_30 : Ref sig .tc := ⟨.hbm, 200, rfl⟩
abbrev main_v147 : Ref sig .tc := ⟨.hbm, 201, rfl⟩
abbrev main_v148 : Ref sig .tc := ⟨.hbm, 202, rfl⟩
abbrev main_v149 : Ref sig .tc := ⟨.hbm, 203, rfl⟩
abbrev main_cst_31 : Ref sig .tc := ⟨.hbm, 204, rfl⟩
abbrev main_v150 : Ref sig .tc := ⟨.hbm, 205, rfl⟩
abbrev main_v151 : Ref sig .tc := ⟨.hbm, 206, rfl⟩
abbrev main_cst_32 : Ref sig .tc := ⟨.hbm, 207, rfl⟩
abbrev main_v152 : Ref sig .tc := ⟨.hbm, 208, rfl⟩
abbrev main_v153 : Ref sig .tc := ⟨.hbm, 209, rfl⟩
abbrev main_cst_33 : Ref sig .tc := ⟨.hbm, 210, rfl⟩
abbrev main_v154 : Ref sig .tc := ⟨.hbm, 211, rfl⟩
abbrev main_v155 : Ref sig .tc := ⟨.hbm, 212, rfl⟩
abbrev main_v156 : Ref sig .tc := ⟨.hbm, 213, rfl⟩
abbrev main_cst_34 : Ref sig .tc := ⟨.hbm, 214, rfl⟩
abbrev main_v157 : Ref sig .tc := ⟨.hbm, 215, rfl⟩
abbrev main_cst_35 : Ref sig .tc := ⟨.hbm, 216, rfl⟩
abbrev main_v158 : Ref sig .tc := ⟨.hbm, 217, rfl⟩
abbrev main_v159 : Ref sig .tc := ⟨.hbm, 218, rfl⟩
abbrev main_v160 : Ref sig .tc := ⟨.hbm, 219, rfl⟩
abbrev main_v161 : Ref sig .tc := ⟨.hbm, 220, rfl⟩
abbrev main_v162 : Ref sig .tc := ⟨.hbm, 221, rfl⟩
abbrev main_v163 : Ref sig .tc := ⟨.hbm, 222, rfl⟩
abbrev main_c_36 : Ref sig .tc := ⟨.hbm, 223, rfl⟩
abbrev main_v164 : Ref sig .tc := ⟨.hbm, 224, rfl⟩
abbrev main_v165 : Ref sig .tc := ⟨.hbm, 225, rfl⟩
abbrev main_c_37 : Ref sig .tc := ⟨.hbm, 226, rfl⟩
abbrev main_v166 : Ref sig .tc := ⟨.hbm, 227, rfl⟩
abbrev main_v167 : Ref sig .tc := ⟨.hbm, 228, rfl⟩
abbrev main_v168 : Ref sig .tc := ⟨.hbm, 229, rfl⟩
abbrev main_v169 : Ref sig .tc := ⟨.hbm, 230, rfl⟩
abbrev main_v170 : Ref sig .tc := ⟨.hbm, 231, rfl⟩
abbrev main_c_38 : Ref sig .tc := ⟨.hbm, 232, rfl⟩
abbrev main_v171 : Ref sig .tc := ⟨.hbm, 233, rfl⟩
abbrev main_v172 : Ref sig .tc := ⟨.hbm, 234, rfl⟩
abbrev main_c_39 : Ref sig .tc := ⟨.hbm, 235, rfl⟩
abbrev main_v173 : Ref sig .tc := ⟨.hbm, 236, rfl⟩
abbrev main_v174 : Ref sig .tc := ⟨.hbm, 237, rfl⟩
abbrev main_v175 : Ref sig .tc := ⟨.hbm, 238, rfl⟩
abbrev main_v176 : Ref sig .tc := ⟨.hbm, 239, rfl⟩
abbrev main_v177 : Ref sig .tc := ⟨.hbm, 240, rfl⟩
abbrev main_v178 : Ref sig .tc := ⟨.hbm, 241, rfl⟩
abbrev main_cst_40 : Ref sig .tc := ⟨.hbm, 242, rfl⟩
abbrev main_v179 : Ref sig .tc := ⟨.hbm, 243, rfl⟩
abbrev main_v180 : Ref sig .tc := ⟨.hbm, 244, rfl⟩
abbrev main_v181 : Ref sig .tc := ⟨.hbm, 245, rfl⟩
abbrev main_cst_41 : Ref sig .tc := ⟨.hbm, 246, rfl⟩
abbrev main_v182 : Ref sig .tc := ⟨.hbm, 247, rfl⟩
abbrev main_v183 : Ref sig .tc := ⟨.hbm, 248, rfl⟩
abbrev main_cst_42 : Ref sig .tc := ⟨.hbm, 249, rfl⟩
abbrev main_v184 : Ref sig .tc := ⟨.hbm, 250, rfl⟩
abbrev main_v185 : Ref sig .tc := ⟨.hbm, 251, rfl⟩
abbrev main_cst_43 : Ref sig .tc := ⟨.hbm, 252, rfl⟩
abbrev main_v186 : Ref sig .tc := ⟨.hbm, 253, rfl⟩
abbrev main_v187 : Ref sig .tc := ⟨.hbm, 254, rfl⟩
abbrev main_cst_44 : Ref sig .tc := ⟨.hbm, 255, rfl⟩
abbrev main_v188 : Ref sig .tc := ⟨.hbm, 256, rfl⟩
abbrev main_v189 : Ref sig .tc := ⟨.hbm, 257, rfl⟩
abbrev main_v190 : Ref sig .tc := ⟨.hbm, 258, rfl⟩
abbrev main_cst_45 : Ref sig .tc := ⟨.hbm, 259, rfl⟩
abbrev main_v191 : Ref sig .tc := ⟨.hbm, 260, rfl⟩
abbrev main_cst_46 : Ref sig .tc := ⟨.hbm, 261, rfl⟩
abbrev main_v192 : Ref sig .tc := ⟨.hbm, 262, rfl⟩
abbrev main_v193 : Ref sig .tc := ⟨.hbm, 263, rfl⟩
abbrev main_cst_47 : Ref sig .tc := ⟨.hbm, 264, rfl⟩
abbrev main_v194 : Ref sig .tc := ⟨.hbm, 265, rfl⟩
abbrev main_v195 : Ref sig .tc := ⟨.hbm, 266, rfl⟩
abbrev main_cst_48 : Ref sig .tc := ⟨.hbm, 267, rfl⟩
abbrev main_v196 : Ref sig .tc := ⟨.hbm, 268, rfl⟩
abbrev main_v197 : Ref sig .tc := ⟨.hbm, 269, rfl⟩
abbrev main_v198 : Ref sig .tc := ⟨.hbm, 270, rfl⟩
abbrev main_v199 : Ref sig .tc := ⟨.hbm, 271, rfl⟩
abbrev main_v200 : Ref sig .tc := ⟨.hbm, 272, rfl⟩
abbrev main_v201 : Ref sig .tc := ⟨.hbm, 273, rfl⟩
abbrev main_v202 : Ref sig .tc := ⟨.hbm, 274, rfl⟩
abbrev main_cst_49 : Ref sig .tc := ⟨.hbm, 275, rfl⟩
abbrev main_v203 : Ref sig .tc := ⟨.hbm, 276, rfl⟩
abbrev main_cst_50 : Ref sig .tc := ⟨.hbm, 277, rfl⟩
abbrev main_v204 : Ref sig .tc := ⟨.hbm, 278, rfl⟩
abbrev main_cst_51 : Ref sig .tc := ⟨.hbm, 279, rfl⟩
abbrev main_v205 : Ref sig .tc := ⟨.hbm, 280, rfl⟩
abbrev main_cst_52 : Ref sig .tc := ⟨.hbm, 281, rfl⟩
abbrev main_v206 : Ref sig .tc := ⟨.hbm, 282, rfl⟩
abbrev main_v207 : Ref sig .tc := ⟨.hbm, 283, rfl⟩
abbrev main_cst_53 : Ref sig .tc := ⟨.hbm, 284, rfl⟩
abbrev main_v208 : Ref sig .tc := ⟨.hbm, 285, rfl⟩
abbrev main_v209 : Ref sig .tc := ⟨.hbm, 286, rfl⟩

abbrev nD : Nat := 1
abbrev τ : Topo := Topo.v7x

variable {F : FTy → Type} [FloatOps F]

class Facts₀ : Prop where
  slices_S2x524288_S1x524288_0_0 : S2x524288.Slices ![0, 0] S1x524288
  shapeCasts_S1x524288_S524288 : S1x524288.ShapeCasts S524288
  slices_S2x524288_S1x524288_1_0 : S2x524288.Slices ![1, 0] S1x524288
  bcast_S_S524288 : S_.BroadcastsInDim S524288 (![] : Fin 0 → Fin S524288.rank)
  bcast_S_S16384 : S_.BroadcastsInDim S16384 (![] : Fin 0 → Fin S16384.rank)
  bcast_S524288_S524288x1_0 : S524288.BroadcastsInDim S524288x1 (![0] : Fin 1 → Fin S524288x1.rank)
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  bcast_S_S16384x128 : S_.BroadcastsInDim S16384x128 (![] : Fin 0 → Fin S16384x128.rank)
  bcast_S524288x1_S524288x128_0_1 : S524288x1.BroadcastsInDim S524288x128 (![0, 1] : Fin 2 → Fin S524288x128.rank)
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  bcast_S_S16384x64 : S_.BroadcastsInDim S16384x64 (![] : Fin 0 → Fin S16384x64.rank)
  bcast_S524288x1_S524288x64_0_1 : S524288x1.BroadcastsInDim S524288x64 (![0, 1] : Fin 2 → Fin S524288x64.rank)
  bcast_S32_S1x32_1 : S32.BroadcastsInDim S1x32 (![1] : Fin 1 → Fin S1x32.rank)
  bcast_S1x32_S16384x32_0_1 : S1x32.BroadcastsInDim S16384x32 (![0, 1] : Fin 2 → Fin S16384x32.rank)
  bcast_S_S16384x32 : S_.BroadcastsInDim S16384x32 (![] : Fin 0 → Fin S16384x32.rank)
  reducesTo_S524288x32_S524288_d1 : S524288x32.ReducesTo [1] S524288
  h_S_ : 0 < S_.numel
  reducesTo_S524288_S_d0 : S524288.ReducesTo [0] S_
  reducesTo_S16384x32_S16384_d1 : S16384x32.ReducesTo [1] S16384
  reducesTo_S16384_S_d0 : S16384.ReducesTo [0] S_
  scatter_S16384_S524288x1_S524288_n_0_0_1_wf : ScatterDims.WF S16384 S524288x1 S524288 [] [0] [0] 1
  dot_S16384x16384_S16384x128_S16384x128_1_0_0_1_n_n_wf : DotDims.WF S16384x16384 S16384x128 S16384x128 [1] [0] [0] [1] [] []
  gather_S16384_S524288x1_S524288_n_0_n_n_0_1_1_wf : GatherDims.WF S16384 S524288x1 S524288 [] [0] [] [0] [] 1 ![1]
  gather_S16384x128_S524288x1_S524288x128_1_0_n_n_0_1_1128_wf : GatherDims.WF S16384x128 S524288x1 S524288x128 [1] [0] [] [0] [] 1 ![1, 128]
  scatter_S16384x128_S524288x1_S524288x128_1_0_0_1_wf : ScatterDims.WF S16384x128 S524288x1 S524288x128 [1] [0] [0] 1
  dot_S16384x128_S128x64_S16384x64_1_0_0_1_n_n_wf : DotDims.WF S16384x128 S128x64 S16384x64 [1] [0] [0] [1] [] []
  gather_S16384x64_S524288x1_S524288x64_1_0_n_n_0_1_164_wf : GatherDims.WF S16384x64 S524288x1 S524288x64 [1] [0] [] [0] [] 1 ![1, 64]
  scatter_S16384x64_S524288x1_S524288x64_1_0_0_1_wf : ScatterDims.WF S16384x64 S524288x1 S524288x64 [1] [0] [0] 1
  dot_S16384x64_S64x32_S16384x32_1_0_0_1_n_n_wf : DotDims.WF S16384x64 S64x32 S16384x32 [1] [0] [0] [1] [] []
  gather_S16384x32_S524288x1_S524288x32_1_0_n_n_0_1_132_wf : GatherDims.WF S16384x32 S524288x1 S524288x32 [1] [0] [] [0] [] 1 ![1, 32]

variable [Facts₀]

def scatter_S16384_S524288x1_S524288_n_0_0_1 : ScatterDims S16384 S524288x1 S524288 where
  updateWindowDims := []
  insertedWindowDims := [0]
  scatterDimsToOperandDims := [0]
  indexVectorDim := 1
  wf := scatter_S16384_S524288x1_S524288_n_0_0_1_wf
def dot_S16384x16384_S16384x128_S16384x128_1_0_0_1_n_n : DotDims S16384x16384 S16384x128 S16384x128 where
  lhsContracting := [1]
  rhsContracting := [0]
  lhsNonContracting := [0]
  rhsNonContracting := [1]
  lhsBatch := []
  rhsBatch := []
  wf := dot_S16384x16384_S16384x128_S16384x128_1_0_0_1_n_n_wf
def gather_S16384_S524288x1_S524288_n_0_n_n_0_1_1 : GatherDims S16384 S524288x1 S524288 where
  offsetDims := []
  collapsedSliceDims := [0]
  operandBatchingDims := []
  startIndicesBatchingDims := []
  startIndexMap := [0]
  indexVectorDim := 1
  sliceSizes := ![1]
  wf := gather_S16384_S524288x1_S524288_n_0_n_n_0_1_1_wf
def gather_S16384x128_S524288x1_S524288x128_1_0_n_n_0_1_1128 : GatherDims S16384x128 S524288x1 S524288x128 where
  offsetDims := [1]
  collapsedSliceDims := [0]
  operandBatchingDims := []
  startIndicesBatchingDims := []
  startIndexMap := [0]
  indexVectorDim := 1
  sliceSizes := ![1, 128]
  wf := gather_S16384x128_S524288x1_S524288x128_1_0_n_n_0_1_1128_wf
def scatter_S16384x128_S524288x1_S524288x128_1_0_0_1 : ScatterDims S16384x128 S524288x1 S524288x128 where
  updateWindowDims := [1]
  insertedWindowDims := [0]
  scatterDimsToOperandDims := [0]
  indexVectorDim := 1
  wf := scatter_S16384x128_S524288x1_S524288x128_1_0_0_1_wf
def dot_S16384x128_S128x64_S16384x64_1_0_0_1_n_n : DotDims S16384x128 S128x64 S16384x64 where
  lhsContracting := [1]
  rhsContracting := [0]
  lhsNonContracting := [0]
  rhsNonContracting := [1]
  lhsBatch := []
  rhsBatch := []
  wf := dot_S16384x128_S128x64_S16384x64_1_0_0_1_n_n_wf
def gather_S16384x64_S524288x1_S524288x64_1_0_n_n_0_1_164 : GatherDims S16384x64 S524288x1 S524288x64 where
  offsetDims := [1]
  collapsedSliceDims := [0]
  operandBatchingDims := []
  startIndicesBatchingDims := []
  startIndexMap := [0]
  indexVectorDim := 1
  sliceSizes := ![1, 64]
  wf := gather_S16384x64_S524288x1_S524288x64_1_0_n_n_0_1_164_wf
def scatter_S16384x64_S524288x1_S524288x64_1_0_0_1 : ScatterDims S16384x64 S524288x1 S524288x64 where
  updateWindowDims := [1]
  insertedWindowDims := [0]
  scatterDimsToOperandDims := [0]
  indexVectorDim := 1
  wf := scatter_S16384x64_S524288x1_S524288x64_1_0_0_1_wf
def dot_S16384x64_S64x32_S16384x32_1_0_0_1_n_n : DotDims S16384x64 S64x32 S16384x32 where
  lhsContracting := [1]
  rhsContracting := [0]
  lhsNonContracting := [0]
  rhsNonContracting := [1]
  lhsBatch := []
  rhsBatch := []
  wf := dot_S16384x64_S64x32_S16384x32_1_0_0_1_n_n_wf
def gather_S16384x32_S524288x1_S524288x32_1_0_n_n_0_1_132 : GatherDims S16384x32 S524288x1 S524288x32 where
  offsetDims := [1]
  collapsedSliceDims := [0]
  operandBatchingDims := []
  startIndicesBatchingDims := []
  startIndexMap := [0]
  indexVectorDim := 1
  sliceSizes := ![1, 32]
  wf := gather_S16384x32_S524288x1_S524288x32_1_0_n_n_0_1_132_wf

class Facts : Prop extends Facts₀ where

variable [Facts]
-- ==== Proof.KRunWrites.lean ====
import proofs.«114411_j49589692399794_2_alg».proof.Proof.Gen.KernelIdeal.Launch
import Idealize.ShloMosaic.Lib.StableHlo.Run

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

/-! # What each stretch of host operations writes

@main's host operations come in eleven stretches around the three products. Each stretch writes a known list of
buffers, allocates none, and therefore leaves every other buffer as it found it. -/

/-- No operation of `main_part0_ops0` allocates a buffer. -/
theorem main_part0_ops0_fresh : (main_part0_ops0 : List (HloOp τ sig (Elt F))).Forall fun op => op.fresh = ∅ := by
  simp only [List.Forall]; repeat' constructor
/-- The buffers `main_part0_ops0`'s operations write. -/
abbrev main_part0_ops0_W : List (Ref sig .tc) := [main_v0, main_v1, main_v2, main_v3, main_v4, main_v5, main_v6, main_v7, main_cst, main_v8, main_cst_0, main_v9, main_v10, main_v11, main_cst_1, main_v12, main_v13, main_cst_2, main_v14, main_v15, main_v16, main_cst_3, main_v17, main_v18, main_cst_4]
theorem main_part0_ops0_writes : (main_part0_ops0 : List (HloOp τ sig (Elt F))).Forall fun op => op.writes ⊆ (main_part0_ops0_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; (repeat' apply And.intro) <;> exact List.mem_map_of_mem (by decide))
/-- A buffer outside that list is as before the stretch. -/
theorem main_part0_ops0_keeps (V : Valuation τ sig (Elt F)) (r : Ref sig .tc) (h : r ∉ main_part0_ops0_W) :
    StableHlo.after main_part0_ops0 V (Proc.devRef .tc r) = V (Proc.devRef .tc r) :=
  StableHlo.after_of_writes_sub main_part0_ops0 V main_part0_ops0_writes h

/-- No operation of `main_part0_ops1` allocates a buffer. -/
theorem main_part0_ops1_fresh : (main_part0_ops1 : List (HloOp τ sig (Elt F))).Forall fun op => op.fresh = ∅ := by
  simp only [List.Forall]; repeat' constructor
/-- The buffers `main_part0_ops1`'s operations write. -/
abbrev main_part0_ops1_W : List (Ref sig .tc) := [main_call0_v0, main_call0_v1, main_v19]
theorem main_part0_ops1_writes : (main_part0_ops1 : List (HloOp τ sig (Elt F))).Forall fun op => op.writes ⊆ (main_part0_ops1_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; (repeat' apply And.intro) <;> exact List.mem_map_of_mem (by decide))
/-- A buffer outside that list is as before the stretch. -/
theorem main_part0_ops1_keeps (V : Valuation τ sig (Elt F)) (r : Ref sig .tc) (h : r ∉ main_part0_ops1_W) :
    StableHlo.after main_part0_ops1 V (Proc.devRef .tc r) = V (Proc.devRef .tc r) :=
  StableHlo.after_of_writes_sub main_part0_ops1 V main_part0_ops1_writes h

/-- No operation of `main_part0_ops2` allocates a buffer. -/
theorem main_part0_ops2_fresh : (main_part0_ops2 : List (HloOp τ sig (Elt F))).Forall fun op => op.fresh = ∅ := by
  simp only [List.Forall]; repeat' constructor
/-- The buffers `main_part0_ops2`'s operations write. -/
abbrev main_part0_ops2_W : List (Ref sig .tc) := [main_c, main_v20, main_v21, main_c_5, main_v22, main_v23, main_v24, main_v25, main_v26, main_c_6, main_v27, main_v28, main_c_7, main_v29, main_v30, main_v31, main_v32, main_v33, main_v34, main_v35, main_cst_8, main_v36, main_c_9, main_v37, main_v38, main_c_10, main_v39, main_v40, main_v41, main_c_11, main_v42, main_v43, main_c_12, main_v44]
theorem main_part0_ops2_writes : (main_part0_ops2 : List (HloOp τ sig (Elt F))).Forall fun op => op.writes ⊆ (main_part0_ops2_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; (repeat' apply And.intro) <;> exact List.mem_map_of_mem (by decide))
/-- A buffer outside that list is as before the stretch. -/
theorem main_part0_ops2_keeps (V : Valuation τ sig (Elt F)) (r : Ref sig .tc) (h : r ∉ main_part0_ops2_W) :
    StableHlo.after main_part0_ops2 V (Proc.devRef .tc r) = V (Proc.devRef .tc r) :=
  StableHlo.after_of_writes_sub main_part0_ops2 V main_part0_ops2_writes h

/-- No operation of `main_part1_ops0` allocates a buffer. -/
theorem main_part1_ops0_fresh : (main_part1_ops0 : List (HloOp τ sig (Elt F))).Forall fun op => op.fresh = ∅ := by
  simp only [List.Forall]; repeat' constructor
/-- The buffers `main_part1_ops0`'s operations write. -/
abbrev main_part1_ops0_W : List (Ref sig .tc) := [main_v45, main_v46, main_v47, main_v48, main_v49, main_v50, main_v51]
theorem main_part1_ops0_writes : (main_part1_ops0 : List (HloOp τ sig (Elt F))).Forall fun op => op.writes ⊆ (main_part1_ops0_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; (repeat' apply And.intro) <;> exact List.mem_map_of_mem (by decide))
/-- A buffer outside that list is as before the stretch. -/
theorem main_part1_ops0_keeps (V : Valuation τ sig (Elt F)) (r : Ref sig .tc) (h : r ∉ main_part1_ops0_W) :
    StableHlo.after main_part1_ops0 V (Proc.devRef .tc r) = V (Proc.devRef .tc r) :=
  StableHlo.after_of_writes_sub main_part1_ops0 V main_part1_ops0_writes h

/-- No operation of `main_part1_ops1` allocates a buffer. -/
theorem main_part1_ops1_fresh : (main_part1_ops1 : List (HloOp τ sig (Elt F))).Forall fun op => op.fresh = ∅ := by
  simp only [List.Forall]; repeat' constructor
/-- The buffers `main_part1_ops1`'s operations write. -/
abbrev main_part1_ops1_W : List (Ref sig .tc) := [main_cst_13, main_v53]
theorem main_part1_ops1_writes : (main_part1_ops1 : List (HloOp τ sig (Elt F))).Forall fun op => op.writes ⊆ (main_part1_ops1_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; (repeat' apply And.intro) <;> exact List.mem_map_of_mem (by decide))
/-- A buffer outside that list is as before the stretch. -/
theorem main_part1_ops1_keeps (V : Valuation τ sig (Elt F)) (r : Ref sig .tc) (h : r ∉ main_part1_ops1_W) :
    StableHlo.after main_part1_ops1 V (Proc.devRef .tc r) = V (Proc.devRef .tc r) :=
  StableHlo.after_of_writes_sub main_part1_ops1 V main_part1_ops1_writes h

/-- No operation of `main_part1_ops2` allocates a buffer. -/
theorem main_part1_ops2_fresh : (main_part1_ops2 : List (HloOp τ sig (Elt F))).Forall fun op => op.fresh = ∅ := by
  simp only [List.Forall]; repeat' constructor
/-- The buffers `main_part1_ops2`'s operations write. -/
abbrev main_part1_ops2_W : List (Ref sig .tc) := [main_v55, main_v56, main_v57, main_v58, main_v59, main_v60]
theorem main_part1_ops2_writes : (main_part1_ops2 : List (HloOp τ sig (Elt F))).Forall fun op => op.writes ⊆ (main_part1_ops2_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; (repeat' apply And.intro) <;> exact List.mem_map_of_mem (by decide))
/-- A buffer outside that list is as before the stretch. -/
theorem main_part1_ops2_keeps (V : Valuation τ sig (Elt F)) (r : Ref sig .tc) (h : r ∉ main_part1_ops2_W) :
    StableHlo.after main_part1_ops2 V (Proc.devRef .tc r) = V (Proc.devRef .tc r) :=
  StableHlo.after_of_writes_sub main_part1_ops2 V main_part1_ops2_writes h

/-- No operation of `main_part1_ops3` allocates a buffer. -/
theorem main_part1_ops3_fresh : (main_part1_ops3 : List (HloOp τ sig (Elt F))).Forall fun op => op.fresh = ∅ := by
  simp only [List.Forall]; repeat' constructor
/-- The buffers `main_part1_ops3`'s operations write. -/
abbrev main_part1_ops3_W : List (Ref sig .tc) := [main_call1_cst, main_call1_v0, main_v61]
theorem main_part1_ops3_writes : (main_part1_ops3 : List (HloOp τ sig (Elt F))).Forall fun op => op.writes ⊆ (main_part1_ops3_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; (repeat' apply And.intro) <;> exact List.mem_map_of_mem (by decide))
/-- A buffer outside that list is as before the stretch. -/
theorem main_part1_ops3_keeps (V : Valuation τ sig (Elt F)) (r : Ref sig .tc) (h : r ∉ main_part1_ops3_W) :
    StableHlo.after main_part1_ops3 V (Proc.devRef .tc r) = V (Proc.devRef .tc r) :=
  StableHlo.after_of_writes_sub main_part1_ops3 V main_part1_ops3_writes h

/-- No operation of `main_part1_ops4` allocates a buffer. -/
theorem main_part1_ops4_fresh : (main_part1_ops4 : List (HloOp τ sig (Elt F))).Forall fun op => op.fresh = ∅ := by
  simp only [List.Forall]; repeat' constructor
/-- The buffers `main_part1_ops4`'s operations write. -/
abbrev main_part1_ops4_W : List (Ref sig .tc) := [main_cst_14, main_v62]
theorem main_part1_ops4_writes : (main_part1_ops4 : List (HloOp τ sig (Elt F))).Forall fun op => op.writes ⊆ (main_part1_ops4_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; (repeat' apply And.intro) <;> exact List.mem_map_of_mem (by decide))
/-- A buffer outside that list is as before the stretch. -/
theorem main_part1_ops4_keeps (V : Valuation τ sig (Elt F)) (r : Ref sig .tc) (h : r ∉ main_part1_ops4_W) :
    StableHlo.after main_part1_ops4 V (Proc.devRef .tc r) = V (Proc.devRef .tc r) :=
  StableHlo.after_of_writes_sub main_part1_ops4 V main_part1_ops4_writes h

/-- No operation of `main_part1_ops5` allocates a buffer. -/
theorem main_part1_ops5_fresh : (main_part1_ops5 : List (HloOp τ sig (Elt F))).Forall fun op => op.fresh = ∅ := by
  simp only [List.Forall]; repeat' constructor
/-- The buffers `main_part1_ops5`'s operations write. -/
abbrev main_part1_ops5_W : List (Ref sig .tc) := [main_v64, main_v65, main_v66, main_v67, main_v68, main_v69, main_v70, main_v71, main_v72, main_v73, main_v74, main_v75, main_cst_15, main_v76, main_v77, main_v78, main_v79, main_v80, main_c_16, main_v81, main_v82, main_c_17, main_v83, main_v84, main_v85, main_v86, main_v87, main_c_18, main_v88, main_v89, main_c_19, main_v90, main_v91, main_v92, main_v93, main_v94, main_v95, main_cst_20, main_v96]
theorem main_part1_ops5_writes : (main_part1_ops5 : List (HloOp τ sig (Elt F))).Forall fun op => op.writes ⊆ (main_part1_ops5_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; (repeat' apply And.intro) <;> exact List.mem_map_of_mem (by decide))
/-- A buffer outside that list is as before the stretch. -/
theorem main_part1_ops5_keeps (V : Valuation τ sig (Elt F)) (r : Ref sig .tc) (h : r ∉ main_part1_ops5_W) :
    StableHlo.after main_part1_ops5 V (Proc.devRef .tc r) = V (Proc.devRef .tc r) :=
  StableHlo.after_of_writes_sub main_part1_ops5 V main_part1_ops5_writes h

/-- No operation of `main_part2_ops0` allocates a buffer. -/
theorem main_part2_ops0_fresh : (main_part2_ops0 : List (HloOp τ sig (Elt F))).Forall fun op => op.fresh = ∅ := by
  simp only [List.Forall]; repeat' constructor
/-- The buffers `main_part2_ops0`'s operations write. -/
abbrev main_part2_ops0_W : List (Ref sig .tc) := [main_v97, main_v98, main_cst_21, main_v99, main_v100, main_cst_22, main_v101, main_v102, main_cst_23, main_v103, main_v104, main_v105, main_cst_24, main_v106, main_cst_25, main_v107, main_v108, main_c_26, main_v109, main_v110, main_c_27, main_v111, main_v112, main_v113, main_v114, main_v115, main_c_28, main_v116, main_v117, main_c_29, main_v118, main_v119, main_v120, main_v121, main_v122, main_v123, main_cst_30, main_v124, main_v125, main_v126, main_cst_31, main_v127, main_v128, main_cst_32, main_v129, main_v130, main_cst_33, main_v131, main_v132, main_cst_34, main_v133, main_v134, main_v135, main_cst_35, main_v136, main_cst_36, main_v137, main_v138, main_cst_37, main_v139]
theorem main_part2_ops0_writes : (main_part2_ops0 : List (HloOp τ sig (Elt F))).Forall fun op => op.writes ⊆ (main_part2_ops0_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; (repeat' apply And.intro) <;> exact List.mem_map_of_mem (by decide))
/-- A buffer outside that list is as before the stretch. -/
theorem main_part2_ops0_keeps (V : Valuation τ sig (Elt F)) (r : Ref sig .tc) (h : r ∉ main_part2_ops0_W) :
    StableHlo.after main_part2_ops0 V (Proc.devRef .tc r) = V (Proc.devRef .tc r) :=
  StableHlo.after_of_writes_sub main_part2_ops0 V main_part2_ops0_writes h

/-- No operation of `main_part3_ops0` allocates a buffer. -/
theorem main_part3_ops0_fresh : (main_part3_ops0 : List (HloOp τ sig (Elt F))).Forall fun op => op.fresh = ∅ := by
  simp only [List.Forall]; repeat' constructor
/-- The buffers `main_part3_ops0`'s operations write. -/
abbrev main_part3_ops0_W : List (Ref sig .tc) := [main_v140, main_cst_38, main_v141, main_v142, main_v143, main_v144, main_v145, main_v146, main_v147, main_cst_39, main_v148, main_cst_40, main_v149, main_cst_41, main_v150, main_cst_42, main_v151, main_v152, main_cst_43, main_v153, main_v154]
theorem main_part3_ops0_writes : (main_part3_ops0 : List (HloOp τ sig (Elt F))).Forall fun op => op.writes ⊆ (main_part3_ops0_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; (repeat' apply And.intro) <;> exact List.mem_map_of_mem (by decide))
/-- A buffer outside that list is as before the stretch. -/
theorem main_part3_ops0_keeps (V : Valuation τ sig (Elt F)) (r : Ref sig .tc) (h : r ∉ main_part3_ops0_W) :
    StableHlo.after main_part3_ops0 V (Proc.devRef .tc r) = V (Proc.devRef .tc r) :=
  StableHlo.after_of_writes_sub main_part3_ops0 V main_part3_ops0_writes h

end Cert.KernelIdeal.Run

end
-- ==== Proof.Reg0Step.lean ====
import proofs.«114411_j49589692399794_2_alg».proof.Proof.Gen.KernelIdeal.Launch
import proofs.«114411_j49589692399794_2_alg».proof.Proof.Gen.KernelIdeal.Skeleton
import proofs.«114411_j49589692399794_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.KernelIdeal.Reg0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The first product (x_adj · Wt, then the bias row and the rectifier): one grid point of the K-blocked matrix product

The grid is 16 row tiles by 8 blocks of the contracted axis, the block index running fastest.  At block 0 of a
row tile the accumulator is reset to zero; at every block it gains the product of the tile's 1024 × 2048 block
with the matching 2048 rows of the resident right operand; at block 7 the accumulator plus the bias row,
rectified, is stored to the output tile. -/

/-- The origin of every whole-block access. -/
theorem hz2 : (![0, 0] : Fin 2 → ℕ) = fun _ => 0 := by funext a; fin_cases a <;> rfl

/-- "This is block 0 of the contracted axis", as the body computes it from the grid coordinates. -/
abbrev condFirst (i : grid0.Coords) : Prop :=
  (Scalar.cmpi .ne (Scalar.extui (Scalar.cmpi .eq (BitVec.ofNat 32 (i 1).val) 0#32)) 0#32) = 1#1
/-- It holds exactly at the points ≡ 0 (mod 8). -/
theorem hcondFirst : ∀ t : Fin cfg0.N, condFirst (grid0.coords t) ↔ t.val % 8 = 0 :=
  (by decide +kernel : ∀ t : Fin grid0.N, condFirst (grid0.coords t) ↔ t.val % 8 = 0)
/-- "This is block 7, the last". -/
abbrev condLast (i : grid0.Coords) : Prop := k0_cond2 i = 1#1
/-- It holds exactly at the points ≡ 7 (mod 8). -/
theorem hcondLast : ∀ t : Fin cfg0.N, condLast (grid0.coords t) ↔ t.val % 8 = 7 :=
  (by decide +kernel : ∀ t : Fin grid0.N, condLast (grid0.coords t) ↔ t.val % 8 = 7)

/-- The 2048 rows of the right operand that block `i 1` of the contracted axis meets. -/
abbrev rowsOf (i : grid0.Coords) : Rect S16384x128 :=
  Rect.unit (s := S16384x128) (k0_off1 i) S2048x128.size (k0_off1_inb i)
/-- The whole accumulator / output tile. -/
abbrev tile : Rect S1024x128 := Rect.unit (s := S1024x128) ![0, 0] S1024x128.size inb_S1024x128_S1024x128_0_0

/-- One block's step: the accumulator plus the product of the left block with the block's rows of the right
    operand. -/
def accStep (i : grid0.Coords) (w : Vec F S16384x128 .f32) (x : Vec F S1024x2048 .f32) (acc : Vec F S1024x128 .f32) :
    Vec F S1024x128 .f32 :=
  k0_pay2 (View.ld w (rowsOf i)) x acc

/-- A whole-tile store read back is its payload, whatever the buffer held. -/
theorem read_store_tile (v : View sig .tc .vmem S1024x128 .f32) (f : v.ty.Contents (Elt F)) (p : Vec F S1024x128 .f32) :
    v.read (Elt F) (v.writes (Elt F) f [⟨tile, p⟩]) = p := by
  rw [View.read_writes_eq_canon v f _ (View.cover_of_tiled [⟨tile, p⟩] S1024x128.size (by rfl))]
  exact View.canon_unit_zero hz2 _ p

/-- A whole-tile store over an earlier one read back is the later payload. -/
theorem read_store_tile₂ (v : View sig .tc .vmem S1024x128 .f32) (f : v.ty.Contents (Elt F)) (p p' : Vec F S1024x128 .f32) :
    v.read (Elt F) (v.writes (Elt F) f [⟨tile, p⟩, ⟨tile, p'⟩]) = p := by
  have hcov : ∀ y : S1024x128.Idx, ∃ q ∈ ([⟨tile, p⟩, ⟨tile, p'⟩] : List (View.Piece (Elt F) S1024x128 .f32)), y ∈ q.1.set := by
    intro y
    obtain ⟨q, hq, hy⟩ := View.cover_of_tiled [(⟨tile, p'⟩ : View.Piece (Elt F) S1024x128 .f32)] S1024x128.size (by rfl) y
    exact ⟨q, List.mem_cons_of_mem _ hq, hy⟩
  rw [View.read_writes_eq_canon v f _ hcov]
  exact View.canon_cons_unit_zero hz2 _ p _

set_option maxHeartbeats 1000000 in
/-- A block that is neither the first nor the last: the accumulator takes one step, everything else is as it was. -/
theorem run_mid (c : Dev nD) (i : grid0.Coords)
    (arg2 : Memref sig .tc .vmem S1024x2048 .f32) (harg2 : arg2.IsWhole) (arg3 : Memref sig .tc .vmem S16384x128 .f32) (harg3 : arg3.IsWhole)
    (arg4 : Memref sig .tc .vmem S1x128 .f32) (harg4 : arg4.IsWhole) (arg5 : Memref sig .tc .vmem S1024x128 .f32) (harg5 : arg5.IsWhole)
    (arg6 : Memref sig .tc .vmem S1024x128 .f32) (harg6 : arg6.IsWhole)
    (hc0 : ¬condFirst i) (hc1 : ¬condLast i)
    (x0 : Vec F S1024x2048 .f32) (x1 : Vec F S16384x128 .f32) (x2 : Vec F S1x128 .f32) (xo : Vec F S1024x128 .f32) (xs : Vec F S1024x128 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xo ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare xo ∗ owns (c : Thread nD τ) arg6 fullShare (accStep i x1 x0 xs)) -∗ K ⟨⟩))
      ⊢ wp frame (wpE (defs₀ (F := F)) Variants.none c none) E (cc0__matmul_kernel i arg2 harg2 arg3 harg3 arg4 harg4 arg5 harg5 arg6 harg6) K := by
  simp only [cc0__matmul_kernel_eq_skeleton]; unfold cc0__matmul_kernel_skel
  unfold owns
  iintro ⟨⟨%f0, %hf0, H0⟩, ⟨%f1, %hf1, H1⟩, ⟨%f2, %hf2, H2⟩, ⟨%fo, %hfo, HO⟩, ⟨%fs, %hfs, HS⟩, Hk⟩
  obtain rfl := harg2.eq_unread hf0; obtain rfl := harg3.eq_unread hf1; obtain rfl := harg4.eq_unread hf2
  obtain rfl := harg5.eq_unread hfo; obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [HO]
  · iexists _; isplitr; · ipureintro; exact harg5.read_unread _
    iexact HO
  iexists _; isplitr
  swap; · iexact HS
  ipureintro
  rw [read_store_tile]
  simp only [View.readAt_eq_ld, harg2.read_unread, harg3.read_unread, harg6.read_unread]
  unfold accStep
  rw [View.ld_unit_zero (S := S1024x2048) hz2, View.ld_unit_zero (S := S1024x128) hz2]

set_option maxHeartbeats 1000000 in
/-- Block 0 of a row tile: the accumulator, whatever it held, is reset to zero and takes the first step. -/
theorem run_first (c : Dev nD) (i : grid0.Coords)
    (arg2 : Memref sig .tc .vmem S1024x2048 .f32) (harg2 : arg2.IsWhole) (arg3 : Memref sig .tc .vmem S16384x128 .f32) (harg3 : arg3.IsWhole)
    (arg4 : Memref sig .tc .vmem S1x128 .f32) (harg4 : arg4.IsWhole) (arg5 : Memref sig .tc .vmem S1024x128 .f32) (harg5 : arg5.IsWhole)
    (arg6 : Memref sig .tc .vmem S1024x128 .f32) (harg6 : arg6.IsWhole)
    (hc0 : condFirst i) (hc1 : ¬condLast i)
    (x0 : Vec F S1024x2048 .f32) (x1 : Vec F S16384x128 .f32) (x2 : Vec F S1x128 .f32) (xo : Vec F S1024x128 .f32) (xs : Vec F S1024x128 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xo ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare xo ∗ owns (c : Thread nD τ) arg6 fullShare (accStep i x1 x0 (k0_pay1 (F := F)))) -∗ K ⟨⟩))
      ⊢ wp frame (wpE (defs₀ (F := F)) Variants.none c none) E (cc0__matmul_kernel i arg2 harg2 arg3 harg3 arg4 harg4 arg5 harg5 arg6 harg6) K := by
  simp only [cc0__matmul_kernel_eq_skeleton]; unfold cc0__matmul_kernel_skel
  unfold owns
  iintro ⟨⟨%f0, %hf0, H0⟩, ⟨%f1, %hf1, H1⟩, ⟨%f2, %hf2, H2⟩, ⟨%fo, %hfo, HO⟩, ⟨%fs, %hfs, HS⟩, Hk⟩
  obtain rfl := harg2.eq_unread hf0; obtain rfl := harg3.eq_unread hf1; obtain rfl := harg4.eq_unread hf2
  obtain rfl := harg5.eq_unread hfo; obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [HO]
  · iexists _; isplitr; · ipureintro; exact harg5.read_unread _
    iexact HO
  iexists _; isplitr
  swap; · iexact HS
  ipureintro
  sl_unfold_run_names
  rw [read_store_tile₂]
  simp only [View.readAt_eq_ld, harg2.read_unread, harg3.read_unread, harg6.read_unread]
  unfold accStep
  rw [View.ld_unit_zero (S := S1024x2048) hz2, View.readCov_unit_zero _ hz2]

set_option maxHeartbeats 1000000 in
/-- Block 7, the last: the accumulator takes its step; the output tile takes it plus the bias row, rectified. -/
theorem run_last (c : Dev nD) (i : grid0.Coords)
    (arg2 : Memref sig .tc .vmem S1024x2048 .f32) (harg2 : arg2.IsWhole) (arg3 : Memref sig .tc .vmem S16384x128 .f32) (harg3 : arg3.IsWhole)
    (arg4 : Memref sig .tc .vmem S1x128 .f32) (harg4 : arg4.IsWhole) (arg5 : Memref sig .tc .vmem S1024x128 .f32) (harg5 : arg5.IsWhole)
    (arg6 : Memref sig .tc .vmem S1024x128 .f32) (harg6 : arg6.IsWhole)
    (hc0 : ¬condFirst i) (hc1 : condLast i)
    (x0 : Vec F S1024x2048 .f32) (x1 : Vec F S16384x128 .f32) (x2 : Vec F S1x128 .f32) (xo : Vec F S1024x128 .f32) (xs : Vec F S1024x128 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xo ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (k0_pay3 (accStep i x1 x0 xs) x2) ∗ owns (c : Thread nD τ) arg6 fullShare (accStep i x1 x0 xs)) -∗ K ⟨⟩))
      ⊢ wp frame (wpE (defs₀ (F := F)) Variants.none c none) E (cc0__matmul_kernel i arg2 harg2 arg3 harg3 arg4 harg4 arg5 harg5 arg6 harg6) K := by
  simp only [cc0__matmul_kernel_eq_skeleton]; unfold cc0__matmul_kernel_skel
  unfold owns
  iintro ⟨⟨%f0, %hf0, H0⟩, ⟨%f1, %hf1, H1⟩, ⟨%f2, %hf2, H2⟩, ⟨%fo, %hfo, HO⟩, ⟨%fs, %hfs, HS⟩, Hk⟩
  obtain rfl := harg2.eq_unread hf0; obtain rfl := harg3.eq_unread hf1; obtain rfl := harg4.eq_unread hf2
  obtain rfl := harg5.eq_unread hfo; obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [HO]
  · iexists _; isplitr
    swap; · iexact HO
    ipureintro
    sl_unfold_run_names
    rw [read_store_tile, View.readCov_unit_zero _ hz2]
    simp only [View.readAt_eq_ld, harg2.read_unread, harg3.read_unread, harg4.read_unread, harg6.read_unread]
    unfold accStep
    rw [View.ld_unit_zero (S := S1024x2048) hz2, View.ld_unit_zero (S := S1024x128) hz2, View.ld_unit_zero (S := S1x128) hz2]
  iexists _; isplitr
  swap; · iexact HS
  ipureintro
  sl_unfold_run_names
  rw [read_store_tile]
  simp only [View.readAt_eq_ld, harg2.read_unread, harg3.read_unread, harg6.read_unread]
  unfold accStep
  rw [View.ld_unit_zero (S := S1024x2048) hz2, View.ld_unit_zero (S := S1024x128) hz2]

end Cert.KernelIdeal.Reg0

end
-- ==== Proof.Reg0Dat.lean ====
import proofs.«114411_j49589692399794_2_alg».proof.Proof.Reg0Step

set_option maxRecDepth 16384

noncomputable section

namespace Cert.KernelIdeal.Reg0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The product as a region: what every buffer holds after each grid point

Stated at the contents `V` the TensorCore's buffers hold when the region is entered. -/

variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## Where the windows are idle -/

theorem liveAt_0 : ∀ t : Fin cfg0.N, cfg0.idle 0 (grid0.coords t) = false := by decide +kernel
theorem liveAt_1 : ∀ t : Fin cfg0.N, cfg0.idle 1 (grid0.coords t) = false := by decide +kernel
theorem liveAt_2 : ∀ t : Fin cfg0.N, cfg0.idle 2 (grid0.coords t) = false := by decide +kernel
/-- Before the last block of a row tile the output tile is idle and is not written back. -/
theorem idleAt_3 : ∀ t : Fin cfg0.N, ¬condLast (grid0.coords t) → cfg0.idle 3 (grid0.coords t) = true := by decide +kernel
theorem noFlush_3 : ∀ t : Fin cfg0.N, ¬condLast (grid0.coords t) → (cfg0.win 3).flush t = false := by decide +kernel
/-- At the last block it is live. -/
theorem liveAt_3 : ∀ t : Fin cfg0.N, condLast (grid0.coords t) → cfg0.idle 3 (grid0.coords t) = false := by decide +kernel

/-! ## The staging memrefs and the accumulator -/

abbrev ms_0 (t : Fin cfg0.N) : Memref sig .tc .vmem S1024x2048 .f32 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S16384x128 .f32 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S1x128 .f32 := win0_2.stage (cfg0.slots t 2)
abbrev hs_2 (t : Fin cfg0.N) : (ms_2 t).IsWhole := hstage0_2 ((cfg0.slots t 2).cast nbuf0_2)
abbrev ms_3 (t : Fin cfg0.N) : Memref sig .tc .vmem S1024x128 .f32 := win0_3.stage (cfg0.slots t 3)
abbrev hs_3 (t : Fin cfg0.N) : (ms_3 t).IsWhole := hstage0_3 ((cfg0.slots t 3).cast nbuf0_3)
/-- The accumulator: a whole scoped buffer of the kernel's own, carried from point to point. -/
abbrev scM : Memref sig .tc .vmem S1024x128 .f32 := Memref.whole cc0_scratch0

/-- THE ACCUMULATION. What the accumulator holds after the body at position `n`: at block 0 of a row tile one step
    from zero, at a later block one step from what the point before left. -/
def accAt (c : Dev nD) : (n : ℕ) → n < cfg0.N → Vec F S1024x128 .f32
  | 0, hn => accStep (grid0.coords ⟨0, hn⟩) (iblk V c 1 ⟨0, hn⟩) (iblk V c 0 ⟨0, hn⟩) (k0_pay1 (F := F))
  | n + 1, hn =>
    if (n + 1) % 8 = 0 then
      accStep (grid0.coords ⟨n + 1, hn⟩) (iblk V c 1 ⟨n + 1, hn⟩) (iblk V c 0 ⟨n + 1, hn⟩) (k0_pay1 (F := F))
    else
      accStep (grid0.coords ⟨n + 1, hn⟩) (iblk V c 1 ⟨n + 1, hn⟩) (iblk V c 0 ⟨n + 1, hn⟩) (accAt c n (Nat.lt_of_succ_lt hn))

theorem accAt_first (c : Dev nD) (t : Fin cfg0.N) (h0 : t.val % 8 = 0) :
    accAt V c t.val t.isLt = accStep (grid0.coords t) (iblk V c 1 t) (iblk V c 0 t) (k0_pay1 (F := F)) := by
  obtain ⟨n, hn⟩ := t
  cases n with
  | zero => rfl
  | succ n => exact if_pos h0

theorem accAt_next (c : Dev nD) (t : Fin cfg0.N) (h0 : ¬t.val % 8 = 0) :
    accAt V c t.val t.isLt = accStep (grid0.coords t) (iblk V c 1 t) (iblk V c 0 t)
      (accAt V c (t.val - 1) (Nat.lt_of_le_of_lt (Nat.sub_le _ _) t.isLt)) := by
  obtain ⟨n, hn⟩ := t
  cases n with
  | zero => exact absurd (Nat.zero_mod 8) h0
  | succ n => exact if_neg h0

/-! ## The invariant -/

/-- The core's other scoped buffers (the other products' staging buffers and accumulators), each at some contents. -/
def restOf (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ (∃ f : Buf (Elt F) ((c : Thread nD τ).loc cc2_scratch0), ((c : Thread nD τ).loc cc2_scratch0) ↦{fullShare} f))

/-- What the launch hands the region, with the accumulator singled out. -/
theorem PhiA_open (c : Dev nD) :
    (Pipeline.ΦA spec0 c : sProp 𝕄) ⊢ iprop((∃ d, owns (c : Thread nD τ) scM fullShare d) ∗ restOf c ∗ (∃ r, prngReg c r)) := by
  unfold Pipeline.ΦA; rw [scopedRest0_eq]; unfold restOf
  simp only [scM, owns_whole]
  iintro ⟨⟨⟨%fS, BS⟩, B1, B2, B3, B4, B5, B6, B7, B8, B9, B10, B11, B12, B13, B14⟩, Hg⟩
  isplitl [BS]
  · iexists fS; iexact BS
  isplitr [Hg]
  ·
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    isplitl [B10]; · iexact B10
    isplitl [B11]; · iexact B11
    isplitl [B12]; · iexact B12
    isplitl [B13]; · iexact B13
    iexact B14
  iexact Hg

/-- And back: the accumulator's contents forgotten. -/
theorem PhiA_close (c : Dev nD) :
    iprop((∃ d, owns (c : Thread nD τ) scM fullShare d) ∗ restOf c ∗ (∃ r, prngReg c r)) ⊢ (Pipeline.ΦA spec0 c : sProp 𝕄) := by
  unfold Pipeline.ΦA; rw [scopedRest0_eq]; unfold restOf
  simp only [scM, owns_whole]
  iintro ⟨⟨%fS, BS⟩, ⟨B1, B2, B3, B4, B5, B6, B7, B8, B9, B10, B11, B12, B13, B14⟩, Hg⟩
  isplitr [Hg]
  ·
    isplitl [BS]; · iexists fS; iexact BS
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    isplitl [B10]; · iexact B10
    isplitl [B11]; · iexact B11
    isplitl [B12]; · iexact B12
    isplitl [B13]; · iexact B13
    iexact B14
  iexact Hg

/-- The region invariant before position `n`: before the first point what the launch hands over; afterwards the
    accumulator at what the point before left, the other scoped buffers at anything, the generator register at some state. -/
def PhiS (c : Dev nD) : (n : ℕ) → n ≤ cfg0.N → sProp 𝕄
  | 0, _ => Pipeline.ΦA spec0 c
  | n + 1, hn => iprop(owns (c : Thread nD τ) scM fullShare (accAt V c n hn) ∗ restOf c ∗ (∃ r, prngReg c r))

theorem PhiS_succ (c : Dev nD) (n : ℕ) (hn : n < cfg0.N) :
    PhiS V c (n + 1) hn = iprop(owns (c : Thread nD τ) scM fullShare (accAt V c n hn) ∗ restOf c ∗ (∃ r, prngReg c r)) := rfl

theorem PhiS_pos (c : Dev nD) (n : ℕ) (h : n ≤ cfg0.N) (hz : n ≠ 0) :
    PhiS V c n h = iprop(owns (c : Thread nD τ) scM fullShare (accAt V c (n - 1) (by omega)) ∗ restOf c ∗ (∃ r, prngReg c r)) := by
  cases n with
  | zero => exact absurd rfl hz
  | succ n => rfl

/-- At any position the invariant yields the accumulator at SOME contents. -/
theorem PhiS_any (c : Dev nD) (n : ℕ) (h : n ≤ cfg0.N) :
    PhiS V c n h ⊢ iprop((∃ d, owns (c : Thread nD τ) scM fullShare d) ∗ restOf c ∗ (∃ r, prngReg c r)) := by
  cases n with
  | zero => exact PhiA_open c
  | succ n =>
    rw [PhiS_succ]
    iintro ⟨HS, Hr, Hg⟩
    isplitl [HS]; · iexists _; iexact HS
    isplitl [Hr]; · iexact Hr
    iexact Hg

/-! ## The proof data -/

/-- After the body at point `t` each input's buffer holds its block, the output tile's the accumulator plus the bias row, rectified
    (consulted only where the tile is written back: at the last block of a row tile); nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => k0_pay3 (accAt V c t.val t.isLt) (iblk V c 2 t)
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]

theorem PhiS_castSucc (c : Dev nD) (t : Fin cfg0.N) :
    (dat V c).Φ t.castSucc = PhiS V c t.val (Nat.le_of_lt t.isLt) := by
  dsimp only [dat]; rfl

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = k0_pay3 (accAt V c t.val t.isLt) (iblk V c 2 t) := by dsimp only [dat]

theorem before_0 (c : Dev nD) (t : Fin cfg0.N) (d) : (dat V c).before 0 t d = iblk V c 0 t :=
  before_0_of V (dat V c) (A_eq V c 0) (after_0 V c) t d
theorem before_1 (c : Dev nD) (t : Fin cfg0.N) (d) : (dat V c).before 1 t d = iblk V c 1 t :=
  before_1_of V (dat V c) (A_eq V c 1) (after_1 V c) t d
theorem before_2 (c : Dev nD) (t : Fin cfg0.N) (d) : (dat V c).before 2 t d = iblk V c 2 t :=
  before_2_of V (dat V c) (A_eq V c 2) (after_2 V c) t d

end Cert.KernelIdeal.Reg0

end
-- ==== Proof.Reg1Step.lean ====
import proofs.«114411_j49589692399794_2_alg».proof.Proof.Gen.KernelIdeal.Launch
import proofs.«114411_j49589692399794_2_alg».proof.Proof.Gen.KernelIdeal.Skeleton
import proofs.«114411_j49589692399794_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.KernelIdeal.Reg1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The second product (P · h0): one grid point of the K-blocked matrix product

The grid is 16 row tiles by 8 blocks of the contracted axis, the block index running fastest.  At block 0 of a
row tile the accumulator is reset to zero; at every block it gains the product of the tile's 1024 × 2048 block
with the matching 2048 rows of the resident right operand; at block 7 the accumulator is copied to the output
tile. -/

/-- The origin of every whole-block access. -/
theorem hz2 : (![0, 0] : Fin 2 → ℕ) = fun _ => 0 := by funext a; fin_cases a <;> rfl

/-- "This is block 0 of the contracted axis", as the body computes it from the grid coordinates. -/
abbrev condFirst (i : grid1.Coords) : Prop :=
  (Scalar.cmpi .ne (Scalar.extui (Scalar.cmpi .eq (BitVec.ofNat 32 (i 1).val) 0#32)) 0#32) = 1#1
/-- It holds exactly at the points ≡ 0 (mod 8). -/
theorem hcondFirst : ∀ t : Fin cfg1.N, condFirst (grid1.coords t) ↔ t.val % 8 = 0 :=
  (by decide +kernel : ∀ t : Fin grid1.N, condFirst (grid1.coords t) ↔ t.val % 8 = 0)
/-- "This is block 7, the last". -/
abbrev condLast (i : grid1.Coords) : Prop := k1_cond2 i = 1#1
/-- It holds exactly at the points ≡ 7 (mod 8). -/
theorem hcondLast : ∀ t : Fin cfg1.N, condLast (grid1.coords t) ↔ t.val % 8 = 7 :=
  (by decide +kernel : ∀ t : Fin grid1.N, condLast (grid1.coords t) ↔ t.val % 8 = 7)

/-- The 2048 rows of the right operand that block `i 1` of the contracted axis meets. -/
abbrev rowsOf (i : grid1.Coords) : Rect S16384x128 :=
  Rect.unit (s := S16384x128) (k1_off1 i) S2048x128.size (k1_off1_inb i)
/-- The whole accumulator / output tile. -/
abbrev tile : Rect S1024x128 := Rect.unit (s := S1024x128) ![0, 0] S1024x128.size inb_S1024x128_S1024x128_0_0

/-- One block's step: the accumulator plus the product of the left block with the block's rows of the right
    operand. -/
def accStep (i : grid1.Coords) (w : Vec F S16384x128 .f32) (x : Vec F S1024x2048 .f32) (acc : Vec F S1024x128 .f32) :
    Vec F S1024x128 .f32 :=
  k1_pay2 (View.ld w (rowsOf i)) x acc

/-- A whole-tile store read back is its payload, whatever the buffer held. -/
theorem read_store_tile (v : View sig .tc .vmem S1024x128 .f32) (f : v.ty.Contents (Elt F)) (p : Vec F S1024x128 .f32) :
    v.read (Elt F) (v.writes (Elt F) f [⟨tile, p⟩]) = p := by
  rw [View.read_writes_eq_canon v f _ (View.cover_of_tiled [⟨tile, p⟩] S1024x128.size (by rfl))]
  exact View.canon_unit_zero hz2 _ p

/-- A whole-tile store over an earlier one read back is the later payload. -/
theorem read_store_tile₂ (v : View sig .tc .vmem S1024x128 .f32) (f : v.ty.Contents (Elt F)) (p p' : Vec F S1024x128 .f32) :
    v.read (Elt F) (v.writes (Elt F) f [⟨tile, p⟩, ⟨tile, p'⟩]) = p := by
  have hcov : ∀ y : S1024x128.Idx, ∃ q ∈ ([⟨tile, p⟩, ⟨tile, p'⟩] : List (View.Piece (Elt F) S1024x128 .f32)), y ∈ q.1.set := by
    intro y
    obtain ⟨q, hq, hy⟩ := View.cover_of_tiled [(⟨tile, p'⟩ : View.Piece (Elt F) S1024x128 .f32)] S1024x128.size (by rfl) y
    exact ⟨q, List.mem_cons_of_mem _ hq, hy⟩
  rw [View.read_writes_eq_canon v f _ hcov]
  exact View.canon_cons_unit_zero hz2 _ p _

set_option maxHeartbeats 1000000 in
/-- A block that is neither the first nor the last: the accumulator takes one step, everything else is as it was. -/
theorem run_mid (c : Dev nD) (i : grid1.Coords)
    (arg2 : Memref sig .tc .vmem S1024x2048 .f32) (harg2 : arg2.IsWhole) (arg3 : Memref sig .tc .vmem S16384x128 .f32) (harg3 : arg3.IsWhole)
    (arg4 : Memref sig .tc .vmem S1x128 .f32) (harg4 : arg4.IsWhole) (arg5 : Memref sig .tc .vmem S1024x128 .f32) (harg5 : arg5.IsWhole)
    (arg6 : Memref sig .tc .vmem S1024x128 .f32) (harg6 : arg6.IsWhole)
    (hc0 : ¬condFirst i) (hc1 : ¬condLast i)
    (x0 : Vec F S1024x2048 .f32) (x1 : Vec F S16384x128 .f32) (x2 : Vec F S1x128 .f32) (xo : Vec F S1024x128 .f32) (xs : Vec F S1024x128 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xo ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare xo ∗ owns (c : Thread nD τ) arg6 fullShare (accStep i x1 x0 xs)) -∗ K ⟨⟩))
      ⊢ wp frame (wpE (defs₀ (F := F)) Variants.none c none) E (cc1__matmul_kernel i arg2 harg2 arg3 harg3 arg4 harg4 arg5 harg5 arg6 harg6) K := by
  simp only [cc1__matmul_kernel_eq_skeleton]; unfold cc1__matmul_kernel_skel
  unfold owns
  iintro ⟨⟨%f0, %hf0, H0⟩, ⟨%f1, %hf1, H1⟩, ⟨%f2, %hf2, H2⟩, ⟨%fo, %hfo, HO⟩, ⟨%fs, %hfs, HS⟩, Hk⟩
  obtain rfl := harg2.eq_unread hf0; obtain rfl := harg3.eq_unread hf1; obtain rfl := harg4.eq_unread hf2
  obtain rfl := harg5.eq_unread hfo; obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [HO]
  · iexists _; isplitr; · ipureintro; exact harg5.read_unread _
    iexact HO
  iexists _; isplitr
  swap; · iexact HS
  ipureintro
  rw [read_store_tile]
  simp only [View.readAt_eq_ld, harg2.read_unread, harg3.read_unread, harg6.read_unread]
  unfold accStep
  rw [View.ld_unit_zero (S := S1024x2048) hz2, View.ld_unit_zero (S := S1024x128) hz2]

set_option maxHeartbeats 1000000 in
/-- Block 0 of a row tile: the accumulator, whatever it held, is reset to zero and takes the first step. -/
theorem run_first (c : Dev nD) (i : grid1.Coords)
    (arg2 : Memref sig .tc .vmem S1024x2048 .f32) (harg2 : arg2.IsWhole) (arg3 : Memref sig .tc .vmem S16384x128 .f32) (harg3 : arg3.IsWhole)
    (arg4 : Memref sig .tc .vmem S1x128 .f32) (harg4 : arg4.IsWhole) (arg5 : Memref sig .tc .vmem S1024x128 .f32) (harg5 : arg5.IsWhole)
    (arg6 : Memref sig .tc .vmem S1024x128 .f32) (harg6 : arg6.IsWhole)
    (hc0 : condFirst i) (hc1 : ¬condLast i)
    (x0 : Vec F S1024x2048 .f32) (x1 : Vec F S16384x128 .f32) (x2 : Vec F S1x128 .f32) (xo : Vec F S1024x128 .f32) (xs : Vec F S1024x128 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xo ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare xo ∗ owns (c : Thread nD τ) arg6 fullShare (accStep i x1 x0 (k1_pay1 (F := F)))) -∗ K ⟨⟩))
      ⊢ wp frame (wpE (defs₀ (F := F)) Variants.none c none) E (cc1__matmul_kernel i arg2 harg2 arg3 harg3 arg4 harg4 arg5 harg5 arg6 harg6) K := by
  simp only [cc1__matmul_kernel_eq_skeleton]; unfold cc1__matmul_kernel_skel
  unfold owns
  iintro ⟨⟨%f0, %hf0, H0⟩, ⟨%f1, %hf1, H1⟩, ⟨%f2, %hf2, H2⟩, ⟨%fo, %hfo, HO⟩, ⟨%fs, %hfs, HS⟩, Hk⟩
  obtain rfl := harg2.eq_unread hf0; obtain rfl := harg3.eq_unread hf1; obtain rfl := harg4.eq_unread hf2
  obtain rfl := harg5.eq_unread hfo; obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [HO]
  · iexists _; isplitr; · ipureintro; exact harg5.read_unread _
    iexact HO
  iexists _; isplitr
  swap; · iexact HS
  ipureintro
  sl_unfold_run_names
  rw [read_store_tile₂]
  simp only [View.readAt_eq_ld, harg2.read_unread, harg3.read_unread, harg6.read_unread]
  unfold accStep
  rw [View.ld_unit_zero (S := S1024x2048) hz2, View.readCov_unit_zero _ hz2]

set_option maxHeartbeats 1000000 in
/-- Block 7, the last: the accumulator takes its step and is copied to the output tile. -/
theorem run_last (c : Dev nD) (i : grid1.Coords)
    (arg2 : Memref sig .tc .vmem S1024x2048 .f32) (harg2 : arg2.IsWhole) (arg3 : Memref sig .tc .vmem S16384x128 .f32) (harg3 : arg3.IsWhole)
    (arg4 : Memref sig .tc .vmem S1x128 .f32) (harg4 : arg4.IsWhole) (arg5 : Memref sig .tc .vmem S1024x128 .f32) (harg5 : arg5.IsWhole)
    (arg6 : Memref sig .tc .vmem S1024x128 .f32) (harg6 : arg6.IsWhole)
    (hc0 : ¬condFirst i) (hc1 : condLast i)
    (x0 : Vec F S1024x2048 .f32) (x1 : Vec F S16384x128 .f32) (x2 : Vec F S1x128 .f32) (xo : Vec F S1024x128 .f32) (xs : Vec F S1024x128 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xo ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (accStep i x1 x0 xs) ∗ owns (c : Thread nD τ) arg6 fullShare (accStep i x1 x0 xs)) -∗ K ⟨⟩))
      ⊢ wp frame (wpE (defs₀ (F := F)) Variants.none c none) E (cc1__matmul_kernel i arg2 harg2 arg3 harg3 arg4 harg4 arg5 harg5 arg6 harg6) K := by
  simp only [cc1__matmul_kernel_eq_skeleton]; unfold cc1__matmul_kernel_skel
  unfold owns
  iintro ⟨⟨%f0, %hf0, H0⟩, ⟨%f1, %hf1, H1⟩, ⟨%f2, %hf2, H2⟩, ⟨%fo, %hfo, HO⟩, ⟨%fs, %hfs, HS⟩, Hk⟩
  obtain rfl := harg2.eq_unread hf0; obtain rfl := harg3.eq_unread hf1; obtain rfl := harg4.eq_unread hf2
  obtain rfl := harg5.eq_unread hfo; obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [HO]
  · iexists _; isplitr
    swap; · iexact HO
    ipureintro
    sl_unfold_run_names
    rw [read_store_tile, View.readCov_unit_zero _ hz2]
    simp only [View.readAt_eq_ld, harg2.read_unread, harg3.read_unread, harg6.read_unread]
    unfold accStep
    rw [View.ld_unit_zero (S := S1024x2048) hz2, View.ld_unit_zero (S := S1024x128) hz2]
  iexists _; isplitr
  swap; · iexact HS
  ipureintro
  sl_unfold_run_names
  rw [read_store_tile]
  simp only [View.readAt_eq_ld, harg2.read_unread, harg3.read_unread, harg6.read_unread]
  unfold accStep
  rw [View.ld_unit_zero (S := S1024x2048) hz2, View.ld_unit_zero (S := S1024x128) hz2]

end Cert.KernelIdeal.Reg1

end
-- ==== Proof.Reg1Dat.lean ====
import proofs.«114411_j49589692399794_2_alg».proof.Proof.Reg1Step

set_option maxRecDepth 16384

noncomputable section

namespace Cert.KernelIdeal.Reg1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The product as a region: what every buffer holds after each grid point

Stated at the contents `V` the TensorCore's buffers hold when the region is entered. -/

variable (V : (c : Dev nD) → (b : Ref sig .tc) → Buf (Elt F) ((c : Thread nD τ).loc b))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## Where the windows are idle -/

theorem liveAt_0 : ∀ t : Fin cfg1.N, cfg1.idle 0 (grid1.coords t) = false := by decide +kernel
theorem liveAt_1 : ∀ t : Fin cfg1.N, cfg1.idle 1 (grid1.coords t) = false := by decide +kernel
theorem liveAt_2 : ∀ t : Fin cfg1.N, cfg1.idle 2 (grid1.coords t) = false := by decide +kernel
/-- Before the last block of a row tile the output tile is idle and is not written back. -/
theorem idleAt_3 : ∀ t : Fin cfg1.N, ¬condLast (grid1.coords t) → cfg1.idle 3 (grid1.coords t) = true := by decide +kernel
theorem noFlush_3 : ∀ t : Fin cfg1.N, ¬condLast (grid1.coords t) → (cfg1.win 3).flush t = false := by decide +kernel
/-- At the last block it is live. -/
theorem liveAt_3 : ∀ t : Fin cfg1.N, condLast (grid1.coords t) → cfg1.idle 3 (grid1.coords t) = false := by decide +kernel

/-! ## The staging memrefs and the accumulator -/

abbrev ms_0 (t : Fin cfg1.N) : Memref sig .tc .vmem S1024x2048 .f32 := win1_0.stage (cfg1.slots t 0)
abbrev hs_0 (t : Fin cfg1.N) : (ms_0 t).IsWhole := hstage1_0 ((cfg1.slots t 0).cast nbuf1_0)
abbrev ms_1 (t : Fin cfg1.N) : Memref sig .tc .vmem S16384x128 .f32 := win1_1.stage (cfg1.slots t 1)
abbrev hs_1 (t : Fin cfg1.N) : (ms_1 t).IsWhole := hstage1_1 ((cfg1.slots t 1).cast nbuf1_1)
abbrev ms_2 (t : Fin cfg1.N) : Memref sig .tc .vmem S1x128 .f32 := win1_2.stage (cfg1.slots t 2)
abbrev hs_2 (t : Fin cfg1.N) : (ms_2 t).IsWhole := hstage1_2 ((cfg1.slots t 2).cast nbuf1_2)
abbrev ms_3 (t : Fin cfg1.N) : Memref sig .tc .vmem S1024x128 .f32 := win1_3.stage (cfg1.slots t 3)
abbrev hs_3 (t : Fin cfg1.N) : (ms_3 t).IsWhole := hstage1_3 ((cfg1.slots t 3).cast nbuf1_3)
/-- The accumulator: a whole scoped buffer of the kernel's own, carried from point to point. -/
abbrev scM : Memref sig .tc .vmem S1024x128 .f32 := Memref.whole cc1_scratch0

/-- THE ACCUMULATION. What the accumulator holds after the body at position `n`: at block 0 of a row tile one step
    from zero, at a later block one step from what the point before left. -/
def accAt (c : Dev nD) : (n : ℕ) → n < cfg1.N → Vec F S1024x128 .f32
  | 0, hn => accStep (grid1.coords ⟨0, hn⟩) (iblk V c 1 ⟨0, hn⟩) (iblk V c 0 ⟨0, hn⟩) (k1_pay1 (F := F))
  | n + 1, hn =>
    if (n + 1) % 8 = 0 then
      accStep (grid1.coords ⟨n + 1, hn⟩) (iblk V c 1 ⟨n + 1, hn⟩) (iblk V c 0 ⟨n + 1, hn⟩) (k1_pay1 (F := F))
    else
      accStep (grid1.coords ⟨n + 1, hn⟩) (iblk V c 1 ⟨n + 1, hn⟩) (iblk V c 0 ⟨n + 1, hn⟩) (accAt c n (Nat.lt_of_succ_lt hn))

theorem accAt_first (c : Dev nD) (t : Fin cfg1.N) (h0 : t.val % 8 = 0) :
    accAt V c t.val t.isLt = accStep (grid1.coords t) (iblk V c 1 t) (iblk V c 0 t) (k1_pay1 (F := F)) := by
  obtain ⟨n, hn⟩ := t
  cases n with
  | zero => rfl
  | succ n => exact if_pos h0

theorem accAt_next (c : Dev nD) (t : Fin cfg1.N) (h0 : ¬t.val % 8 = 0) :
    accAt V c t.val t.isLt = accStep (grid1.coords t) (iblk V c 1 t) (iblk V c 0 t)
      (accAt V c (t.val - 1) (Nat.lt_of_le_of_lt (Nat.sub_le _ _) t.isLt)) := by
  obtain ⟨n, hn⟩ := t
  cases n with
  | zero => exact absurd (Nat.zero_mod 8) h0
  | succ n => exact if_neg h0

/-! ## The invariant -/

/-- The core's other scoped buffers (the other products' staging buffers and accumulators), each at some contents. -/
def restOf (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ (∃ f : Buf (Elt F) ((c : Thread nD τ).loc cc2_scratch0), ((c : Thread nD τ).loc cc2_scratch0) ↦{fullShare} f))

/-- What the launch hands the region, with the accumulator singled out. -/
theorem PhiA_open (c : Dev nD) :
    (Pipeline.ΦA spec1 c : sProp 𝕄) ⊢ iprop((∃ d, owns (c : Thread nD τ) scM fullShare d) ∗ restOf c ∗ (∃ r, prngReg c r)) := by
  unfold Pipeline.ΦA; rw [scopedRest1_eq]; unfold restOf
  simp only [scM, owns_whole]
  iintro ⟨⟨B0, B1, B2, B3, B4, B5, B6, ⟨%fS, BS⟩, B8, B9, B10, B11, B12, B13, B14⟩, Hg⟩
  isplitl [BS]
  · iexists fS; iexact BS
  isplitr [Hg]
  ·
    isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B8]; · iexact B8
    isplitl [B9]; · iexact B9
    isplitl [B10]; · iexact B10
    isplitl [B11]; · iexact B11
    isplitl [B12]; · iexact B12
    isplitl [B13]; · iexact B13
    iexact B14
  iexact Hg

/-- And back: the accumulator's contents forgotten. -/
theorem PhiA_close (c : Dev nD) :
    iprop((∃ d, owns (c : Thread nD τ) scM fullShare d) ∗ restOf c ∗ (∃ r, prngReg c r)) ⊢ (Pipeline.ΦA spec1 c : sProp 𝕄) := by
  unfold Pipeline.ΦA; rw [scopedRest1_eq]; unfold restOf
  simp only [scM, owns_whole]
  iintro ⟨⟨%fS, BS⟩, ⟨B0, B1, B2, B3, B4, B5, B6, B8, B9, B10, B11, B12, B13, B14⟩, Hg⟩
  isplitr [Hg]
  ·
    isplitl [B0]; · iexact B0
    isplitl [B1]; · iexact B1
    isplitl [B2]; · iexact B2
    isplitl [B3]; · iexact B3
    isplitl [B4]; · iexact B4
    isplitl [B5]; · iexact B5
    isplitl [B6]; · iexact B6
    isplitl [BS]; · iexists fS; iexact BS
    isplitl [B8]; · iexact B8
    isplitl [B9]; · iexact B9
    isplitl [B10]; · iexact B10
    isplitl [B11]; · iexact B11
    isplitl [B12]; · iexact B12
    isplitl [B13]; · iexact B13
    iexact B14
  iexact Hg

/-- The region invariant before position `n`: before the first point what the launch hands over; afterwards the
    accumulator at what the point before left, the other scoped buffers at anything, the generator register at some state. -/
def PhiS (c : Dev nD) : (n : ℕ) → n ≤ cfg1.N → sProp 𝕄
  | 0, _ => Pipeline.ΦA spec1 c
  | n + 1, hn => iprop(owns (c : Thread nD τ) scM fullShare (accAt V c n hn) ∗ restOf c ∗ (∃ r, prngReg c r))

theorem PhiS_succ (c : Dev nD) (n : ℕ) (hn : n < cfg1.N) :
    PhiS V c (n + 1) hn = iprop(owns (c : Thread nD τ) scM fullShare (accAt V c n hn) ∗ restOf c ∗ (∃ r, prngReg c r)) := rfl

theorem PhiS_pos (c : Dev nD) (n : ℕ) (h : n ≤ cfg1.N) (hz : n ≠ 0) :
    PhiS V c n h = iprop(owns (c : Thread nD τ) scM fullShare (accAt V c (n - 1) (by omega)) ∗ restOf c ∗ (∃ r, prngReg c r)) := by
  cases n with
  | zero => exact absurd rfl hz
  | succ n => rfl

/-- At any position the invariant yields the accumulator at SOME contents. -/
theorem PhiS_any (c : Dev nD) (n : ℕ) (h : n ≤ cfg1.N) :
    PhiS V c n h ⊢ iprop((∃ d, owns (c : Thread nD τ) scM fullShare d) ∗ restOf c ∗ (∃ r, prngReg c r)) := by
  cases n with
  | zero => exact PhiA_open c
  | succ n =>
    rw [PhiS_succ]
    iintro ⟨HS, Hr, Hg⟩
    isplitl [HS]; · iexists _; iexact HS
    isplitl [Hr]; · iexact Hr
    iexact Hg

/-! ## The proof data -/

/-- After the body at point `t` each input's buffer holds its block, the output tile's what the accumulator holds
    (consulted only where the tile is written back: at the last block of a row tile); nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => accAt V c t.val t.isLt
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]

theorem PhiS_castSucc (c : Dev nD) (t : Fin cfg1.N) :
    (dat V c).Φ t.castSucc = PhiS V c t.val (Nat.le_of_lt t.isLt) := by
  dsimp only [dat]; rfl

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = accAt V c t.val t.isLt := by dsimp only [dat]

theorem before_0 (c : Dev nD) (t : Fin cfg1.N) (d) : (dat V c).before 0 t d = iblk V c 0 t :=
  before_0_of V (dat V c) (A_eq V c 0) (after_0 V c) t d
theorem before_1 (c : Dev nD) (t : Fin cfg1.N) (d) : (dat V c).before 1 t d = iblk V c 1 t :=
  before_1_of V (dat V c) (A_eq V c 1) (after_1 V c) t d
theorem before_2 (c : Dev nD) (t : Fin cfg1.N) (d) : (dat V c).before 2 t d = iblk V c 2 t :=
  before_2_of V (dat V c) (A_eq V c 2) (after_2 V c) t d

end Cert.KernelIdeal.Reg1

end
-- ==== Proof.Reg2Step.lean ====
import proofs.«114411_j49589692399794_2_alg».proof.Proof.Gen.KernelIdeal.Launch
import proofs.«114411_j49589692399794_2_alg».proof.Proof.Gen.KernelIdeal.Skeleton
import proofs.«114411_j49589692399794_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.KernelIdeal.Reg2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The third product (P · h1): one grid point of the K-blocked matrix product

The grid is 16 row tiles by 8 blocks of the contracted axis, the block index running fastest.  At block 0 of a
row tile the accumulator is reset to zero; at every block it gains the product of the tile's 1024 × 2048 block
with the matching 2048 rows of the resident right operand; at block 7 the accumulator is copied to the output
tile. -/

/-- The origin of every whole-block access. -/
theorem hz2 : (![0, 0] : Fin 2 → ℕ) = fun _ => 0 := by funext a; fin_cases a <;> rfl

/-- "This is block 0 of the contracted axis", as the body computes it from the grid coordinates. -/
abbrev condFirst (i : grid2.Coords) : Prop :=
  (Scalar.cmpi .ne (Scalar.extui (Scalar.cmpi .eq (BitVec.ofNat 32 (i 1).val) 0#32)) 0#32) = 1#1
/-- It holds exactly at the points ≡ 0 (mod 8). -/
theorem hcondFirst : ∀ t : Fin cfg2.N, condFirst (grid2.coords t) ↔ t.val % 8 = 0 :=
  (by decide +kernel : ∀ t : Fin grid2.N, condFirst (grid2.coords t) ↔ t.val % 8 = 0)
/-- "This is block 7, the last". -/
abbrev condLast (i : grid2.Coords) : Prop := k2_cond2 i = 1#1
/-- It holds exactly at the points ≡ 7 (mod 8). -/
theorem hcondLast : ∀ t : Fin cfg2.N, condLast (grid2.coords t) ↔ t.val % 8 = 7 :=
  (by decide +kernel : ∀ t : Fin grid2.N, condLast (grid2.coords t) ↔ t.val % 8 = 7)

/-- The 2048 rows of the right operand that block `i 1` of the contracted axis meets. -/
abbrev rowsOf (i : grid2.Coords) : Rect S16384x64 :=
  Rect.unit (s := S16384x64) (k2_off1 i) S2048x64.size (k2_off1_inb i)
/-- The whole accumulator / output tile. -/
abbrev tile : Rect S1024x64 := Rect.unit (s := S1024x64) ![0, 0] S1024x64.size inb_S1024x64_S1024x64_0_0

/-- One block's step: the accumulator plus the product of the left block with the block's rows of the right
    operand. -/
def accStep (i : grid2.Coords) (w : Vec F S16384x64 .f32) (x : Vec F S1024x2048 .f32) (acc : Vec F S1024x64 .f32) :
    Vec F S1024x64 .f32 :=
  k2_pay2 (View.ld w (rowsOf i)) x acc

/-- A whole-tile store read back is its payload, whatever the buffer held. -/
theorem read_store_tile (v : View sig .tc .vmem S1024x64 .f32) (f : v.ty.Contents (Elt F)) (p : Vec F S1024x64 .f32) :
    v.read (Elt F) (v.writes (Elt F) f [⟨tile, p⟩]) = p := by
  rw [View.read_writes_eq_canon v f _ (View.cover_of_tiled [⟨tile, p⟩] S1024x64.size (by rfl))]
  exact View.canon_unit_zero hz2 _ p

/-- A whole-tile store over an earlier one read back is the later payload. -/
theorem read_store_tile₂ (v : View sig .tc .vmem S1024x64 .f32) (f : v.ty.Contents (Elt F)) (p p' : Vec F S1024x64 .f32) :
    v.read (Elt F) (v.writes (Elt F) f [⟨tile, p⟩, ⟨tile, p'⟩]) = p := by
  have hcov : ∀ y : S1024x64.Idx, ∃ q ∈ ([⟨tile, p⟩, ⟨tile, p'⟩] : List (View.Piece (Elt F) S1024x64 .f32)), y ∈ q.1.set := by
    intro y
    obtain ⟨q, hq, hy⟩ := View.cover_of_tiled [(⟨tile, p'⟩ : View.Piece (Elt F) S1024x64 .f32)] S1024x64.size (by rfl) y
    exact ⟨q, List.mem_cons_of_mem _ hq, hy⟩
  rw [View.read_writes_eq_canon v f _ hcov]
  exact View.canon_cons_unit_zero hz2 _ p _

set_option maxHeartbeats 1000000 in
/-- A block that is neither the first nor the last: the accumulator takes one step, everything else is as it was. -/
theorem run_mid (c : Dev nD) (i : grid2.Coords)
    (arg2 : Memref sig .tc .vmem S1024x2048 .f32) (harg2 : arg2.IsWhole) (arg3 : Memref sig .tc .vmem S16384x64 .f32) (harg3 : arg3.IsWhole)
    (arg4 : Memref sig .tc .vmem S1x64 .f32) (harg4 : arg4.IsWhole) (arg5 : Memref sig .tc .vmem S1024x64 .f32) (harg5 : arg5.IsWhole)
    (arg6 : Memref sig .tc .vmem S1024x64 .f32) (harg6 : arg6.IsWhole)
    (hc0 : ¬condFirst i) (hc1 : ¬condLast i)
    (x0 : Vec F S1024x2048 .f32) (x1 : Vec F S16384x64 .f32) (x2 : Vec F S1x64 .f32) (xo : Vec F S1024x64 .f32) (xs : Vec F S1024x64 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xo ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare xo ∗ owns (c : Thread nD τ) arg6 fullShare (accStep i x1 x0 xs)) -∗ K ⟨⟩))
      ⊢ wp frame (wpE (defs₀ (F := F)) Variants.none c none) E (cc2__matmul_kernel i arg2 harg2 arg3 harg3 arg4 harg4 arg5 harg5 arg6 harg6) K := by
  simp only [cc2__matmul_kernel_eq_skeleton]; unfold cc2__matmul_kernel_skel
  unfold owns
  iintro ⟨⟨%f0, %hf0, H0⟩, ⟨%f1, %hf1, H1⟩, ⟨%f2, %hf2, H2⟩, ⟨%fo, %hfo, HO⟩, ⟨%fs, %hfs, HS⟩, Hk⟩
  obtain rfl := harg2.eq_unread hf0; obtain rfl := harg3.eq_unread hf1; obtain rfl := harg4.eq_unread hf2
  obtain rfl := harg5.eq_unread hfo; obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [HO]
  · iexists _; isplitr; · ipureintro; exact harg5.read_unread _
    iexact HO
  iexists _; isplitr
  swap; · iexact HS
  ipureintro
  rw [read_store_tile]
  simp only [View.readAt_eq_ld, harg2.read_unread, harg3.read_unread, harg6.read_unread]
  unfold accStep
  rw [View.ld_unit_zero (S := S1024x2048) hz2, View.ld_unit_zero (S := S1024x64) hz2]

set_option maxHeartbeats 1000000 in
/-- Block 0 of a row tile: the accumulator, whatever it held, is reset to zero and takes the first step. -/
theorem run_first (c : Dev nD) (i : grid2.Coords)
    (arg2 : Memref sig .tc .vmem S1024x2048 .f32) (harg2 : arg2.IsWhole) (arg3 : Memref sig .tc .vmem S16384x64 .f32) (harg3 : arg3.IsWhole)
    (arg4 : Memref sig .tc .vmem S1x64 .f32) (harg4 : arg4.IsWhole) (arg5 : Memref sig .tc .vmem S1024x64 .f32) (harg5 : arg5.IsWhole)
    (arg6 : Memref sig .tc .vmem S1024x64 .f32) (harg6 : arg6.IsWhole)
    (hc0 : condFirst i) (hc1 : ¬condLast i)
    (x0 : Vec F S1024x2048 .f32) (x1 : Vec F S16384x64 .f32) (x2 : Vec F S1x64 .f32) (xo : Vec F S1024x64 .f32) (xs : Vec F S1024x64 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xo ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare xo ∗ owns (c : Thread nD τ) arg6 fullShare (accStep i x1 x0 (k2_pay1 (F := F)))) -∗ K ⟨⟩))
      ⊢ wp frame (wpE (defs₀ (F := F)) Variants.none c none) E (cc2__matmul_kernel i arg2 harg2 arg3 harg3 arg4 harg4 arg5 harg5 arg6 harg6) K := by
  simp only [cc2__matmul_kernel_eq_skeleton]; unfold cc2__matmul_kernel_skel
  unfold owns
  iintro ⟨⟨%f0, %hf0, H0⟩, ⟨%f1, %hf1, H1⟩, ⟨%f2, %hf2, H2⟩, ⟨%fo, %hfo, HO⟩, ⟨%fs, %hfs, HS⟩, Hk⟩
  obtain rfl := harg2.eq_unread hf0; obtain rfl := harg3.eq_unread hf1; obtain rfl := harg4.eq_unread hf2
  obtain rfl := harg5.eq_unread hfo; obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [HO]
  · iexists _; isplitr; · ipureintro; exact harg5.read_unread _
    iexact HO
  iexists _; isplitr
  swap; · iexact HS
  ipureintro
  sl_unfold_run_names
  rw [read_store_tile₂]
  simp only [View.readAt_eq_ld, harg2.read_unread, harg3.read_unread, harg6.read_unread]
  unfold accStep
  rw [View.ld_unit_zero (S := S1024x2048) hz2, View.readCov_unit_zero _ hz2]

set_option maxHeartbeats 1000000 in
/-- Block 7, the last: the accumulator takes its step and is copied to the output tile. -/
theorem run_last (c : Dev nD) (i : grid2.Coords)
    (arg2 : Memref sig .tc .vmem S1024x2048 .f32) (harg2 : arg2.IsWhole) (arg3 : Memref sig .tc .vmem S16384x64 .f32) (harg3 : arg3.IsWhole)
    (arg4 : Memref sig .tc .vmem S1x64 .f32) (harg4 : arg4.IsWhole) (arg5 : Memref sig .tc .vmem S1024x64 .f32) (harg5 : arg5.IsWhole)
    (arg6 : Memref sig .tc .vmem S1024x64 .f32) (harg6 : arg6.IsWhole)
    (hc0 : ¬condFirst i) (hc1 : condLast i)
    (x0 : Vec F S1024x2048 .f32) (x1 : Vec F S16384x64 .f32) (x2 : Vec F S1x64 .f32) (xo : Vec F S1024x64 .f32) (xs : Vec F S1024x64 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xo ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (accStep i x1 x0 xs) ∗ owns (c : Thread nD τ) arg6 fullShare (accStep i x1 x0 xs)) -∗ K ⟨⟩))
      ⊢ wp frame (wpE (defs₀ (F := F)) Variants.none c none) E (cc2__matmul_kernel i arg2 harg2 arg3 harg3 arg4 harg4 arg5 harg5 arg6 harg6) K := by
  simp only [cc2__matmul_kernel_eq_skeleton]; unfold cc2__matmul_kernel_skel
  unfold owns
  iintro ⟨⟨%f0, %hf0, H0⟩, ⟨%f1, %hf1, H1⟩, ⟨%f2, %hf2, H2⟩, ⟨%fo, %hfo, HO⟩, ⟨%fs, %hfs, HS⟩, Hk⟩
  obtain rfl := harg2.eq_unread hf0; obtain rfl := harg3.eq_unread hf1; obtain rfl := harg4.eq_unread hf2
  obtain rfl := harg5.eq_unread hfo; obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [HO]
  · iexists _; isplitr
    swap; · iexact HO
    ipureintro
    sl_unfold_run_names
    rw [read_store_tile, View.readCov_unit_zero _ hz2]
    simp only [View.readAt_eq_ld, harg2.read_unread, harg3.read_unread, harg6.read_unread]
    unfold accStep
    rw [View.ld_unit_zero (S := S1024x2048) hz2, View.ld_unit_zero (S := S1024x64) hz2]
  iexists _; isplitr
  swap; · iexact HS
  ipureintro
  sl_unfold_run_names
  rw [read_store_tile]
  simp only [View.readAt_eq_ld, harg2.read_unread, harg3.read_unread, harg6.read_unread]
  unfold accStep
  rw [View.ld_unit_zero (S := S1024x2048) hz2, View.ld_unit_zero (S := S1024x64) hz2]

end Cert.KernelIdeal.Reg2

end
-- ==== Proof.Reg2Dat.lean ====
import proofs.«114411_j49589692399794_2_alg».proof.Proof.Reg2Step

set_option maxRecDepth 16384

noncomputable section

namespace Cert.KernelIdeal.Reg2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The product as a region: what every buffer holds after each grid point

Stated at the contents `V` the TensorCore's buffers hold when the region is entered. -/

variable (V : (c : Dev nD) → (b : Ref sig .tc) → Buf (Elt F) ((c : Thread nD τ).loc b))

/-- Window `w`'s block at point `t`, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not. -/
theorem before_0_of {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## Where the windows are idle -/

theorem liveAt_0 : ∀ t : Fin cfg2.N, cfg2.idle 0 (grid2.coords t) = false := by decide +kernel
theorem liveAt_1 : ∀ t : Fin cfg2.N, cfg2.idle 1 (grid2.coords t) = false := by decide +kernel
theorem liveAt_2 : ∀ t : Fin cfg2.N, cfg2.idle 2 (grid2.coords t) = false := by decide +kernel
/-- Before the last block of a row tile the output tile is idle and is not written back. -/
theorem idleAt_3 : ∀ t : Fin cfg2.N, ¬condLast (grid2.coords t) → cfg2.idle 3 (grid2.coords t) = true := by decide +kernel
theorem noFlush_3 : ∀ t : Fin cfg2.N, ¬condLast (grid2.coords t) → (cfg2.win 3).flush t = false := by decide +kernel
/-- At the last block it is live. -/
theorem liveAt_3 : ∀ t : Fin cfg2.N, condLast (grid2.coords t) → cfg2.idle 3 (grid2.coords t) = false := by decide +kernel

/-! ## The staging memrefs and the accumulator -/

abbrev ms_0 (t : Fin cfg2.N) : Memref sig .tc .vmem S1024x2048 .f32 := win2_0.stage (cfg2.slots t 0)
abbrev hs_0 (t : Fin cfg2.N) : (ms_0 t).IsWhole := hstage2_0 ((cfg2.slots t 0).cast nbuf2_0)
abbrev ms_1 (t : Fin cfg2.N) : Memref sig .tc .vmem S16384x64 .f32 := win2_1.stage (cfg2.slots t 1)
abbrev hs_1 (t : Fin cfg2.N) : (ms_1 t).IsWhole := hstage2_1 ((cfg2.slots t 1).cast nbuf2_1)
abbrev ms_2 (t : Fin cfg2.N) : Memref sig .tc .vmem S1x64 .f32 := win2_2.stage (cfg2.slots t 2)
abbrev hs_2 (t : Fin cfg2.N) : (ms_2 t).IsWhole := hstage2_2 ((cfg2.slots t 2).cast nbuf2_2)
abbrev ms_3 (t : Fin cfg2.N) : Memref sig .tc .vmem S1024x64 .f32 := win2_3.stage (cfg2.slots t 3)
abbrev hs_3 (t : Fin cfg2.N) : (ms_3 t).IsWhole := hstage2_3 ((cfg2.slots t 3).cast nbuf2_3)
/-- The accumulator: a whole scoped buffer of the kernel's own, carried from point to point. -/
abbrev scM : Memref sig .tc .vmem S1024x64 .f32 := Memref.whole cc2_scratch0

/-- THE ACCUMULATION. What the accumulator holds after the body at position `n`: at block 0 of a row tile one step
    from zero, at a later block one step from what the point before left. -/
def accAt (c : Dev nD) : (n : ℕ) → n < cfg2.N → Vec F S1024x64 .f32
  | 0, hn => accStep (grid2.coords ⟨0, hn⟩) (iblk V c 1 ⟨0, hn⟩) (iblk V c 0 ⟨0, hn⟩) (k2_pay1 (F := F))
  | n + 1, hn =>
    if (n + 1) % 8 = 0 then
      accStep (grid2.coords ⟨n + 1, hn⟩) (iblk V c 1 ⟨n + 1, hn⟩) (iblk V c 0 ⟨n + 1, hn⟩) (k2_pay1 (F := F))
    else
      accStep (grid2.coords ⟨n + 1, hn⟩) (iblk V c 1 ⟨n + 1, hn⟩) (iblk V c 0 ⟨n + 1, hn⟩) (accAt c n (Nat.lt_of_succ_lt hn))

theorem accAt_first (c : Dev nD) (t : Fin cfg2.N) (h0 : t.val % 8 = 0) :
    accAt V c t.val t.isLt = accStep (grid2.coords t) (iblk V c 1 t) (iblk V c 0 t) (k2_pay1 (F := F)) := by
  obtain ⟨n, hn⟩ := t
  cases n with
  | zero => rfl
  | succ n => exact if_pos h0

theorem accAt_next (c : Dev nD) (t : Fin cfg2.N) (h0 : ¬t.val % 8 = 0) :
    accAt V c t.val t.isLt = accStep (grid2.coords t) (iblk V c 1 t) (iblk V c 0 t)
      (accAt V c (t.val - 1) (Nat.lt_of_le_of_lt (Nat.sub_le _ _) t.isLt)) := by
  obtain ⟨n, hn⟩ := t
  cases n with
  | zero => exact absurd (Nat.zero_mod 8) h0
  | succ n => exact if_neg h0

/-! ## The invariant -/

/-- The core's other scoped buffers (the other products' staging buffers and accumulators), each at some contents. -/
def restOf (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f))

/-- What the launch hands the region, with the accumulator singled out. -/
theorem PhiA_open (c : Dev nD) :
    (Pipeline.ΦA spec2 c : sProp 𝕄) ⊢ iprop((∃ d, owns (c : Thread nD τ) scM fullShare d) ∗ restOf c ∗ (∃ r, prngReg c r)) := by
  unfold Pipeline.ΦA; rw [scopedRest2_eq]; unfold restOf
  simp only [scM, owns_whole]
  iintro ⟨⟨B0, B1, B2, B3, B4, B5, B6, B7, B8, B9, B10, B11, B12, B13, ⟨%fS, BS⟩⟩, Hg⟩
  isplitl [BS]
  · iexists fS; iexact BS
  isplitr [Hg]
  ·
    isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    isplitl [B10]; · iexact B10
    isplitl [B11]; · iexact B11
    isplitl [B12]; · iexact B12
    iexact B13
  iexact Hg

/-- And back: the accumulator's contents forgotten. -/
theorem PhiA_close (c : Dev nD) :
    iprop((∃ d, owns (c : Thread nD τ) scM fullShare d) ∗ restOf c ∗ (∃ r, prngReg c r)) ⊢ (Pipeline.ΦA spec2 c : sProp 𝕄) := by
  unfold Pipeline.ΦA; rw [scopedRest2_eq]; unfold restOf
  simp only [scM, owns_whole]
  iintro ⟨⟨%fS, BS⟩, ⟨B0, B1, B2, B3, B4, B5, B6, B7, B8, B9, B10, B11, B12, B13⟩, Hg⟩
  isplitr [Hg]
  ·
    isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    isplitl [B10]; · iexact B10
    isplitl [B11]; · iexact B11
    isplitl [B12]; · iexact B12
    isplitl [B13]; · iexact B13
    iexists fS; iexact BS
  iexact Hg

/-- The region invariant before position `n`: before the first point what the launch hands over; afterwards the
    accumulator at what the point before left, the other scoped buffers at anything, the generator register at some state. -/
def PhiS (c : Dev nD) : (n : ℕ) → n ≤ cfg2.N → sProp 𝕄
  | 0, _ => Pipeline.ΦA spec2 c
  | n + 1, hn => iprop(owns (c : Thread nD τ) scM fullShare (accAt V c n hn) ∗ restOf c ∗ (∃ r, prngReg c r))

theorem PhiS_succ (c : Dev nD) (n : ℕ) (hn : n < cfg2.N) :
    PhiS V c (n + 1) hn = iprop(owns (c : Thread nD τ) scM fullShare (accAt V c n hn) ∗ restOf c ∗ (∃ r, prngReg c r)) := rfl

theorem PhiS_pos (c : Dev nD) (n : ℕ) (h : n ≤ cfg2.N) (hz : n ≠ 0) :
    PhiS V c n h = iprop(owns (c : Thread nD τ) scM fullShare (accAt V c (n - 1) (by omega)) ∗ restOf c ∗ (∃ r, prngReg c r)) := by
  cases n with
  | zero => exact absurd rfl hz
  | succ n => rfl

/-- At any position the invariant yields the accumulator at SOME contents. -/
theorem PhiS_any (c : Dev nD) (n : ℕ) (h : n ≤ cfg2.N) :
    PhiS V c n h ⊢ iprop((∃ d, owns (c : Thread nD τ) scM fullShare d) ∗ restOf c ∗ (∃ r, prngReg c r)) := by
  cases n with
  | zero => exact PhiA_open c
  | succ n =>
    rw [PhiS_succ]
    iintro ⟨HS, Hr, Hg⟩
    isplitl [HS]; · iexists _; iexact HS
    isplitl [Hr]; · iexact Hr
    iexact Hg

/-! ## The proof data -/

/-- After the body at point `t` each input's buffer holds its block, the output tile's what the accumulator holds
    (consulted only where the tile is written back: at the last block of a row tile); nothing owed; full shares. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => accAt V c t.val t.isLt
  Φ t := PhiS V c t.val (Nat.le_of_lt_succ t.isLt)
  q _ := fullShare
  owed _ := 0

theorem A_eq (c : Dev nD) (w : Fin cfg2.W) : (dat V c).A w = V c (Pipeline.arrRef spec2 w) := by
  dsimp only [dat]

theorem PhiS_castSucc (c : Dev nD) (t : Fin cfg2.N) :
    (dat V c).Φ t.castSucc = PhiS V c t.val (Nat.le_of_lt t.isLt) := by
  dsimp only [dat]; rfl

theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = iblk V c 2 t := by dsimp only [dat]
theorem after_3 (c : Dev nD) (t : Fin cfg2.N) : (dat V c).after 3 t = accAt V c t.val t.isLt := by dsimp only [dat]

theorem before_0 (c : Dev nD) (t : Fin cfg2.N) (d) : (dat V c).before 0 t d = iblk V c 0 t :=
  before_0_of V (dat V c) (A_eq V c 0) (after_0 V c) t d
theorem before_1 (c : Dev nD) (t : Fin cfg2.N) (d) : (dat V c).before 1 t d = iblk V c 1 t :=
  before_1_of V (dat V c) (A_eq V c 1) (after_1 V c) t d
theorem before_2 (c : Dev nD) (t : Fin cfg2.N) (d) : (dat V c).before 2 t d = iblk V c 2 t :=
  before_2_of V (dat V c) (A_eq V c 2) (after_2 V c) t d

end Cert.KernelIdeal.Reg2

end
-- ==== Proof.KRunFold.lean ====
import proofs.«114411_j49589692399794_2_alg».proof.Proof.KRunWrites
import proofs.«114411_j49589692399794_2_alg».proof.Proof.Reg0Dat
import proofs.«114411_j49589692399794_2_alg».proof.Proof.Reg1Dat
import proofs.«114411_j49589692399794_2_alg».proof.Proof.Reg2Dat
import Idealize.ShloMosaic.Lib.Pipeline.RegionsLoop
import Idealize.ShloMosaic.Lib.Pipeline.FrameSuffix

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # What the core's buffers hold between the pieces of @main

@main is fourteen pieces in order: eleven stretches of host operations and the three products. The contents of
the core's buffers after each piece are a fold from the launch memory: a stretch of host operations applies its
operations in order; a product leaves its four arrays at what its write-backs make of them (the three inputs as they
were, the output tile by tile) and every other buffer as it was. `Wfin` is the end of the fold: the named contents
every result of the program is read from. -/

/-- Core `c`'s buffers at launch. -/
abbrev W0 : Dev nD → Valuation τ sig (Elt F) := fun c b => (s₀ m ρ).mem ((c : Dev nD), b)
/-- After the stretch `main_part0_ops0`. -/
abbrev W1 : Dev nD → Valuation τ sig (Elt F) := fun c => StableHlo.after main_part0_ops0 (W0 m ρ c)
/-- After the stretch `main_part0_ops1`. -/
abbrev W2 : Dev nD → Valuation τ sig (Elt F) := fun c => StableHlo.after main_part0_ops1 (W1 m ρ c)
/-- After the stretch `main_part0_ops2`. -/
abbrev W3 : Dev nD → Valuation τ sig (Elt F) := fun c => StableHlo.after main_part0_ops2 (W2 m ρ c)
/-- After the stretch `main_part1_ops0`. -/
abbrev W4 : Dev nD → Valuation τ sig (Elt F) := fun c => StableHlo.after main_part1_ops0 (W3 m ρ c)
/-- The same read at the TensorCore's references: what product 0 is entered from. -/
abbrev V4 : (c : Dev nD) → (b : Ref sig .tc) → Buf (Elt F) ((c : Thread nD τ).loc b) := fun c b => W4 m ρ c b
/-- After product 0: its arrays at what the grid's write-backs leave, every other buffer as entered. -/
def W5 (c : Dev nD) : Valuation τ sig (Elt F) :=
  Pipeline.withArrays spec0 c (W4 m ρ c) fun w => (Reg0.dat (V4 m ρ) c).arrAt w cfg0.N
theorem W5_arr (c : Dev nD) (w : Fin cfg0.W) :
    W5 m ρ c (Proc.devRef .tc (Pipeline.arrRef spec0 w)) = (Reg0.dat (V4 m ρ) c).arrAt w cfg0.N := by
  unfold W5; exact Pipeline.withArrays_arr spec0 launch0.win.arr_inj c _ _ w
theorem W5_of_ne (c : Dev nD) (b : Ref sig .tc) (hb : ∀ w, Pipeline.arrRef spec0 w ≠ b) :
    W5 m ρ c (Proc.devRef .tc b) = W4 m ρ c (Proc.devRef .tc b) := by
  unfold W5; exact Pipeline.withArrays_of_ne spec0 c _ _ b hb
/-- An input array of product 0 is as entered. -/
theorem W5_in (c : Dev nD) (w : Fin cfg0.W) (hin : (cfg0.win w).isOut = false) :
    W5 m ρ c (Proc.devRef .tc (Pipeline.arrRef spec0 w)) = W4 m ρ c (Proc.devRef .tc (Pipeline.arrRef spec0 w)) :=
  (W5_arr m ρ c w).trans (((Reg0.dat (V4 m ρ) c).arrAt_in w hin _).trans (Reg0.A_eq (V4 m ρ) c w))
/-- The same read at the TensorCore's references: what product 0 leaves. -/
abbrev V5 : (c : Dev nD) → (b : Ref sig .tc) → Buf (Elt F) ((c : Thread nD τ).loc b) := fun c b => W5 m ρ c b
/-- At product 0's exit each of its arrays holds what the grid leaves and every other buffer what it held at entry. -/
theorem hF0 (c : Dev nD) (w : Fin cfg0.W) : (Reg0.dat (V4 m ρ) c).arrAt w cfg0.N = V5 m ρ c (Pipeline.arrRef spec0 w) :=
  (W5_arr m ρ c w).symm
theorem hrest0 (c : Dev nD) : ∀ b, b ∉ Finset.univ.image (Pipeline.arrRef spec0) → V5 m ρ c b = V4 m ρ c b :=
  fun b hb => W5_of_ne m ρ c b fun w e => hb (Finset.mem_image.mpr ⟨w, Finset.mem_univ _, e⟩)
/-- After the stretch `main_part1_ops1`. -/
abbrev W6 : Dev nD → Valuation τ sig (Elt F) := fun c => StableHlo.after main_part1_ops1 (W5 m ρ c)
/-- The same read at the TensorCore's references: what product 1 is entered from. -/
abbrev V6 : (c : Dev nD) → (b : Ref sig .tc) → Buf (Elt F) ((c : Thread nD τ).loc b) := fun c b => W6 m ρ c b
/-- After product 1: its arrays at what the grid's write-backs leave, every other buffer as entered. -/
def W7 (c : Dev nD) : Valuation τ sig (Elt F) :=
  Pipeline.withArrays spec1 c (W6 m ρ c) fun w => (Reg1.dat (V6 m ρ) c).arrAt w cfg1.N
theorem W7_arr (c : Dev nD) (w : Fin cfg1.W) :
    W7 m ρ c (Proc.devRef .tc (Pipeline.arrRef spec1 w)) = (Reg1.dat (V6 m ρ) c).arrAt w cfg1.N := by
  unfold W7; exact Pipeline.withArrays_arr spec1 launch1.win.arr_inj c _ _ w
theorem W7_of_ne (c : Dev nD) (b : Ref sig .tc) (hb : ∀ w, Pipeline.arrRef spec1 w ≠ b) :
    W7 m ρ c (Proc.devRef .tc b) = W6 m ρ c (Proc.devRef .tc b) := by
  unfold W7; exact Pipeline.withArrays_of_ne spec1 c _ _ b hb
/-- An input array of product 1 is as entered. -/
theorem W7_in (c : Dev nD) (w : Fin cfg1.W) (hin : (cfg1.win w).isOut = false) :
    W7 m ρ c (Proc.devRef .tc (Pipeline.arrRef spec1 w)) = W6 m ρ c (Proc.devRef .tc (Pipeline.arrRef spec1 w)) :=
  (W7_arr m ρ c w).trans (((Reg1.dat (V6 m ρ) c).arrAt_in w hin _).trans (Reg1.A_eq (V6 m ρ) c w))
/-- The same read at the TensorCore's references: what product 1 leaves. -/
abbrev V7 : (c : Dev nD) → (b : Ref sig .tc) → Buf (Elt F) ((c : Thread nD τ).loc b) := fun c b => W7 m ρ c b
/-- At product 1's exit each of its arrays holds what the grid leaves and every other buffer what it held at entry. -/
theorem hF1 (c : Dev nD) (w : Fin cfg1.W) : (Reg1.dat (V6 m ρ) c).arrAt w cfg1.N = V7 m ρ c (Pipeline.arrRef spec1 w) :=
  (W7_arr m ρ c w).symm
theorem hrest1 (c : Dev nD) : ∀ b, b ∉ Finset.univ.image (Pipeline.arrRef spec1) → V7 m ρ c b = V6 m ρ c b :=
  fun b hb => W7_of_ne m ρ c b fun w e => hb (Finset.mem_image.mpr ⟨w, Finset.mem_univ _, e⟩)
/-- After the stretch `main_part1_ops2`. -/
abbrev W8 : Dev nD → Valuation τ sig (Elt F) := fun c => StableHlo.after main_part1_ops2 (W7 m ρ c)
/-- After the stretch `main_part1_ops3`. -/
abbrev W9 : Dev nD → Valuation τ sig (Elt F) := fun c => StableHlo.after main_part1_ops3 (W8 m ρ c)
/-- After the stretch `main_part1_ops4`. -/
abbrev W10 : Dev nD → Valuation τ sig (Elt F) := fun c => StableHlo.after main_part1_ops4 (W9 m ρ c)
/-- The same read at the TensorCore's references: what product 2 is entered from. -/
abbrev V10 : (c : Dev nD) → (b : Ref sig .tc) → Buf (Elt F) ((c : Thread nD τ).loc b) := fun c b => W10 m ρ c b
/-- After product 2: its arrays at what the grid's write-backs leave, every other buffer as entered. -/
def W11 (c : Dev nD) : Valuation τ sig (Elt F) :=
  Pipeline.withArrays spec2 c (W10 m ρ c) fun w => (Reg2.dat (V10 m ρ) c).arrAt w cfg2.N
theorem W11_arr (c : Dev nD) (w : Fin cfg2.W) :
    W11 m ρ c (Proc.devRef .tc (Pipeline.arrRef spec2 w)) = (Reg2.dat (V10 m ρ) c).arrAt w cfg2.N := by
  unfold W11; exact Pipeline.withArrays_arr spec2 launch2.win.arr_inj c _ _ w
theorem W11_of_ne (c : Dev nD) (b : Ref sig .tc) (hb : ∀ w, Pipeline.arrRef spec2 w ≠ b) :
    W11 m ρ c (Proc.devRef .tc b) = W10 m ρ c (Proc.devRef .tc b) := by
  unfold W11; exact Pipeline.withArrays_of_ne spec2 c _ _ b hb
/-- An input array of product 2 is as entered. -/
theorem W11_in (c : Dev nD) (w : Fin cfg2.W) (hin : (cfg2.win w).isOut = false) :
    W11 m ρ c (Proc.devRef .tc (Pipeline.arrRef spec2 w)) = W10 m ρ c (Proc.devRef .tc (Pipeline.arrRef spec2 w)) :=
  (W11_arr m ρ c w).trans (((Reg2.dat (V10 m ρ) c).arrAt_in w hin _).trans (Reg2.A_eq (V10 m ρ) c w))
/-- The same read at the TensorCore's references: what product 2 leaves. -/
abbrev V11 : (c : Dev nD) → (b : Ref sig .tc) → Buf (Elt F) ((c : Thread nD τ).loc b) := fun c b => W11 m ρ c b
/-- At product 2's exit each of its arrays holds what the grid leaves and every other buffer what it held at entry. -/
theorem hF2 (c : Dev nD) (w : Fin cfg2.W) : (Reg2.dat (V10 m ρ) c).arrAt w cfg2.N = V11 m ρ c (Pipeline.arrRef spec2 w) :=
  (W11_arr m ρ c w).symm
theorem hrest2 (c : Dev nD) : ∀ b, b ∉ Finset.univ.image (Pipeline.arrRef spec2) → V11 m ρ c b = V10 m ρ c b :=
  fun b hb => W11_of_ne m ρ c b fun w e => hb (Finset.mem_image.mpr ⟨w, Finset.mem_univ _, e⟩)
/-- After the stretch `main_part1_ops5`. -/
abbrev W12 : Dev nD → Valuation τ sig (Elt F) := fun c => StableHlo.after main_part1_ops5 (W11 m ρ c)
/-- After the stretch `main_part2_ops0`. -/
abbrev W13 : Dev nD → Valuation τ sig (Elt F) := fun c => StableHlo.after main_part2_ops0 (W12 m ρ c)
/-- After the stretch `main_part3_ops0`. -/
abbrev W14 : Dev nD → Valuation τ sig (Elt F) := fun c => StableHlo.after main_part3_ops0 (W13 m ρ c)
/-- The contents at the end of @main. -/
abbrev Wfin : Dev nD → Valuation τ sig (Elt F) := W14 m ρ

end Cert.KernelIdeal.Run

end
-- ==== Proof.KRunArgs.lean ====
import proofs.«114411_j49589692399794_2_alg».proof.Proof.KRunFold

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ) (ρ : Dev nD → PrngReg)

/-! # The arguments end as launched

No host operation writes an argument array, and no product writes one: the only arguments a product touches are the
two operands of the first product, which it reads through input windows. So the fold, read at an argument's
buffer, walks back to the launch memory. -/

/-- From the launch to the first product's entry: a buffer none of the first four stretches writes. -/
theorem W4_keeps (c : Dev nD) (r : Ref sig .tc)
    (h1 : r ∉ main_part0_ops0_W) (h2 : r ∉ main_part0_ops1_W) (h3 : r ∉ main_part0_ops2_W) (h4 : r ∉ main_part1_ops0_W) :
    W4 m ρ c (Proc.devRef .tc r) = m ((c : Thread nD τ).loc r) :=
  calc W4 m ρ c (Proc.devRef .tc r)
    _ = W3 m ρ c (Proc.devRef .tc r) := main_part1_ops0_keeps _ r h4
    _ = W2 m ρ c (Proc.devRef .tc r) := main_part0_ops2_keeps _ r h3
    _ = W1 m ρ c (Proc.devRef .tc r) := main_part0_ops1_keeps _ r h2
    _ = W0 m ρ c (Proc.devRef .tc r) := main_part0_ops0_keeps _ r h1
    _ = m ((c : Thread nD τ).loc r) := rfl

/-- From the first product's exit to the end: a buffer none of the later stretches writes and that is no array of
    the second or third product. -/
theorem Wfin_keeps (c : Dev nD) (r : Ref sig .tc)
    (h6 : r ∉ main_part1_ops1_W) (h8 : r ∉ main_part1_ops2_W) (h9 : r ∉ main_part1_ops3_W) (h10 : r ∉ main_part1_ops4_W)
    (h12 : r ∉ main_part1_ops5_W) (h13 : r ∉ main_part2_ops0_W) (h14 : r ∉ main_part3_ops0_W)
    (a1 : ∀ w, Pipeline.arrRef spec1 w ≠ r) (a2 : ∀ w, Pipeline.arrRef spec2 w ≠ r) :
    Wfin m ρ c (Proc.devRef .tc r) = W5 m ρ c (Proc.devRef .tc r) :=
  calc Wfin m ρ c (Proc.devRef .tc r)
    _ = W13 m ρ c (Proc.devRef .tc r) := main_part3_ops0_keeps _ r h14
    _ = W12 m ρ c (Proc.devRef .tc r) := main_part2_ops0_keeps _ r h13
    _ = W11 m ρ c (Proc.devRef .tc r) := main_part1_ops5_keeps _ r h12
    _ = W10 m ρ c (Proc.devRef .tc r) := W11_of_ne m ρ c r a2
    _ = W9 m ρ c (Proc.devRef .tc r) := main_part1_ops4_keeps _ r h10
    _ = W8 m ρ c (Proc.devRef .tc r) := main_part1_ops3_keeps _ r h9
    _ = W7 m ρ c (Proc.devRef .tc r) := main_part1_ops2_keeps _ r h8
    _ = W6 m ρ c (Proc.devRef .tc r) := W7_of_ne m ρ c r a1
    _ = W5 m ρ c (Proc.devRef .tc r) := main_part1_ops1_keeps _ r h6

/-- A buffer nothing writes and no product has among its arrays ends as launched. -/
theorem Wfin_untouched (c : Dev nD) (r : Ref sig .tc)
    (h1 : r ∉ main_part0_ops0_W) (h2 : r ∉ main_part0_ops1_W) (h3 : r ∉ main_part0_ops2_W) (h4 : r ∉ main_part1_ops0_W)
    (h6 : r ∉ main_part1_ops1_W) (h8 : r ∉ main_part1_ops2_W) (h9 : r ∉ main_part1_ops3_W) (h10 : r ∉ main_part1_ops4_W)
    (h12 : r ∉ main_part1_ops5_W) (h13 : r ∉ main_part2_ops0_W) (h14 : r ∉ main_part3_ops0_W)
    (a0 : ∀ w, Pipeline.arrRef spec0 w ≠ r) (a1 : ∀ w, Pipeline.arrRef spec1 w ≠ r) (a2 : ∀ w, Pipeline.arrRef spec2 w ≠ r) :
    Wfin m ρ c (Proc.devRef .tc r) = m ((c : Thread nD τ).loc r) :=
  (Wfin_keeps m ρ c r h6 h8 h9 h10 h12 h13 h14 a1 a2).trans
    ((W5_of_ne m ρ c r a0).trans (W4_keeps m ρ c r h1 h2 h3 h4))

/-- The first product's left operand: read through an input window, never written. -/
theorem Wfin_main_arg0 (c : Dev nD) : Wfin m ρ c (Proc.devRef .tc main_arg0) = m ((c : Thread nD τ).loc main_arg0) :=
  (Wfin_keeps m ρ c main_arg0 (by decide) (by decide) (by decide) (by decide) (by decide) (by decide) (by decide) (by decide) (by decide)).trans
    ((W5_in m ρ c 0 rfl).trans (W4_keeps m ρ c main_arg0 (by decide) (by decide) (by decide) (by decide)))

/-- The first product's right operand: read through an input window, never written. -/
theorem Wfin_main_arg1 (c : Dev nD) : Wfin m ρ c (Proc.devRef .tc main_arg1) = m ((c : Thread nD τ).loc main_arg1) :=
  (Wfin_keeps m ρ c main_arg1 (by decide) (by decide) (by decide) (by decide) (by decide) (by decide) (by decide) (by decide) (by decide)).trans
    ((W5_in m ρ c 1 rfl).trans (W4_keeps m ρ c main_arg1 (by decide) (by decide) (by decide) (by decide)))

theorem Wfin_main_arg2 (c : Dev nD) : Wfin m ρ c (Proc.devRef .tc main_arg2) = m ((c : Thread nD τ).loc main_arg2) :=
  Wfin_untouched m ρ c main_arg2 (by decide) (by decide) (by decide) (by decide) (by decide) (by decide) (by decide) (by decide) (by decide) (by decide) (by decide) (by decide) (by decide) (by decide)

theorem Wfin_main_arg3 (c : Dev nD) : Wfin m ρ c (Proc.devRef .tc main_arg3) = m ((c : Thread nD τ).loc main_arg3) :=
  Wfin_untouched m ρ c main_arg3 (by decide) (by decide) (by decide) (by decide) (by decide) (by decide) (by decide) (by decide) (by decide) (by decide) (by decide) (by decide) (by decide) (by decide)

theorem Wfin_main_arg4 (c : Dev nD) : Wfin m ρ c (Proc.devRef .tc main_arg4) = m ((c : Thread nD τ).loc main_arg4) :=
  Wfin_untouched m ρ c main_arg4 (by decide) (by decide) (by decide) (by decide) (by decide) (by decide) (by decide) (by decide) (by decide) (by decide) (by decide) (by decide) (by decide) (by decide)

theorem Wfin_main_arg5 (c : Dev nD) : Wfin m ρ c (Proc.devRef .tc main_arg5) = m ((c : Thread nD τ).loc main_arg5) :=
  Wfin_untouched m ρ c main_arg5 (by decide) (by decide) (by decide) (by decide) (by decide) (by decide) (by decide) (by decide) (by decide) (by decide) (by decide) (by decide) (by decide) (by decide)

theorem Wfin_main_arg6 (c : Dev nD) : Wfin m ρ c (Proc.devRef .tc main_arg6) = m ((c : Thread nD τ).loc main_arg6) :=
  Wfin_untouched m ρ c main_arg6 (by decide) (by decide) (by decide) (by decide) (by decide) (by decide) (by decide) (by decide) (by decide) (by decide) (by decide) (by decide) (by decide) (by decide)

theorem Wfin_main_arg7 (c : Dev nD) : Wfin m ρ c (Proc.devRef .tc main_arg7) = m ((c : Thread nD τ).loc main_arg7) :=
  Wfin_untouched m ρ c main_arg7 (by decide) (by decide) (by decide) (by decide) (by decide) (by decide) (by decide) (by decide) (by decide) (by decide) (by decide) (by decide) (by decide) (by decide)

theorem Wfin_main_arg8 (c : Dev nD) : Wfin m ρ c (Proc.devRef .tc main_arg8) = m ((c : Thread nD τ).loc main_arg8) :=
  Wfin_untouched m ρ c main_arg8 (by decide) (by decide) (by decide) (by decide) (by decide) (by decide) (by decide) (by decide) (by decide) (by decide) (by decide) (by decide) (by decide) (by decide)

theorem Wfin_main_arg9 (c : Dev nD) : Wfin m ρ c (Proc.devRef .tc main_arg9) = m ((c : Thread nD τ).loc main_arg9) :=
  Wfin_untouched m ρ c main_arg9 (by decide) (by decide) (by decide) (by decide) (by decide) (by decide) (by decide) (by decide) (by decide) (by decide) (by decide) (by decide) (by decide) (by decide)

theorem Wfin_main_arg10 (c : Dev nD) : Wfin m ρ c (Proc.devRef .tc main_arg10) = m ((c : Thread nD τ).loc main_arg10) :=
  Wfin_untouched m ρ c main_arg10 (by decide) (by decide) (by decide) (by decide) (by decide) (by decide) (by decide) (by decide) (by decide) (by decide) (by decide) (by decide) (by decide) (by decide)

theorem Wfin_main_arg11 (c : Dev nD) : Wfin m ρ c (Proc.devRef .tc main_arg11) = m ((c : Thread nD τ).loc main_arg11) :=
  Wfin_untouched m ρ c main_arg11 (by decide) (by decide) (by decide) (by decide) (by decide) (by decide) (by decide) (by decide) (by decide) (by decide) (by decide) (by decide) (by decide) (by decide)

theorem Wfin_main_arg12 (c : Dev nD) : Wfin m ρ c (Proc.devRef .tc main_arg12) = m ((c : Thread nD τ).loc main_arg12) :=
  Wfin_untouched m ρ c main_arg12 (by decide) (by decide) (by decide) (by decide) (by decide) (by decide) (by decide) (by decide) (by decide) (by decide) (by decide) (by decide) (by decide) (by decide)

theorem Wfin_main_arg13 (c : Dev nD) : Wfin m ρ c (Proc.devRef .tc main_arg13) = m ((c : Thread nD τ).loc main_arg13) :=
  Wfin_untouched m ρ c main_arg13 (by decide) (by decide) (by decide) (by decide) (by decide) (by decide) (by decide) (by decide) (by decide) (by decide) (by decide) (by decide) (by decide) (by decide)

theorem Wfin_main_arg14 (c : Dev nD) : Wfin m ρ c (Proc.devRef .tc main_arg14) = m ((c : Thread nD τ).loc main_arg14) :=
  Wfin_untouched m ρ c main_arg14 (by decide) (by decide) (by decide) (by decide) (by decide) (by decide) (by decide) (by decide) (by decide) (by decide) (by decide) (by decide) (by decide) (by decide)

end Cert.KernelIdeal.Run

end
-- ==== Proof.KRunData.lean ====
import proofs.«114411_j49589692399794_2_alg».proof.Proof.KRunFold

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The proof data of the three products, and what a core holds between pieces

Each product's proof data are taken at the contents its region is entered from. Between two pieces of @main a core
holds every unscoped buffer whole at the fold's contents, its generator register at some state, and owes nothing. -/

/-- No product has a prefetched table. -/
abbrev adm : (p : Fin 3) → (pcfgs (F := F) p).Adm := fun p => (cfgs p).toPCfg_adm
/-- Every product's proof data, each at its region's entry contents. -/
def pdats : (p : Fin 3) → (c : Dev nD) → Dat τ (Elt F) Unit ℕ (UR sig nD τ) ℕ (Pipeline.pin (pcfgs (F := F)) adm p) c
  | ⟨0, _⟩ => fun c => Reg0.dat (V4 m ρ) c
  | ⟨1, _⟩ => fun c => Reg1.dat (V6 m ρ) c
  | ⟨2, _⟩ => fun c => Reg2.dat (V10 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every piece: the generator register at some state, and nothing owed. -/
abbrev R (c : Dev nD) : sProp 𝕄 := iprop((∃ r, prngReg c r) ∗ ∃ W, owes (c : Thread nD τ) (0 : CellTallies nD τ sig Unit) W)
/-- A stretch of host operations as a segment over the unscoped buffers from the contents `W`, `R` riding along: it
    ends with those buffers at `StableHlo.after ops (W c)`, the next contents of the fold. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those a core holds between pieces. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- What a core holds at the end, the `owes` aside: every unscoped buffer at the end of the fold, the generator
    register at some state. -/
abbrev Tₙ (c : Dev nD) : sProp 𝕄 := iprop(StableHlo.held (c : Thread nD τ) (Pipeline.ucRefs τ sig) (Wfin m ρ c) ∗ ∃ r, prngReg c r)

end Cert.KernelIdeal.Run

end
-- ==== Proof.Reg0Body.lean ====
import proofs.«114411_j49589692399794_2_alg».proof.Proof.Reg0Dat

set_option maxRecDepth 16384

noncomputable section

namespace Cert.KernelIdeal.Reg0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The body obligation of the product's region, at a generic grid point -/

/-- What the body is called with at point `t`: the invariant, nothing owed, each window's current staging buffer. -/
def bodyPre (c : Dev nD) (t : Fin cfg0.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d)))

/-- and what it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

/-- The inputs are live at every point: the body leaves each at its block. -/
theorem leaves_0 (c : Dev nD) (t : Fin cfg0.N) :
    (dat V c).leavesExact 0 t = owns (c : Thread nD τ) (ms_0 t) fullShare (iblk V c 0 t) := by
  unfold Dat.leavesExact; rw [liveAt_0 t, after_0]
theorem leaves_1 (c : Dev nD) (t : Fin cfg0.N) :
    (dat V c).leavesExact 1 t = owns (c : Thread nD τ) (ms_1 t) fullShare (iblk V c 1 t) := by
  unfold Dat.leavesExact; rw [liveAt_1 t, after_1]
theorem leaves_2 (c : Dev nD) (t : Fin cfg0.N) :
    (dat V c).leavesExact 2 t = owns (c : Thread nD τ) (ms_2 t) fullShare (iblk V c 2 t) := by
  unfold Dat.leavesExact; rw [liveAt_2 t, after_2]

set_option maxHeartbeats 4800000 in
/-- The body at any point. The block index says which of the three cases the point is in; the invariant hands the body
    the accumulator at what the point before left (at anything where a row tile starts), and takes it back one step on;
    the output tile passes through untouched except at the last block, where it takes the accumulator's contents. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2]
  rw [show (dat V c).owesAt () t.succ = (dat V c).owesAt () t.castSucc from rfl]
  rw [show (dat V c).Φ t.succ = PhiS V c (t.val + 1) t.isLt from rfl, PhiS_succ]
  rw [leaves_0, leaves_1, leaves_2]
  have hN : t.val < 128 := lt_of_lt_of_eq t.isLt (show cfg0.N = 128 from N_0)
  by_cases h1 : t.val % 8 = 7
  · have h0 : ¬t.val % 8 = 0 := by omega
    have hz : t.val ≠ 0 := by omega
    rw [show (dat V c).leavesExact 3 t = owns (c : Thread nD τ) (ms_3 t) fullShare ((dat V c).after 3 t) from by
      unfold Dat.leavesExact; rw [liveAt_3 t ((hcondLast t).mpr h1)], after_3]
    rw [accAt_next V c t h0, PhiS_castSucc V c t, PhiS_pos V c _ _ hz]
    iintro ⟨⟨HS, Hr, Hg⟩, Ho, ⟨%d0, H0⟩, ⟨%d1, H1⟩, ⟨%d2, H2⟩, ⟨%d3, H3⟩⟩
    iapply (run_last c (grid0.coords t) _ _ _ _ _ _ _ _ _ _ (fun h => h0 ((hcondFirst t).mp h)) ((hcondLast t).mpr h1)
      (iblk V c 0 t) (iblk V c 1 t) (iblk V c 2 t) _ _ Set.univ _)
    isplitl [H0]; · iexact H0
    isplitl [H1]; · iexact H1
    isplitl [H2]; · iexact H2
    isplitl [H3]; · iexact H3
    isplitl [HS]; · iexact HS
    iintro ⟨H0, H1, H2, H3, HS⟩
    isplitl [HS Hr Hg]
    · isplitl [HS]; · iexact HS
      isplitl [Hr]; · iexact Hr
      iexact Hg
    isplitl [Ho]; · iexact Ho
    isplitl [H0]; · iexact H0
    isplitl [H1]; · iexact H1
    isplitl [H2]; · iexact H2
    iexact H3
  · rw [Dat.leavesExact_idle (dat V c) 3 t (idleAt_3 t (fun h => h1 ((hcondLast t).mp h))) (noFlush_3 t (fun h => h1 ((hcondLast t).mp h)))]
    by_cases h0 : t.val % 8 = 0
    · rw [accAt_first V c t h0, PhiS_castSucc V c t]
      iintro ⟨HΦ, Ho, ⟨%d0, H0⟩, ⟨%d1, H1⟩, ⟨%d2, H2⟩, ⟨%d3, H3⟩⟩
      ihave HΦ' := (PhiS_any V c _ _) $$ HΦ
      icases HΦ' with ⟨⟨%ds, HS⟩, Hr, Hg⟩
      iapply (run_first c (grid0.coords t) _ _ _ _ _ _ _ _ _ _ ((hcondFirst t).mpr h0) (fun h => h1 ((hcondLast t).mp h))
        (iblk V c 0 t) (iblk V c 1 t) (iblk V c 2 t) _ ds Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hr Hg]
      · isplitl [HS]; · iexact HS
        isplitl [Hr]; · iexact Hr
        iexact Hg
      isplitl [Ho]; · iexact Ho
      isplitl [H0]; · iexact H0
      isplitl [H1]; · iexact H1
      isplitl [H2]; · iexact H2
      iexists d3; iexact H3
    · have hz : t.val ≠ 0 := fun h => h0 (by rw [h])
      rw [accAt_next V c t h0, PhiS_castSucc V c t, PhiS_pos V c _ _ hz]
      iintro ⟨⟨HS, Hr, Hg⟩, Ho, ⟨%d0, H0⟩, ⟨%d1, H1⟩, ⟨%d2, H2⟩, ⟨%d3, H3⟩⟩
      iapply (run_mid c (grid0.coords t) _ _ _ _ _ _ _ _ _ _ (fun h => h0 ((hcondFirst t).mp h)) (fun h => h1 ((hcondLast t).mp h))
        (iblk V c 0 t) (iblk V c 1 t) (iblk V c 2 t) _ _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hr Hg]
      · isplitl [HS]; · iexact HS
        isplitl [Hr]; · iexact Hr
        iexact Hg
      isplitl [Ho]; · iexact Ho
      isplitl [H0]; · iexact H0
      isplitl [H1]; · iexact H1
      isplitl [H2]; · iexact H2
      iexists d3; iexact H3

/-- The library's body obligation, at every point. -/
theorem body_obligation (c : Dev nD) : BodyObligation (dat (F := F) V c) (defs₀ (F := F)) Variants.none () Set.univ := fun t => by
  rw [bigSep_W0, bigSep_W0]
  exact sound_body V c t

/-- What the launch hands the region is the invariant before the first point. -/
theorem hin (c : Dev nD) : Pipeline.ΦA spec0 c ⊢ (dat V c).Φ 0 := by
  rw [show (dat V c).Φ 0 = PhiS V c 0 (Nat.zero_le _) from rfl]
  exact Idealize.SL.BI.Entails.refl _

/-- After the last point the invariant gives it back: the accumulator's contents are forgotten. -/
theorem hout (c : Dev nD) : (dat V c).Φ (Fin.last cfg0.N) ⊢ Pipeline.ΦA spec0 c := by
  rw [show (dat V c).Φ (Fin.last cfg0.N) = PhiS V c (Fin.last cfg0.N).val (Nat.le_of_lt_succ (Fin.last cfg0.N).isLt) from rfl]
  exact (PhiS_any V c _ _).trans (PhiA_close c)

end Cert.KernelIdeal.Reg0

end
-- ==== Proof.KRunReg0.lean ====
import proofs.«114411_j49589692399794_2_alg».proof.Proof.KRunData
import proofs.«114411_j49589692399794_2_alg».proof.Proof.Reg0Body

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # Product 0 as a piece of @main

Entered from every unscoped buffer at `W4`, left at `W5`. Its four arrays are split out of the unscoped buffers
at entry and put back at their final contents at exit; the generator register and the scoped buffers no window
stages go into the region's invariant before the first grid point and come back after the last, the accumulator's
contents forgotten; nothing is owed; the kernel has no semaphore of its own. -/

-- applying a library lemma stated over `pin pcs a p` unifies with the pinned configuration only when unification may
-- unfold plain definitions in a metavariable's type
set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Reg0.body_obligation (V4 m ρ) c).loose
  hwaits := Pipeline.hwaits_of_owed_zero _ _ _ _ L lv 0 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec0 c (V4 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine Idealize.SL.BI.BIBase.Entails.trans ?_ (Reg0.hin (V4 m ρ) c)
    unfold Pipeline.ΦA
    iintro ⟨Hp, -, Hr⟩
    isplitl [Hr]; · iexact Hr
    iexact Hp
  hout c := by
    rw [Pipeline.ownSems0_none]
    refine Idealize.SL.BI.BIBase.Entails.trans (Reg0.hout (V4 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V4 m ρ c) (V5 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Run

end
-- ==== Proof.Reg1Body.lean ====
import proofs.«114411_j49589692399794_2_alg».proof.Proof.Reg1Dat

set_option maxRecDepth 16384

noncomputable section

namespace Cert.KernelIdeal.Reg1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The body obligation of the product's region, at a generic grid point -/

/-- What the body is called with at point `t`: the invariant, nothing owed, each window's current staging buffer. -/
def bodyPre (c : Dev nD) (t : Fin cfg1.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

/-- The inputs are live at every point: the body leaves each at its block. -/
theorem leaves_0 (c : Dev nD) (t : Fin cfg1.N) :
    (dat V c).leavesExact 0 t = owns (c : Thread nD τ) (ms_0 t) fullShare (iblk V c 0 t) := by
  unfold Dat.leavesExact; rw [liveAt_0 t, after_0]
theorem leaves_1 (c : Dev nD) (t : Fin cfg1.N) :
    (dat V c).leavesExact 1 t = owns (c : Thread nD τ) (ms_1 t) fullShare (iblk V c 1 t) := by
  unfold Dat.leavesExact; rw [liveAt_1 t, after_1]
theorem leaves_2 (c : Dev nD) (t : Fin cfg1.N) :
    (dat V c).leavesExact 2 t = owns (c : Thread nD τ) (ms_2 t) fullShare (iblk V c 2 t) := by
  unfold Dat.leavesExact; rw [liveAt_2 t, after_2]

set_option maxHeartbeats 4800000 in
/-- The body at any point. The block index says which of the three cases the point is in; the invariant hands the body
    the accumulator at what the point before left (at anything where a row tile starts), and takes it back one step on;
    the output tile passes through untouched except at the last block, where it takes the accumulator's contents. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2]
  rw [show (dat V c).owesAt () t.succ = (dat V c).owesAt () t.castSucc from rfl]
  rw [show (dat V c).Φ t.succ = PhiS V c (t.val + 1) t.isLt from rfl, PhiS_succ]
  rw [leaves_0, leaves_1, leaves_2]
  have hN : t.val < 128 := lt_of_lt_of_eq t.isLt (show cfg1.N = 128 from N_1)
  by_cases h1 : t.val % 8 = 7
  · have h0 : ¬t.val % 8 = 0 := by omega
    have hz : t.val ≠ 0 := by omega
    rw [show (dat V c).leavesExact 3 t = owns (c : Thread nD τ) (ms_3 t) fullShare ((dat V c).after 3 t) from by
      unfold Dat.leavesExact; rw [liveAt_3 t ((hcondLast t).mpr h1)], after_3]
    rw [accAt_next V c t h0, PhiS_castSucc V c t, PhiS_pos V c _ _ hz]
    iintro ⟨⟨HS, Hr, Hg⟩, Ho, ⟨%d0, H0⟩, ⟨%d1, H1⟩, ⟨%d2, H2⟩, ⟨%d3, H3⟩⟩
    iapply (run_last c (grid1.coords t) _ _ _ _ _ _ _ _ _ _ (fun h => h0 ((hcondFirst t).mp h)) ((hcondLast t).mpr h1)
      (iblk V c 0 t) (iblk V c 1 t) (iblk V c 2 t) _ _ Set.univ _)
    isplitl [H0]; · iexact H0
    isplitl [H1]; · iexact H1
    isplitl [H2]; · iexact H2
    isplitl [H3]; · iexact H3
    isplitl [HS]; · iexact HS
    iintro ⟨H0, H1, H2, H3, HS⟩
    isplitl [HS Hr Hg]
    · isplitl [HS]; · iexact HS
      isplitl [Hr]; · iexact Hr
      iexact Hg
    isplitl [Ho]; · iexact Ho
    isplitl [H0]; · iexact H0
    isplitl [H1]; · iexact H1
    isplitl [H2]; · iexact H2
    iexact H3
  · rw [Dat.leavesExact_idle (dat V c) 3 t (idleAt_3 t (fun h => h1 ((hcondLast t).mp h))) (noFlush_3 t (fun h => h1 ((hcondLast t).mp h)))]
    by_cases h0 : t.val % 8 = 0
    · rw [accAt_first V c t h0, PhiS_castSucc V c t]
      iintro ⟨HΦ, Ho, ⟨%d0, H0⟩, ⟨%d1, H1⟩, ⟨%d2, H2⟩, ⟨%d3, H3⟩⟩
      ihave HΦ' := (PhiS_any V c _ _) $$ HΦ
      icases HΦ' with ⟨⟨%ds, HS⟩, Hr, Hg⟩
      iapply (run_first c (grid1.coords t) _ _ _ _ _ _ _ _ _ _ ((hcondFirst t).mpr h0) (fun h => h1 ((hcondLast t).mp h))
        (iblk V c 0 t) (iblk V c 1 t) (iblk V c 2 t) _ ds Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hr Hg]
      · isplitl [HS]; · iexact HS
        isplitl [Hr]; · iexact Hr
        iexact Hg
      isplitl [Ho]; · iexact Ho
      isplitl [H0]; · iexact H0
      isplitl [H1]; · iexact H1
      isplitl [H2]; · iexact H2
      iexists d3; iexact H3
    · have hz : t.val ≠ 0 := fun h => h0 (by rw [h])
      rw [accAt_next V c t h0, PhiS_castSucc V c t, PhiS_pos V c _ _ hz]
      iintro ⟨⟨HS, Hr, Hg⟩, Ho, ⟨%d0, H0⟩, ⟨%d1, H1⟩, ⟨%d2, H2⟩, ⟨%d3, H3⟩⟩
      iapply (run_mid c (grid1.coords t) _ _ _ _ _ _ _ _ _ _ (fun h => h0 ((hcondFirst t).mp h)) (fun h => h1 ((hcondLast t).mp h))
        (iblk V c 0 t) (iblk V c 1 t) (iblk V c 2 t) _ _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hr Hg]
      · isplitl [HS]; · iexact HS
        isplitl [Hr]; · iexact Hr
        iexact Hg
      isplitl [Ho]; · iexact Ho
      isplitl [H0]; · iexact H0
      isplitl [H1]; · iexact H1
      isplitl [H2]; · iexact H2
      iexists d3; iexact H3

/-- The library's body obligation, at every point. -/
theorem body_obligation (c : Dev nD) : BodyObligation (dat (F := F) V c) (defs₀ (F := F)) Variants.none () Set.univ := fun t => by
  rw [bigSep_W1, bigSep_W1]
  exact sound_body V c t

/-- What the launch hands the region is the invariant before the first point. -/
theorem hin (c : Dev nD) : Pipeline.ΦA spec1 c ⊢ (dat V c).Φ 0 := by
  rw [show (dat V c).Φ 0 = PhiS V c 0 (Nat.zero_le _) from rfl]
  exact Idealize.SL.BI.Entails.refl _

/-- After the last point the invariant gives it back: the accumulator's contents are forgotten. -/
theorem hout (c : Dev nD) : (dat V c).Φ (Fin.last cfg1.N) ⊢ Pipeline.ΦA spec1 c := by
  rw [show (dat V c).Φ (Fin.last cfg1.N) = PhiS V c (Fin.last cfg1.N).val (Nat.le_of_lt_succ (Fin.last cfg1.N).isLt) from rfl]
  exact (PhiS_any V c _ _).trans (PhiA_close c)

end Cert.KernelIdeal.Reg1

end
-- ==== Proof.KRunReg1.lean ====
import proofs.«114411_j49589692399794_2_alg».proof.Proof.KRunData
import proofs.«114411_j49589692399794_2_alg».proof.Proof.Reg1Body

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # Product 1 as a piece of @main

Entered from every unscoped buffer at `W6`, left at `W7`. Its four arrays are split out of the unscoped buffers
at entry and put back at their final contents at exit; the generator register and the scoped buffers no window
stages go into the region's invariant before the first grid point and come back after the last, the accumulator's
contents forgotten; nothing is owed; the kernel has no semaphore of its own. -/

-- applying a library lemma stated over `pin pcs a p` unifies with the pinned configuration only when unification may
-- unfold plain definitions in a metavariable's type
set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Reg1.body_obligation (V6 m ρ) c).loose
  hwaits := Pipeline.hwaits_of_owed_zero _ _ _ _ L lv 1 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec1 c (V6 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine Idealize.SL.BI.BIBase.Entails.trans ?_ (Reg1.hin (V6 m ρ) c)
    unfold Pipeline.ΦA
    iintro ⟨Hp, -, Hr⟩
    isplitl [Hr]; · iexact Hr
    iexact Hp
  hout c := by
    rw [Pipeline.ownSems0_none]
    refine Idealize.SL.BI.BIBase.Entails.trans (Reg1.hout (V6 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V6 m ρ c) (V7 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Run

end
-- ==== Proof.Reg2Body.lean ====
import proofs.«114411_j49589692399794_2_alg».proof.Proof.Reg2Dat

set_option maxRecDepth 16384

noncomputable section

namespace Cert.KernelIdeal.Reg2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The body obligation of the product's region, at a generic grid point -/

/-- What the body is called with at point `t`: the invariant, nothing owed, each window's current staging buffer. -/
def bodyPre (c : Dev nD) (t : Fin cfg2.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d)))

/-- and what it returns. -/
def bodyPost (c : Dev nD) (t : Fin cfg2.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

/-- The inputs are live at every point: the body leaves each at its block. -/
theorem leaves_0 (c : Dev nD) (t : Fin cfg2.N) :
    (dat V c).leavesExact 0 t = owns (c : Thread nD τ) (ms_0 t) fullShare (iblk V c 0 t) := by
  unfold Dat.leavesExact; rw [liveAt_0 t, after_0]
theorem leaves_1 (c : Dev nD) (t : Fin cfg2.N) :
    (dat V c).leavesExact 1 t = owns (c : Thread nD τ) (ms_1 t) fullShare (iblk V c 1 t) := by
  unfold Dat.leavesExact; rw [liveAt_1 t, after_1]
theorem leaves_2 (c : Dev nD) (t : Fin cfg2.N) :
    (dat V c).leavesExact 2 t = owns (c : Thread nD τ) (ms_2 t) fullShare (iblk V c 2 t) := by
  unfold Dat.leavesExact; rw [liveAt_2 t, after_2]

set_option maxHeartbeats 4800000 in
/-- The body at any point. The block index says which of the three cases the point is in; the invariant hands the body
    the accumulator at what the point before left (at anything where a row tile starts), and takes it back one step on;
    the output tile passes through untouched except at the last block, where it takes the accumulator's contents. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1, before_2]
  rw [show (dat V c).owesAt () t.succ = (dat V c).owesAt () t.castSucc from rfl]
  rw [show (dat V c).Φ t.succ = PhiS V c (t.val + 1) t.isLt from rfl, PhiS_succ]
  rw [leaves_0, leaves_1, leaves_2]
  have hN : t.val < 128 := lt_of_lt_of_eq t.isLt (show cfg2.N = 128 from N_2)
  by_cases h1 : t.val % 8 = 7
  · have h0 : ¬t.val % 8 = 0 := by omega
    have hz : t.val ≠ 0 := by omega
    rw [show (dat V c).leavesExact 3 t = owns (c : Thread nD τ) (ms_3 t) fullShare ((dat V c).after 3 t) from by
      unfold Dat.leavesExact; rw [liveAt_3 t ((hcondLast t).mpr h1)], after_3]
    rw [accAt_next V c t h0, PhiS_castSucc V c t, PhiS_pos V c _ _ hz]
    iintro ⟨⟨HS, Hr, Hg⟩, Ho, ⟨%d0, H0⟩, ⟨%d1, H1⟩, ⟨%d2, H2⟩, ⟨%d3, H3⟩⟩
    iapply (run_last c (grid2.coords t) _ _ _ _ _ _ _ _ _ _ (fun h => h0 ((hcondFirst t).mp h)) ((hcondLast t).mpr h1)
      (iblk V c 0 t) (iblk V c 1 t) (iblk V c 2 t) _ _ Set.univ _)
    isplitl [H0]; · iexact H0
    isplitl [H1]; · iexact H1
    isplitl [H2]; · iexact H2
    isplitl [H3]; · iexact H3
    isplitl [HS]; · iexact HS
    iintro ⟨H0, H1, H2, H3, HS⟩
    isplitl [HS Hr Hg]
    · isplitl [HS]; · iexact HS
      isplitl [Hr]; · iexact Hr
      iexact Hg
    isplitl [Ho]; · iexact Ho
    isplitl [H0]; · iexact H0
    isplitl [H1]; · iexact H1
    isplitl [H2]; · iexact H2
    iexact H3
  · rw [Dat.leavesExact_idle (dat V c) 3 t (idleAt_3 t (fun h => h1 ((hcondLast t).mp h))) (noFlush_3 t (fun h => h1 ((hcondLast t).mp h)))]
    by_cases h0 : t.val % 8 = 0
    · rw [accAt_first V c t h0, PhiS_castSucc V c t]
      iintro ⟨HΦ, Ho, ⟨%d0, H0⟩, ⟨%d1, H1⟩, ⟨%d2, H2⟩, ⟨%d3, H3⟩⟩
      ihave HΦ' := (PhiS_any V c _ _) $$ HΦ
      icases HΦ' with ⟨⟨%ds, HS⟩, Hr, Hg⟩
      iapply (run_first c (grid2.coords t) _ _ _ _ _ _ _ _ _ _ ((hcondFirst t).mpr h0) (fun h => h1 ((hcondLast t).mp h))
        (iblk V c 0 t) (iblk V c 1 t) (iblk V c 2 t) _ ds Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hr Hg]
      · isplitl [HS]; · iexact HS
        isplitl [Hr]; · iexact Hr
        iexact Hg
      isplitl [Ho]; · iexact Ho
      isplitl [H0]; · iexact H0
      isplitl [H1]; · iexact H1
      isplitl [H2]; · iexact H2
      iexists d3; iexact H3
    · have hz : t.val ≠ 0 := fun h => h0 (by rw [h])
      rw [accAt_next V c t h0, PhiS_castSucc V c t, PhiS_pos V c _ _ hz]
      iintro ⟨⟨HS, Hr, Hg⟩, Ho, ⟨%d0, H0⟩, ⟨%d1, H1⟩, ⟨%d2, H2⟩, ⟨%d3, H3⟩⟩
      iapply (run_mid c (grid2.coords t) _ _ _ _ _ _ _ _ _ _ (fun h => h0 ((hcondFirst t).mp h)) (fun h => h1 ((hcondLast t).mp h))
        (iblk V c 0 t) (iblk V c 1 t) (iblk V c 2 t) _ _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hr Hg]
      · isplitl [HS]; · iexact HS
        isplitl [Hr]; · iexact Hr
        iexact Hg
      isplitl [Ho]; · iexact Ho
      isplitl [H0]; · iexact H0
      isplitl [H1]; · iexact H1
      isplitl [H2]; · iexact H2
      iexists d3; iexact H3

/-- The library's body obligation, at every point. -/
theorem body_obligation (c : Dev nD) : BodyObligation (dat (F := F) V c) (defs₀ (F := F)) Variants.none () Set.univ := fun t => by
  rw [bigSep_W2, bigSep_W2]
  exact sound_body V c t

/-- What the launch hands the region is the invariant before the first point. -/
theorem hin (c : Dev nD) : Pipeline.ΦA spec2 c ⊢ (dat V c).Φ 0 := by
  rw [show (dat V c).Φ 0 = PhiS V c 0 (Nat.zero_le _) from rfl]
  exact Idealize.SL.BI.Entails.refl _

/-- After the last point the invariant gives it back: the accumulator's contents are forgotten. -/
theorem hout (c : Dev nD) : (dat V c).Φ (Fin.last cfg2.N) ⊢ Pipeline.ΦA spec2 c := by
  rw [show (dat V c).Φ (Fin.last cfg2.N) = PhiS V c (Fin.last cfg2.N).val (Nat.le_of_lt_succ (Fin.last cfg2.N).isLt) from rfl]
  exact (PhiS_any V c _ _).trans (PhiA_close c)

end Cert.KernelIdeal.Reg2

end
-- ==== Proof.KRunReg2.lean ====
import proofs.«114411_j49589692399794_2_alg».proof.Proof.KRunData
import proofs.«114411_j49589692399794_2_alg».proof.Proof.Reg2Body

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # Product 2 as a piece of @main

Entered from every unscoped buffer at `W10`, left at `W11`. Its four arrays are split out of the unscoped buffers
at entry and put back at their final contents at exit; the generator register and the scoped buffers no window
stages go into the region's invariant before the first grid point and come back after the last, the accumulator's
contents forgotten; nothing is owed; the kernel has no semaphore of its own. -/

-- applying a library lemma stated over `pin pcs a p` unifies with the pinned configuration only when unification may
-- unfold plain definitions in a metavariable's type
set_option backward.isDefEq.respectTransparency.types false in
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (Reg2.body_obligation (V10 m ρ) c).loose
  hwaits := Pipeline.hwaits_of_owed_zero _ _ _ _ L lv 2 fun _ _ => rfl
  pre c := iprop(StableHlo.held (c : Thread nD τ) (Pipeline.ucRefs τ sig) (W10 m ρ c) ∗ R c)
  post c := iprop(StableHlo.held (c : Thread nD τ) (Pipeline.ucRefs τ sig) (W11 m ρ c) ∗ R c)
  X c := iprop(∃ r, prngReg c r)
  Y c := iprop(∃ r, prngReg c r)
  Z c := Pipeline.unscopedRest (Ix := Unit) (Name := ℕ) (U := UR sig nD τ) (Lvl := ℕ) spec2 c (V10 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V10 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine Idealize.SL.BI.BIBase.Entails.trans ?_ (Reg2.hin (V10 m ρ) c)
    unfold Pipeline.ΦA
    iintro ⟨Hp, -, Hr⟩
    isplitl [Hr]; · iexact Hr
    iexact Hp
  hout c := by
    rw [Pipeline.ownSems0_none]
    refine Idealize.SL.BI.BIBase.Entails.trans (Reg2.hout (V10 m ρ) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V10 m ρ c) (V11 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Run

end
-- ==== Proof.KRunLaunch.lean ====
import proofs.«114411_j49589692399794_2_alg».proof.Proof.KRunArgs
import proofs.«114411_j49589692399794_2_alg».proof.Proof.KRunReg0
import proofs.«114411_j49589692399794_2_alg».proof.Proof.KRunReg1
import proofs.«114411_j49589692399794_2_alg».proof.Proof.KRunReg2

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run of @main

@main is the run of its fourteen pieces in order, each entered from what the one before left. Launched from any
memory with every counter at zero, every weakly fair execution terminates without a fault, and the final memory holds
every unscoped buffer at the end of the fold (`run_all`); read at the argument arrays, that is the launch memory
(`frame`). -/

/-- @main's fourteen pieces in order: a host segment per stretch from the contents before it, a region per product. -/
abbrev segs : List (Pipeline.Seg (pcfgs (F := F)) adm (pdats m ρ) () defs₀ 𝒱₀ L lv) :=
  [
    .host (hseg main_part0_ops0 main_part0_ops0_sub main_part0_ops0_fresh (W0 m ρ)),
    .host (hseg main_part0_ops1 main_part0_ops1_sub main_part0_ops1_fresh (W1 m ρ)),
    .host (hseg main_part0_ops2 main_part0_ops2_sub main_part0_ops2_fresh (W2 m ρ)),
    .host (hseg main_part1_ops0 main_part1_ops0_sub main_part1_ops0_fresh (W3 m ρ)),
    .region (reg0 m ρ),
    .host (hseg main_part1_ops1 main_part1_ops1_sub main_part1_ops1_fresh (W5 m ρ)),
    .region (reg1 m ρ),
    .host (hseg main_part1_ops2 main_part1_ops2_sub main_part1_ops2_fresh (W7 m ρ)),
    .host (hseg main_part1_ops3 main_part1_ops3_sub main_part1_ops3_fresh (W8 m ρ)),
    .host (hseg main_part1_ops4 main_part1_ops4_sub main_part1_ops4_fresh (W9 m ρ)),
    .region (reg2 m ρ),
    .host (hseg main_part1_ops5 main_part1_ops5_sub main_part1_ops5_fresh (W11 m ρ)),
    .host (hseg main_part2_ops0 main_part2_ops0_sub main_part2_ops0_fresh (W12 m ρ)),
    .host (hseg main_part3_ops0 main_part3_ops0_sub main_part3_ops0_fresh (W13 m ρ)) ]

/-- @main is the run of the pieces: both sides are the same operations in the same order. -/
theorem main_run (c : Dev nD) : main (F := F) c = Pipeline.Seg.run (segs m ρ) := (main_chain_windows c).trans (by chain_rfl)

-- the launch theorem's implicit arguments are found by unifying its conclusion with this one, which takes unfolding
-- plain definitions in a metavariable's type
set_option backward.isDefEq.respectTransparency.types false in
/-- THE RUN: at the compiled mesh, from any memory with zero counters, every weakly fair execution of @main on the
    TensorCores terminates, nothing faulting, and every final memory holds each unscoped buffer at `Wfin`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Wfin m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl,
      fun c => by
        show iprop(StableHlo.held (c : Thread nD τ) (Pipeline.ucRefs τ sig) (Wfin m ρ c) ∗ R c)
          ⊢ iprop(Tₙ m ρ c ∗ ∃ W, owes (c : Thread nD τ) (0 : CellTallies nD τ sig Unit) W)
        iintro ⟨Hh, Hp, HO⟩
        isplitr [HO]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wfin m ρ c b)
    (hfin := fun c s' => by
      iintro ⟨⟨Hh, -⟩, HSI⟩
      unfold StableHlo.held
      imodintro
      iapply (pointsTo_read_all (Pipeline.ucRefs τ sig) (fun b => (((c : Thread nD τ)).1, b)) (Wfin m ρ c) s')
      isplitl [Hh] <;> iassumption)
    (hQ := fun s h => h)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c =>
    ⟨(h c _ (mem_uc main_arg0 (by decide))).trans (Wfin_main_arg0 m ρ c),
      (h c _ (mem_uc main_arg1 (by decide))).trans (Wfin_main_arg1 m ρ c),
      (h c _ (mem_uc main_arg2 (by decide))).trans (Wfin_main_arg2 m ρ c),
      (h c _ (mem_uc main_arg3 (by decide))).trans (Wfin_main_arg3 m ρ c),
      (h c _ (mem_uc main_arg4 (by decide))).trans (Wfin_main_arg4 m ρ c),
      (h c _ (mem_uc main_arg5 (by decide))).trans (Wfin_main_arg5 m ρ c),
      (h c _ (mem_uc main_arg6 (by decide))).trans (Wfin_main_arg6 m ρ c),
      (h c _ (mem_uc main_arg7 (by decide))).trans (Wfin_main_arg7 m ρ c),
      (h c _ (mem_uc main_arg8 (by decide))).trans (Wfin_main_arg8 m ρ c),
      (h c _ (mem_uc main_arg9 (by decide))).trans (Wfin_main_arg9 m ρ c),
      (h c _ (mem_uc main_arg10 (by decide))).trans (Wfin_main_arg10 m ρ c),
      (h c _ (mem_uc main_arg11 (by decide))).trans (Wfin_main_arg11 m ρ c),
      (h c _ (mem_uc main_arg12 (by decide))).trans (Wfin_main_arg12 m ρ c),
      (h c _ (mem_uc main_arg13 (by decide))).trans (Wfin_main_arg13 m ρ c),
      (h c _ (mem_uc main_arg14 (by decide))).trans (Wfin_main_arg14 m ρ c)⟩) (run_all m ρ)

end Cert.KernelIdeal.Run

end
-- ==== Proof.WKRunWrites.lean ====
import proofs.«114411_j49589692399794_2_alg».proof.Proof.Gen.Kernel.Launch
import Idealize.ShloMosaic.Lib.StableHlo.Run

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

/-! # What each stretch of host operations writes

@main's host operations come in eleven stretches around the three products. Each stretch writes a known list of
buffers, allocates none, and therefore leaves every other buffer as it found it. -/

/-- No operation of `main_part0_ops0` allocates a buffer. -/
theorem main_part0_ops0_fresh : (main_part0_ops0 : List (HloOp τ sig (Elt F))).Forall fun op => op.fresh = ∅ := by
  simp only [List.Forall]; repeat' constructor
/-- The buffers `main_part0_ops0`'s operations write. -/
abbrev main_part0_ops0_W : List (Ref sig .tc) := [main_v0, main_v1, main_v2, main_v3, main_v4, main_v5, main_v6, main_v7, main_cst, main_v8, main_cst_0, main_v9, main_v10, main_v11, main_cst_1, main_v12, main_v13, main_cst_2, main_v14, main_v15, main_v16, main_cst_3, main_v17, main_v18, main_cst_4]
theorem main_part0_ops0_writes : (main_part0_ops0 : List (HloOp τ sig (Elt F))).Forall fun op => op.writes ⊆ (main_part0_ops0_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; (repeat' apply And.intro) <;> exact List.mem_map_of_mem (by decide))
/-- A buffer outside that list is as before the stretch. -/
theorem main_part0_ops0_keeps (V : Valuation τ sig (Elt F)) (r : Ref sig .tc) (h : r ∉ main_part0_ops0_W) :
    StableHlo.after main_part0_ops0 V (Proc.devRef .tc r) = V (Proc.devRef .tc r) :=
  StableHlo.after_of_writes_sub main_part0_ops0 V main_part0_ops0_writes h

/-- No operation of `main_part0_ops1` allocates a buffer. -/
theorem main_part0_ops1_fresh : (main_part0_ops1 : List (HloOp τ sig (Elt F))).Forall fun op => op.fresh = ∅ := by
  simp only [List.Forall]; repeat' constructor
/-- The buffers `main_part0_ops1`'s operations write. -/
abbrev main_part0_ops1_W : List (Ref sig .tc) := [main_call0_v0, main_call0_v1, main_v19]
theorem main_part0_ops1_writes : (main_part0_ops1 : List (HloOp τ sig (Elt F))).Forall fun op => op.writes ⊆ (main_part0_ops1_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; (repeat' apply And.intro) <;> exact List.mem_map_of_mem (by decide))
/-- A buffer outside that list is as before the stretch. -/
theorem main_part0_ops1_keeps (V : Valuation τ sig (Elt F)) (r : Ref sig .tc) (h : r ∉ main_part0_ops1_W) :
    StableHlo.after main_part0_ops1 V (Proc.devRef .tc r) = V (Proc.devRef .tc r) :=
  StableHlo.after_of_writes_sub main_part0_ops1 V main_part0_ops1_writes h

/-- No operation of `main_part0_ops2` allocates a buffer. -/
theorem main_part0_ops2_fresh : (main_part0_ops2 : List (HloOp τ sig (Elt F))).Forall fun op => op.fresh = ∅ := by
  simp only [List.Forall]; repeat' constructor
/-- The buffers `main_part0_ops2`'s operations write. -/
abbrev main_part0_ops2_W : List (Ref sig .tc) := [main_c, main_v20, main_v21, main_c_5, main_v22, main_v23, main_v24, main_v25, main_v26, main_c_6, main_v27, main_v28, main_c_7, main_v29, main_v30, main_v31, main_v32, main_v33, main_v34, main_v35, main_cst_8, main_v36, main_c_9, main_v37, main_v38, main_c_10, main_v39, main_v40, main_v41, main_c_11, main_v42, main_v43, main_c_12, main_v44]
theorem main_part0_ops2_writes : (main_part0_ops2 : List (HloOp τ sig (Elt F))).Forall fun op => op.writes ⊆ (main_part0_ops2_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; (repeat' apply And.intro) <;> exact List.mem_map_of_mem (by decide))
/-- A buffer outside that list is as before the stretch. -/
theorem main_part0_ops2_keeps (V : Valuation τ sig (Elt F)) (r : Ref sig .tc) (h : r ∉ main_part0_ops2_W) :
    StableHlo.after main_part0_ops2 V (Proc.devRef .tc r) = V (Proc.devRef .tc r) :=
  StableHlo.after_of_writes_sub main_part0_ops2 V main_part0_ops2_writes h

/-- No operation of `main_part1_ops0` allocates a buffer. -/
theorem main_part1_ops0_fresh : (main_part1_ops0 : List (HloOp τ sig (Elt F))).Forall fun op => op.fresh = ∅ := by
  simp only [List.Forall]; repeat' constructor
/-- The buffers `main_part1_ops0`'s operations write. -/
abbrev main_part1_ops0_W : List (Ref sig .tc) := [main_v45, main_v46, main_v47, main_v48, main_v49, main_v50, main_v51]
theorem main_part1_ops0_writes : (main_part1_ops0 : List (HloOp τ sig (Elt F))).Forall fun op => op.writes ⊆ (main_part1_ops0_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; (repeat' apply And.intro) <;> exact List.mem_map_of_mem (by decide))
/-- A buffer outside that list is as before the stretch. -/
theorem main_part1_ops0_keeps (V : Valuation τ sig (Elt F)) (r : Ref sig .tc) (h : r ∉ main_part1_ops0_W) :
    StableHlo.after main_part1_ops0 V (Proc.devRef .tc r) = V (Proc.devRef .tc r) :=
  StableHlo.after_of_writes_sub main_part1_ops0 V main_part1_ops0_writes h

/-- No operation of `main_part1_ops1` allocates a buffer. -/
theorem main_part1_ops1_fresh : (main_part1_ops1 : List (HloOp τ sig (Elt F))).Forall fun op => op.fresh = ∅ := by
  simp only [List.Forall]; repeat' constructor
/-- The buffers `main_part1_ops1`'s operations write. -/
abbrev main_part1_ops1_W : List (Ref sig .tc) := [main_cst_13, main_v53]
theorem main_part1_ops1_writes : (main_part1_ops1 : List (HloOp τ sig (Elt F))).Forall fun op => op.writes ⊆ (main_part1_ops1_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; (repeat' apply And.intro) <;> exact List.mem_map_of_mem (by decide))
/-- A buffer outside that list is as before the stretch. -/
theorem main_part1_ops1_keeps (V : Valuation τ sig (Elt F)) (r : Ref sig .tc) (h : r ∉ main_part1_ops1_W) :
    StableHlo.after main_part1_ops1 V (Proc.devRef .tc r) = V (Proc.devRef .tc r) :=
  StableHlo.after_of_writes_sub main_part1_ops1 V main_part1_ops1_writes h

/-- No operation of `main_part1_ops2` allocates a buffer. -/
theorem main_part1_ops2_fresh : (main_part1_ops2 : List (HloOp τ sig (Elt F))).Forall fun op => op.fresh = ∅ := by
  simp only [List.Forall]; repeat' constructor
/-- The buffers `main_part1_ops2`'s operations write. -/
abbrev main_part1_ops2_W : List (Ref sig .tc) := [main_v55, main_v56, main_v57, main_v58, main_v59, main_v60]
theorem main_part1_ops2_writes : (main_part1_ops2 : List (HloOp τ sig (Elt F))).Forall fun op => op.writes ⊆ (main_part1_ops2_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; (repeat' apply And.intro) <;> exact List.mem_map_of_mem (by decide))
/-- A buffer outside that list is as before the stretch. -/
theorem main_part1_ops2_keeps (V : Valuation τ sig (Elt F)) (r : Ref sig .tc) (h : r ∉ main_part1_ops2_W) :
    StableHlo.after main_part1_ops2 V (Proc.devRef .tc r) = V (Proc.devRef .tc r) :=
  StableHlo.after_of_writes_sub main_part1_ops2 V main_part1_ops2_writes h

/-- No operation of `main_part1_ops3` allocates a buffer. -/
theorem main_part1_ops3_fresh : (main_part1_ops3 : List (HloOp τ sig (Elt F))).Forall fun op => op.fresh = ∅ := by
  simp only [List.Forall]; repeat' constructor
/-- The buffers `main_part1_ops3`'s operations write. -/
abbrev main_part1_ops3_W : List (Ref sig .tc) := [main_call1_cst, main_call1_v0, main_v61]
theorem main_part1_ops3_writes : (main_part1_ops3 : List (HloOp τ sig (Elt F))).Forall fun op => op.writes ⊆ (main_part1_ops3_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; (repeat' apply And.intro) <;> exact List.mem_map_of_mem (by decide))
/-- A buffer outside that list is as before the stretch. -/
theorem main_part1_ops3_keeps (V : Valuation τ sig (Elt F)) (r : Ref sig .tc) (h : r ∉ main_part1_ops3_W) :
    StableHlo.after main_part1_ops3 V (Proc.devRef .tc r) = V (Proc.devRef .tc r) :=
  StableHlo.after_of_writes_sub main_part1_ops3 V main_part1_ops3_writes h

/-- No operation of `main_part1_ops4` allocates a buffer. -/
theorem main_part1_ops4_fresh : (main_part1_ops4 : List (HloOp τ sig (Elt F))).Forall fun op => op.fresh = ∅ := by
  simp only [List.Forall]; repeat' constructor
/-- The buffers `main_part1_ops4`'s operations write. -/
abbrev main_part1_ops4_W : List (Ref sig .tc) := [main_cst_14, main_v62]
theorem main_part1_ops4_writes : (main_part1_ops4 : List (HloOp τ sig (Elt F))).Forall fun op => op.writes ⊆ (main_part1_ops4_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; (repeat' apply And.intro) <;> exact List.mem_map_of_mem (by decide))
/-- A buffer outside that list is as before the stretch. -/
theorem main_part1_ops4_keeps (V : Valuation τ sig (Elt F)) (r : Ref sig .tc) (h : r ∉ main_part1_ops4_W) :
    StableHlo.after main_part1_ops4 V (Proc.devRef .tc r) = V (Proc.devRef .tc r) :=
  StableHlo.after_of_writes_sub main_part1_ops4 V main_part1_ops4_writes h

/-- No operation of `main_part1_ops5` allocates a buffer. -/
theorem main_part1_ops5_fresh : (main_part1_ops5 : List (HloOp τ sig (Elt F))).Forall fun op => op.fresh = ∅ := by
  simp only [List.Forall]; repeat' constructor
/-- The buffers `main_part1_ops5`'s operations write. -/
abbrev main_part1_ops5_W : List (Ref sig .tc) := [main_v64, main_v65, main_v66, main_v67, main_v68, main_v69, main_v70, main_v71, main_v72, main_v73, main_v74, main_v75, main_cst_15, main_v76, main_v77, main_v78, main_v79, main_v80, main_c_16, main_v81, main_v82, main_c_17, main_v83, main_v84, main_v85, main_v86, main_v87, main_c_18, main_v88, main_v89, main_c_19, main_v90, main_v91, main_v92, main_v93, main_v94, main_v95, main_cst_20, main_v96]
theorem main_part1_ops5_writes : (main_part1_ops5 : List (HloOp τ sig (Elt F))).Forall fun op => op.writes ⊆ (main_part1_ops5_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; (repeat' apply And.intro) <;> exact List.mem_map_of_mem (by decide))
/-- A buffer outside that list is as before the stretch. -/
theorem main_part1_ops5_keeps (V : Valuation τ sig (Elt F)) (r : Ref sig .tc) (h : r ∉ main_part1_ops5_W) :
    StableHlo.after main_part1_ops5 V (Proc.devRef .tc r) = V (Proc.devRef .tc r) :=
  StableHlo.after_of_writes_sub main_part1_ops5 V main_part1_ops5_writes h

/-- No operation of `main_part2_ops0` allocates a buffer. -/
theorem main_part2_ops0_fresh : (main_part2_ops0 : List (HloOp τ sig (Elt F))).Forall fun op => op.fresh = ∅ := by
  simp only [List.Forall]; repeat' constructor
/-- The buffers `main_part2_ops0`'s operations write. -/
abbrev main_part2_ops0_W : List (Ref sig .tc) := [main_v97, main_v98, main_cst_21, main_v99, main_v100, main_cst_22, main_v101, main_v102, main_cst_23, main_v103, main_v104, main_v105, main_cst_24, main_v106, main_cst_25, main_v107, main_v108, main_c_26, main_v109, main_v110, main_c_27, main_v111, main_v112, main_v113, main_v114, main_v115, main_c_28, main_v116, main_v117, main_c_29, main_v118, main_v119, main_v120, main_v121, main_v122, main_v123, main_cst_30, main_v124, main_v125, main_v126, main_cst_31, main_v127, main_v128, main_cst_32, main_v129, main_v130, main_cst_33, main_v131, main_v132, main_cst_34, main_v133, main_v134, main_v135, main_cst_35, main_v136, main_cst_36, main_v137, main_v138, main_cst_37, main_v139]
theorem main_part2_ops0_writes : (main_part2_ops0 : List (HloOp τ sig (Elt F))).Forall fun op => op.writes ⊆ (main_part2_ops0_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; (repeat' apply And.intro) <;> exact List.mem_map_of_mem (by decide))
/-- A buffer outside that list is as before the stretch. -/
theorem main_part2_ops0_keeps (V : Valuation τ sig (Elt F)) (r : Ref sig .tc) (h : r ∉ main_part2_ops0_W) :
    StableHlo.after main_part2_ops0 V (Proc.devRef .tc r) = V (Proc.devRef .tc r) :=
  StableHlo.after_of_writes_sub main_part2_ops0 V main_part2_ops0_writes h

/-- No operation of `main_part3_ops0` allocates a buffer. -/
theorem main_part3_ops0_fresh : (main_part3_ops0 : List (HloOp τ sig (Elt F))).Forall fun op => op.fresh = ∅ := by
  simp only [List.Forall]; repeat' constructor
/-- The buffers `main_part3_ops0`'s operations write. -/
abbrev main_part3_ops0_W : List (Ref sig .tc) := [main_v140, main_cst_38, main_v141, main_v142, main_v143, main_v144, main_v145, main_v146, main_v147, main_cst_39, main_v148, main_cst_40, main_v149, main_cst_41, main_v150, main_cst_42, main_v151, main_v152, main_cst_43, main_v153, main_v154]
theorem main_part3_ops0_writes : (main_part3_ops0 : List (HloOp τ sig (Elt F))).Forall fun op => op.writes ⊆ (main_part3_ops0_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; (repeat' apply And.intro) <;> exact List.mem_map_of_mem (by decide))
/-- A buffer outside that list is as before the stretch. -/
theorem main_part3_ops0_keeps (V : Valuation τ sig (Elt F)) (r : Ref sig .tc) (h : r ∉ main_part3_ops0_W) :
    StableHlo.after main_part3_ops0 V (Proc.devRef .tc r) = V (Proc.devRef .tc r) :=
  StableHlo.after_of_writes_sub main_part3_ops0 V main_part3_ops0_writes h

end Cert.Kernel.Run

end
-- ==== Proof.WReg0Step.lean ====
import proofs.«114411_j49589692399794_2_alg».proof.Proof.Gen.Kernel.Launch
import proofs.«114411_j49589692399794_2_alg».proof.Proof.Gen.Kernel.Skeleton
import proofs.«114411_j49589692399794_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.Kernel.Reg0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The first product (x_adj · Wt, then the bias row and the rectifier): one grid point of the K-blocked matrix product

The grid is 16 row tiles by 8 blocks of the contracted axis, the block index running fastest.  At block 0 of a
row tile the accumulator is reset to zero; at every block it gains the product of the tile's 1024 × 2048 block
with the matching 2048 rows of the resident right operand; at block 7 the accumulator plus the bias row,
rectified, is stored to the output tile. -/

/-- The origin of every whole-block access. -/
theorem hz2 : (![0, 0] : Fin 2 → ℕ) = fun _ => 0 := by funext a; fin_cases a <;> rfl

/-- "This is block 0 of the contracted axis", as the body computes it from the grid coordinates. -/
abbrev condFirst (i : grid0.Coords) : Prop :=
  (Scalar.cmpi .ne (Scalar.extui (Scalar.cmpi .eq (BitVec.ofNat 32 (i 1).val) 0#32)) 0#32) = 1#1
/-- It holds exactly at the points ≡ 0 (mod 8). -/
theorem hcondFirst : ∀ t : Fin cfg0.N, condFirst (grid0.coords t) ↔ t.val % 8 = 0 :=
  (by decide +kernel : ∀ t : Fin grid0.N, condFirst (grid0.coords t) ↔ t.val % 8 = 0)
/-- "This is block 7, the last". -/
abbrev condLast (i : grid0.Coords) : Prop := k0_cond2 i = 1#1
/-- It holds exactly at the points ≡ 7 (mod 8). -/
theorem hcondLast : ∀ t : Fin cfg0.N, condLast (grid0.coords t) ↔ t.val % 8 = 7 :=
  (by decide +kernel : ∀ t : Fin grid0.N, condLast (grid0.coords t) ↔ t.val % 8 = 7)

/-- The 2048 rows of the right operand that block `i 1` of the contracted axis meets. -/
abbrev rowsOf (i : grid0.Coords) : Rect S16384x128 :=
  Rect.unit (s := S16384x128) (k0_off1 i) S2048x128.size (k0_off1_inb i)
/-- The whole accumulator / output tile. -/
abbrev tile : Rect S1024x128 := Rect.unit (s := S1024x128) ![0, 0] S1024x128.size inb_S1024x128_S1024x128_0_0

/-- One block's step: the accumulator plus the product of the left block with the block's rows of the right
    operand. -/
def accStep (i : grid0.Coords) (w : Vec F S16384x128 .f32) (x : Vec F S1024x2048 .f32) (acc : Vec F S1024x128 .f32) :
    Vec F S1024x128 .f32 :=
  k0_pay2 (View.ld w (rowsOf i)) x acc

/-- A whole-tile store read back is its payload, whatever the buffer held. -/
theorem read_store_tile (v : View sig .tc .vmem S1024x128 .f32) (f : v.ty.Contents (Elt F)) (p : Vec F S1024x128 .f32) :
    v.read (Elt F) (v.writes (Elt F) f [⟨tile, p⟩]) = p := by
  rw [View.read_writes_eq_canon v f _ (View.cover_of_tiled [⟨tile, p⟩] S1024x128.size (by rfl))]
  exact View.canon_unit_zero hz2 _ p

/-- A whole-tile store over an earlier one read back is the later payload. -/
theorem read_store_tile₂ (v : View sig .tc .vmem S1024x128 .f32) (f : v.ty.Contents (Elt F)) (p p' : Vec F S1024x128 .f32) :
    v.read (Elt F) (v.writes (Elt F) f [⟨tile, p⟩, ⟨tile, p'⟩]) = p := by
  have hcov : ∀ y : S1024x128.Idx, ∃ q ∈ ([⟨tile, p⟩, ⟨tile, p'⟩] : List (View.Piece (Elt F) S1024x128 .f32)), y ∈ q.1.set := by
    intro y
    obtain ⟨q, hq, hy⟩ := View.cover_of_tiled [(⟨tile, p'⟩ : View.Piece (Elt F) S1024x128 .f32)] S1024x128.size (by rfl) y
    exact ⟨q, List.mem_cons_of_mem _ hq, hy⟩
  rw [View.read_writes_eq_canon v f _ hcov]
  exact View.canon_cons_unit_zero hz2 _ p _

set_option maxHeartbeats 1000000 in
/-- A block that is neither the first nor the last: the accumulator takes one step, everything else is as it was. -/
theorem run_mid (c : Dev nD) (i : grid0.Coords)
    (arg2 : Memref sig .tc .vmem S1024x2048 .f32) (harg2 : arg2.IsWhole) (arg3 : Memref sig .tc .vmem S16384x128 .f32) (harg3 : arg3.IsWhole)
    (arg4 : Memref sig .tc .vmem S1x128 .f32) (harg4 : arg4.IsWhole) (arg5 : Memref sig .tc .vmem S1024x128 .f32) (harg5 : arg5.IsWhole)
    (arg6 : Memref sig .tc .vmem S1024x128 .f32) (harg6 : arg6.IsWhole)
    (hc0 : ¬condFirst i) (hc1 : ¬condLast i)
    (x0 : Vec F S1024x2048 .f32) (x1 : Vec F S16384x128 .f32) (x2 : Vec F S1x128 .f32) (xo : Vec F S1024x128 .f32) (xs : Vec F S1024x128 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xo ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare xo ∗ owns (c : Thread nD τ) arg6 fullShare (accStep i x1 x0 xs)) -∗ K ⟨⟩))
      ⊢ wp frame (wpE (defs₀ (F := F)) Variants.none c none) E (cc0__matmul_kernel i arg2 harg2 arg3 harg3 arg4 harg4 arg5 harg5 arg6 harg6) K := by
  simp only [cc0__matmul_kernel_eq_skeleton]; unfold cc0__matmul_kernel_skel
  unfold owns
  iintro ⟨⟨%f0, %hf0, H0⟩, ⟨%f1, %hf1, H1⟩, ⟨%f2, %hf2, H2⟩, ⟨%fo, %hfo, HO⟩, ⟨%fs, %hfs, HS⟩, Hk⟩
  obtain rfl := harg2.eq_unread hf0; obtain rfl := harg3.eq_unread hf1; obtain rfl := harg4.eq_unread hf2
  obtain rfl := harg5.eq_unread hfo; obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [HO]
  · iexists _; isplitr; · ipureintro; exact harg5.read_unread _
    iexact HO
  iexists _; isplitr
  swap; · iexact HS
  ipureintro
  rw [read_store_tile]
  simp only [View.readAt_eq_ld, harg2.read_unread, harg3.read_unread, harg6.read_unread]
  unfold accStep
  rw [View.ld_unit_zero (S := S1024x2048) hz2, View.ld_unit_zero (S := S1024x128) hz2]

set_option maxHeartbeats 1000000 in
/-- Block 0 of a row tile: the accumulator, whatever it held, is reset to zero and takes the first step. -/
theorem run_first (c : Dev nD) (i : grid0.Coords)
    (arg2 : Memref sig .tc .vmem S1024x2048 .f32) (harg2 : arg2.IsWhole) (arg3 : Memref sig .tc .vmem S16384x128 .f32) (harg3 : arg3.IsWhole)
    (arg4 : Memref sig .tc .vmem S1x128 .f32) (harg4 : arg4.IsWhole) (arg5 : Memref sig .tc .vmem S1024x128 .f32) (harg5 : arg5.IsWhole)
    (arg6 : Memref sig .tc .vmem S1024x128 .f32) (harg6 : arg6.IsWhole)
    (hc0 : condFirst i) (hc1 : ¬condLast i)
    (x0 : Vec F S1024x2048 .f32) (x1 : Vec F S16384x128 .f32) (x2 : Vec F S1x128 .f32) (xo : Vec F S1024x128 .f32) (xs : Vec F S1024x128 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xo ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare xo ∗ owns (c : Thread nD τ) arg6 fullShare (accStep i x1 x0 (k0_pay1 (F := F)))) -∗ K ⟨⟩))
      ⊢ wp frame (wpE (defs₀ (F := F)) Variants.none c none) E (cc0__matmul_kernel i arg2 harg2 arg3 harg3 arg4 harg4 arg5 harg5 arg6 harg6) K := by
  simp only [cc0__matmul_kernel_eq_skeleton]; unfold cc0__matmul_kernel_skel
  unfold owns
  iintro ⟨⟨%f0, %hf0, H0⟩, ⟨%f1, %hf1, H1⟩, ⟨%f2, %hf2, H2⟩, ⟨%fo, %hfo, HO⟩, ⟨%fs, %hfs, HS⟩, Hk⟩
  obtain rfl := harg2.eq_unread hf0; obtain rfl := harg3.eq_unread hf1; obtain rfl := harg4.eq_unread hf2
  obtain rfl := harg5.eq_unread hfo; obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [HO]
  · iexists _; isplitr; · ipureintro; exact harg5.read_unread _
    iexact HO
  iexists _; isplitr
  swap; · iexact HS
  ipureintro
  sl_unfold_run_names
  rw [read_store_tile₂]
  simp only [View.readAt_eq_ld, harg2.read_unread, harg3.read_unread, harg6.read_unread]
  unfold accStep
  rw [View.ld_unit_zero (S := S1024x2048) hz2, View.readCov_unit_zero _ hz2]

set_option maxHeartbeats 1000000 in
/-- Block 7, the last: the accumulator takes its step; the output tile takes it plus the bias row, rectified. -/
theorem run_last (c : Dev nD) (i : grid0.Coords)
    (arg2 : Memref sig .tc .vmem S1024x2048 .f32) (harg2 : arg2.IsWhole) (arg3 : Memref sig .tc .vmem S16384x128 .f32) (harg3 : arg3.IsWhole)
    (arg4 : Memref sig .tc .vmem S1x128 .f32) (harg4 : arg4.IsWhole) (arg5 : Memref sig .tc .vmem S1024x128 .f32) (harg5 : arg5.IsWhole)
    (arg6 : Memref sig .tc .vmem S1024x128 .f32) (harg6 : arg6.IsWhole)
    (hc0 : ¬condFirst i) (hc1 : condLast i)
    (x0 : Vec F S1024x2048 .f32) (x1 : Vec F S16384x128 .f32) (x2 : Vec F S1x128 .f32) (xo : Vec F S1024x128 .f32) (xs : Vec F S1024x128 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xo ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (k0_pay3 (accStep i x1 x0 xs) x2) ∗ owns (c : Thread nD τ) arg6 fullShare (accStep i x1 x0 xs)) -∗ K ⟨⟩))
      ⊢ wp frame (wpE (defs₀ (F := F)) Variants.none c none) E (cc0__matmul_kernel i arg2 harg2 arg3 harg3 arg4 harg4 arg5 harg5 arg6 harg6) K := by
  simp only [cc0__matmul_kernel_eq_skeleton]; unfold cc0__matmul_kernel_skel
  unfold owns
  iintro ⟨⟨%f0, %hf0, H0⟩, ⟨%f1, %hf1, H1⟩, ⟨%f2, %hf2, H2⟩, ⟨%fo, %hfo, HO⟩, ⟨%fs, %hfs, HS⟩, Hk⟩
  obtain rfl := harg2.eq_unread hf0; obtain rfl := harg3.eq_unread hf1; obtain rfl := harg4.eq_unread hf2
  obtain rfl := harg5.eq_unread hfo; obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [HO]
  · iexists _; isplitr
    swap; · iexact HO
    ipureintro
    sl_unfold_run_names
    rw [read_store_tile, View.readCov_unit_zero _ hz2]
    simp only [View.readAt_eq_ld, harg2.read_unread, harg3.read_unread, harg4.read_unread, harg6.read_unread]
    unfold accStep
    rw [View.ld_unit_zero (S := S1024x2048) hz2, View.ld_unit_zero (S := S1024x128) hz2, View.ld_unit_zero (S := S1x128) hz2]
  iexists _; isplitr
  swap; · iexact HS
  ipureintro
  sl_unfold_run_names
  rw [read_store_tile]
  simp only [View.readAt_eq_ld, harg2.read_unread, harg3.read_unread, harg6.read_unread]
  unfold accStep
  rw [View.ld_unit_zero (S := S1024x2048) hz2, View.ld_unit_zero (S := S1024x128) hz2]

end Cert.Kernel.Reg0

end
-- ==== Proof.WReg0Dat.lean ====
import proofs.«114411_j49589692399794_2_alg».proof.Proof.WReg0Step

set_option maxRecDepth 16384

noncomputable section

namespace Cert.Kernel.Reg0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The product as a region: what every buffer holds after each grid point

Stated at the contents `V` the TensorCore's buffers hold when the region is entered. -/

variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## Where the windows are idle -/

theorem liveAt_0 : ∀ t : Fin cfg0.N, cfg0.idle 0 (grid0.coords t) = false := by decide +kernel
theorem liveAt_1 : ∀ t : Fin cfg0.N, cfg0.idle 1 (grid0.coords t) = false := by decide +kernel
theorem liveAt_2 : ∀ t : Fin cfg0.N, cfg0.idle 2 (grid0.coords t) = false := by decide +kernel
/-- Before the last block of a row tile the output tile is idle and is not written back. -/
theorem idleAt_3 : ∀ t : Fin cfg0.N, ¬condLast (grid0.coords t) → cfg0.idle 3 (grid0.coords t) = true := by decide +kernel
theorem noFlush_3 : ∀ t : Fin cfg0.N, ¬condLast (grid0.coords t) → (cfg0.win 3).flush t = false := by decide +kernel
/-- At the last block it is live. -/
theorem liveAt_3 : ∀ t : Fin cfg0.N, condLast (grid0.coords t) → cfg0.idle 3 (grid0.coords t) = false := by decide +kernel

/-! ## The staging memrefs and the accumulator -/

abbrev ms_0 (t : Fin cfg0.N) : Memref sig .tc .vmem S1024x2048 .f32 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S16384x128 .f32 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S1x128 .f32 := win0_2.stage (cfg0.slots t 2)
abbrev hs_2 (t : Fin cfg0.N) : (ms_2 t).IsWhole := hstage0_2 ((cfg0.slots t 2).cast nbuf0_2)
abbrev ms_3 (t : Fin cfg0.N) : Memref sig .tc .vmem S1024x128 .f32 := win0_3.stage (cfg0.slots t 3)
abbrev hs_3 (t : Fin cfg0.N) : (ms_3 t).IsWhole := hstage0_3 ((cfg0.slots t 3).cast nbuf0_3)
/-- The accumulator: a whole scoped buffer of the kernel's own, carried from point to point. -/
abbrev scM : Memref sig .tc .vmem S1024x128 .f32 := Memref.whole cc0_scratch0

/-- THE ACCUMULATION. What the accumulator holds after the body at position `n`: at block 0 of a row tile one step
    from zero, at a later block one step from what the point before left. -/
def accAt (c : Dev nD) : (n : ℕ) → n < cfg0.N → Vec F S1024x128 .f32
  | 0, hn => accStep (grid0.coords ⟨0, hn⟩) (iblk V c 1 ⟨0, hn⟩) (iblk V c 0 ⟨0, hn⟩) (k0_pay1 (F := F))
  | n + 1, hn =>
    if (n + 1) % 8 = 0 then
      accStep (grid0.coords ⟨n + 1, hn⟩) (iblk V c 1 ⟨n + 1, hn⟩) (iblk V c 0 ⟨n + 1, hn⟩) (k0_pay1 (F := F))
    else
      accStep (grid0.coords ⟨n + 1, hn⟩) (iblk V c 1 ⟨n + 1, hn⟩) (iblk V c 0 ⟨n + 1, hn⟩) (accAt c n (Nat.lt_of_succ_lt hn))

theorem accAt_first (c : Dev nD) (t : Fin cfg0.N) (h0 : t.val % 8 = 0) :
    accAt V c t.val t.isLt = accStep (grid0.coords t) (iblk V c 1 t) (iblk V c 0 t) (k0_pay1 (F := F)) := by
  obtain ⟨n, hn⟩ := t
  cases n with
  | zero => rfl
  | succ n => exact if_pos h0

theorem accAt_next (c : Dev nD) (t : Fin cfg0.N) (h0 : ¬t.val % 8 = 0) :
    accAt V c t.val t.isLt = accStep (grid0.coords t) (iblk V c 1 t) (iblk V c 0 t)
      (accAt V c (t.val - 1) (Nat.lt_of_le_of_lt (Nat.sub_le _ _) t.isLt)) := by
  obtain ⟨n, hn⟩ := t
  cases n with
  | zero => exact absurd (Nat.zero_mod 8) h0
  | succ n => exact if_neg h0

/-! ## The invariant -/

/-- The core's other scoped buffers (the other products' staging buffers and accumulators), each at some contents. -/
def restOf (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ (∃ f : Buf (Elt F) ((c : Thread nD τ).loc cc2_scratch0), ((c : Thread nD τ).loc cc2_scratch0) ↦{fullShare} f))

/-- What the launch hands the region, with the accumulator singled out. -/
theorem PhiA_open (c : Dev nD) :
    (Pipeline.ΦA spec0 c : sProp 𝕄) ⊢ iprop((∃ d, owns (c : Thread nD τ) scM fullShare d) ∗ restOf c ∗ (∃ r, prngReg c r)) := by
  unfold Pipeline.ΦA; rw [scopedRest0_eq]; unfold restOf
  simp only [scM, owns_whole]
  iintro ⟨⟨⟨%fS, BS⟩, B1, B2, B3, B4, B5, B6, B7, B8, B9, B10, B11, B12, B13, B14⟩, Hg⟩
  isplitl [BS]
  · iexists fS; iexact BS
  isplitr [Hg]
  ·
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    isplitl [B10]; · iexact B10
    isplitl [B11]; · iexact B11
    isplitl [B12]; · iexact B12
    isplitl [B13]; · iexact B13
    iexact B14
  iexact Hg

/-- And back: the accumulator's contents forgotten. -/
theorem PhiA_close (c : Dev nD) :
    iprop((∃ d, owns (c : Thread nD τ) scM fullShare d) ∗ restOf c ∗ (∃ r, prngReg c r)) ⊢ (Pipeline.ΦA spec0 c : sProp 𝕄) := by
  unfold Pipeline.ΦA; rw [scopedRest0_eq]; unfold restOf
  simp only [scM, owns_whole]
  iintro ⟨⟨%fS, BS⟩, ⟨B1, B2, B3, B4, B5, B6, B7, B8, B9, B10, B11, B12, B13, B14⟩, Hg⟩
  isplitr [Hg]
  ·
    isplitl [BS]; · iexists fS; iexact BS
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    isplitl [B10]; · iexact B10
    isplitl [B11]; · iexact B11
    isplitl [B12]; · iexact B12
    isplitl [B13]; · iexact B13
    iexact B14
  iexact Hg

/-- The region invariant before position `n`: before the first point what the launch hands over; afterwards the
    accumulator at what the point before left, the other scoped buffers at anything, the generator register at some state. -/
def PhiS (c : Dev nD) : (n : ℕ) → n ≤ cfg0.N → sProp 𝕄
  | 0, _ => Pipeline.ΦA spec0 c
  | n + 1, hn => iprop(owns (c : Thread nD τ) scM fullShare (accAt V c n hn) ∗ restOf c ∗ (∃ r, prngReg c r))

theorem PhiS_succ (c : Dev nD) (n : ℕ) (hn : n < cfg0.N) :
    PhiS V c (n + 1) hn = iprop(owns (c : Thread nD τ) scM fullShare (accAt V c n hn) ∗ restOf c ∗ (∃ r, prngReg c r)) := rfl

theorem PhiS_pos (c : Dev nD) (n : ℕ) (h : n ≤ cfg0.N) (hz : n ≠ 0) :
    PhiS V c n h = iprop(owns (c : Thread nD τ) scM fullShare (accAt V c (n - 1) (by omega)) ∗ restOf c ∗ (∃ r, prngReg c r)) := by
  cases n with
  | zero => exact absurd rfl hz
  | succ n => rfl

/-- At any position the invariant yields the accumulator at SOME contents. -/
theorem PhiS_any (c : Dev nD) (n : ℕ) (h : n ≤ cfg0.N) :
    PhiS V c n h ⊢ iprop((∃ d, owns (c : Thread nD τ) scM fullShare d) ∗ restOf c ∗ (∃ r, prngReg c r)) := by
  cases n with
  | zero => exact PhiA_open c
  | succ n =>
    rw [PhiS_succ]
    iintro ⟨HS, Hr, Hg⟩
    isplitl [HS]; · iexists _; iexact HS
    isplitl [Hr]; · iexact Hr
    iexact Hg

/-! ## The proof data -/

/-- After the body at point `t` each input's buffer holds its block, the output tile's the accumulator plus the bias row, rectified
    (consulted only where the tile is written back: at the last block of a row tile); nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => k0_pay3 (accAt V c t.val t.isLt) (iblk V c 2 t)
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]

theorem PhiS_castSucc (c : Dev nD) (t : Fin cfg0.N) :
    (dat V c).Φ t.castSucc = PhiS V c t.val (Nat.le_of_lt t.isLt) := by
  dsimp only [dat]; rfl

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = k0_pay3 (accAt V c t.val t.isLt) (iblk V c 2 t) := by dsimp only [dat]

theorem before_0 (c : Dev nD) (t : Fin cfg0.N) (d) : (dat V c).before 0 t d = iblk V c 0 t :=
  before_0_of V (dat V c) (A_eq V c 0) (after_0 V c) t d
theorem before_1 (c : Dev nD) (t : Fin cfg0.N) (d) : (dat V c).before 1 t d = iblk V c 1 t :=
  before_1_of V (dat V c) (A_eq V c 1) (after_1 V c) t d
theorem before_2 (c : Dev nD) (t : Fin cfg0.N) (d) : (dat V c).before 2 t d = iblk V c 2 t :=
  before_2_of V (dat V c) (A_eq V c 2) (after_2 V c) t d

end Cert.Kernel.Reg0

end
-- ==== Proof.WReg1Step.lean ====
import proofs.«114411_j49589692399794_2_alg».proof.Proof.Gen.Kernel.Launch
import proofs.«114411_j49589692399794_2_alg».proof.Proof.Gen.Kernel.Skeleton
import proofs.«114411_j49589692399794_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.Kernel.Reg1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The second product (P · h0): one grid point of the K-blocked matrix product

The grid is 16 row tiles by 8 blocks of the contracted axis, the block index running fastest.  At block 0 of a
row tile the accumulator is reset to zero; at every block it gains the product of the tile's 1024 × 2048 block
with the matching 2048 rows of the resident right operand; at block 7 the accumulator is copied to the output
tile. -/

/-- The origin of every whole-block access. -/
theorem hz2 : (![0, 0] : Fin 2 → ℕ) = fun _ => 0 := by funext a; fin_cases a <;> rfl

/-- "This is block 0 of the contracted axis", as the body computes it from the grid coordinates. -/
abbrev condFirst (i : grid1.Coords) : Prop :=
  (Scalar.cmpi .ne (Scalar.extui (Scalar.cmpi .eq (BitVec.ofNat 32 (i 1).val) 0#32)) 0#32) = 1#1
/-- It holds exactly at the points ≡ 0 (mod 8). -/
theorem hcondFirst : ∀ t : Fin cfg1.N, condFirst (grid1.coords t) ↔ t.val % 8 = 0 :=
  (by decide +kernel : ∀ t : Fin grid1.N, condFirst (grid1.coords t) ↔ t.val % 8 = 0)
/-- "This is block 7, the last". -/
abbrev condLast (i : grid1.Coords) : Prop := k1_cond2 i = 1#1
/-- It holds exactly at the points ≡ 7 (mod 8). -/
theorem hcondLast : ∀ t : Fin cfg1.N, condLast (grid1.coords t) ↔ t.val % 8 = 7 :=
  (by decide +kernel : ∀ t : Fin grid1.N, condLast (grid1.coords t) ↔ t.val % 8 = 7)

/-- The 2048 rows of the right operand that block `i 1` of the contracted axis meets. -/
abbrev rowsOf (i : grid1.Coords) : Rect S16384x128 :=
  Rect.unit (s := S16384x128) (k1_off1 i) S2048x128.size (k1_off1_inb i)
/-- The whole accumulator / output tile. -/
abbrev tile : Rect S1024x128 := Rect.unit (s := S1024x128) ![0, 0] S1024x128.size inb_S1024x128_S1024x128_0_0

/-- One block's step: the accumulator plus the product of the left block with the block's rows of the right
    operand. -/
def accStep (i : grid1.Coords) (w : Vec F S16384x128 .f32) (x : Vec F S1024x2048 .f32) (acc : Vec F S1024x128 .f32) :
    Vec F S1024x128 .f32 :=
  k1_pay2 (View.ld w (rowsOf i)) x acc

/-- A whole-tile store read back is its payload, whatever the buffer held. -/
theorem read_store_tile (v : View sig .tc .vmem S1024x128 .f32) (f : v.ty.Contents (Elt F)) (p : Vec F S1024x128 .f32) :
    v.read (Elt F) (v.writes (Elt F) f [⟨tile, p⟩]) = p := by
  rw [View.read_writes_eq_canon v f _ (View.cover_of_tiled [⟨tile, p⟩] S1024x128.size (by rfl))]
  exact View.canon_unit_zero hz2 _ p

/-- A whole-tile store over an earlier one read back is the later payload. -/
theorem read_store_tile₂ (v : View sig .tc .vmem S1024x128 .f32) (f : v.ty.Contents (Elt F)) (p p' : Vec F S1024x128 .f32) :
    v.read (Elt F) (v.writes (Elt F) f [⟨tile, p⟩, ⟨tile, p'⟩]) = p := by
  have hcov : ∀ y : S1024x128.Idx, ∃ q ∈ ([⟨tile, p⟩, ⟨tile, p'⟩] : List (View.Piece (Elt F) S1024x128 .f32)), y ∈ q.1.set := by
    intro y
    obtain ⟨q, hq, hy⟩ := View.cover_of_tiled [(⟨tile, p'⟩ : View.Piece (Elt F) S1024x128 .f32)] S1024x128.size (by rfl) y
    exact ⟨q, List.mem_cons_of_mem _ hq, hy⟩
  rw [View.read_writes_eq_canon v f _ hcov]
  exact View.canon_cons_unit_zero hz2 _ p _

set_option maxHeartbeats 1000000 in
/-- A block that is neither the first nor the last: the accumulator takes one step, everything else is as it was. -/
theorem run_mid (c : Dev nD) (i : grid1.Coords)
    (arg2 : Memref sig .tc .vmem S1024x2048 .f32) (harg2 : arg2.IsWhole) (arg3 : Memref sig .tc .vmem S16384x128 .f32) (harg3 : arg3.IsWhole)
    (arg4 : Memref sig .tc .vmem S1x128 .f32) (harg4 : arg4.IsWhole) (arg5 : Memref sig .tc .vmem S1024x128 .f32) (harg5 : arg5.IsWhole)
    (arg6 : Memref sig .tc .vmem S1024x128 .f32) (harg6 : arg6.IsWhole)
    (hc0 : ¬condFirst i) (hc1 : ¬condLast i)
    (x0 : Vec F S1024x2048 .f32) (x1 : Vec F S16384x128 .f32) (x2 : Vec F S1x128 .f32) (xo : Vec F S1024x128 .f32) (xs : Vec F S1024x128 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xo ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare xo ∗ owns (c : Thread nD τ) arg6 fullShare (accStep i x1 x0 xs)) -∗ K ⟨⟩))
      ⊢ wp frame (wpE (defs₀ (F := F)) Variants.none c none) E (cc1__matmul_kernel i arg2 harg2 arg3 harg3 arg4 harg4 arg5 harg5 arg6 harg6) K := by
  simp only [cc1__matmul_kernel_eq_skeleton]; unfold cc1__matmul_kernel_skel
  unfold owns
  iintro ⟨⟨%f0, %hf0, H0⟩, ⟨%f1, %hf1, H1⟩, ⟨%f2, %hf2, H2⟩, ⟨%fo, %hfo, HO⟩, ⟨%fs, %hfs, HS⟩, Hk⟩
  obtain rfl := harg2.eq_unread hf0; obtain rfl := harg3.eq_unread hf1; obtain rfl := harg4.eq_unread hf2
  obtain rfl := harg5.eq_unread hfo; obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [HO]
  · iexists _; isplitr; · ipureintro; exact harg5.read_unread _
    iexact HO
  iexists _; isplitr
  swap; · iexact HS
  ipureintro
  rw [read_store_tile]
  simp only [View.readAt_eq_ld, harg2.read_unread, harg3.read_unread, harg6.read_unread]
  unfold accStep
  rw [View.ld_unit_zero (S := S1024x2048) hz2, View.ld_unit_zero (S := S1024x128) hz2]

set_option maxHeartbeats 1000000 in
/-- Block 0 of a row tile: the accumulator, whatever it held, is reset to zero and takes the first step. -/
theorem run_first (c : Dev nD) (i : grid1.Coords)
    (arg2 : Memref sig .tc .vmem S1024x2048 .f32) (harg2 : arg2.IsWhole) (arg3 : Memref sig .tc .vmem S16384x128 .f32) (harg3 : arg3.IsWhole)
    (arg4 : Memref sig .tc .vmem S1x128 .f32) (harg4 : arg4.IsWhole) (arg5 : Memref sig .tc .vmem S1024x128 .f32) (harg5 : arg5.IsWhole)
    (arg6 : Memref sig .tc .vmem S1024x128 .f32) (harg6 : arg6.IsWhole)
    (hc0 : condFirst i) (hc1 : ¬condLast i)
    (x0 : Vec F S1024x2048 .f32) (x1 : Vec F S16384x128 .f32) (x2 : Vec F S1x128 .f32) (xo : Vec F S1024x128 .f32) (xs : Vec F S1024x128 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xo ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare xo ∗ owns (c : Thread nD τ) arg6 fullShare (accStep i x1 x0 (k1_pay1 (F := F)))) -∗ K ⟨⟩))
      ⊢ wp frame (wpE (defs₀ (F := F)) Variants.none c none) E (cc1__matmul_kernel i arg2 harg2 arg3 harg3 arg4 harg4 arg5 harg5 arg6 harg6) K := by
  simp only [cc1__matmul_kernel_eq_skeleton]; unfold cc1__matmul_kernel_skel
  unfold owns
  iintro ⟨⟨%f0, %hf0, H0⟩, ⟨%f1, %hf1, H1⟩, ⟨%f2, %hf2, H2⟩, ⟨%fo, %hfo, HO⟩, ⟨%fs, %hfs, HS⟩, Hk⟩
  obtain rfl := harg2.eq_unread hf0; obtain rfl := harg3.eq_unread hf1; obtain rfl := harg4.eq_unread hf2
  obtain rfl := harg5.eq_unread hfo; obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [HO]
  · iexists _; isplitr; · ipureintro; exact harg5.read_unread _
    iexact HO
  iexists _; isplitr
  swap; · iexact HS
  ipureintro
  sl_unfold_run_names
  rw [read_store_tile₂]
  simp only [View.readAt_eq_ld, harg2.read_unread, harg3.read_unread, harg6.read_unread]
  unfold accStep
  rw [View.ld_unit_zero (S := S1024x2048) hz2, View.readCov_unit_zero _ hz2]

set_option maxHeartbeats 1000000 in
/-- Block 7, the last: the accumulator takes its step and is copied to the output tile. -/
theorem run_last (c : Dev nD) (i : grid1.Coords)
    (arg2 : Memref sig .tc .vmem S1024x2048 .f32) (harg2 : arg2.IsWhole) (arg3 : Memref sig .tc .vmem S16384x128 .f32) (harg3 : arg3.IsWhole)
    (arg4 : Memref sig .tc .vmem S1x128 .f32) (harg4 : arg4.IsWhole) (arg5 : Memref sig .tc .vmem S1024x128 .f32) (harg5 : arg5.IsWhole)
    (arg6 : Memref sig .tc .vmem S1024x128 .f32) (harg6 : arg6.IsWhole)
    (hc0 : ¬condFirst i) (hc1 : condLast i)
    (x0 : Vec F S1024x2048 .f32) (x1 : Vec F S16384x128 .f32) (x2 : Vec F S1x128 .f32) (xo : Vec F S1024x128 .f32) (xs : Vec F S1024x128 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xo ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (accStep i x1 x0 xs) ∗ owns (c : Thread nD τ) arg6 fullShare (accStep i x1 x0 xs)) -∗ K ⟨⟩))
      ⊢ wp frame (wpE (defs₀ (F := F)) Variants.none c none) E (cc1__matmul_kernel i arg2 harg2 arg3 harg3 arg4 harg4 arg5 harg5 arg6 harg6) K := by
  simp only [cc1__matmul_kernel_eq_skeleton]; unfold cc1__matmul_kernel_skel
  unfold owns
  iintro ⟨⟨%f0, %hf0, H0⟩, ⟨%f1, %hf1, H1⟩, ⟨%f2, %hf2, H2⟩, ⟨%fo, %hfo, HO⟩, ⟨%fs, %hfs, HS⟩, Hk⟩
  obtain rfl := harg2.eq_unread hf0; obtain rfl := harg3.eq_unread hf1; obtain rfl := harg4.eq_unread hf2
  obtain rfl := harg5.eq_unread hfo; obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [HO]
  · iexists _; isplitr
    swap; · iexact HO
    ipureintro
    sl_unfold_run_names
    rw [read_store_tile, View.readCov_unit_zero _ hz2]
    simp only [View.readAt_eq_ld, harg2.read_unread, harg3.read_unread, harg6.read_unread]
    unfold accStep
    rw [View.ld_unit_zero (S := S1024x2048) hz2, View.ld_unit_zero (S := S1024x128) hz2]
  iexists _; isplitr
  swap; · iexact HS
  ipureintro
  sl_unfold_run_names
  rw [read_store_tile]
  simp only [View.readAt_eq_ld, harg2.read_unread, harg3.read_unread, harg6.read_unread]
  unfold accStep
  rw [View.ld_unit_zero (S := S1024x2048) hz2, View.ld_unit_zero (S := S1024x128) hz2]

end Cert.Kernel.Reg1

end
-- ==== Proof.WReg1Dat.lean ====
import proofs.«114411_j49589692399794_2_alg».proof.Proof.WReg1Step

set_option maxRecDepth 16384

noncomputable section

namespace Cert.Kernel.Reg1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The product as a region: what every buffer holds after each grid point

Stated at the contents `V` the TensorCore's buffers hold when the region is entered. -/

variable (V : (c : Dev nD) → (b : Ref sig .tc) → Buf (Elt F) ((c : Thread nD τ).loc b))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## Where the windows are idle -/

theorem liveAt_0 : ∀ t : Fin cfg1.N, cfg1.idle 0 (grid1.coords t) = false := by decide +kernel
theorem liveAt_1 : ∀ t : Fin cfg1.N, cfg1.idle 1 (grid1.coords t) = false := by decide +kernel
theorem liveAt_2 : ∀ t : Fin cfg1.N, cfg1.idle 2 (grid1.coords t) = false := by decide +kernel
/-- Before the last block of a row tile the output tile is idle and is not written back. -/
theorem idleAt_3 : ∀ t : Fin cfg1.N, ¬condLast (grid1.coords t) → cfg1.idle 3 (grid1.coords t) = true := by decide +kernel
theorem noFlush_3 : ∀ t : Fin cfg1.N, ¬condLast (grid1.coords t) → (cfg1.win 3).flush t = false := by decide +kernel
/-- At the last block it is live. -/
theorem liveAt_3 : ∀ t : Fin cfg1.N, condLast (grid1.coords t) → cfg1.idle 3 (grid1.coords t) = false := by decide +kernel

/-! ## The staging memrefs and the accumulator -/

abbrev ms_0 (t : Fin cfg1.N) : Memref sig .tc .vmem S1024x2048 .f32 := win1_0.stage (cfg1.slots t 0)
abbrev hs_0 (t : Fin cfg1.N) : (ms_0 t).IsWhole := hstage1_0 ((cfg1.slots t 0).cast nbuf1_0)
abbrev ms_1 (t : Fin cfg1.N) : Memref sig .tc .vmem S16384x128 .f32 := win1_1.stage (cfg1.slots t 1)
abbrev hs_1 (t : Fin cfg1.N) : (ms_1 t).IsWhole := hstage1_1 ((cfg1.slots t 1).cast nbuf1_1)
abbrev ms_2 (t : Fin cfg1.N) : Memref sig .tc .vmem S1x128 .f32 := win1_2.stage (cfg1.slots t 2)
abbrev hs_2 (t : Fin cfg1.N) : (ms_2 t).IsWhole := hstage1_2 ((cfg1.slots t 2).cast nbuf1_2)
abbrev ms_3 (t : Fin cfg1.N) : Memref sig .tc .vmem S1024x128 .f32 := win1_3.stage (cfg1.slots t 3)
abbrev hs_3 (t : Fin cfg1.N) : (ms_3 t).IsWhole := hstage1_3 ((cfg1.slots t 3).cast nbuf1_3)
/-- The accumulator: a whole scoped buffer of the kernel's own, carried from point to point. -/
abbrev scM : Memref sig .tc .vmem S1024x128 .f32 := Memref.whole cc1_scratch0

/-- THE ACCUMULATION. What the accumulator holds after the body at position `n`: at block 0 of a row tile one step
    from zero, at a later block one step from what the point before left. -/
def accAt (c : Dev nD) : (n : ℕ) → n < cfg1.N → Vec F S1024x128 .f32
  | 0, hn => accStep (grid1.coords ⟨0, hn⟩) (iblk V c 1 ⟨0, hn⟩) (iblk V c 0 ⟨0, hn⟩) (k1_pay1 (F := F))
  | n + 1, hn =>
    if (n + 1) % 8 = 0 then
      accStep (grid1.coords ⟨n + 1, hn⟩) (iblk V c 1 ⟨n + 1, hn⟩) (iblk V c 0 ⟨n + 1, hn⟩) (k1_pay1 (F := F))
    else
      accStep (grid1.coords ⟨n + 1, hn⟩) (iblk V c 1 ⟨n + 1, hn⟩) (iblk V c 0 ⟨n + 1, hn⟩) (accAt c n (Nat.lt_of_succ_lt hn))

theorem accAt_first (c : Dev nD) (t : Fin cfg1.N) (h0 : t.val % 8 = 0) :
    accAt V c t.val t.isLt = accStep (grid1.coords t) (iblk V c 1 t) (iblk V c 0 t) (k1_pay1 (F := F)) := by
  obtain ⟨n, hn⟩ := t
  cases n with
  | zero => rfl
  | succ n => exact if_pos h0

theorem accAt_next (c : Dev nD) (t : Fin cfg1.N) (h0 : ¬t.val % 8 = 0) :
    accAt V c t.val t.isLt = accStep (grid1.coords t) (iblk V c 1 t) (iblk V c 0 t)
      (accAt V c (t.val - 1) (Nat.lt_of_le_of_lt (Nat.sub_le _ _) t.isLt)) := by
  obtain ⟨n, hn⟩ := t
  cases n with
  | zero => exact absurd (Nat.zero_mod 8) h0
  | succ n => exact if_neg h0

/-! ## The invariant -/

/-- The core's other scoped buffers (the other products' staging buffers and accumulators), each at some contents. -/
def restOf (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ (∃ f : Buf (Elt F) ((c : Thread nD τ).loc cc2_scratch0), ((c : Thread nD τ).loc cc2_scratch0) ↦{fullShare} f))

/-- What the launch hands the region, with the accumulator singled out. -/
theorem PhiA_open (c : Dev nD) :
    (Pipeline.ΦA spec1 c : sProp 𝕄) ⊢ iprop((∃ d, owns (c : Thread nD τ) scM fullShare d) ∗ restOf c ∗ (∃ r, prngReg c r)) := by
  unfold Pipeline.ΦA; rw [scopedRest1_eq]; unfold restOf
  simp only [scM, owns_whole]
  iintro ⟨⟨B0, B1, B2, B3, B4, B5, B6, ⟨%fS, BS⟩, B8, B9, B10, B11, B12, B13, B14⟩, Hg⟩
  isplitl [BS]
  · iexists fS; iexact BS
  isplitr [Hg]
  ·
    isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B8]; · iexact B8
    isplitl [B9]; · iexact B9
    isplitl [B10]; · iexact B10
    isplitl [B11]; · iexact B11
    isplitl [B12]; · iexact B12
    isplitl [B13]; · iexact B13
    iexact B14
  iexact Hg

/-- And back: the accumulator's contents forgotten. -/
theorem PhiA_close (c : Dev nD) :
    iprop((∃ d, owns (c : Thread nD τ) scM fullShare d) ∗ restOf c ∗ (∃ r, prngReg c r)) ⊢ (Pipeline.ΦA spec1 c : sProp 𝕄) := by
  unfold Pipeline.ΦA; rw [scopedRest1_eq]; unfold restOf
  simp only [scM, owns_whole]
  iintro ⟨⟨%fS, BS⟩, ⟨B0, B1, B2, B3, B4, B5, B6, B8, B9, B10, B11, B12, B13, B14⟩, Hg⟩
  isplitr [Hg]
  ·
    isplitl [B0]; · iexact B0
    isplitl [B1]; · iexact B1
    isplitl [B2]; · iexact B2
    isplitl [B3]; · iexact B3
    isplitl [B4]; · iexact B4
    isplitl [B5]; · iexact B5
    isplitl [B6]; · iexact B6
    isplitl [BS]; · iexists fS; iexact BS
    isplitl [B8]; · iexact B8
    isplitl [B9]; · iexact B9
    isplitl [B10]; · iexact B10
    isplitl [B11]; · iexact B11
    isplitl [B12]; · iexact B12
    isplitl [B13]; · iexact B13
    iexact B14
  iexact Hg

/-- The region invariant before position `n`: before the first point what the launch hands over; afterwards the
    accumulator at what the point before left, the other scoped buffers at anything, the generator register at some state. -/
def PhiS (c : Dev nD) : (n : ℕ) → n ≤ cfg1.N → sProp 𝕄
  | 0, _ => Pipeline.ΦA spec1 c
  | n + 1, hn => iprop(owns (c : Thread nD τ) scM fullShare (accAt V c n hn) ∗ restOf c ∗ (∃ r, prngReg c r))

theorem PhiS_succ (c : Dev nD) (n : ℕ) (hn : n < cfg1.N) :
    PhiS V c (n + 1) hn = iprop(owns (c : Thread nD τ) scM fullShare (accAt V c n hn) ∗ restOf c ∗ (∃ r, prngReg c r)) := rfl

theorem PhiS_pos (c : Dev nD) (n : ℕ) (h : n ≤ cfg1.N) (hz : n ≠ 0) :
    PhiS V c n h = iprop(owns (c : Thread nD τ) scM fullShare (accAt V c (n - 1) (by omega)) ∗ restOf c ∗ (∃ r, prngReg c r)) := by
  cases n with
  | zero => exact absurd rfl hz
  | succ n => rfl

/-- At any position the invariant yields the accumulator at SOME contents. -/
theorem PhiS_any (c : Dev nD) (n : ℕ) (h : n ≤ cfg1.N) :
    PhiS V c n h ⊢ iprop((∃ d, owns (c : Thread nD τ) scM fullShare d) ∗ restOf c ∗ (∃ r, prngReg c r)) := by
  cases n with
  | zero => exact PhiA_open c
  | succ n =>
    rw [PhiS_succ]
    iintro ⟨HS, Hr, Hg⟩
    isplitl [HS]; · iexists _; iexact HS
    isplitl [Hr]; · iexact Hr
    iexact Hg

/-! ## The proof data -/

/-- After the body at point `t` each input's buffer holds its block, the output tile's what the accumulator holds
    (consulted only where the tile is written back: at the last block of a row tile); nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => accAt V c t.val t.isLt
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]

theorem PhiS_castSucc (c : Dev nD) (t : Fin cfg1.N) :
    (dat V c).Φ t.castSucc = PhiS V c t.val (Nat.le_of_lt t.isLt) := by
  dsimp only [dat]; rfl

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = accAt V c t.val t.isLt := by dsimp only [dat]

theorem before_0 (c : Dev nD) (t : Fin cfg1.N) (d) : (dat V c).before 0 t d = iblk V c 0 t :=
  before_0_of V (dat V c) (A_eq V c 0) (after_0 V c) t d
theorem before_1 (c : Dev nD) (t : Fin cfg1.N) (d) : (dat V c).before 1 t d = iblk V c 1 t :=
  before_1_of V (dat V c) (A_eq V c 1) (after_1 V c) t d
theorem before_2 (c : Dev nD) (t : Fin cfg1.N) (d) : (dat V c).before 2 t d = iblk V c 2 t :=
  before_2_of V (dat V c) (A_eq V c 2) (after_2 V c) t d

end Cert.Kernel.Reg1

end
-- ==== Proof.WReg2Step.lean ====
import proofs.«114411_j49589692399794_2_alg».proof.Proof.Gen.Kernel.Launch
import proofs.«114411_j49589692399794_2_alg».proof.Proof.Gen.Kernel.Skeleton
import proofs.«114411_j49589692399794_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.Kernel.Reg2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The third product (P · h1): one grid point of the K-blocked matrix product

The grid is 16 row tiles by 8 blocks of the contracted axis, the block index running fastest.  At block 0 of a
row tile the accumulator is reset to zero; at every block it gains the product of the tile's 1024 × 2048 block
with the matching 2048 rows of the resident right operand; at block 7 the accumulator is copied to the output
tile. -/

/-- The origin of every whole-block access. -/
theorem hz2 : (![0, 0] : Fin 2 → ℕ) = fun _ => 0 := by funext a; fin_cases a <;> rfl

/-- "This is block 0 of the contracted axis", as the body computes it from the grid coordinates. -/
abbrev condFirst (i : grid2.Coords) : Prop :=
  (Scalar.cmpi .ne (Scalar.extui (Scalar.cmpi .eq (BitVec.ofNat 32 (i 1).val) 0#32)) 0#32) = 1#1
/-- It holds exactly at the points ≡ 0 (mod 8). -/
theorem hcondFirst : ∀ t : Fin cfg2.N, condFirst (grid2.coords t) ↔ t.val % 8 = 0 :=
  (by decide +kernel : ∀ t : Fin grid2.N, condFirst (grid2.coords t) ↔ t.val % 8 = 0)
/-- "This is block 7, the last". -/
abbrev condLast (i : grid2.Coords) : Prop := k2_cond2 i = 1#1
/-- It holds exactly at the points ≡ 7 (mod 8). -/
theorem hcondLast : ∀ t : Fin cfg2.N, condLast (grid2.coords t) ↔ t.val % 8 = 7 :=
  (by decide +kernel : ∀ t : Fin grid2.N, condLast (grid2.coords t) ↔ t.val % 8 = 7)

/-- The 2048 rows of the right operand that block `i 1` of the contracted axis meets. -/
abbrev rowsOf (i : grid2.Coords) : Rect S16384x64 :=
  Rect.unit (s := S16384x64) (k2_off1 i) S2048x64.size (k2_off1_inb i)
/-- The whole accumulator / output tile. -/
abbrev tile : Rect S1024x64 := Rect.unit (s := S1024x64) ![0, 0] S1024x64.size inb_S1024x64_S1024x64_0_0

/-- One block's step: the accumulator plus the product of the left block with the block's rows of the right
    operand. -/
def accStep (i : grid2.Coords) (w : Vec F S16384x64 .f32) (x : Vec F S1024x2048 .f32) (acc : Vec F S1024x64 .f32) :
    Vec F S1024x64 .f32 :=
  k2_pay2 (View.ld w (rowsOf i)) x acc

/-- A whole-tile store read back is its payload, whatever the buffer held. -/
theorem read_store_tile (v : View sig .tc .vmem S1024x64 .f32) (f : v.ty.Contents (Elt F)) (p : Vec F S1024x64 .f32) :
    v.read (Elt F) (v.writes (Elt F) f [⟨tile, p⟩]) = p := by
  rw [View.read_writes_eq_canon v f _ (View.cover_of_tiled [⟨tile, p⟩] S1024x64.size (by rfl))]
  exact View.canon_unit_zero hz2 _ p

/-- A whole-tile store over an earlier one read back is the later payload. -/
theorem read_store_tile₂ (v : View sig .tc .vmem S1024x64 .f32) (f : v.ty.Contents (Elt F)) (p p' : Vec F S1024x64 .f32) :
    v.read (Elt F) (v.writes (Elt F) f [⟨tile, p⟩, ⟨tile, p'⟩]) = p := by
  have hcov : ∀ y : S1024x64.Idx, ∃ q ∈ ([⟨tile, p⟩, ⟨tile, p'⟩] : List (View.Piece (Elt F) S1024x64 .f32)), y ∈ q.1.set := by
    intro y
    obtain ⟨q, hq, hy⟩ := View.cover_of_tiled [(⟨tile, p'⟩ : View.Piece (Elt F) S1024x64 .f32)] S1024x64.size (by rfl) y
    exact ⟨q, List.mem_cons_of_mem _ hq, hy⟩
  rw [View.read_writes_eq_canon v f _ hcov]
  exact View.canon_cons_unit_zero hz2 _ p _

set_option maxHeartbeats 1000000 in
/-- A block that is neither the first nor the last: the accumulator takes one step, everything else is as it was. -/
theorem run_mid (c : Dev nD) (i : grid2.Coords)
    (arg2 : Memref sig .tc .vmem S1024x2048 .f32) (harg2 : arg2.IsWhole) (arg3 : Memref sig .tc .vmem S16384x64 .f32) (harg3 : arg3.IsWhole)
    (arg4 : Memref sig .tc .vmem S1x64 .f32) (harg4 : arg4.IsWhole) (arg5 : Memref sig .tc .vmem S1024x64 .f32) (harg5 : arg5.IsWhole)
    (arg6 : Memref sig .tc .vmem S1024x64 .f32) (harg6 : arg6.IsWhole)
    (hc0 : ¬condFirst i) (hc1 : ¬condLast i)
    (x0 : Vec F S1024x2048 .f32) (x1 : Vec F S16384x64 .f32) (x2 : Vec F S1x64 .f32) (xo : Vec F S1024x64 .f32) (xs : Vec F S1024x64 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xo ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare xo ∗ owns (c : Thread nD τ) arg6 fullShare (accStep i x1 x0 xs)) -∗ K ⟨⟩))
      ⊢ wp frame (wpE (defs₀ (F := F)) Variants.none c none) E (cc2__matmul_kernel i arg2 harg2 arg3 harg3 arg4 harg4 arg5 harg5 arg6 harg6) K := by
  simp only [cc2__matmul_kernel_eq_skeleton]; unfold cc2__matmul_kernel_skel
  unfold owns
  iintro ⟨⟨%f0, %hf0, H0⟩, ⟨%f1, %hf1, H1⟩, ⟨%f2, %hf2, H2⟩, ⟨%fo, %hfo, HO⟩, ⟨%fs, %hfs, HS⟩, Hk⟩
  obtain rfl := harg2.eq_unread hf0; obtain rfl := harg3.eq_unread hf1; obtain rfl := harg4.eq_unread hf2
  obtain rfl := harg5.eq_unread hfo; obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [HO]
  · iexists _; isplitr; · ipureintro; exact harg5.read_unread _
    iexact HO
  iexists _; isplitr
  swap; · iexact HS
  ipureintro
  rw [read_store_tile]
  simp only [View.readAt_eq_ld, harg2.read_unread, harg3.read_unread, harg6.read_unread]
  unfold accStep
  rw [View.ld_unit_zero (S := S1024x2048) hz2, View.ld_unit_zero (S := S1024x64) hz2]

set_option maxHeartbeats 1000000 in
/-- Block 0 of a row tile: the accumulator, whatever it held, is reset to zero and takes the first step. -/
theorem run_first (c : Dev nD) (i : grid2.Coords)
    (arg2 : Memref sig .tc .vmem S1024x2048 .f32) (harg2 : arg2.IsWhole) (arg3 : Memref sig .tc .vmem S16384x64 .f32) (harg3 : arg3.IsWhole)
    (arg4 : Memref sig .tc .vmem S1x64 .f32) (harg4 : arg4.IsWhole) (arg5 : Memref sig .tc .vmem S1024x64 .f32) (harg5 : arg5.IsWhole)
    (arg6 : Memref sig .tc .vmem S1024x64 .f32) (harg6 : arg6.IsWhole)
    (hc0 : condFirst i) (hc1 : ¬condLast i)
    (x0 : Vec F S1024x2048 .f32) (x1 : Vec F S16384x64 .f32) (x2 : Vec F S1x64 .f32) (xo : Vec F S1024x64 .f32) (xs : Vec F S1024x64 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xo ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare xo ∗ owns (c : Thread nD τ) arg6 fullShare (accStep i x1 x0 (k2_pay1 (F := F)))) -∗ K ⟨⟩))
      ⊢ wp frame (wpE (defs₀ (F := F)) Variants.none c none) E (cc2__matmul_kernel i arg2 harg2 arg3 harg3 arg4 harg4 arg5 harg5 arg6 harg6) K := by
  simp only [cc2__matmul_kernel_eq_skeleton]; unfold cc2__matmul_kernel_skel
  unfold owns
  iintro ⟨⟨%f0, %hf0, H0⟩, ⟨%f1, %hf1, H1⟩, ⟨%f2, %hf2, H2⟩, ⟨%fo, %hfo, HO⟩, ⟨%fs, %hfs, HS⟩, Hk⟩
  obtain rfl := harg2.eq_unread hf0; obtain rfl := harg3.eq_unread hf1; obtain rfl := harg4.eq_unread hf2
  obtain rfl := harg5.eq_unread hfo; obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [HO]
  · iexists _; isplitr; · ipureintro; exact harg5.read_unread _
    iexact HO
  iexists _; isplitr
  swap; · iexact HS
  ipureintro
  sl_unfold_run_names
  rw [read_store_tile₂]
  simp only [View.readAt_eq_ld, harg2.read_unread, harg3.read_unread, harg6.read_unread]
  unfold accStep
  rw [View.ld_unit_zero (S := S1024x2048) hz2, View.readCov_unit_zero _ hz2]

set_option maxHeartbeats 1000000 in
/-- Block 7, the last: the accumulator takes its step and is copied to the output tile. -/
theorem run_last (c : Dev nD) (i : grid2.Coords)
    (arg2 : Memref sig .tc .vmem S1024x2048 .f32) (harg2 : arg2.IsWhole) (arg3 : Memref sig .tc .vmem S16384x64 .f32) (harg3 : arg3.IsWhole)
    (arg4 : Memref sig .tc .vmem S1x64 .f32) (harg4 : arg4.IsWhole) (arg5 : Memref sig .tc .vmem S1024x64 .f32) (harg5 : arg5.IsWhole)
    (arg6 : Memref sig .tc .vmem S1024x64 .f32) (harg6 : arg6.IsWhole)
    (hc0 : ¬condFirst i) (hc1 : condLast i)
    (x0 : Vec F S1024x2048 .f32) (x1 : Vec F S16384x64 .f32) (x2 : Vec F S1x64 .f32) (xo : Vec F S1024x64 .f32) (xs : Vec F S1024x64 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xo ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (accStep i x1 x0 xs) ∗ owns (c : Thread nD τ) arg6 fullShare (accStep i x1 x0 xs)) -∗ K ⟨⟩))
      ⊢ wp frame (wpE (defs₀ (F := F)) Variants.none c none) E (cc2__matmul_kernel i arg2 harg2 arg3 harg3 arg4 harg4 arg5 harg5 arg6 harg6) K := by
  simp only [cc2__matmul_kernel_eq_skeleton]; unfold cc2__matmul_kernel_skel
  unfold owns
  iintro ⟨⟨%f0, %hf0, H0⟩, ⟨%f1, %hf1, H1⟩, ⟨%f2, %hf2, H2⟩, ⟨%fo, %hfo, HO⟩, ⟨%fs, %hfs, HS⟩, Hk⟩
  obtain rfl := harg2.eq_unread hf0; obtain rfl := harg3.eq_unread hf1; obtain rfl := harg4.eq_unread hf2
  obtain rfl := harg5.eq_unread hfo; obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [HO]
  · iexists _; isplitr
    swap; · iexact HO
    ipureintro
    sl_unfold_run_names
    rw [read_store_tile, View.readCov_unit_zero _ hz2]
    simp only [View.readAt_eq_ld, harg2.read_unread, harg3.read_unread, harg6.read_unread]
    unfold accStep
    rw [View.ld_unit_zero (S := S1024x2048) hz2, View.ld_unit_zero (S := S1024x64) hz2]
  iexists _; isplitr
  swap; · iexact HS
  ipureintro
  sl_unfold_run_names
  rw [read_store_tile]
  simp only [View.readAt_eq_ld, harg2.read_unread, harg3.read_unread, harg6.read_unread]
  unfold accStep
  rw [View.ld_unit_zero (S := S1024x2048) hz2, View.ld_unit_zero (S := S1024x64) hz2]

end Cert.Kernel.Reg2

end
-- ==== Proof.WReg2Dat.lean ====
import proofs.«114411_j49589692399794_2_alg».proof.Proof.WReg2Step

set_option maxRecDepth 16384

noncomputable section

namespace Cert.Kernel.Reg2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The product as a region: what every buffer holds after each grid point

Stated at the contents `V` the TensorCore's buffers hold when the region is entered. -/

variable (V : (c : Dev nD) → (b : Ref sig .tc) → Buf (Elt F) ((c : Thread nD τ).loc b))

/-- Window `w`'s block at point `t`, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not. -/
theorem before_0_of {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## Where the windows are idle -/

theorem liveAt_0 : ∀ t : Fin cfg2.N, cfg2.idle 0 (grid2.coords t) = false := by decide +kernel
theorem liveAt_1 : ∀ t : Fin cfg2.N, cfg2.idle 1 (grid2.coords t) = false := by decide +kernel
theorem liveAt_2 : ∀ t : Fin cfg2.N, cfg2.idle 2 (grid2.coords t) = false := by decide +kernel
/-- Before the last block of a row tile the output tile is idle and is not written back. -/
theorem idleAt_3 : ∀ t : Fin cfg2.N, ¬condLast (grid2.coords t) → cfg2.idle 3 (grid2.coords t) = true := by decide +kernel
theorem noFlush_3 : ∀ t : Fin cfg2.N, ¬condLast (grid2.coords t) → (cfg2.win 3).flush t = false := by decide +kernel
/-- At the last block it is live. -/
theorem liveAt_3 : ∀ t : Fin cfg2.N, condLast (grid2.coords t) → cfg2.idle 3 (grid2.coords t) = false := by decide +kernel

/-! ## The staging memrefs and the accumulator -/

abbrev ms_0 (t : Fin cfg2.N) : Memref sig .tc .vmem S1024x2048 .f32 := win2_0.stage (cfg2.slots t 0)
abbrev hs_0 (t : Fin cfg2.N) : (ms_0 t).IsWhole := hstage2_0 ((cfg2.slots t 0).cast nbuf2_0)
abbrev ms_1 (t : Fin cfg2.N) : Memref sig .tc .vmem S16384x64 .f32 := win2_1.stage (cfg2.slots t 1)
abbrev hs_1 (t : Fin cfg2.N) : (ms_1 t).IsWhole := hstage2_1 ((cfg2.slots t 1).cast nbuf2_1)
abbrev ms_2 (t : Fin cfg2.N) : Memref sig .tc .vmem S1x64 .f32 := win2_2.stage (cfg2.slots t 2)
abbrev hs_2 (t : Fin cfg2.N) : (ms_2 t).IsWhole := hstage2_2 ((cfg2.slots t 2).cast nbuf2_2)
abbrev ms_3 (t : Fin cfg2.N) : Memref sig .tc .vmem S1024x64 .f32 := win2_3.stage (cfg2.slots t 3)
abbrev hs_3 (t : Fin cfg2.N) : (ms_3 t).IsWhole := hstage2_3 ((cfg2.slots t 3).cast nbuf2_3)
/-- The accumulator: a whole scoped buffer of the kernel's own, carried from point to point. -/
abbrev scM : Memref sig .tc .vmem S1024x64 .f32 := Memref.whole cc2_scratch0

/-- THE ACCUMULATION. What the accumulator holds after the body at position `n`: at block 0 of a row tile one step
    from zero, at a later block one step from what the point before left. -/
def accAt (c : Dev nD) : (n : ℕ) → n < cfg2.N → Vec F S1024x64 .f32
  | 0, hn => accStep (grid2.coords ⟨0, hn⟩) (iblk V c 1 ⟨0, hn⟩) (iblk V c 0 ⟨0, hn⟩) (k2_pay1 (F := F))
  | n + 1, hn =>
    if (n + 1) % 8 = 0 then
      accStep (grid2.coords ⟨n + 1, hn⟩) (iblk V c 1 ⟨n + 1, hn⟩) (iblk V c 0 ⟨n + 1, hn⟩) (k2_pay1 (F := F))
    else
      accStep (grid2.coords ⟨n + 1, hn⟩) (iblk V c 1 ⟨n + 1, hn⟩) (iblk V c 0 ⟨n + 1, hn⟩) (accAt c n (Nat.lt_of_succ_lt hn))

theorem accAt_first (c : Dev nD) (t : Fin cfg2.N) (h0 : t.val % 8 = 0) :
    accAt V c t.val t.isLt = accStep (grid2.coords t) (iblk V c 1 t) (iblk V c 0 t) (k2_pay1 (F := F)) := by
  obtain ⟨n, hn⟩ := t
  cases n with
  | zero => rfl
  | succ n => exact if_pos h0

theorem accAt_next (c : Dev nD) (t : Fin cfg2.N) (h0 : ¬t.val % 8 = 0) :
    accAt V c t.val t.isLt = accStep (grid2.coords t) (iblk V c 1 t) (iblk V c 0 t)
      (accAt V c (t.val - 1) (Nat.lt_of_le_of_lt (Nat.sub_le _ _) t.isLt)) := by
  obtain ⟨n, hn⟩ := t
  cases n with
  | zero => exact absurd (Nat.zero_mod 8) h0
  | succ n => exact if_neg h0

/-! ## The invariant -/

/-- The core's other scoped buffers (the other products' staging buffers and accumulators), each at some contents. -/
def restOf (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f))

/-- What the launch hands the region, with the accumulator singled out. -/
theorem PhiA_open (c : Dev nD) :
    (Pipeline.ΦA spec2 c : sProp 𝕄) ⊢ iprop((∃ d, owns (c : Thread nD τ) scM fullShare d) ∗ restOf c ∗ (∃ r, prngReg c r)) := by
  unfold Pipeline.ΦA; rw [scopedRest2_eq]; unfold restOf
  simp only [scM, owns_whole]
  iintro ⟨⟨B0, B1, B2, B3, B4, B5, B6, B7, B8, B9, B10, B11, B12, B13, ⟨%fS, BS⟩⟩, Hg⟩
  isplitl [BS]
  · iexists fS; iexact BS
  isplitr [Hg]
  ·
    isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    isplitl [B10]; · iexact B10
    isplitl [B11]; · iexact B11
    isplitl [B12]; · iexact B12
    iexact B13
  iexact Hg

/-- And back: the accumulator's contents forgotten. -/
theorem PhiA_close (c : Dev nD) :
    iprop((∃ d, owns (c : Thread nD τ) scM fullShare d) ∗ restOf c ∗ (∃ r, prngReg c r)) ⊢ (Pipeline.ΦA spec2 c : sProp 𝕄) := by
  unfold Pipeline.ΦA; rw [scopedRest2_eq]; unfold restOf
  simp only [scM, owns_whole]
  iintro ⟨⟨%fS, BS⟩, ⟨B0, B1, B2, B3, B4, B5, B6, B7, B8, B9, B10, B11, B12, B13⟩, Hg⟩
  isplitr [Hg]
  ·
    isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    isplitl [B10]; · iexact B10
    isplitl [B11]; · iexact B11
    isplitl [B12]; · iexact B12
    isplitl [B13]; · iexact B13
    iexists fS; iexact BS
  iexact Hg

/-- The region invariant before position `n`: before the first point what the launch hands over; afterwards the
    accumulator at what the point before left, the other scoped buffers at anything, the generator register at some state. -/
def PhiS (c : Dev nD) : (n : ℕ) → n ≤ cfg2.N → sProp 𝕄
  | 0, _ => Pipeline.ΦA spec2 c
  | n + 1, hn => iprop(owns (c : Thread nD τ) scM fullShare (accAt V c n hn) ∗ restOf c ∗ (∃ r, prngReg c r))

theorem PhiS_succ (c : Dev nD) (n : ℕ) (hn : n < cfg2.N) :
    PhiS V c (n + 1) hn = iprop(owns (c : Thread nD τ) scM fullShare (accAt V c n hn) ∗ restOf c ∗ (∃ r, prngReg c r)) := rfl

theorem PhiS_pos (c : Dev nD) (n : ℕ) (h : n ≤ cfg2.N) (hz : n ≠ 0) :
    PhiS V c n h = iprop(owns (c : Thread nD τ) scM fullShare (accAt V c (n - 1) (by omega)) ∗ restOf c ∗ (∃ r, prngReg c r)) := by
  cases n with
  | zero => exact absurd rfl hz
  | succ n => rfl

/-- At any position the invariant yields the accumulator at SOME contents. -/
theorem PhiS_any (c : Dev nD) (n : ℕ) (h : n ≤ cfg2.N) :
    PhiS V c n h ⊢ iprop((∃ d, owns (c : Thread nD τ) scM fullShare d) ∗ restOf c ∗ (∃ r, prngReg c r)) := by
  cases n with
  | zero => exact PhiA_open c
  | succ n =>
    rw [PhiS_succ]
    iintro ⟨HS, Hr, Hg⟩
    isplitl [HS]; · iexists _; iexact HS
    isplitl [Hr]; · iexact Hr
    iexact Hg

/-! ## The proof data -/

/-- After the body at point `t` each input's buffer holds its block, the output tile's what the accumulator holds
    (consulted only where the tile is written back: at the last block of a row tile); nothing owed; full shares. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => accAt V c t.val t.isLt
  Φ t := PhiS V c t.val (Nat.le_of_lt_succ t.isLt)
  q _ := fullShare
  owed _ := 0

theorem A_eq (c : Dev nD) (w : Fin cfg2.W) : (dat V c).A w = V c (Pipeline.arrRef spec2 w) := by
  dsimp only [dat]

theorem PhiS_castSucc (c : Dev nD) (t : Fin cfg2.N) :
    (dat V c).Φ t.castSucc = PhiS V c t.val (Nat.le_of_lt t.isLt) := by
  dsimp only [dat]; rfl

theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = iblk V c 2 t := by dsimp only [dat]
theorem after_3 (c : Dev nD) (t : Fin cfg2.N) : (dat V c).after 3 t = accAt V c t.val t.isLt := by dsimp only [dat]

theorem before_0 (c : Dev nD) (t : Fin cfg2.N) (d) : (dat V c).before 0 t d = iblk V c 0 t :=
  before_0_of V (dat V c) (A_eq V c 0) (after_0 V c) t d
theorem before_1 (c : Dev nD) (t : Fin cfg2.N) (d) : (dat V c).before 1 t d = iblk V c 1 t :=
  before_1_of V (dat V c) (A_eq V c 1) (after_1 V c) t d
theorem before_2 (c : Dev nD) (t : Fin cfg2.N) (d) : (dat V c).before 2 t d = iblk V c 2 t :=
  before_2_of V (dat V c) (A_eq V c 2) (after_2 V c) t d

end Cert.Kernel.Reg2

end
-- ==== Proof.WKRunFold.lean ====
import proofs.«114411_j49589692399794_2_alg».proof.Proof.WKRunWrites
import proofs.«114411_j49589692399794_2_alg».proof.Proof.WReg0Dat
import proofs.«114411_j49589692399794_2_alg».proof.Proof.WReg1Dat
import proofs.«114411_j49589692399794_2_alg».proof.Proof.WReg2Dat
import Idealize.ShloMosaic.Lib.Pipeline.RegionsLoop
import Idealize.ShloMosaic.Lib.Pipeline.FrameSuffix

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # What the core's buffers hold between the pieces of @main

@main is fourteen pieces in order: eleven stretches of host operations and the three products. The contents of
the core's buffers after each piece are a fold from the launch memory: a stretch of host operations applies its
operations in order; a product leaves its four arrays at what its write-backs make of them (the three inputs as they
were, the output tile by tile) and every other buffer as it was. `Wfin` is the end of the fold: the named contents
every result of the program is read from. -/

/-- Core `c`'s buffers at launch. -/
abbrev W0 : Dev nD → Valuation τ sig (Elt F) := fun c b => (s₀ m ρ).mem ((c : Dev nD), b)
/-- After the stretch `main_part0_ops0`. -/
abbrev W1 : Dev nD → Valuation τ sig (Elt F) := fun c => StableHlo.after main_part0_ops0 (W0 m ρ c)
/-- After the stretch `main_part0_ops1`. -/
abbrev W2 : Dev nD → Valuation τ sig (Elt F) := fun c => StableHlo.after main_part0_ops1 (W1 m ρ c)
/-- After the stretch `main_part0_ops2`. -/
abbrev W3 : Dev nD → Valuation τ sig (Elt F) := fun c => StableHlo.after main_part0_ops2 (W2 m ρ c)
/-- After the stretch `main_part1_ops0`. -/
abbrev W4 : Dev nD → Valuation τ sig (Elt F) := fun c => StableHlo.after main_part1_ops0 (W3 m ρ c)
/-- The same read at the TensorCore's references: what product 0 is entered from. -/
abbrev V4 : (c : Dev nD) → (b : Ref sig .tc) → Buf (Elt F) ((c : Thread nD τ).loc b) := fun c b => W4 m ρ c b
/-- After product 0: its arrays at what the grid's write-backs leave, every other buffer as entered. -/
def W5 (c : Dev nD) : Valuation τ sig (Elt F) :=
  Pipeline.withArrays spec0 c (W4 m ρ c) fun w => (Reg0.dat (V4 m ρ) c).arrAt w cfg0.N
theorem W5_arr (c : Dev nD) (w : Fin cfg0.W) :
    W5 m ρ c (Proc.devRef .tc (Pipeline.arrRef spec0 w)) = (Reg0.dat (V4 m ρ) c).arrAt w cfg0.N := by
  unfold W5; exact Pipeline.withArrays_arr spec0 launch0.win.arr_inj c _ _ w
theorem W5_of_ne (c : Dev nD) (b : Ref sig .tc) (hb : ∀ w, Pipeline.arrRef spec0 w ≠ b) :
    W5 m ρ c (Proc.devRef .tc b) = W4 m ρ c (Proc.devRef .tc b) := by
  unfold W5; exact Pipeline.withArrays_of_ne spec0 c _ _ b hb
/-- An input array of product 0 is as entered. -/
theorem W5_in (c : Dev nD) (w : Fin cfg0.W) (hin : (cfg0.win w).isOut = false) :
    W5 m ρ c (Proc.devRef .tc (Pipeline.arrRef spec0 w)) = W4 m ρ c (Proc.devRef .tc (Pipeline.arrRef spec0 w)) :=
  (W5_arr m ρ c w).trans (((Reg0.dat (V4 m ρ) c).arrAt_in w hin _).trans (Reg0.A_eq (V4 m ρ) c w))
/-- The same read at the TensorCore's references: what product 0 leaves. -/
abbrev V5 : (c : Dev nD) → (b : Ref sig .tc) → Buf (Elt F) ((c : Thread nD τ).loc b) := fun c b => W5 m ρ c b
/-- At product 0's exit each of its arrays holds what the grid leaves and every other buffer what it held at entry. -/
theorem hF0 (c : Dev nD) (w : Fin cfg0.W) : (Reg0.dat (V4 m ρ) c).arrAt w cfg0.N = V5 m ρ c (Pipeline.arrRef spec0 w) :=
  (W5_arr m ρ c w).symm
theorem hrest0 (c : Dev nD) : ∀ b, b ∉ Finset.univ.image (Pipeline.arrRef spec0) → V5 m ρ c b = V4 m ρ c b :=
  fun b hb => W5_of_ne m ρ c b fun w e => hb (Finset.mem_image.mpr ⟨w, Finset.mem_univ _, e⟩)
/-- After the stretch `main_part1_ops1`. -/
abbrev W6 : Dev nD → Valuation τ sig (Elt F) := fun c => StableHlo.after main_part1_ops1 (W5 m ρ c)
/-- The same read at the TensorCore's references: what product 1 is entered from. -/
abbrev V6 : (c : Dev nD) → (b : Ref sig .tc) → Buf (Elt F) ((c : Thread nD τ).loc b) := fun c b => W6 m ρ c b
/-- After product 1: its arrays at what the grid's write-backs leave, every other buffer as entered. -/
def W7 (c : Dev nD) : Valuation τ sig (Elt F) :=
  Pipeline.withArrays spec1 c (W6 m ρ c) fun w => (Reg1.dat (V6 m ρ) c).arrAt w cfg1.N
theorem W7_arr (c : Dev nD) (w : Fin cfg1.W) :
    W7 m ρ c (Proc.devRef .tc (Pipeline.arrRef spec1 w)) = (Reg1.dat (V6 m ρ) c).arrAt w cfg1.N := by
  unfold W7; exact Pipeline.withArrays_arr spec1 launch1.win.arr_inj c _ _ w
theorem W7_of_ne (c : Dev nD) (b : Ref sig .tc) (hb : ∀ w, Pipeline.arrRef spec1 w ≠ b) :
    W7 m ρ c (Proc.devRef .tc b) = W6 m ρ c (Proc.devRef .tc b) := by
  unfold W7; exact Pipeline.withArrays_of_ne spec1 c _ _ b hb
/-- An input array of product 1 is as entered. -/
theorem W7_in (c : Dev nD) (w : Fin cfg1.W) (hin : (cfg1.win w).isOut = false) :
    W7 m ρ c (Proc.devRef .tc (Pipeline.arrRef spec1 w)) = W6 m ρ c (Proc.devRef .tc (Pipeline.arrRef spec1 w)) :=
  (W7_arr m ρ c w).trans (((Reg1.dat (V6 m ρ) c).arrAt_in w hin _).trans (Reg1.A_eq (V6 m ρ) c w))
/-- The same read at the TensorCore's references: what product 1 leaves. -/
abbrev V7 : (c : Dev nD) → (b : Ref sig .tc) → Buf (Elt F) ((c : Thread nD τ).loc b) := fun c b => W7 m ρ c b
/-- At product 1's exit each of its arrays holds what the grid leaves and every other buffer what it held at entry. -/
theorem hF1 (c : Dev nD) (w : Fin cfg1.W) : (Reg1.dat (V6 m ρ) c).arrAt w cfg1.N = V7 m ρ c (Pipeline.arrRef spec1 w) :=
  (W7_arr m ρ c w).symm
theorem hrest1 (c : Dev nD) : ∀ b, b ∉ Finset.univ.image (Pipeline.arrRef spec1) → V7 m ρ c b = V6 m ρ c b :=
  fun b hb => W7_of_ne m ρ c b fun w e => hb (Finset.mem_image.mpr ⟨w, Finset.mem_univ _, e⟩)
/-- After the stretch `main_part1_ops2`. -/
abbrev W8 : Dev nD → Valuation τ sig (Elt F) := fun c => StableHlo.after main_part1_ops2 (W7 m ρ c)
/-- After the stretch `main_part1_ops3`. -/
abbrev W9 : Dev nD → Valuation τ sig (Elt F) := fun c => StableHlo.after main_part1_ops3 (W8 m ρ c)
/-- After the stretch `main_part1_ops4`. -/
abbrev W10 : Dev nD → Valuation τ sig (Elt F) := fun c => StableHlo.after main_part1_ops4 (W9 m ρ c)
/-- The same read at the TensorCore's references: what product 2 is entered from. -/
abbrev V10 : (c : Dev nD) → (b : Ref sig .tc) → Buf (Elt F) ((c : Thread nD τ).loc b) := fun c b => W10 m ρ c b
/-- After product 2: its arrays at what the grid's write-backs leave, every other buffer as entered. -/
def W11 (c : Dev nD) : Valuation τ sig (Elt F) :=
  Pipeline.withArrays spec2 c (W10 m ρ c) fun w => (Reg2.dat (V10 m ρ) c).arrAt w cfg2.N
theorem W11_arr (c : Dev nD) (w : Fin cfg2.W) :
    W11 m ρ c (Proc.devRef .tc (Pipeline.arrRef spec2 w)) = (Reg2.dat (V10 m ρ) c).arrAt w cfg2.N := by
  unfold W11; exact Pipeline.withArrays_arr spec2 launch2.win.arr_inj c _ _ w
theorem W11_of_ne (c : Dev nD) (b : Ref sig .tc) (hb : ∀ w, Pipeline.arrRef spec2 w ≠ b) :
    W11 m ρ c (Proc.devRef .tc b) = W10 m ρ c (Proc.devRef .tc b) := by
  unfold W11; exact Pipeline.withArrays_of_ne spec2 c _ _ b hb
/-- An input array of product 2 is as entered. -/
theorem W11_in (c : Dev nD) (w : Fin cfg2.W) (hin : (cfg2.win w).isOut = false) :
    W11 m ρ c (Proc.devRef .tc (Pipeline.arrRef spec2 w)) = W10 m ρ c (Proc.devRef .tc (Pipeline.arrRef spec2 w)) :=
  (W11_arr m ρ c w).trans (((Reg2.dat (V10 m ρ) c).arrAt_in w hin _).trans (Reg2.A_eq (V10 m ρ) c w))
/-- The same read at the TensorCore's references: what product 2 leaves. -/
abbrev V11 : (c : Dev nD) → (b : Ref sig .tc) → Buf (Elt F) ((c : Thread nD τ).loc b) := fun c b => W11 m ρ c b
/-- At product 2's exit each of its arrays holds what the grid leaves and every other buffer what it held at entry. -/
theorem hF2 (c : Dev nD) (w : Fin cfg2.W) : (Reg2.dat (V10 m ρ) c).arrAt w cfg2.N = V11 m ρ c (Pipeline.arrRef spec2 w) :=
  (W11_arr m ρ c w).symm
theorem hrest2 (c : Dev nD) : ∀ b, b ∉ Finset.univ.image (Pipeline.arrRef spec2) → V11 m ρ c b = V10 m ρ c b :=
  fun b hb => W11_of_ne m ρ c b fun w e => hb (Finset.mem_image.mpr ⟨w, Finset.mem_univ _, e⟩)
/-- After the stretch `main_part1_ops5`. -/
abbrev W12 : Dev nD → Valuation τ sig (Elt F) := fun c => StableHlo.after main_part1_ops5 (W11 m ρ c)
/-- After the stretch `main_part2_ops0`. -/
abbrev W13 : Dev nD → Valuation τ sig (Elt F) := fun c => StableHlo.after main_part2_ops0 (W12 m ρ c)
/-- After the stretch `main_part3_ops0`. -/
abbrev W14 : Dev nD → Valuation τ sig (Elt F) := fun c => StableHlo.after main_part3_ops0 (W13 m ρ c)
/-- The contents at the end of @main. -/
abbrev Wfin : Dev nD → Valuation τ sig (Elt F) := W14 m ρ

end Cert.Kernel.Run

end
-- ==== Proof.WKRunArgs.lean ====
import proofs.«114411_j49589692399794_2_alg».proof.Proof.WKRunFold

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

variable (m : (ℓ : Loc nD τ sig) → Buf (Elt F) ℓ) (ρ : Dev nD → PrngReg)

/-! # The arguments end as launched

No host operation writes an argument array, and no product writes one: the only arguments a product touches are the
two operands of the first product, which it reads through input windows. So the fold, read at an argument's
buffer, walks back to the launch memory. -/

/-- From the launch to the first product's entry: a buffer none of the first four stretches writes. -/
theorem W4_keeps (c : Dev nD) (r : Ref sig .tc)
    (h1 : r ∉ main_part0_ops0_W) (h2 : r ∉ main_part0_ops1_W) (h3 : r ∉ main_part0_ops2_W) (h4 : r ∉ main_part1_ops0_W) :
    W4 m ρ c (Proc.devRef .tc r) = m ((c : Thread nD τ).loc r) :=
  calc W4 m ρ c (Proc.devRef .tc r)
    _ = W3 m ρ c (Proc.devRef .tc r) := main_part1_ops0_keeps _ r h4
    _ = W2 m ρ c (Proc.devRef .tc r) := main_part0_ops2_keeps _ r h3
    _ = W1 m ρ c (Proc.devRef .tc r) := main_part0_ops1_keeps _ r h2
    _ = W0 m ρ c (Proc.devRef .tc r) := main_part0_ops0_keeps _ r h1
    _ = m ((c : Thread nD τ).loc r) := rfl

/-- From the first product's exit to the end: a buffer none of the later stretches writes and that is no array of
    the second or third product. -/
theorem Wfin_keeps (c : Dev nD) (r : Ref sig .tc)
    (h6 : r ∉ main_part1_ops1_W) (h8 : r ∉ main_part1_ops2_W) (h9 : r ∉ main_part1_ops3_W) (h10 : r ∉ main_part1_ops4_W)
    (h12 : r ∉ main_part1_ops5_W) (h13 : r ∉ main_part2_ops0_W) (h14 : r ∉ main_part3_ops0_W)
    (a1 : ∀ w, Pipeline.arrRef spec1 w ≠ r) (a2 : ∀ w, Pipeline.arrRef spec2 w ≠ r) :
    Wfin m ρ c (Proc.devRef .tc r) = W5 m ρ c (Proc.devRef .tc r) :=
  calc Wfin m ρ c (Proc.devRef .tc r)
    _ = W13 m ρ c (Proc.devRef .tc r) := main_part3_ops0_keeps _ r h14
    _ = W12 m ρ c (Proc.devRef .tc r) := main_part2_ops0_keeps _ r h13
    _ = W11 m ρ c (Proc.devRef .tc r) := main_part1_ops5_keeps _ r h12
    _ = W10 m ρ c (Proc.devRef .tc r) := W11_of_ne m ρ c r a2
    _ = W9 m ρ c (Proc.devRef .tc r) := main_part1_ops4_keeps _ r h10
    _ = W8 m ρ c (Proc.devRef .tc r) := main_part1_ops3_keeps _ r h9
    _ = W7 m ρ c (Proc.devRef .tc r) := main_part1_ops2_keeps _ r h8
    _ = W6 m ρ c (Proc.devRef .tc r) := W7_of_ne m ρ c r a1
    _ = W5 m ρ c (Proc.devRef .tc r) := main_part1_ops1_keeps _ r h6

/-- A buffer nothing writes and no product has among its arrays ends as launched. -/
theorem Wfin_untouched (c : Dev nD) (r : Ref sig .tc)
    (h1 : r ∉ main_part0_ops0_W) (h2 : r ∉ main_part0_ops1_W) (h3 : r ∉ main_part0_ops2_W) (h4 : r ∉ main_part1_ops0_W)
    (h6 : r ∉ main_part1_ops1_W) (h8 : r ∉ main_part1_ops2_W) (h9 : r ∉ main_part1_ops3_W) (h10 : r ∉ main_part1_ops4_W)
    (h12 : r ∉ main_part1_ops5_W) (h13 : r ∉ main_part2_ops0_W) (h14 : r ∉ main_part3_ops0_W)
    (a0 : ∀ w, Pipeline.arrRef spec0 w ≠ r) (a1 : ∀ w, Pipeline.arrRef spec1 w ≠ r) (a2 : ∀ w, Pipeline.arrRef spec2 w ≠ r) :
    Wfin m ρ c (Proc.devRef .tc r) = m ((c : Thread nD τ).loc r) :=
  (Wfin_keeps m ρ c r h6 h8 h9 h10 h12 h13 h14 a1 a2).trans
    ((W5_of_ne m ρ c r a0).trans (W4_keeps m ρ c r h1 h2 h3 h4))

/-- The first product's left operand: read through an input window, never written. -/
theorem Wfin_main_arg0 (c : Dev nD) : Wfin m ρ c (Proc.devRef .tc main_arg0) = m ((c : Thread nD τ).loc main_arg0) :=
  (Wfin_keeps m ρ c main_arg0 (by decide) (by decide) (by decide) (by decide) (by decide) (by decide) (by decide) (by decide) (by decide)).trans
    ((W5_in m ρ c 0 rfl).trans (W4_keeps m ρ c main_arg0 (by decide) (by decide) (by decide) (by decide)))

/-- The first product's right operand: read through an input window, never written. -/
theorem Wfin_main_arg1 (c : Dev nD) : Wfin m ρ c (Proc.devRef .tc main_arg1) = m ((c : Thread nD τ).loc main_arg1) :=
  (Wfin_keeps m ρ c main_arg1 (by decide) (by decide) (by decide) (by decide) (by decide) (by decide) (by decide) (by decide) (by decide)).trans
    ((W5_in m ρ c 1 rfl).trans (W4_keeps m ρ c main_arg1 (by decide) (by decide) (by decide) (by decide)))

theorem Wfin_main_arg2 (c : Dev nD) : Wfin m ρ c (Proc.devRef .tc main_arg2) = m ((c : Thread nD τ).loc main_arg2) :=
  Wfin_untouched m ρ c main_arg2 (by decide) (by decide) (by decide) (by decide) (by decide) (by decide) (by decide) (by decide) (by decide) (by decide) (by decide) (by decide) (by decide) (by decide)

theorem Wfin_main_arg3 (c : Dev nD) : Wfin m ρ c (Proc.devRef .tc main_arg3) = m ((c : Thread nD τ).loc main_arg3) :=
  Wfin_untouched m ρ c main_arg3 (by decide) (by decide) (by decide) (by decide) (by decide) (by decide) (by decide) (by decide) (by decide) (by decide) (by decide) (by decide) (by decide) (by decide)

theorem Wfin_main_arg4 (c : Dev nD) : Wfin m ρ c (Proc.devRef .tc main_arg4) = m ((c : Thread nD τ).loc main_arg4) :=
  Wfin_untouched m ρ c main_arg4 (by decide) (by decide) (by decide) (by decide) (by decide) (by decide) (by decide) (by decide) (by decide) (by decide) (by decide) (by decide) (by decide) (by decide)

theorem Wfin_main_arg5 (c : Dev nD) : Wfin m ρ c (Proc.devRef .tc main_arg5) = m ((c : Thread nD τ).loc main_arg5) :=
  Wfin_untouched m ρ c main_arg5 (by decide) (by decide) (by decide) (by decide) (by decide) (by decide) (by decide) (by decide) (by decide) (by decide) (by decide) (by decide) (by decide) (by decide)

theorem Wfin_main_arg6 (c : Dev nD) : Wfin m ρ c (Proc.devRef .tc main_arg6) = m ((c : Thread nD τ).loc main_arg6) :=
  Wfin_untouched m ρ c main_arg6 (by decide) (by decide) (by decide) (by decide) (by decide) (by decide) (by decide) (by decide) (by decide) (by decide) (by decide) (by decide) (by decide) (by decide)

theorem Wfin_main_arg7 (c : Dev nD) : Wfin m ρ c (Proc.devRef .tc main_arg7) = m ((c : Thread nD τ).loc main_arg7) :=
  Wfin_untouched m ρ c main_arg7 (by decide) (by decide) (by decide) (by decide) (by decide) (by decide) (by decide) (by decide) (by decide) (by decide) (by decide) (by decide) (by decide) (by decide)

theorem Wfin_main_arg8 (c : Dev nD) : Wfin m ρ c (Proc.devRef .tc main_arg8) = m ((c : Thread nD τ).loc main_arg8) :=
  Wfin_untouched m ρ c main_arg8 (by decide) (by decide) (by decide) (by decide) (by decide) (by decide) (by decide) (by decide) (by decide) (by decide) (by decide) (by decide) (by decide) (by decide)

theorem Wfin_main_arg9 (c : Dev nD) : Wfin m ρ c (Proc.devRef .tc main_arg9) = m ((c : Thread nD τ).loc main_arg9) :=
  Wfin_untouched m ρ c main_arg9 (by decide) (by decide) (by decide) (by decide) (by decide) (by decide) (by decide) (by decide) (by decide) (by decide) (by decide) (by decide) (by decide) (by decide)

theorem Wfin_main_arg10 (c : Dev nD) : Wfin m ρ c (Proc.devRef .tc main_arg10) = m ((c : Thread nD τ).loc main_arg10) :=
  Wfin_untouched m ρ c main_arg10 (by decide) (by decide) (by decide) (by decide) (by decide) (by decide) (by decide) (by decide) (by decide) (by decide) (by decide) (by decide) (by decide) (by decide)

theorem Wfin_main_arg11 (c : Dev nD) : Wfin m ρ c (Proc.devRef .tc main_arg11) = m ((c : Thread nD τ).loc main_arg11) :=
  Wfin_untouched m ρ c main_arg11 (by decide) (by decide) (by decide) (by decide) (by decide) (by decide) (by decide) (by decide) (by decide) (by decide) (by decide) (by decide) (by decide) (by decide)

theorem Wfin_main_arg12 (c : Dev nD) : Wfin m ρ c (Proc.devRef .tc main_arg12) = m ((c : Thread nD τ).loc main_arg12) :=
  Wfin_untouched m ρ c main_arg12 (by decide) (by decide) (by decide) (by decide) (by decide) (by decide) (by decide) (by decide) (by decide) (by decide) (by decide) (by decide) (by decide) (by decide)

theorem Wfin_main_arg13 (c : Dev nD) : Wfin m ρ c (Proc.devRef .tc main_arg13) = m ((c : Thread nD τ).loc main_arg13) :=
  Wfin_untouched m ρ c main_arg13 (by decide) (by decide) (by decide) (by decide) (by decide) (by decide) (by decide) (by decide) (by decide) (by decide) (by decide) (by decide) (by decide) (by decide)

theorem Wfin_main_arg14 (c : Dev nD) : Wfin m ρ c (Proc.devRef .tc main_arg14) = m ((c : Thread nD τ).loc main_arg14) :=
  Wfin_untouched m ρ c main_arg14 (by decide) (by decide) (by decide) (by decide) (by decide) (by decide) (by decide) (by decide) (by decide) (by decide) (by decide) (by decide) (by decide) (by decide)

end Cert.Kernel.Run

end
-- ==== Proof.WKRunData.lean ====
import proofs.«114411_j49589692399794_2_alg».proof.Proof.WKRunFold

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The proof data of the three products, and what a core holds between pieces

Each product's proof data are taken at the contents its region is entered from. Between two pieces of @main a core
holds every unscoped buffer whole at the fold's contents, its generator register at some state, and owes nothing. -/

/-- No product has a prefetched table. -/
abbrev adm : (p : Fin 3) → (pcfgs (F := F) p).Adm := fun p => (cfgs p).toPCfg_adm
/-- Every product's proof data, each at its region's entry contents. -/
def pdats : (p : Fin 3) → (c : Dev nD) → Dat τ (Elt F) Unit ℕ (UR sig nD τ) ℕ (Pipeline.pin (pcfgs (F := F)) adm p) c
  | ⟨0, _⟩ => fun c => Reg0.dat (V4 m ρ) c
  | ⟨1, _⟩ => fun c => Reg1.dat (V6 m ρ) c
  | ⟨2, _⟩ => fun c => Reg2.dat (V10 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every piece: the generator register at some state, and nothing owed. -/
abbrev R (c : Dev nD) : sProp 𝕄 := iprop((∃ r, prngReg c r) ∗ ∃ W, owes (c : Thread nD τ) (0 : CellTallies nD τ sig Unit) W)
/-- A stretch of host operations as a segment over the unscoped buffers from the contents `W`, `R` riding along: it
    ends with those buffers at `StableHlo.after ops (W c)`, the next contents of the fold. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those a core holds between pieces. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- What a core holds at the end, the `owes` aside: every unscoped buffer at the end of the fold, the generator
    register at some state. -/
abbrev Tₙ (c : Dev nD) : sProp 𝕄 := iprop(StableHlo.held (c : Thread nD τ) (Pipeline.ucRefs τ sig) (Wfin m ρ c) ∗ ∃ r, prngReg c r)

end Cert.Kernel.Run

end
-- ==== Proof.WReg0Body.lean ====
import proofs.«114411_j49589692399794_2_alg».proof.Proof.WReg0Dat

set_option maxRecDepth 16384

noncomputable section

namespace Cert.Kernel.Reg0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The body obligation of the product's region, at a generic grid point -/

/-- What the body is called with at point `t`: the invariant, nothing owed, each window's current staging buffer. -/
def bodyPre (c : Dev nD) (t : Fin cfg0.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d)))

/-- and what it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

/-- The inputs are live at every point: the body leaves each at its block. -/
theorem leaves_0 (c : Dev nD) (t : Fin cfg0.N) :
    (dat V c).leavesExact 0 t = owns (c : Thread nD τ) (ms_0 t) fullShare (iblk V c 0 t) := by
  unfold Dat.leavesExact; rw [liveAt_0 t, after_0]
theorem leaves_1 (c : Dev nD) (t : Fin cfg0.N) :
    (dat V c).leavesExact 1 t = owns (c : Thread nD τ) (ms_1 t) fullShare (iblk V c 1 t) := by
  unfold Dat.leavesExact; rw [liveAt_1 t, after_1]
theorem leaves_2 (c : Dev nD) (t : Fin cfg0.N) :
    (dat V c).leavesExact 2 t = owns (c : Thread nD τ) (ms_2 t) fullShare (iblk V c 2 t) := by
  unfold Dat.leavesExact; rw [liveAt_2 t, after_2]

set_option maxHeartbeats 4800000 in
/-- The body at any point. The block index says which of the three cases the point is in; the invariant hands the body
    the accumulator at what the point before left (at anything where a row tile starts), and takes it back one step on;
    the output tile passes through untouched except at the last block, where it takes the accumulator's contents. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2]
  rw [show (dat V c).owesAt () t.succ = (dat V c).owesAt () t.castSucc from rfl]
  rw [show (dat V c).Φ t.succ = PhiS V c (t.val + 1) t.isLt from rfl, PhiS_succ]
  rw [leaves_0, leaves_1, leaves_2]
  have hN : t.val < 128 := lt_of_lt_of_eq t.isLt (show cfg0.N = 128 from N_0)
  by_cases h1 : t.val % 8 = 7
  · have h0 : ¬t.val % 8 = 0 := by omega
    have hz : t.val ≠ 0 := by omega
    rw [show (dat V c).leavesExact 3 t = owns (c : Thread nD τ) (ms_3 t) fullShare ((dat V c).after 3 t) from by
      unfold Dat.leavesExact; rw [liveAt_3 t ((hcondLast t).mpr h1)], after_3]
    rw [accAt_next V c t h0, PhiS_castSucc V c t, PhiS_pos V c _ _ hz]
    iintro ⟨⟨HS, Hr, Hg⟩, Ho, ⟨%d0, H0⟩, ⟨%d1, H1⟩, ⟨%d2, H2⟩, ⟨%d3, H3⟩⟩
    iapply (run_last c (grid0.coords t) _ _ _ _ _ _ _ _ _ _ (fun h => h0 ((hcondFirst t).mp h)) ((hcondLast t).mpr h1)
      (iblk V c 0 t) (iblk V c 1 t) (iblk V c 2 t) _ _ Set.univ _)
    isplitl [H0]; · iexact H0
    isplitl [H1]; · iexact H1
    isplitl [H2]; · iexact H2
    isplitl [H3]; · iexact H3
    isplitl [HS]; · iexact HS
    iintro ⟨H0, H1, H2, H3, HS⟩
    isplitl [HS Hr Hg]
    · isplitl [HS]; · iexact HS
      isplitl [Hr]; · iexact Hr
      iexact Hg
    isplitl [Ho]; · iexact Ho
    isplitl [H0]; · iexact H0
    isplitl [H1]; · iexact H1
    isplitl [H2]; · iexact H2
    iexact H3
  · rw [Dat.leavesExact_idle (dat V c) 3 t (idleAt_3 t (fun h => h1 ((hcondLast t).mp h))) (noFlush_3 t (fun h => h1 ((hcondLast t).mp h)))]
    by_cases h0 : t.val % 8 = 0
    · rw [accAt_first V c t h0, PhiS_castSucc V c t]
      iintro ⟨HΦ, Ho, ⟨%d0, H0⟩, ⟨%d1, H1⟩, ⟨%d2, H2⟩, ⟨%d3, H3⟩⟩
      ihave HΦ' := (PhiS_any V c _ _) $$ HΦ
      icases HΦ' with ⟨⟨%ds, HS⟩, Hr, Hg⟩
      iapply (run_first c (grid0.coords t) _ _ _ _ _ _ _ _ _ _ ((hcondFirst t).mpr h0) (fun h => h1 ((hcondLast t).mp h))
        (iblk V c 0 t) (iblk V c 1 t) (iblk V c 2 t) _ ds Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hr Hg]
      · isplitl [HS]; · iexact HS
        isplitl [Hr]; · iexact Hr
        iexact Hg
      isplitl [Ho]; · iexact Ho
      isplitl [H0]; · iexact H0
      isplitl [H1]; · iexact H1
      isplitl [H2]; · iexact H2
      iexists d3; iexact H3
    · have hz : t.val ≠ 0 := fun h => h0 (by rw [h])
      rw [accAt_next V c t h0, PhiS_castSucc V c t, PhiS_pos V c _ _ hz]
      iintro ⟨⟨HS, Hr, Hg⟩, Ho, ⟨%d0, H0⟩, ⟨%d1, H1⟩, ⟨%d2, H2⟩, ⟨%d3, H3⟩⟩
      iapply (run_mid c (grid0.coords t) _ _ _ _ _ _ _ _ _ _ (fun h => h0 ((hcondFirst t).mp h)) (fun h => h1 ((hcondLast t).mp h))
        (iblk V c 0 t) (iblk V c 1 t) (iblk V c 2 t) _ _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hr Hg]
      · isplitl [HS]; · iexact HS
        isplitl [Hr]; · iexact Hr
        iexact Hg
      isplitl [Ho]; · iexact Ho
      isplitl [H0]; · iexact H0
      isplitl [H1]; · iexact H1
      isplitl [H2]; · iexact H2
      iexists d3; iexact H3

/-- The library's body obligation, at every point. -/
theorem body_obligation (c : Dev nD) : BodyObligation (dat (F := F) V c) (defs₀ (F := F)) Variants.none () Set.univ := fun t => by
  rw [bigSep_W0, bigSep_W0]
  exact sound_body V c t

/-- What the launch hands the region is the invariant before the first point. -/
theorem hin (c : Dev nD) : Pipeline.ΦA spec0 c ⊢ (dat V c).Φ 0 := by
  rw [show (dat V c).Φ 0 = PhiS V c 0 (Nat.zero_le _) from rfl]
  exact Idealize.SL.BI.Entails.refl _

/-- After the last point the invariant gives it back: the accumulator's contents are forgotten. -/
theorem hout (c : Dev nD) : (dat V c).Φ (Fin.last cfg0.N) ⊢ Pipeline.ΦA spec0 c := by
  rw [show (dat V c).Φ (Fin.last cfg0.N) = PhiS V c (Fin.last cfg0.N).val (Nat.le_of_lt_succ (Fin.last cfg0.N).isLt) from rfl]
  exact (PhiS_any V c _ _).trans (PhiA_close c)

end Cert.Kernel.Reg0

end
-- ==== Proof.WKRunReg0.lean ====
import proofs.«114411_j49589692399794_2_alg».proof.Proof.WKRunData
import proofs.«114411_j49589692399794_2_alg».proof.Proof.WReg0Body

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # Product 0 as a piece of @main

Entered from every unscoped buffer at `W4`, left at `W5`. Its four arrays are split out of the unscoped buffers
at entry and put back at their final contents at exit; the generator register and the scoped buffers no window
stages go into the region's invariant before the first grid point and come back after the last, the accumulator's
contents forgotten; nothing is owed; the kernel has no semaphore of its own. -/

-- applying a library lemma stated over `pin pcs a p` unifies with the pinned configuration only when unification may
-- unfold plain definitions in a metavariable's type
set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Reg0.body_obligation (V4 m ρ) c).loose
  hwaits := Pipeline.hwaits_of_owed_zero _ _ _ _ L lv 0 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec0 c (V4 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine Idealize.SL.BI.BIBase.Entails.trans ?_ (Reg0.hin (V4 m ρ) c)
    unfold Pipeline.ΦA
    iintro ⟨Hp, -, Hr⟩
    isplitl [Hr]; · iexact Hr
    iexact Hp
  hout c := by
    rw [Pipeline.ownSems0_none]
    refine Idealize.SL.BI.BIBase.Entails.trans (Reg0.hout (V4 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V4 m ρ c) (V5 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Run

end
-- ==== Proof.WReg1Body.lean ====
import proofs.«114411_j49589692399794_2_alg».proof.Proof.WReg1Dat

set_option maxRecDepth 16384

noncomputable section

namespace Cert.Kernel.Reg1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The body obligation of the product's region, at a generic grid point -/

/-- What the body is called with at point `t`: the invariant, nothing owed, each window's current staging buffer. -/
def bodyPre (c : Dev nD) (t : Fin cfg1.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

/-- The inputs are live at every point: the body leaves each at its block. -/
theorem leaves_0 (c : Dev nD) (t : Fin cfg1.N) :
    (dat V c).leavesExact 0 t = owns (c : Thread nD τ) (ms_0 t) fullShare (iblk V c 0 t) := by
  unfold Dat.leavesExact; rw [liveAt_0 t, after_0]
theorem leaves_1 (c : Dev nD) (t : Fin cfg1.N) :
    (dat V c).leavesExact 1 t = owns (c : Thread nD τ) (ms_1 t) fullShare (iblk V c 1 t) := by
  unfold Dat.leavesExact; rw [liveAt_1 t, after_1]
theorem leaves_2 (c : Dev nD) (t : Fin cfg1.N) :
    (dat V c).leavesExact 2 t = owns (c : Thread nD τ) (ms_2 t) fullShare (iblk V c 2 t) := by
  unfold Dat.leavesExact; rw [liveAt_2 t, after_2]

set_option maxHeartbeats 4800000 in
/-- The body at any point. The block index says which of the three cases the point is in; the invariant hands the body
    the accumulator at what the point before left (at anything where a row tile starts), and takes it back one step on;
    the output tile passes through untouched except at the last block, where it takes the accumulator's contents. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2]
  rw [show (dat V c).owesAt () t.succ = (dat V c).owesAt () t.castSucc from rfl]
  rw [show (dat V c).Φ t.succ = PhiS V c (t.val + 1) t.isLt from rfl, PhiS_succ]
  rw [leaves_0, leaves_1, leaves_2]
  have hN : t.val < 128 := lt_of_lt_of_eq t.isLt (show cfg1.N = 128 from N_1)
  by_cases h1 : t.val % 8 = 7
  · have h0 : ¬t.val % 8 = 0 := by omega
    have hz : t.val ≠ 0 := by omega
    rw [show (dat V c).leavesExact 3 t = owns (c : Thread nD τ) (ms_3 t) fullShare ((dat V c).after 3 t) from by
      unfold Dat.leavesExact; rw [liveAt_3 t ((hcondLast t).mpr h1)], after_3]
    rw [accAt_next V c t h0, PhiS_castSucc V c t, PhiS_pos V c _ _ hz]
    iintro ⟨⟨HS, Hr, Hg⟩, Ho, ⟨%d0, H0⟩, ⟨%d1, H1⟩, ⟨%d2, H2⟩, ⟨%d3, H3⟩⟩
    iapply (run_last c (grid1.coords t) _ _ _ _ _ _ _ _ _ _ (fun h => h0 ((hcondFirst t).mp h)) ((hcondLast t).mpr h1)
      (iblk V c 0 t) (iblk V c 1 t) (iblk V c 2 t) _ _ Set.univ _)
    isplitl [H0]; · iexact H0
    isplitl [H1]; · iexact H1
    isplitl [H2]; · iexact H2
    isplitl [H3]; · iexact H3
    isplitl [HS]; · iexact HS
    iintro ⟨H0, H1, H2, H3, HS⟩
    isplitl [HS Hr Hg]
    · isplitl [HS]; · iexact HS
      isplitl [Hr]; · iexact Hr
      iexact Hg
    isplitl [Ho]; · iexact Ho
    isplitl [H0]; · iexact H0
    isplitl [H1]; · iexact H1
    isplitl [H2]; · iexact H2
    iexact H3
  · rw [Dat.leavesExact_idle (dat V c) 3 t (idleAt_3 t (fun h => h1 ((hcondLast t).mp h))) (noFlush_3 t (fun h => h1 ((hcondLast t).mp h)))]
    by_cases h0 : t.val % 8 = 0
    · rw [accAt_first V c t h0, PhiS_castSucc V c t]
      iintro ⟨HΦ, Ho, ⟨%d0, H0⟩, ⟨%d1, H1⟩, ⟨%d2, H2⟩, ⟨%d3, H3⟩⟩
      ihave HΦ' := (PhiS_any V c _ _) $$ HΦ
      icases HΦ' with ⟨⟨%ds, HS⟩, Hr, Hg⟩
      iapply (run_first c (grid1.coords t) _ _ _ _ _ _ _ _ _ _ ((hcondFirst t).mpr h0) (fun h => h1 ((hcondLast t).mp h))
        (iblk V c 0 t) (iblk V c 1 t) (iblk V c 2 t) _ ds Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hr Hg]
      · isplitl [HS]; · iexact HS
        isplitl [Hr]; · iexact Hr
        iexact Hg
      isplitl [Ho]; · iexact Ho
      isplitl [H0]; · iexact H0
      isplitl [H1]; · iexact H1
      isplitl [H2]; · iexact H2
      iexists d3; iexact H3
    · have hz : t.val ≠ 0 := fun h => h0 (by rw [h])
      rw [accAt_next V c t h0, PhiS_castSucc V c t, PhiS_pos V c _ _ hz]
      iintro ⟨⟨HS, Hr, Hg⟩, Ho, ⟨%d0, H0⟩, ⟨%d1, H1⟩, ⟨%d2, H2⟩, ⟨%d3, H3⟩⟩
      iapply (run_mid c (grid1.coords t) _ _ _ _ _ _ _ _ _ _ (fun h => h0 ((hcondFirst t).mp h)) (fun h => h1 ((hcondLast t).mp h))
        (iblk V c 0 t) (iblk V c 1 t) (iblk V c 2 t) _ _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hr Hg]
      · isplitl [HS]; · iexact HS
        isplitl [Hr]; · iexact Hr
        iexact Hg
      isplitl [Ho]; · iexact Ho
      isplitl [H0]; · iexact H0
      isplitl [H1]; · iexact H1
      isplitl [H2]; · iexact H2
      iexists d3; iexact H3

/-- The library's body obligation, at every point. -/
theorem body_obligation (c : Dev nD) : BodyObligation (dat (F := F) V c) (defs₀ (F := F)) Variants.none () Set.univ := fun t => by
  rw [bigSep_W1, bigSep_W1]
  exact sound_body V c t

/-- What the launch hands the region is the invariant before the first point. -/
theorem hin (c : Dev nD) : Pipeline.ΦA spec1 c ⊢ (dat V c).Φ 0 := by
  rw [show (dat V c).Φ 0 = PhiS V c 0 (Nat.zero_le _) from rfl]
  exact Idealize.SL.BI.Entails.refl _

/-- After the last point the invariant gives it back: the accumulator's contents are forgotten. -/
theorem hout (c : Dev nD) : (dat V c).Φ (Fin.last cfg1.N) ⊢ Pipeline.ΦA spec1 c := by
  rw [show (dat V c).Φ (Fin.last cfg1.N) = PhiS V c (Fin.last cfg1.N).val (Nat.le_of_lt_succ (Fin.last cfg1.N).isLt) from rfl]
  exact (PhiS_any V c _ _).trans (PhiA_close c)

end Cert.Kernel.Reg1

end
-- ==== Proof.WKRunReg1.lean ====
import proofs.«114411_j49589692399794_2_alg».proof.Proof.WKRunData
import proofs.«114411_j49589692399794_2_alg».proof.Proof.WReg1Body

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # Product 1 as a piece of @main

Entered from every unscoped buffer at `W6`, left at `W7`. Its four arrays are split out of the unscoped buffers
at entry and put back at their final contents at exit; the generator register and the scoped buffers no window
stages go into the region's invariant before the first grid point and come back after the last, the accumulator's
contents forgotten; nothing is owed; the kernel has no semaphore of its own. -/

-- applying a library lemma stated over `pin pcs a p` unifies with the pinned configuration only when unification may
-- unfold plain definitions in a metavariable's type
set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Reg1.body_obligation (V6 m ρ) c).loose
  hwaits := Pipeline.hwaits_of_owed_zero _ _ _ _ L lv 1 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec1 c (V6 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine Idealize.SL.BI.BIBase.Entails.trans ?_ (Reg1.hin (V6 m ρ) c)
    unfold Pipeline.ΦA
    iintro ⟨Hp, -, Hr⟩
    isplitl [Hr]; · iexact Hr
    iexact Hp
  hout c := by
    rw [Pipeline.ownSems0_none]
    refine Idealize.SL.BI.BIBase.Entails.trans (Reg1.hout (V6 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V6 m ρ c) (V7 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Run

end
-- ==== Proof.WReg2Body.lean ====
import proofs.«114411_j49589692399794_2_alg».proof.Proof.WReg2Dat

set_option maxRecDepth 16384

noncomputable section

namespace Cert.Kernel.Reg2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The body obligation of the product's region, at a generic grid point -/

/-- What the body is called with at point `t`: the invariant, nothing owed, each window's current staging buffer. -/
def bodyPre (c : Dev nD) (t : Fin cfg2.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d)))

/-- and what it returns. -/
def bodyPost (c : Dev nD) (t : Fin cfg2.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

/-- The inputs are live at every point: the body leaves each at its block. -/
theorem leaves_0 (c : Dev nD) (t : Fin cfg2.N) :
    (dat V c).leavesExact 0 t = owns (c : Thread nD τ) (ms_0 t) fullShare (iblk V c 0 t) := by
  unfold Dat.leavesExact; rw [liveAt_0 t, after_0]
theorem leaves_1 (c : Dev nD) (t : Fin cfg2.N) :
    (dat V c).leavesExact 1 t = owns (c : Thread nD τ) (ms_1 t) fullShare (iblk V c 1 t) := by
  unfold Dat.leavesExact; rw [liveAt_1 t, after_1]
theorem leaves_2 (c : Dev nD) (t : Fin cfg2.N) :
    (dat V c).leavesExact 2 t = owns (c : Thread nD τ) (ms_2 t) fullShare (iblk V c 2 t) := by
  unfold Dat.leavesExact; rw [liveAt_2 t, after_2]

set_option maxHeartbeats 4800000 in
/-- The body at any point. The block index says which of the three cases the point is in; the invariant hands the body
    the accumulator at what the point before left (at anything where a row tile starts), and takes it back one step on;
    the output tile passes through untouched except at the last block, where it takes the accumulator's contents. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1, before_2]
  rw [show (dat V c).owesAt () t.succ = (dat V c).owesAt () t.castSucc from rfl]
  rw [show (dat V c).Φ t.succ = PhiS V c (t.val + 1) t.isLt from rfl, PhiS_succ]
  rw [leaves_0, leaves_1, leaves_2]
  have hN : t.val < 128 := lt_of_lt_of_eq t.isLt (show cfg2.N = 128 from N_2)
  by_cases h1 : t.val % 8 = 7
  · have h0 : ¬t.val % 8 = 0 := by omega
    have hz : t.val ≠ 0 := by omega
    rw [show (dat V c).leavesExact 3 t = owns (c : Thread nD τ) (ms_3 t) fullShare ((dat V c).after 3 t) from by
      unfold Dat.leavesExact; rw [liveAt_3 t ((hcondLast t).mpr h1)], after_3]
    rw [accAt_next V c t h0, PhiS_castSucc V c t, PhiS_pos V c _ _ hz]
    iintro ⟨⟨HS, Hr, Hg⟩, Ho, ⟨%d0, H0⟩, ⟨%d1, H1⟩, ⟨%d2, H2⟩, ⟨%d3, H3⟩⟩
    iapply (run_last c (grid2.coords t) _ _ _ _ _ _ _ _ _ _ (fun h => h0 ((hcondFirst t).mp h)) ((hcondLast t).mpr h1)
      (iblk V c 0 t) (iblk V c 1 t) (iblk V c 2 t) _ _ Set.univ _)
    isplitl [H0]; · iexact H0
    isplitl [H1]; · iexact H1
    isplitl [H2]; · iexact H2
    isplitl [H3]; · iexact H3
    isplitl [HS]; · iexact HS
    iintro ⟨H0, H1, H2, H3, HS⟩
    isplitl [HS Hr Hg]
    · isplitl [HS]; · iexact HS
      isplitl [Hr]; · iexact Hr
      iexact Hg
    isplitl [Ho]; · iexact Ho
    isplitl [H0]; · iexact H0
    isplitl [H1]; · iexact H1
    isplitl [H2]; · iexact H2
    iexact H3
  · rw [Dat.leavesExact_idle (dat V c) 3 t (idleAt_3 t (fun h => h1 ((hcondLast t).mp h))) (noFlush_3 t (fun h => h1 ((hcondLast t).mp h)))]
    by_cases h0 : t.val % 8 = 0
    · rw [accAt_first V c t h0, PhiS_castSucc V c t]
      iintro ⟨HΦ, Ho, ⟨%d0, H0⟩, ⟨%d1, H1⟩, ⟨%d2, H2⟩, ⟨%d3, H3⟩⟩
      ihave HΦ' := (PhiS_any V c _ _) $$ HΦ
      icases HΦ' with ⟨⟨%ds, HS⟩, Hr, Hg⟩
      iapply (run_first c (grid2.coords t) _ _ _ _ _ _ _ _ _ _ ((hcondFirst t).mpr h0) (fun h => h1 ((hcondLast t).mp h))
        (iblk V c 0 t) (iblk V c 1 t) (iblk V c 2 t) _ ds Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hr Hg]
      · isplitl [HS]; · iexact HS
        isplitl [Hr]; · iexact Hr
        iexact Hg
      isplitl [Ho]; · iexact Ho
      isplitl [H0]; · iexact H0
      isplitl [H1]; · iexact H1
      isplitl [H2]; · iexact H2
      iexists d3; iexact H3
    · have hz : t.val ≠ 0 := fun h => h0 (by rw [h])
      rw [accAt_next V c t h0, PhiS_castSucc V c t, PhiS_pos V c _ _ hz]
      iintro ⟨⟨HS, Hr, Hg⟩, Ho, ⟨%d0, H0⟩, ⟨%d1, H1⟩, ⟨%d2, H2⟩, ⟨%d3, H3⟩⟩
      iapply (run_mid c (grid2.coords t) _ _ _ _ _ _ _ _ _ _ (fun h => h0 ((hcondFirst t).mp h)) (fun h => h1 ((hcondLast t).mp h))
        (iblk V c 0 t) (iblk V c 1 t) (iblk V c 2 t) _ _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hr Hg]
      · isplitl [HS]; · iexact HS
        isplitl [Hr]; · iexact Hr
        iexact Hg
      isplitl [Ho]; · iexact Ho
      isplitl [H0]; · iexact H0
      isplitl [H1]; · iexact H1
      isplitl [H2]; · iexact H2
      iexists d3; iexact H3

/-- The library's body obligation, at every point. -/
theorem body_obligation (c : Dev nD) : BodyObligation (dat (F := F) V c) (defs₀ (F := F)) Variants.none () Set.univ := fun t => by
  rw [bigSep_W2, bigSep_W2]
  exact sound_body V c t

/-- What the launch hands the region is the invariant before the first point. -/
theorem hin (c : Dev nD) : Pipeline.ΦA spec2 c ⊢ (dat V c).Φ 0 := by
  rw [show (dat V c).Φ 0 = PhiS V c 0 (Nat.zero_le _) from rfl]
  exact Idealize.SL.BI.Entails.refl _

/-- After the last point the invariant gives it back: the accumulator's contents are forgotten. -/
theorem hout (c : Dev nD) : (dat V c).Φ (Fin.last cfg2.N) ⊢ Pipeline.ΦA spec2 c := by
  rw [show (dat V c).Φ (Fin.last cfg2.N) = PhiS V c (Fin.last cfg2.N).val (Nat.le_of_lt_succ (Fin.last cfg2.N).isLt) from rfl]
  exact (PhiS_any V c _ _).trans (PhiA_close c)

end Cert.Kernel.Reg2

end
-- ==== Proof.WKRunReg2.lean ====
import proofs.«114411_j49589692399794_2_alg».proof.Proof.WKRunData
import proofs.«114411_j49589692399794_2_alg».proof.Proof.WReg2Body

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # Product 2 as a piece of @main

Entered from every unscoped buffer at `W10`, left at `W11`. Its four arrays are split out of the unscoped buffers
at entry and put back at their final contents at exit; the generator register and the scoped buffers no window
stages go into the region's invariant before the first grid point and come back after the last, the accumulator's
contents forgotten; nothing is owed; the kernel has no semaphore of its own. -/

-- applying a library lemma stated over `pin pcs a p` unifies with the pinned configuration only when unification may
-- unfold plain definitions in a metavariable's type
set_option backward.isDefEq.respectTransparency.types false in
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (Reg2.body_obligation (V10 m ρ) c).loose
  hwaits := Pipeline.hwaits_of_owed_zero _ _ _ _ L lv 2 fun _ _ => rfl
  pre c := iprop(StableHlo.held (c : Thread nD τ) (Pipeline.ucRefs τ sig) (W10 m ρ c) ∗ R c)
  post c := iprop(StableHlo.held (c : Thread nD τ) (Pipeline.ucRefs τ sig) (W11 m ρ c) ∗ R c)
  X c := iprop(∃ r, prngReg c r)
  Y c := iprop(∃ r, prngReg c r)
  Z c := Pipeline.unscopedRest (Ix := Unit) (Name := ℕ) (U := UR sig nD τ) (Lvl := ℕ) spec2 c (V10 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V10 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine Idealize.SL.BI.BIBase.Entails.trans ?_ (Reg2.hin (V10 m ρ) c)
    unfold Pipeline.ΦA
    iintro ⟨Hp, -, Hr⟩
    isplitl [Hr]; · iexact Hr
    iexact Hp
  hout c := by
    rw [Pipeline.ownSems0_none]
    refine Idealize.SL.BI.BIBase.Entails.trans (Reg2.hout (V10 m ρ) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V10 m ρ c) (V11 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Run

end
-- ==== Proof.WKRunLaunch.lean ====
import proofs.«114411_j49589692399794_2_alg».proof.Proof.WKRunArgs
import proofs.«114411_j49589692399794_2_alg».proof.Proof.WKRunReg0
import proofs.«114411_j49589692399794_2_alg».proof.Proof.WKRunReg1
import proofs.«114411_j49589692399794_2_alg».proof.Proof.WKRunReg2

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run of @main

@main is the run of its fourteen pieces in order, each entered from what the one before left. Launched from any
memory with every counter at zero, every weakly fair execution terminates without a fault, and the final memory holds
every unscoped buffer at the end of the fold (`run_all`); read at the argument arrays, that is the launch memory
(`frame`). -/

/-- @main's fourteen pieces in order: a host segment per stretch from the contents before it, a region per product. -/
abbrev segs : List (Pipeline.Seg (pcfgs (F := F)) adm (pdats m ρ) () defs₀ 𝒱₀ L lv) :=
  [
    .host (hseg main_part0_ops0 main_part0_ops0_sub main_part0_ops0_fresh (W0 m ρ)),
    .host (hseg main_part0_ops1 main_part0_ops1_sub main_part0_ops1_fresh (W1 m ρ)),
    .host (hseg main_part0_ops2 main_part0_ops2_sub main_part0_ops2_fresh (W2 m ρ)),
    .host (hseg main_part1_ops0 main_part1_ops0_sub main_part1_ops0_fresh (W3 m ρ)),
    .region (reg0 m ρ),
    .host (hseg main_part1_ops1 main_part1_ops1_sub main_part1_ops1_fresh (W5 m ρ)),
    .region (reg1 m ρ),
    .host (hseg main_part1_ops2 main_part1_ops2_sub main_part1_ops2_fresh (W7 m ρ)),
    .host (hseg main_part1_ops3 main_part1_ops3_sub main_part1_ops3_fresh (W8 m ρ)),
    .host (hseg main_part1_ops4 main_part1_ops4_sub main_part1_ops4_fresh (W9 m ρ)),
    .region (reg2 m ρ),
    .host (hseg main_part1_ops5 main_part1_ops5_sub main_part1_ops5_fresh (W11 m ρ)),
    .host (hseg main_part2_ops0 main_part2_ops0_sub main_part2_ops0_fresh (W12 m ρ)),
    .host (hseg main_part3_ops0 main_part3_ops0_sub main_part3_ops0_fresh (W13 m ρ)) ]

/-- @main is the run of the pieces: both sides are the same operations in the same order. -/
theorem main_run (c : Dev nD) : main (F := F) c = Pipeline.Seg.run (segs m ρ) := (main_chain_windows c).trans (by chain_rfl)

-- the launch theorem's implicit arguments are found by unifying its conclusion with this one, which takes unfolding
-- plain definitions in a metavariable's type
set_option backward.isDefEq.respectTransparency.types false in
/-- THE RUN: at the compiled mesh, from any memory with zero counters, every weakly fair execution of @main on the
    TensorCores terminates, nothing faulting, and every final memory holds each unscoped buffer at `Wfin`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Wfin m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl,
      fun c => by
        show iprop(StableHlo.held (c : Thread nD τ) (Pipeline.ucRefs τ sig) (Wfin m ρ c) ∗ R c)
          ⊢ iprop(Tₙ m ρ c ∗ ∃ W, owes (c : Thread nD τ) (0 : CellTallies nD τ sig Unit) W)
        iintro ⟨Hh, Hp, HO⟩
        isplitr [HO]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wfin m ρ c b)
    (hfin := fun c s' => by
      iintro ⟨⟨Hh, -⟩, HSI⟩
      unfold StableHlo.held
      imodintro
      iapply (pointsTo_read_all (Pipeline.ucRefs τ sig) (fun b => (((c : Thread nD τ)).1, b)) (Wfin m ρ c) s')
      isplitl [Hh] <;> iassumption)
    (hQ := fun s h => h)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c =>
    ⟨(h c _ (mem_uc main_arg0 (by decide))).trans (Wfin_main_arg0 m ρ c),
      (h c _ (mem_uc main_arg1 (by decide))).trans (Wfin_main_arg1 m ρ c),
      (h c _ (mem_uc main_arg2 (by decide))).trans (Wfin_main_arg2 m ρ c),
      (h c _ (mem_uc main_arg3 (by decide))).trans (Wfin_main_arg3 m ρ c),
      (h c _ (mem_uc main_arg4 (by decide))).trans (Wfin_main_arg4 m ρ c),
      (h c _ (mem_uc main_arg5 (by decide))).trans (Wfin_main_arg5 m ρ c),
      (h c _ (mem_uc main_arg6 (by decide))).trans (Wfin_main_arg6 m ρ c),
      (h c _ (mem_uc main_arg7 (by decide))).trans (Wfin_main_arg7 m ρ c),
      (h c _ (mem_uc main_arg8 (by decide))).trans (Wfin_main_arg8 m ρ c),
      (h c _ (mem_uc main_arg9 (by decide))).trans (Wfin_main_arg9 m ρ c),
      (h c _ (mem_uc main_arg10 (by decide))).trans (Wfin_main_arg10 m ρ c),
      (h c _ (mem_uc main_arg11 (by decide))).trans (Wfin_main_arg11 m ρ c),
      (h c _ (mem_uc main_arg12 (by decide))).trans (Wfin_main_arg12 m ρ c),
      (h c _ (mem_uc main_arg13 (by decide))).trans (Wfin_main_arg13 m ρ c),
      (h c _ (mem_uc main_arg14 (by decide))).trans (Wfin_main_arg14 m ρ c)⟩) (run_all m ρ)

end Cert.Kernel.Run

end
-- ==== Proof.Frames.lean ====
import proofs.«114411_j49589692399794_2_alg».proof.Defs
import proofs.«114411_j49589692399794_2_alg».proof.Proof.KRunLaunch
import proofs.«114411_j49589692399794_2_alg».proof.Proof.WKRunLaunch

noncomputable section

namespace Cert.Frames

open Idealize.ShloMosaic Idealize.SL.Sem

/-! # The two kernel frames and the idealization ledger

Both readings of the kernel — at machine words and at extended reals — are one text, and its run was proved for any
float values: launched from any memory with every counter at zero, every weakly fair execution of @main ends,
nothing faulting, with the fifteen argument arrays as launched. The run needs nothing of the inputs, so the
precondition of the claim is not used. The idealization rewrote no operation, so there is nothing to preserve. -/

/-- The kernel read at extended reals runs to the end and leaves its argument arrays as launched. -/
theorem frame_KernelIdeal [hK : Cert.KernelIdeal.Facts] [hP : Cert.Pre_finite_inputs.Facts] :
    Cert.frame_KernelIdeal (hKernelIdeal := hK) (hPre_finite_inputs := hP) :=
  fun m ρ _ => Cert.KernelIdeal.Run.frame (F := Ideal) m ρ

/-- The kernel read at machine words runs to the end and leaves its argument arrays as launched. -/
theorem frame_Kernel [hK : Cert.Kernel.Facts] [hP : Cert.Pre_finite_inputs.Facts] :
    Cert.frame_Kernel (hKernel := hK) (hPre_finite_inputs := hP) :=
  fun m ρ _ => Cert.Kernel.Run.frame (F := Bits) m ρ

/-- No operation was rewritten between the two readings: there is nothing to preserve. -/
theorem preserves : Cert.preserves_Kernel_KernelIdeal := trivial

end Cert.Frames

end
-- ==== Proof.FrameRef.lean ====
import proofs.«114411_j49589692399794_2_alg».proof.Defs
import proofs.«114411_j49589692399794_2_alg».proof.Proof.RefRunP

noncomputable section

namespace Cert.Frames

open Idealize.ShloMosaic Idealize.SL.Sem

/-- The reference has no kernel: it is a list of host operations, and its run from any memory with every counter at
    zero ends with the two results at their composed terms and the fifteen argument arrays as launched. Dropping the two
    results leaves the frame; nothing of the inputs is needed, so the precondition of the claim is not used. -/
theorem frame_ReferenceIdeal [hR : Cert.ReferenceIdeal.Facts] [hP : Cert.Pre_finite_inputs.Facts] :
    Cert.frame_ReferenceIdeal (hReferenceIdeal := hR) (hPre_finite_inputs := hP) :=
  fun m ρ _ => (θ_run Cert.ReferenceIdeal.defs _ _).mono (fun _ h c => (h c).2.2)
    (Cert.ReferenceIdeal.Value.run (F := Ideal) m ρ)

end Cert.Frames

end
-- ==== Proof.LibRowLayers.lean ====
/-
  Rows of two-dimensional arrays over the extended reals, and the layers of a row-wise network.

  A point-wise multilayer perceptron treats every row of its input matrix alone: a dense layer sends the row
  `h` to `j ↦ (∑ k, h k · w[k, j]) + b j`, a rectifier takes the maximum with a threshold entry by entry, a
  concatenation along the columns sets two rows side by side. This file names those three row functions
  (`dense`, `relu`, `join`) and reads, ROW BY ROW, the array operations that compute them: a matrix product
  into a zero accumulator (the device's) or with no accumulator (the host's) whose dimension numbers say
  "rows times columns" (`RowsTimesCols`), the addition of a bias row broadcast down the rows, the maximum
  with a splat constant, a slice of columns, and a concatenation of columns. Every statement is for an
  arbitrary number of rows, so one calculus serves a block of rows and the whole array alike.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.RowLayers

open Idealize.ShloMosaic Idealize.ShloMosaic.ValueIdx

/-! ## Rows, and the three row functions -/

section Rows
variable {α : Type}

/-- Row `p` of an `[a, b]` array: the function `k ↦ v[p, k]`. -/
def rowOf {a b : ℕ} (v : (⟨2, ![a, b]⟩ : Shape).Idx → α) (p : Fin a) : Fin b → α := fun k => v (ix2 p k)

theorem rowOf_apply {a b : ℕ} (v : (⟨2, ![a, b]⟩ : Shape).Idx → α) (p : Fin a) (k : Fin b) : rowOf v p k = v (ix2 p k) := rfl

/-- An array read at an index is its row at the first coordinate read at the second. -/
theorem apply_eq_rowOf {a b : ℕ} (v : (⟨2, ![a, b]⟩ : Shape).Idx → α) (i : (⟨2, ![a, b]⟩ : Shape).Idx) : v i = rowOf v (i 0) (i 1) :=
  congrArg v (eq_ix2 i)

/-- Two rows side by side: the first `A` entries are `f`'s, the next `B` are `g`'s. -/
def join {A B C : ℕ} (hC : C = A + B) (f : Fin A → α) (g : Fin B → α) : Fin C → α :=
  fun k => if h : k.val < A then f ⟨k.val, h⟩ else g ⟨k.val - A, by have := k.isLt; omega⟩

end Rows

/-- A dense layer on a row `h`: entry `j` is `(∑ k, h k · w[k, j]) + b j`. -/
def dense {K J : ℕ} (h : Fin K → EReal) (w : (⟨2, ![K, J]⟩ : Shape).Idx → EReal) (b : Fin J → EReal) : Fin J → EReal :=
  fun j => (∑ k : Fin K, h k * w (ix2 k j)) + b j

/-- The rectifier with threshold `z`, entry by entry: `max (f j) z`. -/
def relu {J : ℕ} (z : EReal) (f : Fin J → EReal) : Fin J → EReal := fun j => max (f j) z

/-! ## A matrix product whose dimension numbers say "rows times columns" -/

section Contraction
variable {a K b : ℕ} (d : DotDims ⟨2, ![a, K]⟩ ⟨2, ![K, b]⟩ ⟨2, ![a, b]⟩)

/-- The dimension numbers of an `[a, K] × [K, b] → [a, b]` product contract ONE axis, of extent `K`, and read the
    left operand at (output row, contracted position) and the right one at (contracted position, output column). -/
structure RowsTimesCols : Prop where
  rank : d.contr.rank = 1
  size : d.contr.size ⟨0, by omega⟩ = K
  lhs0 : ∀ (j : (⟨2, ![a, b]⟩ : Shape).Idx) (q : d.contr.Idx), (d.lhsIdx j q 0).val = (j 0).val
  lhs1 : ∀ (j : (⟨2, ![a, b]⟩ : Shape).Idx) (q : d.contr.Idx), (d.lhsIdx j q 1).val = (q ⟨0, by omega⟩).val
  rhs0 : ∀ (j : (⟨2, ![a, b]⟩ : Shape).Idx) (q : d.contr.Idx), (d.rhsIdx j q 0).val = (q ⟨0, by omega⟩).val
  rhs1 : ∀ (j : (⟨2, ![a, b]⟩ : Shape).Idx) (q : d.contr.Idx), (d.rhsIdx j q 1).val = (j 1).val

variable {d}

/-- The sum over the contraction's index set, re-indexed by the contracted position `k < K`: entry `(p, q)` of the
    product is `∑ k, lhs[p, k] · rhs[k, q]`. -/
theorem RowsTimesCols.sum_eq (H : RowsTimesCols d) (lhs : (⟨2, ![a, K]⟩ : Shape).Idx → EReal) (rhs : (⟨2, ![K, b]⟩ : Shape).Idx → EReal)
    (p : Fin a) (q : Fin b) :
    (∑ k : d.contr.Idx, lhs (d.lhsIdx (ix2 p q) k) * rhs (d.rhsIdx (ix2 p q) k)) = ∑ k : Fin K, lhs (ix2 p k) * rhs (ix2 k q) := by
  rw [← Equiv.sum_comp (contrEquiv1 d K H.rank H.size).symm]
  refine Finset.sum_congr rfl fun k _ => ?_
  have hk := contrEquiv1_symm_val d K H.rank H.size k
  have el : d.lhsIdx (ix2 p q) ((contrEquiv1 d K H.rank H.size).symm k) = ix2 p k := funext fun ax => Fin.ext (by
    match ax with
    | ⟨0, _⟩ => exact H.lhs0 _ _
    | ⟨1, _⟩ => exact (H.lhs1 _ _).trans hk)
  have er : d.rhsIdx (ix2 p q) ((contrEquiv1 d K H.rank H.size).symm k) = ix2 k q := funext fun ax => Fin.ext (by
    match ax with
    | ⟨0, _⟩ => exact (H.rhs0 _ _).trans hk
    | ⟨1, _⟩ => exact H.rhs1 _ _)
  rw [el, er]

/-- Row `p` of the device's product into a zero accumulator. -/
theorem rowOf_matmul_zero {φ₁ φ₂ : FTy} (H : RowsTimesCols d) (prec : Option ContractPrecision)
    (lhs : FVec Ideal ⟨2, ![a, K]⟩ φ₁) (rhs : FVec Ideal ⟨2, ![K, b]⟩ φ₂) (p : Fin a) :
    rowOf (matmul d prec lhs rhs (constant (F := Ideal) ⟨2, ![a, b]⟩ .f32 0x00000000#32)) p
      = fun j => ∑ k : Fin K, rowOf lhs p k * rhs (ix2 k j) := by
  funext j
  show FloatOps.matmul d prec lhs rhs (constant (F := Ideal) ⟨2, ![a, b]⟩ .f32 0x00000000#32) (ix2 p j) = _
  rw [Ideal.matmul_constant_zero_apply]
  exact H.sum_eq lhs rhs p j

/-- Row `p` of the host's product. -/
theorem rowOf_dotGeneral {φ₁ φ₂ : FTy} (H : RowsTimesCols d) (prec : Option ContractPrecision)
    (lhs : FVec Ideal ⟨2, ![a, K]⟩ φ₁) (rhs : FVec Ideal ⟨2, ![K, b]⟩ φ₂) (p : Fin a) :
    rowOf (Host.dotGeneral (F := Ideal) d prec lhs rhs) p = fun j => ∑ k : Fin K, rowOf lhs p k * rhs (ix2 k j) := by
  funext j
  show FloatOps.dotGeneral d prec .single lhs rhs (ix2 p j) = _
  rw [Ideal.dotGeneral_apply]
  exact H.sum_eq lhs rhs p j

end Contraction

/-! ## The other operations, read on a row -/

section Ops
variable {a b : ℕ} {φ : FTy}

/-- A sum of arrays, on a row. -/
theorem rowOf_addf (x y : FVec Ideal ⟨2, ![a, b]⟩ φ) (p : Fin a) : rowOf (addf x y) p = fun j => rowOf x p j + rowOf y p j := rfl

/-- A change of float format does nothing to an extended real. -/
theorem rowOf_truncf {ψ : FTy} (x : FVec Ideal ⟨2, ![a, b]⟩ φ) (h : ψ.bits < φ.bits) (p : Fin a) :
    rowOf (truncf ψ x h : FVec Ideal ⟨2, ![a, b]⟩ ψ) p = rowOf x p := rfl

/-- The maximum with a splat scalar is the rectifier at that scalar. -/
theorem rowOf_maximumf_splat (x : FVec Ideal ⟨2, ![a, b]⟩ φ) (z : Ideal φ) (p : Fin a) :
    rowOf (maximumf x (broadcast ⟨2, ![a, b]⟩ z)) p = relu z (rowOf x p) := rfl

/-- The maximum with a rank-0 constant broadcast over the array is the rectifier at that constant. -/
theorem rowOf_maximumf_const {s : Shape} (x : FVec Ideal ⟨2, ![a, b]⟩ φ) (w : BitVec φ.bits) (dims : Fin s.rank → Fin 2)
    (h : s.BroadcastsInDim ⟨2, ![a, b]⟩ dims) (p : Fin a) :
    rowOf (maximumf x (broadcastInDim ⟨2, ![a, b]⟩ dims h (constant (F := Ideal) s φ w))) p = relu (Ideal.ofBits φ w) (rowOf x p) := rfl

/-- One row broadcast down `a` rows: every row is that row. -/
theorem rowOf_broadcastTo {α : Type} (v : (⟨2, ![1, b]⟩ : Shape).Idx → α) (h : (⟨2, ![1, b]⟩ : Shape).Broadcasts ⟨2, ![a, b]⟩) (p : Fin a) :
    rowOf (broadcastTo ⟨2, ![a, b]⟩ v h) p = rowOf v 0 :=
  funext fun c => broadcastTo_1b_ab_apply v h p c

/-- The host's form of the same: a `[b]` vector first given a unit leading axis, then broadcast down `a` rows. -/
theorem rowOf_broadcastInDim_vec {α : Type} (x : (⟨1, ![b]⟩ : Shape).Idx → α)
    (h1 : (⟨1, ![b]⟩ : Shape).BroadcastsInDim ⟨2, ![1, b]⟩ ![1]) (h2 : (⟨2, ![1, b]⟩ : Shape).BroadcastsInDim ⟨2, ![a, b]⟩ ![0, 1]) (p : Fin a) :
    rowOf (broadcastInDim ⟨2, ![a, b]⟩ ![0, 1] h2 (broadcastInDim ⟨2, ![1, b]⟩ ![1] h1 x)) p = fun j => x (ix1 j) := by
  funext c
  show broadcastInDim ⟨2, ![a, b]⟩ ![0, 1] h2 (broadcastInDim ⟨2, ![1, b]⟩ ![1] h1 x) (ix2 p c) = x (ix1 c)
  rw [broadcastInDim_apply ![0, 1] h2 _ (ix2 p c) (ix2 (0 : Fin 1) c) (fun ax => by
        match ax with
        | ⟨0, _⟩ => show (0 : ℕ) = if (1 : ℕ) = 1 then 0 else p.val; rw [if_pos rfl]
        | ⟨1, _⟩ => show c.val = if b = 1 then 0 else c.val; split <;> [(have := c.isLt; omega); rfl]),
      broadcastInDim_apply ![1] h1 x (ix2 (0 : Fin 1) c) (ix1 c) (fun ax => by
        match ax with
        | ⟨0, _⟩ => show c.val = if b = 1 then 0 else c.val; split <;> [(have := c.isLt; omega); rfl])]

/-- A window of `m` columns from column `o`: the row's entries from `o` on. -/
theorem rowOf_slice_cols {α : Type} {n m : ℕ} (o : ℕ) (X : (⟨2, ![a, n]⟩ : Shape).Idx → α)
    (h : (⟨2, ![a, n]⟩ : Shape).Slices ![0, o] ⟨2, ![a, m]⟩) (p : Fin a) :
    rowOf (extractStridedSlice ⟨2, ![a, m]⟩ ![0, o] X h) p
      = fun j => rowOf X p ⟨o + j.val, Nat.lt_of_lt_of_le (Nat.add_lt_add_left j.isLt o) (h.2 1)⟩ :=
  funext fun j => slice2_axis1_eq o X h p j

/-- Two arrays concatenated along the columns: each row is the two rows side by side. -/
theorem rowOf_concat_cols {α : Type} {A B C : ℕ} (x : (⟨2, ![a, A]⟩ : Shape).Idx → α) (y : (⟨2, ![a, B]⟩ : Shape).Idx → α)
    (h : Shape.Concatenates [(⟨2, ![a, A]⟩ : Shape), ⟨2, ![a, B]⟩] ⟨2, ![a, C]⟩ 1) (hC : C = A + B) (p : Fin a) :
    rowOf (concatenate ⟨2, ![a, C]⟩ 1 [⟨⟨2, ![a, A]⟩, x⟩, ⟨⟨2, ![a, B]⟩, y⟩] h) p = join hC (rowOf x p) (rowOf y p) := by
  funext k
  show concatenate ⟨2, ![a, C]⟩ 1 [⟨⟨2, ![a, A]⟩, x⟩, ⟨⟨2, ![a, B]⟩, y⟩] h (ix2 p k) = _
  unfold join
  by_cases hk : k.val < A
  · rw [dif_pos hk]
    exact concatenate_pair_apply_left 1 x y h (ix2 p k) rfl (ix2 p ⟨k.val, hk⟩) (fun ax => by
      match ax with
      | ⟨0, _⟩ => rfl
      | ⟨1, _⟩ => rfl)
  · rw [dif_neg hk]
    have hk' : A ≤ k.val := Nat.le_of_not_lt hk
    exact concatenate_pair_apply_right 1 x y h (ix2 p k) rfl rfl (ix2 p ⟨k.val - A, by have := k.isLt; omega⟩)
      (fun ax hne => by
        match ax with
        | ⟨0, _⟩ => rfl
        | ⟨1, _⟩ => exact absurd rfl hne)
      (by show k.val - A + A = k.val; omega)

end Ops

/-! ## A dense layer as each program prints it -/

section Dense
variable {a K b : ℕ} {d : DotDims ⟨2, ![a, K]⟩ ⟨2, ![K, b]⟩ ⟨2, ![a, b]⟩} {φ₁ φ₂ : FTy}

/-- The device's dense layer — a product into a zero accumulator plus a `[1, b]` bias row broadcast down the rows —
    sends row `p` of the input to `dense` of it. -/
theorem rowOf_dense_device (H : RowsTimesCols d) (prec : Option ContractPrecision)
    (h : FVec Ideal ⟨2, ![a, K]⟩ φ₁) (w : FVec Ideal ⟨2, ![K, b]⟩ φ₂) (bias : FVec Ideal ⟨2, ![1, b]⟩ .f32)
    (hB : (⟨2, ![1, b]⟩ : Shape).Broadcasts ⟨2, ![a, b]⟩) (p : Fin a) :
    rowOf (addf (matmul d prec h w (constant (F := Ideal) ⟨2, ![a, b]⟩ .f32 0x00000000#32)) (broadcastTo ⟨2, ![a, b]⟩ bias hB)) p
      = dense (rowOf h p) w (rowOf bias 0) := by
  rw [rowOf_addf, rowOf_matmul_zero H, rowOf_broadcastTo]
  rfl

/-- The host's dense layer — a product plus a `[b]` bias vector given a unit leading axis and broadcast down the
    rows — sends row `p` of the input to `dense` of it. -/
theorem rowOf_dense_host (H : RowsTimesCols d) (prec : Option ContractPrecision)
    (h : FVec Ideal ⟨2, ![a, K]⟩ φ₁) (w : FVec Ideal ⟨2, ![K, b]⟩ φ₂) (bias : FVec Ideal ⟨1, ![b]⟩ .f32)
    (h1 : (⟨1, ![b]⟩ : Shape).BroadcastsInDim ⟨2, ![1, b]⟩ ![1]) (h2 : (⟨2, ![1, b]⟩ : Shape).BroadcastsInDim ⟨2, ![a, b]⟩ ![0, 1]) (p : Fin a) :
    rowOf (addf (Host.dotGeneral (F := Ideal) d prec h w) (broadcastInDim ⟨2, ![a, b]⟩ ![0, 1] h2 (broadcastInDim ⟨2, ![1, b]⟩ ![1] h1 bias))) p
      = dense (rowOf h p) w (fun j => bias (ix1 j)) := by
  rw [rowOf_addf, rowOf_dotGeneral H, rowOf_broadcastInDim_vec]
  rfl

end Dense

end Cert.RowLayers

end
-- ==== Proof.LibBlockSum.lean ====
/-
  Sums over an index range cut into equal blocks, in any commutative additive monoid (the extended reals are one:
  addition there is commutative and associative, infinities included, so no finiteness is asked).

  An index below nb * bs is position r of block b, k = b * bs + r. A sum over all k is the sum over the blocks of
  each block's sum (sum_fin_blocks); and a running total that takes the blocks one after the other, block 0 first,
  has after block n the sum of blocks 0 .. n (acc_eq_sum_range), so after the last block the whole sum
  (sum_range_blocks). This is what a matrix product accumulated over column blocks computes, entry by entry.
-/
import Mathlib.Algebra.BigOperators.Fin
import Mathlib.Algebra.BigOperators.Intervals
import Mathlib.Logic.Equiv.Fin.Basic

namespace BlockSum

open Finset

variable {M : Type*} [AddCommMonoid M]

/-- Position r of block b is below nb * bs when b is below nb. -/
theorem pos_lt {nb bs : ℕ} (b : Fin nb) (r : Fin bs) : b.val * bs + r.val < nb * bs := by
  have h1 : (b.val + 1) * bs ≤ nb * bs := Nat.mul_le_mul_right bs b.isLt
  have h2 : b.val * bs + r.val < (b.val + 1) * bs := by rw [Nat.succ_mul]; exact Nat.add_lt_add_left r.isLt _
  exact lt_of_lt_of_le h2 h1

/-- A sum over nb * bs indices is the sum over the nb blocks of the sum over each block's bs positions. -/
theorem sum_fin_blocks (nb bs : ℕ) (f : Fin (nb * bs) → M) :
    ∑ k, f k = ∑ b : Fin nb, ∑ r : Fin bs, f ⟨b.val * bs + r.val, pos_lt b r⟩ := by
  rw [← Equiv.sum_comp finProdFinEquiv f, Fintype.sum_prod_type]
  refine Finset.sum_congr rfl fun b _ => Finset.sum_congr rfl fun r _ => congrArg f (Fin.ext ?_)
  show r.val + bs * b.val = b.val * bs + r.val
  rw [Nat.mul_comm, Nat.add_comm]

/-- Position r of block b as an index below nb * bs, wrapped around so that it is defined for every natural b. -/
def pos (nb bs : ℕ) (h : 0 < nb * bs) (b : ℕ) (r : Fin bs) : Fin (nb * bs) :=
  ⟨(b * bs + r.val) % (nb * bs), Nat.mod_lt _ h⟩

/-- Below nb blocks nothing wraps. -/
theorem pos_eq (nb bs : ℕ) (h : 0 < nb * bs) (b : Fin nb) (r : Fin bs) :
    pos nb bs h b.val r = ⟨b.val * bs + r.val, pos_lt b r⟩ :=
  Fin.ext (Nat.mod_eq_of_lt (pos_lt b r))

/-- The blocks taken one after the other: the sum of the first nb block sums is the whole sum. -/
theorem sum_range_blocks (nb bs : ℕ) (h : 0 < nb * bs) (f : Fin (nb * bs) → M) :
    ∑ b ∈ range nb, ∑ r : Fin bs, f (pos nb bs h b r) = ∑ k, f k := by
  rw [Finset.sum_range, sum_fin_blocks]
  exact Finset.sum_congr rfl fun b _ => Finset.sum_congr rfl fun r _ => by rw [pos_eq]

end BlockSum
-- ==== Proof.Reg0Value.lean ====
import proofs.«114411_j49589692399794_2_alg».proof.Proof.Reg0Dat
import proofs.«114411_j49589692399794_2_alg».proof.Proof.LibRowLayers
import proofs.«114411_j49589692399794_2_alg».proof.Proof.LibBlockSum
import Idealize.ShloMosaic.Lib.ValueIdx
import Idealize.ShloMosaic.PureOps.Ideal.Laws
import Idealize.ShloMosaic.Lib.Pipeline.Value

set_option maxRecDepth 16384

noncomputable section

open scoped BigOperators

namespace Cert.KernelIdeal.Reg0

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.RowLayers

variable (V : (c : Dev nD) → (b : Ref sig .tc) → Buf (Elt Ideal) ((c : Thread nD τ).loc b))

/-! # The product's value over the extended reals: one block's step and the blocks, read at coordinates -/

/-- The printed dimension numbers contract the left operand's columns with the right operand's rows. -/
theorem dotRC : RowsTimesCols dot_S1024x2048_S2048x128_S1024x128_1_0_0_1_n_n :=
  ⟨rfl, rfl, fun _ _ => rfl, fun _ _ => rfl, fun _ _ => rfl, fun _ _ => rfl⟩

/-- Block `b` of the contracted axis starts at row 2048 · b of the right operand (decided over the grid). -/
theorem off_eq : ∀ t : Fin cfg0.N, k0_off1 (grid0.coords t) = ![2048 * (t.val % 8), 0] :=
  (by decide +kernel : ∀ t : Fin grid0.N, k0_off1 (grid0.coords t) = ![2048 * (t.val % 8), 0])

/-- Where the left window's block sits: row tile t / 8, block t % 8 of the contracted axis. -/
theorem idx0 : ∀ t : Fin cfg0.N, win0_0.index t 0 = t.val / 8 ∧ win0_0.index t 1 = t.val % 8 :=
  (by decide +kernel : ∀ t : Fin grid0.N, win0_0.index t 0 = t.val / 8 ∧ win0_0.index t 1 = t.val % 8)
/-- The right operand's window is the whole array at every point. -/
theorem idx1 : ∀ t : Fin cfg0.N, win0_1.index t 0 = 0 ∧ win0_1.index t 1 = 0 :=
  (by decide +kernel : ∀ t : Fin grid0.N, win0_1.index t 0 = 0 ∧ win0_1.index t 1 = 0)
/-- The output tile is row tile t / 8. -/
theorem idx3 : ∀ t : Fin cfg0.N, win0_3.index t 0 = t.val / 8 ∧ win0_3.index t 1 = 0 :=
  (by decide +kernel : ∀ t : Fin grid0.N, win0_3.index t 0 = t.val / 8 ∧ win0_3.index t 1 = 0)

/-- One step at entry (p, q): the accumulator's entry plus the block's 2048 products. -/
theorem accStep_apply (t : Fin cfg0.N) (w : Vec Ideal S16384x128 .f32) (x : Vec Ideal S1024x2048 .f32) (acc : Vec Ideal S1024x128 .f32)
    (p : Fin 1024) (q : Fin 128) :
    accStep (grid0.coords t) w x acc (ix2 p q)
      = acc (ix2 p q) + ∑ kk : Fin 2048, x (ix2 p kk) * View.ld w (rowsOf (grid0.coords t)) (ix2 kk q) := by
  unfold accStep k0_pay2
  simp only [shapeCast_self]
  have h := congrFun (rowOf_matmul_zero dotRC none (truncf .bf16 x bitsLt_bf16_f32)
    (truncf .bf16 (View.ld w (rowsOf (grid0.coords t))) bitsLt_bf16_f32) p) q
  exact congrArg (fun s : EReal => acc (ix2 p q) + s) h

/-- The block's rows of the right operand, at coordinates. -/
theorem ld_rows (t : Fin cfg0.N) (w : Vec Ideal S16384x128 .f32) (kk : Fin 2048) (q : Fin 128) :
    View.ld w (rowsOf (grid0.coords t)) (ix2 kk q)
      = w (ix2 (⟨2048 * (t.val % 8) + kk.val, by have := kk.isLt; omega⟩ : Fin 16384) q) := by
  show w ((rowsOf (grid0.coords t)).emb (ix2 kk q)) = _
  refine congrArg w (funext fun a => Fin.ext ?_)
  match a with
  | ⟨0, _⟩ =>
    show k0_off1 (grid0.coords t) 0 + 1 * kk.val = 2048 * (t.val % 8) + kk.val
    rw [off_eq t]; simp
  | ⟨1, _⟩ =>
    show k0_off1 (grid0.coords t) 1 + 1 * q.val = q.val
    rw [off_eq t]; simp

/-- The left window's block at point t, at coordinates: rows of tile t / 8, columns of block t % 8. -/
theorem iblk0_apply (c : Dev nD) (t : Fin cfg0.N) (p : Fin 1024) (kk : Fin 2048) :
    (iblk V c 0 t : Vec Ideal S1024x2048 .f32) (ix2 p kk)
      = (V c (Pipeline.arrRef spec0 0) : S16384x16384.Idx → EReal)
          (ix2 (⟨1024 * (t.val / 8) + p.val, by have := p.isLt; have : t.val < 128 := lt_of_lt_of_eq t.isLt N_0; omega⟩ : Fin 16384)
               (⟨2048 * (t.val % 8) + kk.val, by have := kk.isLt; omega⟩ : Fin 16384)) := by
  unfold iblk
  rw [View.read_apply]
  refine congrArg (V c (Pipeline.arrRef spec0 0) : S16384x16384.Idx → EReal) (funext fun a => Fin.ext ?_)
  match a with
  | ⟨0, _⟩ =>
    show win0_0.index t 0 * 1024 + 1 * p.val = 1024 * (t.val / 8) + p.val
    rw [(idx0 t).1]; omega
  | ⟨1, _⟩ =>
    show win0_0.index t 1 * 2048 + 1 * kk.val = 2048 * (t.val % 8) + kk.val
    rw [(idx0 t).2]; omega

/-- The right operand's window is the whole array. -/
theorem iblk1_apply (c : Dev nD) (t : Fin cfg0.N) (k : Fin 16384) (q : Fin 128) :
    (iblk V c 1 t : Vec Ideal S16384x128 .f32) (ix2 k q) = (V c (Pipeline.arrRef spec0 1) : S16384x128.Idx → EReal) (ix2 k q) := by
  unfold iblk
  rw [View.read_apply]
  refine congrArg (V c (Pipeline.arrRef spec0 1) : S16384x128.Idx → EReal) (funext fun a => Fin.ext ?_)
  match a with
  | ⟨0, _⟩ =>
    show win0_1.index t 0 * 16384 + 1 * k.val = k.val
    rw [(idx1 t).1]; omega
  | ⟨1, _⟩ =>
    show win0_1.index t 1 * 128 + 1 * q.val = q.val
    rw [(idx1 t).2]; omega

/-- The bias window is the whole one-row array at every point. -/
theorem idx2 : ∀ t : Fin cfg0.N, win0_2.index t 0 = 0 ∧ win0_2.index t 1 = 0 :=
  (by decide +kernel : ∀ t : Fin grid0.N, win0_2.index t 0 = 0 ∧ win0_2.index t 1 = 0)

/-- The bias row, at coordinates. -/
theorem iblk2_apply (c : Dev nD) (t : Fin cfg0.N) (q : Fin 128) :
    (iblk V c 2 t : Vec Ideal S1x128 .f32) (ix2 (0 : Fin 1) q) = (V c (Pipeline.arrRef spec0 2) : S1x128.Idx → EReal) (ix2 (0 : Fin 1) q) := by
  unfold iblk
  rw [View.read_apply]
  refine congrArg (V c (Pipeline.arrRef spec0 2) : S1x128.Idx → EReal) (funext fun a => Fin.ext ?_)
  match a with
  | ⟨0, _⟩ =>
    show win0_2.index t 0 * 1 + 1 * 0 = 0
    rw [(idx2 t).1]
  | ⟨1, _⟩ =>
    show win0_2.index t 1 * 128 + 1 * q.val = q.val
    rw [(idx2 t).2]; omega

/-- What the last block stores: the accumulator plus the bias row, rectified. -/
theorem pay3_apply (acc : Vec Ideal S1024x128 .f32) (b : Vec Ideal S1x128 .f32) (p : Fin 1024) (q : Fin 128) :
    k0_pay3 acc b (ix2 p q) = max (acc (ix2 p q) + b (ix2 (0 : Fin 1) q)) (0 : EReal) := by
  unfold k0_pay3
  simp only [shapeCast_self]
  have hb : broadcastTo S1024x128 b broadcasts_S1x128_S1024x128 (ix2 p q) = b (ix2 (0 : Fin 1) q) :=
    congrFun (rowOf_broadcastTo b broadcasts_S1x128_S1024x128 p) q
  show max (acc (ix2 p q) + broadcastTo S1024x128 b broadcasts_S1x128_S1024x128 (ix2 p q)) (Ideal.ofBits .f32 0x00000000#32) = _
  rw [hb, Ideal.ofBits_zero_f32]

/-! # The product's value over the extended reals: the accumulation and the whole output array

After block b of row tile I the accumulator holds, at (p, q), the products of the first b + 1 blocks of the
contracted axis; after block 7 that is the whole contraction, and the tile written back is the product's rows
1024 · I … 1024 · I + 1023. -/

/-- Position kk of block kb of the contracted axis. -/
abbrev posOf (kb : ℕ) (kk : Fin 2048) : Fin 16384 := BlockSum.pos 8 2048 (by norm_num) kb kk

/-- Block kb's 2048 products for row r and column q. -/
def blockSum (A : S16384x16384.Idx → EReal) (W : S16384x128.Idx → EReal) (r : Fin 16384) (q : Fin 128) (kb : ℕ) : EReal :=
  ∑ kk : Fin 2048, A (ix2 r (posOf kb kk)) * W (ix2 (posOf kb kk) q)

/-- The product, entry by entry. -/
def prod (A : S16384x16384.Idx → EReal) (W : S16384x128.Idx → EReal) : S16384x128.Idx → EReal :=
  fun j => ∑ k : Fin 16384, A (ix2 (j 0) k) * W (ix2 k (j 1))

/-- The eight block sums, one after the other, are the whole contraction. -/
theorem blocks_eq_prod (A : S16384x16384.Idx → EReal) (W : S16384x128.Idx → EReal) (r : Fin 16384) (q : Fin 128) :
    ∑ kb ∈ Finset.range 8, blockSum A W r q kb = prod A W (ix2 r q) :=
  BlockSum.sum_range_blocks 8 2048 (by norm_num) (fun k : Fin (8 * 2048) => A (ix2 r k) * W (ix2 k q))

/-- The zero the accumulator is reset to. -/
theorem pay1_apply (j : S1024x128.Idx) : (k0_pay1 (F := Ideal)) j = (0 : EReal) := by
  unfold k0_pay1
  simp only [shapeCast_self]
  exact Ideal.ofBits_zero_f32

/-- Row p of tile I. -/
abbrev rowOfTile (I : ℕ) (hI : I < 16) (p : Fin 1024) : Fin 16384 := ⟨1024 * I + p.val, by have := p.isLt; omega⟩

/-- One step's new products at entry (p, q): the left block's row p against column q of the block's rows of the
    right operand. -/
def stepSum (i : grid0.Coords) (w : Vec Ideal S16384x128 .f32) (x : Vec Ideal S1024x2048 .f32) (p : Fin 1024) (q : Fin 128) : EReal :=
  ∑ kk : Fin 2048, x (ix2 p kk) * View.ld w (rowsOf i) (ix2 kk q)

/-- One step adds the step's products to the accumulator's entry. -/
theorem accStep_stepSum (t : Fin cfg0.N) (w : Vec Ideal S16384x128 .f32) (x : Vec Ideal S1024x2048 .f32) (acc : Vec Ideal S1024x128 .f32)
    (p : Fin 1024) (q : Fin 128) :
    accStep (grid0.coords t) w x acc (ix2 p q) = acc (ix2 p q) + stepSum (grid0.coords t) w x p q :=
  accStep_apply t w x acc p q

/-- One step's new products are block (t % 8)'s block sum of the tile's row. -/
theorem step_products (c : Dev nD) (t : Fin cfg0.N) (I b : ℕ) (hI : I < 16) (hb : b < 8) (ht : t.val = 8 * I + b) (p : Fin 1024) (q : Fin 128) :
    stepSum (grid0.coords t) (iblk V c 1 t) (iblk V c 0 t) p q
      = blockSum (V c (Pipeline.arrRef spec0 0)) (V c (Pipeline.arrRef spec0 1)) (rowOfTile I hI p) q b := by
  unfold stepSum blockSum
  refine Finset.sum_congr rfl fun kk _ => ?_
  rw [iblk0_apply, ld_rows, iblk1_apply]
  have hk := kk.isLt
  have e1 : (⟨1024 * (t.val / 8) + p.val, by have := p.isLt; have : t.val < 128 := lt_of_lt_of_eq t.isLt N_0; omega⟩ : Fin 16384) = rowOfTile I hI p :=
    Fin.ext (by show 1024 * (t.val / 8) + p.val = 1024 * I + p.val; omega)
  have e2 : (⟨2048 * (t.val % 8) + kk.val, by omega⟩ : Fin 16384) = posOf b kk :=
    Fin.ext (by show 2048 * (t.val % 8) + kk.val = (b * 2048 + kk.val) % (8 * 2048); omega)
  rw [e1, e2]

/-- THE ACCUMULATION, in closed form: after block b of row tile I the accumulator's entry (p, q) is the sum of the
    first b + 1 block sums of row 1024 · I + p. -/
theorem accAt_apply (c : Dev nD) (I : ℕ) (hI : I < 16) (p : Fin 1024) (q : Fin 128) :
    ∀ (b : ℕ) (hb : b < 8) (h : 8 * I + b < cfg0.N),
      accAt V c (8 * I + b) h (ix2 p q)
        = ∑ kb ∈ Finset.range (b + 1), blockSum (V c (Pipeline.arrRef spec0 0)) (V c (Pipeline.arrRef spec0 1)) (rowOfTile I hI p) q kb
  | 0, hb, h => by
    have e := accAt_first V c ⟨8 * I + 0, h⟩ (by show (8 * I + 0) % 8 = 0; omega)
    rw [show accAt V c (8 * I + 0) h = _ from e, accStep_stepSum, pay1_apply, zero_add, Finset.sum_range_one]
    exact step_products V c ⟨8 * I + 0, h⟩ I 0 hI hb rfl p q
  | b + 1, hb, h => by
    have h0 : ¬(⟨8 * I + (b + 1), h⟩ : Fin cfg0.N).val % 8 = 0 := by show ¬(8 * I + (b + 1)) % 8 = 0; omega
    have e := accAt_next V c ⟨8 * I + (b + 1), h⟩ h0
    rw [show accAt V c (8 * I + (b + 1)) h = _ from e, accStep_stepSum, Finset.sum_range_succ _ (b + 1)]
    exact congrArg₂ (fun a s : EReal => a + s)
      (accAt_apply c I hI p q b (by omega) (by show 8 * I + b < cfg0.N; omega))
      (step_products V c ⟨8 * I + (b + 1), h⟩ I (b + 1) hI hb rfl p q)

/-! # The product's value over the extended reals: the whole output array

At the last block of row tile I the accumulator holds the whole contraction for rows 1024 · I … 1024 · I + 1023, and
that tile is what the point writes back.  The sixteen tiles cover the output array, so the array ends holding the
product, entry by entry. -/

/-- At the last block of a row tile the accumulator's entry (p, q) is the product's entry for row 1024 · (t / 8) + p. -/
theorem tile_apply (c : Dev nD) (t : Fin cfg0.N) (h7 : t.val % 8 = 7) (p : Fin 1024) (q : Fin 128) :
    accAt V c t.val t.isLt (ix2 p q)
      = prod (V c (Pipeline.arrRef spec0 0)) (V c (Pipeline.arrRef spec0 1))
          (ix2 (rowOfTile (t.val / 8) (by have : t.val < 128 := lt_of_lt_of_eq t.isLt N_0; omega) p) q) := by
  have hN : t.val < 128 := lt_of_lt_of_eq t.isLt N_0
  have hI : t.val / 8 < 16 := by omega
  have key : ∀ (n : ℕ) (hn : n < cfg0.N), n = 8 * (t.val / 8) + 7 →
      accAt V c n hn (ix2 p q)
        = prod (V c (Pipeline.arrRef spec0 0)) (V c (Pipeline.arrRef spec0 1)) (ix2 (rowOfTile (t.val / 8) hI p) q) := by
    intro n hn e
    subst e
    rw [accAt_apply V c (t.val / 8) hI p q 7 (by norm_num) hn]
    exact blocks_eq_prod _ _ _ _
  exact key t.val t.isLt (by omega)

/-- The rectified dense layer, entry by entry: the product plus the bias row, against zero. -/
def layer (A : S16384x16384.Idx → EReal) (W : S16384x128.Idx → EReal) (B : S1x128.Idx → EReal) : S16384x128.Idx → EReal :=
  fun j => max (prod A W j + B (ix2 (0 : Fin 1) (j 1))) 0

theorem layer_ix2 (A : S16384x16384.Idx → EReal) (W : S16384x128.Idx → EReal) (B : S1x128.Idx → EReal) (n : Fin 16384) (q : Fin 128) :
    layer A W B (ix2 n q) = max ((∑ k : Fin 16384, A (ix2 n k) * W (ix2 k q)) + B (ix2 (0 : Fin 1) q)) 0 := rfl

-- from here on the product is compared as a whole, never through its sum
attribute [local irreducible] prod

/-- What the last block of a row tile stores, at entry (p, q): the layer's entry for row 1024 · (t / 8) + p. -/
theorem out_apply (c : Dev nD) (t : Fin cfg0.N) (h7 : t.val % 8 = 7) (p : Fin 1024) (q : Fin 128) :
    k0_pay3 (accAt V c t.val t.isLt) (iblk V c 2 t) (ix2 p q)
      = layer (V c (Pipeline.arrRef spec0 0)) (V c (Pipeline.arrRef spec0 1)) (V c (Pipeline.arrRef spec0 2))
          (ix2 (rowOfTile (t.val / 8) (by have : t.val < 128 := lt_of_lt_of_eq t.isLt N_0; omega) p) q) := by
  rw [pay3_apply, iblk2_apply, tile_apply V c t h7 p q]
  rfl

/-- The same, with the output array's index given by its two coordinates. -/
theorem out_apply_at (c : Dev nD) (t : Fin cfg0.N) (h7 : t.val % 8 = 7) (y : S1024x128.Idx) (z : S16384x128.Idx)
    (h0 : (z 0).val = 1024 * (t.val / 8) + (y 0).val) (h1 : (z 1).val = (y 1).val) :
    k0_pay3 (accAt V c t.val t.isLt) (iblk V c 2 t) y
      = layer (V c (Pipeline.arrRef spec0 0)) (V c (Pipeline.arrRef spec0 1)) (V c (Pipeline.arrRef spec0 2)) z := by
  have hN : t.val < 128 := lt_of_lt_of_eq t.isLt N_0
  have hI : t.val / 8 < 16 := by omega
  have hz : z = ix2 (rowOfTile (t.val / 8) hI (y 0)) (y 1) := by
    funext a; apply Fin.ext
    match a with
    | ⟨0, _⟩ => exact h0
    | ⟨1, _⟩ => exact h1
  rw [hz]
  exact (congrArg (k0_pay3 (accAt V c t.val t.isLt) (iblk V c 2 t)) (eq_ix2 y)).trans (out_apply V c t h7 (y 0) (y 1))

/-- WHAT A FLUSHING POINT WRITES BACK is its block of the layer. -/
theorem flushed_eq (c : Dev nD) (t : Fin cfg0.N) (hf : (cfg0.win 3).flush t = true) :
    (dat V c).flushed 3 t = ((cfg0.win 3).blk t).view.read (Elt Ideal)
      (layer (V c (Pipeline.arrRef spec0 0)) (V c (Pipeline.arrRef spec0 1)) (V c (Pipeline.arrRef spec0 2))) := by
  have h7 : t.val % 8 = 7 := (flush0_3 t).mp hf
  funext j
  show k0_pay3 (accAt V c t.val t.isLt) (iblk V c 2 t) ((cfg0.win 3).xinj (grid0.coords t) j) = _
  rw [View.read_apply]
  refine out_apply_at V c t h7 _ _ ?_ ?_
  · show win0_3.index t 0 * 1024 + 1 * (j 0).val = 1024 * (t.val / 8) + (j 0).val
    rw [(idx3 t).1]; omega
  · show win0_3.index t 1 * 128 + 1 * (j 1).val = (j 1).val
    rw [(idx3 t).2]; omega

/-- Row r of the output lies in the tile that the last block of row tile r / 1024 writes back. -/
theorem cover (i : S16384x128.Idx) :
    ∃ t : Fin cfg0.N, (cfg0.win 3).flush t = true ∧ i ∈ ((cfg0.win 3).blk t).view.set := by
  have h0 : (i 0).val < 16384 := (i 0).isLt
  have h1 : (i 1).val < 128 := (i 1).isLt
  have hN : cfg0.N = 128 := N_0
  let t : Fin cfg0.N := ⟨8 * ((i 0).val / 1024) + 7, by rw [hN]; omega⟩
  have ht : t.val = 8 * ((i 0).val / 1024) + 7 := rfl
  refine ⟨t, (flush0_3 t).mpr (by rw [ht]; omega), ?_⟩
  show i ∈ ((View.whole main_v52).slice (win0_3.rect t)).set
  rw [View.set_slice_whole, Rect.mem_set_unit]
  intro a
  match a with
  | ⟨0, _⟩ =>
    show win0_3.index t 0 * 1024 ≤ (i 0).val ∧ (i 0).val < win0_3.index t 0 * 1024 + 1024
    rw [(idx3 t).1, ht]; omega
  | ⟨1, _⟩ =>
    show win0_3.index t 1 * 128 ≤ (i 1).val ∧ (i 1).val < win0_3.index t 1 * 128 + 128
    rw [(idx3 t).2]; omega

/-- THE REGION'S RESULT: the output array ends holding the rectified dense layer of the operand arrays as the region
    finds them. -/
theorem final (c : Dev nD) :
    (dat V c).arrAt 3 cfg0.N = layer (V c (Pipeline.arrRef spec0 0)) (V c (Pipeline.arrRef spec0 1)) (V c (Pipeline.arrRef spec0 2)) :=
  (dat V c).arrAt_eq_of_cover 3 _ (flushed_eq V c) (cover)

end Cert.KernelIdeal.Reg0

end
-- ==== Proof.Reg1Blocks.lean ====
import proofs.«114411_j49589692399794_2_alg».proof.Proof.Reg1Dat
import proofs.«114411_j49589692399794_2_alg».proof.Proof.LibRowLayers
import proofs.«114411_j49589692399794_2_alg».proof.Proof.LibBlockSum
import Idealize.ShloMosaic.Lib.ValueIdx
import Idealize.ShloMosaic.PureOps.Ideal.Laws

set_option maxRecDepth 16384

noncomputable section

open scoped BigOperators

namespace Cert.KernelIdeal.Reg1

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.RowLayers

variable (V : (c : Dev nD) → (b : Ref sig .tc) → Buf (Elt Ideal) ((c : Thread nD τ).loc b))

/-! # The product's value over the extended reals: one block's step and the blocks, read at coordinates -/

/-- The printed dimension numbers contract the left operand's columns with the right operand's rows. -/
theorem dotRC : RowsTimesCols dot_S1024x2048_S2048x128_S1024x128_1_0_0_1_n_n :=
  ⟨rfl, rfl, fun _ _ => rfl, fun _ _ => rfl, fun _ _ => rfl, fun _ _ => rfl⟩

/-- Block `b` of the contracted axis starts at row 2048 · b of the right operand (decided over the grid). -/
theorem off_eq : ∀ t : Fin cfg1.N, k1_off1 (grid1.coords t) = ![2048 * (t.val % 8), 0] :=
  (by decide +kernel : ∀ t : Fin grid1.N, k1_off1 (grid1.coords t) = ![2048 * (t.val % 8), 0])

/-- Where the left window's block sits: row tile t / 8, block t % 8 of the contracted axis. -/
theorem idx0 : ∀ t : Fin cfg1.N, win1_0.index t 0 = t.val / 8 ∧ win1_0.index t 1 = t.val % 8 :=
  (by decide +kernel : ∀ t : Fin grid1.N, win1_0.index t 0 = t.val / 8 ∧ win1_0.index t 1 = t.val % 8)
/-- The right operand's window is the whole array at every point. -/
theorem idx1 : ∀ t : Fin cfg1.N, win1_1.index t 0 = 0 ∧ win1_1.index t 1 = 0 :=
  (by decide +kernel : ∀ t : Fin grid1.N, win1_1.index t 0 = 0 ∧ win1_1.index t 1 = 0)
/-- The output tile is row tile t / 8. -/
theorem idx3 : ∀ t : Fin cfg1.N, win1_3.index t 0 = t.val / 8 ∧ win1_3.index t 1 = 0 :=
  (by decide +kernel : ∀ t : Fin grid1.N, win1_3.index t 0 = t.val / 8 ∧ win1_3.index t 1 = 0)

/-- One step at entry (p, q): the accumulator's entry plus the block's 2048 products. -/
theorem accStep_apply (t : Fin cfg1.N) (w : Vec Ideal S16384x128 .f32) (x : Vec Ideal S1024x2048 .f32) (acc : Vec Ideal S1024x128 .f32)
    (p : Fin 1024) (q : Fin 128) :
    accStep (grid1.coords t) w x acc (ix2 p q)
      = acc (ix2 p q) + ∑ kk : Fin 2048, x (ix2 p kk) * View.ld w (rowsOf (grid1.coords t)) (ix2 kk q) := by
  unfold accStep k1_pay2
  simp only [shapeCast_self]
  have h := congrFun (rowOf_matmul_zero dotRC none (truncf .bf16 x bitsLt_bf16_f32)
    (truncf .bf16 (View.ld w (rowsOf (grid1.coords t))) bitsLt_bf16_f32) p) q
  exact congrArg (fun s : EReal => acc (ix2 p q) + s) h

/-- The block's rows of the right operand, at coordinates. -/
theorem ld_rows (t : Fin cfg1.N) (w : Vec Ideal S16384x128 .f32) (kk : Fin 2048) (q : Fin 128) :
    View.ld w (rowsOf (grid1.coords t)) (ix2 kk q)
      = w (ix2 (⟨2048 * (t.val % 8) + kk.val, by have := kk.isLt; omega⟩ : Fin 16384) q) := by
  show w ((rowsOf (grid1.coords t)).emb (ix2 kk q)) = _
  refine congrArg w (funext fun a => Fin.ext ?_)
  match a with
  | ⟨0, _⟩ =>
    show k1_off1 (grid1.coords t) 0 + 1 * kk.val = 2048 * (t.val % 8) + kk.val
    rw [off_eq t]; simp
  | ⟨1, _⟩ =>
    show k1_off1 (grid1.coords t) 1 + 1 * q.val = q.val
    rw [off_eq t]; simp

/-- The left window's block at point t, at coordinates: rows of tile t / 8, columns of block t % 8. -/
theorem iblk0_apply (c : Dev nD) (t : Fin cfg1.N) (p : Fin 1024) (kk : Fin 2048) :
    (iblk V c 0 t : Vec Ideal S1024x2048 .f32) (ix2 p kk)
      = (V c (Pipeline.arrRef spec1 0) : S16384x16384.Idx → EReal)
          (ix2 (⟨1024 * (t.val / 8) + p.val, by have := p.isLt; have : t.val < 128 := lt_of_lt_of_eq t.isLt N_1; omega⟩ : Fin 16384)
               (⟨2048 * (t.val % 8) + kk.val, by have := kk.isLt; omega⟩ : Fin 16384)) := by
  unfold iblk
  rw [View.read_apply]
  refine congrArg (V c (Pipeline.arrRef spec1 0) : S16384x16384.Idx → EReal) (funext fun a => Fin.ext ?_)
  match a with
  | ⟨0, _⟩ =>
    show win1_0.index t 0 * 1024 + 1 * p.val = 1024 * (t.val / 8) + p.val
    rw [(idx0 t).1]; omega
  | ⟨1, _⟩ =>
    show win1_0.index t 1 * 2048 + 1 * kk.val = 2048 * (t.val % 8) + kk.val
    rw [(idx0 t).2]; omega

/-- The right operand's window is the whole array. -/
theorem iblk1_apply (c : Dev nD) (t : Fin cfg1.N) (k : Fin 16384) (q : Fin 128) :
    (iblk V c 1 t : Vec Ideal S16384x128 .f32) (ix2 k q) = (V c (Pipeline.arrRef spec1 1) : S16384x128.Idx → EReal) (ix2 k q) := by
  unfold iblk
  rw [View.read_apply]
  refine congrArg (V c (Pipeline.arrRef spec1 1) : S16384x128.Idx → EReal) (funext fun a => Fin.ext ?_)
  match a with
  | ⟨0, _⟩ =>
    show win1_1.index t 0 * 16384 + 1 * k.val = k.val
    rw [(idx1 t).1]; omega
  | ⟨1, _⟩ =>
    show win1_1.index t 1 * 128 + 1 * q.val = q.val
    rw [(idx1 t).2]; omega

end Cert.KernelIdeal.Reg1

end
-- ==== Proof.Reg1Acc.lean ====
import proofs.«114411_j49589692399794_2_alg».proof.Proof.Reg1Blocks
import Idealize.ShloMosaic.Lib.Pipeline.Value

set_option maxRecDepth 16384

noncomputable section

open scoped BigOperators

namespace Cert.KernelIdeal.Reg1

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.RowLayers

variable (V : (c : Dev nD) → (b : Ref sig .tc) → Buf (Elt Ideal) ((c : Thread nD τ).loc b))

/-! # The product's value over the extended reals: the accumulation and the whole output array

After block b of row tile I the accumulator holds, at (p, q), the products of the first b + 1 blocks of the
contracted axis; after block 7 that is the whole contraction, and the tile written back is the product's rows
1024 · I … 1024 · I + 1023. -/

/-- Position kk of block kb of the contracted axis. -/
abbrev posOf (kb : ℕ) (kk : Fin 2048) : Fin 16384 := BlockSum.pos 8 2048 (by norm_num) kb kk

/-- Block kb's 2048 products for row r and column q. -/
def blockSum (A : S16384x16384.Idx → EReal) (W : S16384x128.Idx → EReal) (r : Fin 16384) (q : Fin 128) (kb : ℕ) : EReal :=
  ∑ kk : Fin 2048, A (ix2 r (posOf kb kk)) * W (ix2 (posOf kb kk) q)

/-- The product, entry by entry. -/
def prod (A : S16384x16384.Idx → EReal) (W : S16384x128.Idx → EReal) : S16384x128.Idx → EReal :=
  fun j => ∑ k : Fin 16384, A (ix2 (j 0) k) * W (ix2 k (j 1))

/-- The eight block sums, one after the other, are the whole contraction. -/
theorem blocks_eq_prod (A : S16384x16384.Idx → EReal) (W : S16384x128.Idx → EReal) (r : Fin 16384) (q : Fin 128) :
    ∑ kb ∈ Finset.range 8, blockSum A W r q kb = prod A W (ix2 r q) :=
  BlockSum.sum_range_blocks 8 2048 (by norm_num) (fun k : Fin (8 * 2048) => A (ix2 r k) * W (ix2 k q))

/-- The zero the accumulator is reset to. -/
theorem pay1_apply (j : S1024x128.Idx) : (k1_pay1 (F := Ideal)) j = (0 : EReal) := by
  unfold k1_pay1
  simp only [shapeCast_self]
  exact Ideal.ofBits_zero_f32

/-- Row p of tile I. -/
abbrev rowOfTile (I : ℕ) (hI : I < 16) (p : Fin 1024) : Fin 16384 := ⟨1024 * I + p.val, by have := p.isLt; omega⟩

/-- One step's new products at entry (p, q): the left block's row p against column q of the block's rows of the
    right operand. -/
def stepSum (i : grid1.Coords) (w : Vec Ideal S16384x128 .f32) (x : Vec Ideal S1024x2048 .f32) (p : Fin 1024) (q : Fin 128) : EReal :=
  ∑ kk : Fin 2048, x (ix2 p kk) * View.ld w (rowsOf i) (ix2 kk q)

/-- One step adds the step's products to the accumulator's entry. -/
theorem accStep_stepSum (t : Fin cfg1.N) (w : Vec Ideal S16384x128 .f32) (x : Vec Ideal S1024x2048 .f32) (acc : Vec Ideal S1024x128 .f32)
    (p : Fin 1024) (q : Fin 128) :
    accStep (grid1.coords t) w x acc (ix2 p q) = acc (ix2 p q) + stepSum (grid1.coords t) w x p q :=
  accStep_apply t w x acc p q

/-- One step's new products are block (t % 8)'s block sum of the tile's row. -/
theorem step_products (c : Dev nD) (t : Fin cfg1.N) (I b : ℕ) (hI : I < 16) (hb : b < 8) (ht : t.val = 8 * I + b) (p : Fin 1024) (q : Fin 128) :
    stepSum (grid1.coords t) (iblk V c 1 t) (iblk V c 0 t) p q
      = blockSum (V c (Pipeline.arrRef spec1 0)) (V c (Pipeline.arrRef spec1 1)) (rowOfTile I hI p) q b := by
  unfold stepSum blockSum
  refine Finset.sum_congr rfl fun kk _ => ?_
  rw [iblk0_apply, ld_rows, iblk1_apply]
  have hk := kk.isLt
  have e1 : (⟨1024 * (t.val / 8) + p.val, by have := p.isLt; have : t.val < 128 := lt_of_lt_of_eq t.isLt N_1; omega⟩ : Fin 16384) = rowOfTile I hI p :=
    Fin.ext (by show 1024 * (t.val / 8) + p.val = 1024 * I + p.val; omega)
  have e2 : (⟨2048 * (t.val % 8) + kk.val, by omega⟩ : Fin 16384) = posOf b kk :=
    Fin.ext (by show 2048 * (t.val % 8) + kk.val = (b * 2048 + kk.val) % (8 * 2048); omega)
  rw [e1, e2]

/-- THE ACCUMULATION, in closed form: after block b of row tile I the accumulator's entry (p, q) is the sum of the
    first b + 1 block sums of row 1024 · I + p. -/
theorem accAt_apply (c : Dev nD) (I : ℕ) (hI : I < 16) (p : Fin 1024) (q : Fin 128) :
    ∀ (b : ℕ) (hb : b < 8) (h : 8 * I + b < cfg1.N),
      accAt V c (8 * I + b) h (ix2 p q)
        = ∑ kb ∈ Finset.range (b + 1), blockSum (V c (Pipeline.arrRef spec1 0)) (V c (Pipeline.arrRef spec1 1)) (rowOfTile I hI p) q kb
  | 0, hb, h => by
    have e := accAt_first V c ⟨8 * I + 0, h⟩ (by show (8 * I + 0) % 8 = 0; omega)
    rw [show accAt V c (8 * I + 0) h = _ from e, accStep_stepSum, pay1_apply, zero_add, Finset.sum_range_one]
    exact step_products V c ⟨8 * I + 0, h⟩ I 0 hI hb rfl p q
  | b + 1, hb, h => by
    have h0 : ¬(⟨8 * I + (b + 1), h⟩ : Fin cfg1.N).val % 8 = 0 := by show ¬(8 * I + (b + 1)) % 8 = 0; omega
    have e := accAt_next V c ⟨8 * I + (b + 1), h⟩ h0
    rw [show accAt V c (8 * I + (b + 1)) h = _ from e, accStep_stepSum, Finset.sum_range_succ _ (b + 1)]
    exact congrArg₂ (fun a s : EReal => a + s)
      (accAt_apply c I hI p q b (by omega) (by show 8 * I + b < cfg1.N; omega))
      (step_products V c ⟨8 * I + (b + 1), h⟩ I (b + 1) hI hb rfl p q)

/-! # The product's value over the extended reals: the whole output array

At the last block of row tile I the accumulator holds the whole contraction for rows 1024 · I … 1024 · I + 1023, and
that tile is what the point writes back.  The sixteen tiles cover the output array, so the array ends holding the
product, entry by entry. -/

/-- At the last block of a row tile the accumulator's entry (p, q) is the product's entry for row 1024 · (t / 8) + p. -/
theorem tile_apply (c : Dev nD) (t : Fin cfg1.N) (h7 : t.val % 8 = 7) (p : Fin 1024) (q : Fin 128) :
    accAt V c t.val t.isLt (ix2 p q)
      = prod (V c (Pipeline.arrRef spec1 0)) (V c (Pipeline.arrRef spec1 1))
          (ix2 (rowOfTile (t.val / 8) (by have : t.val < 128 := lt_of_lt_of_eq t.isLt N_1; omega) p) q) := by
  have hN : t.val < 128 := lt_of_lt_of_eq t.isLt N_1
  have hI : t.val / 8 < 16 := by omega
  have key : ∀ (n : ℕ) (hn : n < cfg1.N), n = 8 * (t.val / 8) + 7 →
      accAt V c n hn (ix2 p q)
        = prod (V c (Pipeline.arrRef spec1 0)) (V c (Pipeline.arrRef spec1 1)) (ix2 (rowOfTile (t.val / 8) hI p) q) := by
    intro n hn e
    subst e
    rw [accAt_apply V c (t.val / 8) hI p q 7 (by norm_num) hn]
    exact blocks_eq_prod _ _ _ _
  exact key t.val t.isLt (by omega)

-- from here on the product is compared as a whole, never through its sum
attribute [local irreducible] prod

/-- The same, with the output array's index given by its two coordinates. -/
theorem tile_apply_at (c : Dev nD) (t : Fin cfg1.N) (h7 : t.val % 8 = 7) (y : S1024x128.Idx) (z : S16384x128.Idx)
    (h0 : (z 0).val = 1024 * (t.val / 8) + (y 0).val) (h1 : (z 1).val = (y 1).val) :
    accAt V c t.val t.isLt y = prod (V c (Pipeline.arrRef spec1 0)) (V c (Pipeline.arrRef spec1 1)) z := by
  have hN : t.val < 128 := lt_of_lt_of_eq t.isLt N_1
  have hI : t.val / 8 < 16 := by omega
  have hz : z = ix2 (rowOfTile (t.val / 8) hI (y 0)) (y 1) := by
    funext a; apply Fin.ext
    match a with
    | ⟨0, _⟩ => exact h0
    | ⟨1, _⟩ => exact h1
  rw [hz]
  exact (congrArg (accAt V c t.val t.isLt) (eq_ix2 y)).trans (tile_apply V c t h7 (y 0) (y 1))

/-- WHAT A FLUSHING POINT WRITES BACK is its block of the product. -/
theorem flushed_eq (c : Dev nD) (t : Fin cfg1.N) (hf : (cfg1.win 3).flush t = true) :
    (dat V c).flushed 3 t = ((cfg1.win 3).blk t).view.read (Elt Ideal)
      (prod (V c (Pipeline.arrRef spec1 0)) (V c (Pipeline.arrRef spec1 1))) := by
  have h7 : t.val % 8 = 7 := (flush1_3 t).mp hf
  funext j
  show accAt V c t.val t.isLt ((cfg1.win 3).xinj (grid1.coords t) j) = _
  rw [View.read_apply]
  refine tile_apply_at V c t h7 _ _ ?_ ?_
  · show win1_3.index t 0 * 1024 + 1 * (j 0).val = 1024 * (t.val / 8) + (j 0).val
    rw [(idx3 t).1]; omega
  · show win1_3.index t 1 * 128 + 1 * (j 1).val = (j 1).val
    rw [(idx3 t).2]; omega

/-- Row r of the output lies in the tile that the last block of row tile r / 1024 writes back. -/
theorem cover (i : S16384x128.Idx) :
    ∃ t : Fin cfg1.N, (cfg1.win 3).flush t = true ∧ i ∈ ((cfg1.win 3).blk t).view.set := by
  have h0 : (i 0).val < 16384 := (i 0).isLt
  have h1 : (i 1).val < 128 := (i 1).isLt
  have hN : cfg1.N = 128 := N_1
  let t : Fin cfg1.N := ⟨8 * ((i 0).val / 1024) + 7, by rw [hN]; omega⟩
  have ht : t.val = 8 * ((i 0).val / 1024) + 7 := rfl
  refine ⟨t, (flush1_3 t).mpr (by rw [ht]; omega), ?_⟩
  show i ∈ ((View.whole main_v54).slice (win1_3.rect t)).set
  rw [View.set_slice_whole, Rect.mem_set_unit]
  intro a
  match a with
  | ⟨0, _⟩ =>
    show win1_3.index t 0 * 1024 ≤ (i 0).val ∧ (i 0).val < win1_3.index t 0 * 1024 + 1024
    rw [(idx3 t).1, ht]; omega
  | ⟨1, _⟩ =>
    show win1_3.index t 1 * 128 ≤ (i 1).val ∧ (i 1).val < win1_3.index t 1 * 128 + 128
    rw [(idx3 t).2]; omega

/-- THE REGION'S RESULT: the output array ends holding the product of the two operand arrays as the region finds them. -/
theorem final (c : Dev nD) :
    (dat V c).arrAt 3 cfg1.N = prod (V c (Pipeline.arrRef spec1 0)) (V c (Pipeline.arrRef spec1 1)) :=
  (dat V c).arrAt_eq_of_cover 3 _ (flushed_eq V c) (cover)

end Cert.KernelIdeal.Reg1

end
-- ==== Proof.Reg2Value.lean ====
import proofs.«114411_j49589692399794_2_alg».proof.Proof.Reg2Dat
import proofs.«114411_j49589692399794_2_alg».proof.Proof.LibRowLayers
import proofs.«114411_j49589692399794_2_alg».proof.Proof.LibBlockSum
import Idealize.ShloMosaic.Lib.ValueIdx
import Idealize.ShloMosaic.PureOps.Ideal.Laws
import Idealize.ShloMosaic.Lib.Pipeline.Value

set_option maxRecDepth 16384

noncomputable section

open scoped BigOperators

namespace Cert.KernelIdeal.Reg2

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.RowLayers

variable (V : (c : Dev nD) → (b : Ref sig .tc) → Buf (Elt Ideal) ((c : Thread nD τ).loc b))

/-! # The product's value over the extended reals: one block's step and the blocks, read at coordinates -/

/-- The printed dimension numbers contract the left operand's columns with the right operand's rows. -/
theorem dotRC : RowsTimesCols dot_S1024x2048_S2048x64_S1024x64_1_0_0_1_n_n :=
  ⟨rfl, rfl, fun _ _ => rfl, fun _ _ => rfl, fun _ _ => rfl, fun _ _ => rfl⟩

/-- Block `b` of the contracted axis starts at row 2048 · b of the right operand (decided over the grid). -/
theorem off_eq : ∀ t : Fin cfg2.N, k2_off1 (grid2.coords t) = ![2048 * (t.val % 8), 0] :=
  (by decide +kernel : ∀ t : Fin grid2.N, k2_off1 (grid2.coords t) = ![2048 * (t.val % 8), 0])

/-- Where the left window's block sits: row tile t / 8, block t % 8 of the contracted axis. -/
theorem idx0 : ∀ t : Fin cfg2.N, win2_0.index t 0 = t.val / 8 ∧ win2_0.index t 1 = t.val % 8 :=
  (by decide +kernel : ∀ t : Fin grid2.N, win2_0.index t 0 = t.val / 8 ∧ win2_0.index t 1 = t.val % 8)
/-- The right operand's window is the whole array at every point. -/
theorem idx1 : ∀ t : Fin cfg2.N, win2_1.index t 0 = 0 ∧ win2_1.index t 1 = 0 :=
  (by decide +kernel : ∀ t : Fin grid2.N, win2_1.index t 0 = 0 ∧ win2_1.index t 1 = 0)
/-- The output tile is row tile t / 8. -/
theorem idx3 : ∀ t : Fin cfg2.N, win2_3.index t 0 = t.val / 8 ∧ win2_3.index t 1 = 0 :=
  (by decide +kernel : ∀ t : Fin grid2.N, win2_3.index t 0 = t.val / 8 ∧ win2_3.index t 1 = 0)

/-- One step at entry (p, q): the accumulator's entry plus the block's 2048 products. -/
theorem accStep_apply (t : Fin cfg2.N) (w : Vec Ideal S16384x64 .f32) (x : Vec Ideal S1024x2048 .f32) (acc : Vec Ideal S1024x64 .f32)
    (p : Fin 1024) (q : Fin 64) :
    accStep (grid2.coords t) w x acc (ix2 p q)
      = acc (ix2 p q) + ∑ kk : Fin 2048, x (ix2 p kk) * View.ld w (rowsOf (grid2.coords t)) (ix2 kk q) := by
  unfold accStep k2_pay2
  simp only [shapeCast_self]
  have h := congrFun (rowOf_matmul_zero dotRC none (truncf .bf16 x bitsLt_bf16_f32)
    (truncf .bf16 (View.ld w (rowsOf (grid2.coords t))) bitsLt_bf16_f32) p) q
  exact congrArg (fun s : EReal => acc (ix2 p q) + s) h

/-- The block's rows of the right operand, at coordinates. -/
theorem ld_rows (t : Fin cfg2.N) (w : Vec Ideal S16384x64 .f32) (kk : Fin 2048) (q : Fin 64) :
    View.ld w (rowsOf (grid2.coords t)) (ix2 kk q)
      = w (ix2 (⟨2048 * (t.val % 8) + kk.val, by have := kk.isLt; omega⟩ : Fin 16384) q) := by
  show w ((rowsOf (grid2.coords t)).emb (ix2 kk q)) = _
  refine congrArg w (funext fun a => Fin.ext ?_)
  match a with
  | ⟨0, _⟩ =>
    show k2_off1 (grid2.coords t) 0 + 1 * kk.val = 2048 * (t.val % 8) + kk.val
    rw [off_eq t]; simp
  | ⟨1, _⟩ =>
    show k2_off1 (grid2.coords t) 1 + 1 * q.val = q.val
    rw [off_eq t]; simp

/-- The left window's block at point t, at coordinates: rows of tile t / 8, columns of block t % 8. -/
theorem iblk0_apply (c : Dev nD) (t : Fin cfg2.N) (p : Fin 1024) (kk : Fin 2048) :
    (iblk V c 0 t : Vec Ideal S1024x2048 .f32) (ix2 p kk)
      = (V c (Pipeline.arrRef spec2 0) : S16384x16384.Idx → EReal)
          (ix2 (⟨1024 * (t.val / 8) + p.val, by have := p.isLt; have : t.val < 128 := lt_of_lt_of_eq t.isLt N_2; omega⟩ : Fin 16384)
               (⟨2048 * (t.val % 8) + kk.val, by have := kk.isLt; omega⟩ : Fin 16384)) := by
  unfold iblk
  rw [View.read_apply]
  refine congrArg (V c (Pipeline.arrRef spec2 0) : S16384x16384.Idx → EReal) (funext fun a => Fin.ext ?_)
  match a with
  | ⟨0, _⟩ =>
    show win2_0.index t 0 * 1024 + 1 * p.val = 1024 * (t.val / 8) + p.val
    rw [(idx0 t).1]; omega
  | ⟨1, _⟩ =>
    show win2_0.index t 1 * 2048 + 1 * kk.val = 2048 * (t.val % 8) + kk.val
    rw [(idx0 t).2]; omega

/-- The right operand's window is the whole array. -/
theorem iblk2_apply (c : Dev nD) (t : Fin cfg2.N) (k : Fin 16384) (q : Fin 64) :
    (iblk V c 1 t : Vec Ideal S16384x64 .f32) (ix2 k q) = (V c (Pipeline.arrRef spec2 1) : S16384x64.Idx → EReal) (ix2 k q) := by
  unfold iblk
  rw [View.read_apply]
  refine congrArg (V c (Pipeline.arrRef spec2 1) : S16384x64.Idx → EReal) (funext fun a => Fin.ext ?_)
  match a with
  | ⟨0, _⟩ =>
    show win2_1.index t 0 * 16384 + 1 * k.val = k.val
    rw [(idx1 t).1]; omega
  | ⟨1, _⟩ =>
    show win2_1.index t 1 * 64 + 1 * q.val = q.val
    rw [(idx1 t).2]; omega

/-! # The product's value over the extended reals: the accumulation and the whole output array

After block b of row tile I the accumulator holds, at (p, q), the products of the first b + 1 blocks of the
contracted axis; after block 7 that is the whole contraction, and the tile written back is the product's rows
1024 · I … 1024 · I + 1023. -/

/-- Position kk of block kb of the contracted axis. -/
abbrev posOf (kb : ℕ) (kk : Fin 2048) : Fin 16384 := BlockSum.pos 8 2048 (by norm_num) kb kk

/-- Block kb's 2048 products for row r and column q. -/
def blockSum (A : S16384x16384.Idx → EReal) (W : S16384x64.Idx → EReal) (r : Fin 16384) (q : Fin 64) (kb : ℕ) : EReal :=
  ∑ kk : Fin 2048, A (ix2 r (posOf kb kk)) * W (ix2 (posOf kb kk) q)

/-- The product, entry by entry. -/
def prod (A : S16384x16384.Idx → EReal) (W : S16384x64.Idx → EReal) : S16384x64.Idx → EReal :=
  fun j => ∑ k : Fin 16384, A (ix2 (j 0) k) * W (ix2 k (j 1))

/-- The eight block sums, one after the other, are the whole contraction. -/
theorem blocks_eq_prod (A : S16384x16384.Idx → EReal) (W : S16384x64.Idx → EReal) (r : Fin 16384) (q : Fin 64) :
    ∑ kb ∈ Finset.range 8, blockSum A W r q kb = prod A W (ix2 r q) :=
  BlockSum.sum_range_blocks 8 2048 (by norm_num) (fun k : Fin (8 * 2048) => A (ix2 r k) * W (ix2 k q))

/-- The zero the accumulator is reset to. -/
theorem pay1_apply (j : S1024x64.Idx) : (k2_pay1 (F := Ideal)) j = (0 : EReal) := by
  unfold k2_pay1
  simp only [shapeCast_self]
  exact Ideal.ofBits_zero_f32

/-- Row p of tile I. -/
abbrev rowOfTile (I : ℕ) (hI : I < 16) (p : Fin 1024) : Fin 16384 := ⟨1024 * I + p.val, by have := p.isLt; omega⟩

/-- One step's new products at entry (p, q): the left block's row p against column q of the block's rows of the
    right operand. -/
def stepSum (i : grid2.Coords) (w : Vec Ideal S16384x64 .f32) (x : Vec Ideal S1024x2048 .f32) (p : Fin 1024) (q : Fin 64) : EReal :=
  ∑ kk : Fin 2048, x (ix2 p kk) * View.ld w (rowsOf i) (ix2 kk q)

/-- One step adds the step's products to the accumulator's entry. -/
theorem accStep_stepSum (t : Fin cfg2.N) (w : Vec Ideal S16384x64 .f32) (x : Vec Ideal S1024x2048 .f32) (acc : Vec Ideal S1024x64 .f32)
    (p : Fin 1024) (q : Fin 64) :
    accStep (grid2.coords t) w x acc (ix2 p q) = acc (ix2 p q) + stepSum (grid2.coords t) w x p q :=
  accStep_apply t w x acc p q

/-- One step's new products are block (t % 8)'s block sum of the tile's row. -/
theorem step_products (c : Dev nD) (t : Fin cfg2.N) (I b : ℕ) (hI : I < 16) (hb : b < 8) (ht : t.val = 8 * I + b) (p : Fin 1024) (q : Fin 64) :
    stepSum (grid2.coords t) (iblk V c 1 t) (iblk V c 0 t) p q
      = blockSum (V c (Pipeline.arrRef spec2 0)) (V c (Pipeline.arrRef spec2 1)) (rowOfTile I hI p) q b := by
  unfold stepSum blockSum
  refine Finset.sum_congr rfl fun kk _ => ?_
  rw [iblk0_apply, ld_rows, iblk2_apply]
  have hk := kk.isLt
  have e1 : (⟨1024 * (t.val / 8) + p.val, by have := p.isLt; have : t.val < 128 := lt_of_lt_of_eq t.isLt N_2; omega⟩ : Fin 16384) = rowOfTile I hI p :=
    Fin.ext (by show 1024 * (t.val / 8) + p.val = 1024 * I + p.val; omega)
  have e2 : (⟨2048 * (t.val % 8) + kk.val, by omega⟩ : Fin 16384) = posOf b kk :=
    Fin.ext (by show 2048 * (t.val % 8) + kk.val = (b * 2048 + kk.val) % (8 * 2048); omega)
  rw [e1, e2]

/-- THE ACCUMULATION, in closed form: after block b of row tile I the accumulator's entry (p, q) is the sum of the
    first b + 1 block sums of row 1024 · I + p. -/
theorem accAt_apply (c : Dev nD) (I : ℕ) (hI : I < 16) (p : Fin 1024) (q : Fin 64) :
    ∀ (b : ℕ) (hb : b < 8) (h : 8 * I + b < cfg2.N),
      accAt V c (8 * I + b) h (ix2 p q)
        = ∑ kb ∈ Finset.range (b + 1), blockSum (V c (Pipeline.arrRef spec2 0)) (V c (Pipeline.arrRef spec2 1)) (rowOfTile I hI p) q kb
  | 0, hb, h => by
    have e := accAt_first V c ⟨8 * I + 0, h⟩ (by show (8 * I + 0) % 8 = 0; omega)
    rw [show accAt V c (8 * I + 0) h = _ from e, accStep_stepSum, pay1_apply, zero_add, Finset.sum_range_one]
    exact step_products V c ⟨8 * I + 0, h⟩ I 0 hI hb rfl p q
  | b + 1, hb, h => by
    have h0 : ¬(⟨8 * I + (b + 1), h⟩ : Fin cfg2.N).val % 8 = 0 := by show ¬(8 * I + (b + 1)) % 8 = 0; omega
    have e := accAt_next V c ⟨8 * I + (b + 1), h⟩ h0
    rw [show accAt V c (8 * I + (b + 1)) h = _ from e, accStep_stepSum, Finset.sum_range_succ _ (b + 1)]
    exact congrArg₂ (fun a s : EReal => a + s)
      (accAt_apply c I hI p q b (by omega) (by show 8 * I + b < cfg2.N; omega))
      (step_products V c ⟨8 * I + (b + 1), h⟩ I (b + 1) hI hb rfl p q)

/-! # The product's value over the extended reals: the whole output array

At the last block of row tile I the accumulator holds the whole contraction for rows 1024 · I … 1024 · I + 1023, and
that tile is what the point writes back.  The sixteen tiles cover the output array, so the array ends holding the
product, entry by entry. -/

/-- At the last block of a row tile the accumulator's entry (p, q) is the product's entry for row 1024 · (t / 8) + p. -/
theorem tile_apply (c : Dev nD) (t : Fin cfg2.N) (h7 : t.val % 8 = 7) (p : Fin 1024) (q : Fin 64) :
    accAt V c t.val t.isLt (ix2 p q)
      = prod (V c (Pipeline.arrRef spec2 0)) (V c (Pipeline.arrRef spec2 1))
          (ix2 (rowOfTile (t.val / 8) (by have : t.val < 128 := lt_of_lt_of_eq t.isLt N_2; omega) p) q) := by
  have hN : t.val < 128 := lt_of_lt_of_eq t.isLt N_2
  have hI : t.val / 8 < 16 := by omega
  have key : ∀ (n : ℕ) (hn : n < cfg2.N), n = 8 * (t.val / 8) + 7 →
      accAt V c n hn (ix2 p q)
        = prod (V c (Pipeline.arrRef spec2 0)) (V c (Pipeline.arrRef spec2 1)) (ix2 (rowOfTile (t.val / 8) hI p) q) := by
    intro n hn e
    subst e
    rw [accAt_apply V c (t.val / 8) hI p q 7 (by norm_num) hn]
    exact blocks_eq_prod _ _ _ _
  exact key t.val t.isLt (by omega)

-- from here on the product is compared as a whole, never through its sum
attribute [local irreducible] prod

/-- The same, with the output array's index given by its two coordinates. -/
theorem tile_apply_at (c : Dev nD) (t : Fin cfg2.N) (h7 : t.val % 8 = 7) (y : S1024x64.Idx) (z : S16384x64.Idx)
    (h0 : (z 0).val = 1024 * (t.val / 8) + (y 0).val) (h1 : (z 1).val = (y 1).val) :
    accAt V c t.val t.isLt y = prod (V c (Pipeline.arrRef spec2 0)) (V c (Pipeline.arrRef spec2 1)) z := by
  have hN : t.val < 128 := lt_of_lt_of_eq t.isLt N_2
  have hI : t.val / 8 < 16 := by omega
  have hz : z = ix2 (rowOfTile (t.val / 8) hI (y 0)) (y 1) := by
    funext a; apply Fin.ext
    match a with
    | ⟨0, _⟩ => exact h0
    | ⟨1, _⟩ => exact h1
  rw [hz]
  exact (congrArg (accAt V c t.val t.isLt) (eq_ix2 y)).trans (tile_apply V c t h7 (y 0) (y 1))

/-- WHAT A FLUSHING POINT WRITES BACK is its block of the product. -/
theorem flushed_eq (c : Dev nD) (t : Fin cfg2.N) (hf : (cfg2.win 3).flush t = true) :
    (dat V c).flushed 3 t = ((cfg2.win 3).blk t).view.read (Elt Ideal)
      (prod (V c (Pipeline.arrRef spec2 0)) (V c (Pipeline.arrRef spec2 1))) := by
  have h7 : t.val % 8 = 7 := (flush2_3 t).mp hf
  funext j
  show accAt V c t.val t.isLt ((cfg2.win 3).xinj (grid2.coords t) j) = _
  rw [View.read_apply]
  refine tile_apply_at V c t h7 _ _ ?_ ?_
  · show win2_3.index t 0 * 1024 + 1 * (j 0).val = 1024 * (t.val / 8) + (j 0).val
    rw [(idx3 t).1]; omega
  · show win2_3.index t 1 * 64 + 1 * (j 1).val = (j 1).val
    rw [(idx3 t).2]; omega

/-- Row r of the output lies in the tile that the last block of row tile r / 1024 writes back. -/
theorem cover (i : S16384x64.Idx) :
    ∃ t : Fin cfg2.N, (cfg2.win 3).flush t = true ∧ i ∈ ((cfg2.win 3).blk t).view.set := by
  have h0 : (i 0).val < 16384 := (i 0).isLt
  have h1 : (i 1).val < 64 := (i 1).isLt
  have hN : cfg2.N = 128 := N_2
  let t : Fin cfg2.N := ⟨8 * ((i 0).val / 1024) + 7, by rw [hN]; omega⟩
  have ht : t.val = 8 * ((i 0).val / 1024) + 7 := rfl
  refine ⟨t, (flush2_3 t).mpr (by rw [ht]; omega), ?_⟩
  show i ∈ ((View.whole main_v63).slice (win2_3.rect t)).set
  rw [View.set_slice_whole, Rect.mem_set_unit]
  intro a
  match a with
  | ⟨0, _⟩ =>
    show win2_3.index t 0 * 1024 ≤ (i 0).val ∧ (i 0).val < win2_3.index t 0 * 1024 + 1024
    rw [(idx3 t).1, ht]; omega
  | ⟨1, _⟩ =>
    show win2_3.index t 1 * 64 ≤ (i 1).val ∧ (i 1).val < win2_3.index t 1 * 64 + 64
    rw [(idx3 t).2]; omega

/-- THE REGION'S RESULT: the output array ends holding the product of the two operand arrays as the region finds them. -/
theorem final (c : Dev nD) :
    (dat V c).arrAt 3 cfg2.N = prod (V c (Pipeline.arrRef spec2 0)) (V c (Pipeline.arrRef spec2 1)) :=
  (dat V c).arrAt_eq_of_cover 3 _ (flushed_eq V c) (cover)

end Cert.KernelIdeal.Reg2

end
-- ==== Proof.LibDenseEdges.lean ====
/-
  A dense matrix assembled from an edge list, applied to a column, against the edgewise sum.

  Edges e carry a weight a_e, a target r_e and a source c_e.  The dense matrix has entry
  (n, k) = ∑ of a_e over the edges with r_e = n and c_e = k  (parallel edges add up).  Applying it to a
  column t gives, at row n,  ∑_k L(n, k) · t_k.  The edgewise form aggregates at the target directly:
  ∑ of a_e · t_{c_e} over the edges with r_e = n.  The two agree because a product distributes over a finite
  sum — which on the extended reals needs every weight and every entry of the column to be a real number:
  with a weight +∞ beside a weight −∞ on parallel edges, or an infinite entry of t against weights that cancel,
  the two sides differ.  So the identity is stated for real-valued data, and the closure lemmas below are what
  carries "every entry is a real number" through sums, products, negation and maxima.
-/
import Idealize.ShloMosaic.PureOps.Ideal.Laws

noncomputable section

open scoped BigOperators

namespace Cert.DenseEdges

/-! ## Extended reals that are real numbers -/

/-- An extended real that is a real number (neither infinity). -/
def IsReal (x : EReal) : Prop := ∃ r : ℝ, x = (r : EReal)

theorem isReal_of_ne {x : EReal} (hb : x ≠ ⊥) (ht : x ≠ ⊤) : IsReal x :=
  ⟨x.toReal, (EReal.coe_toReal ht hb).symm⟩

theorem IsReal.ne_bot {x : EReal} (h : IsReal x) : x ≠ ⊥ := by
  obtain ⟨r, rfl⟩ := h; exact EReal.coe_ne_bot r

theorem IsReal.ne_top {x : EReal} (h : IsReal x) : x ≠ ⊤ := by
  obtain ⟨r, rfl⟩ := h; exact EReal.coe_ne_top r

theorem isReal_zero : IsReal 0 := ⟨0, EReal.coe_zero.symm⟩

theorem IsReal.add {x y : EReal} (hx : IsReal x) (hy : IsReal y) : IsReal (x + y) := by
  obtain ⟨r, rfl⟩ := hx; obtain ⟨s, rfl⟩ := hy; exact ⟨r + s, (EReal.coe_add r s).symm⟩

theorem IsReal.mul {x y : EReal} (hx : IsReal x) (hy : IsReal y) : IsReal (x * y) := by
  obtain ⟨r, rfl⟩ := hx; obtain ⟨s, rfl⟩ := hy; exact ⟨r * s, (EReal.coe_mul r s).symm⟩

theorem IsReal.neg {x : EReal} (hx : IsReal x) : IsReal (-x) := by
  obtain ⟨r, rfl⟩ := hx; exact ⟨-r, (EReal.coe_neg r).symm⟩

theorem IsReal.sub {x y : EReal} (hx : IsReal x) (hy : IsReal y) : IsReal (x - y) := by
  obtain ⟨r, rfl⟩ := hx; obtain ⟨s, rfl⟩ := hy; exact ⟨r - s, (EReal.coe_sub r s).symm⟩

theorem IsReal.max {x y : EReal} (hx : IsReal x) (hy : IsReal y) : IsReal (max x y) := by
  rcases le_total x y with h | h
  · rw [max_eq_right h]; exact hy
  · rw [max_eq_left h]; exact hx

/-- The coercion of a finite sum of reals is the sum of the coercions. -/
theorem coe_sum {ι : Type*} (s : Finset ι) (f : ι → ℝ) :
    ((∑ i ∈ s, f i : ℝ) : EReal) = ∑ i ∈ s, (f i : EReal) := by
  classical
  refine Finset.induction_on s ?_ ?_
  · simp
  · intro i s hi ih
    rw [Finset.sum_insert hi, Finset.sum_insert hi, EReal.coe_add, ih]

/-- A finite sum of real numbers is a real number. -/
theorem isReal_sum {ι : Type*} (s : Finset ι) (f : ι → EReal) (h : ∀ i ∈ s, IsReal (f i)) :
    IsReal (∑ i ∈ s, f i) := by
  classical
  refine Finset.induction_on s (fun _ => ?_) (fun i s hi ih h => ?_) h
  · rw [Finset.sum_empty]; exact isReal_zero
  · rw [Finset.sum_insert hi]
    exact (h i (Finset.mem_insert_self i s)).add (ih fun j hj => h j (Finset.mem_insert_of_mem hj))

/-! ## The dense form against the edgewise form -/

/-- Over the reals: summing the dense matrix's row n against the column is summing, over the edges into n, the
    weight times the column's entry at the edge's source. -/
theorem real_dense_eq_edges {E N : Type*} [Fintype E] [Fintype N] [DecidableEq N]
    (r c : E → N) (a : E → ℝ) (t : N → ℝ) (n : N) :
    ∑ k, (∑ e ∈ Finset.univ.filter (fun e => r e = n ∧ c e = k), a e) * t k
      = ∑ e ∈ Finset.univ.filter (fun e => r e = n), a e * t (c e) := by
  simp only [Finset.sum_mul, Finset.sum_filter]
  rw [Finset.sum_comm]
  refine Finset.sum_congr rfl fun e _ => ?_
  by_cases h : r e = n
  · simp only [h, true_and, if_true, ite_mul, zero_mul]
    rw [Finset.sum_ite_eq Finset.univ (c e) (fun k => a e * t k)]
    simp
  · simp only [h, false_and, if_false, zero_mul, Finset.sum_const_zero]

/-- THE IDENTITY over the extended reals, for real-valued weights and a real-valued column: row n of the dense
    matrix (each entry the zero it was initialised with plus its parallel edges' weights) against the column
    equals the zero plus the edgewise sum at the target n. -/
theorem dense_eq_edges {E N : Type*} [Fintype E] [Fintype N] [DecidableEq N]
    (r c : E → N) (a : E → EReal) (t : N → EReal)
    (ha : ∀ e, IsReal (a e)) (ht : ∀ k, IsReal (t k)) (n : N) :
    ∑ k, ((0 : EReal) + ∑ e ∈ Finset.univ.filter (fun e => r e = n ∧ c e = k), a e) * t k
      = (0 : EReal) + ∑ e ∈ Finset.univ.filter (fun e => r e = n), a e * t (c e) := by
  choose a' ha' using ha
  choose t' ht' using ht
  simp only [ha', ht', zero_add, ← coe_sum, ← EReal.coe_mul]
  exact congrArg _ (real_dense_eq_edges r c a' t' n)

/-- The dense product's entries are real numbers when the weights and the column are. -/
theorem isReal_dense {E N : Type*} [Fintype E] [Fintype N] [DecidableEq N]
    (r c : E → N) (a : E → EReal) (t : N → EReal)
    (ha : ∀ e, IsReal (a e)) (ht : ∀ k, IsReal (t k)) (n : N) :
    IsReal (∑ k, ((0 : EReal) + ∑ e ∈ Finset.univ.filter (fun e => r e = n ∧ c e = k), a e) * t k) :=
  isReal_sum _ _ fun k _ => (isReal_zero.add (isReal_sum _ _ fun e _ => ha e)).mul (ht k)

end Cert.DenseEdges

end
-- ==== Proof.LibSegmentScale.lean ====
/-
  Messages sent along the edges of a graph and summed at their target nodes, with a factor per node — over the extended reals.

  Node `r` carries a feature row `H[r, ·]` and a factor `D r`. Every edge `k` names a source node and a target node by
  two integer words. The message of edge `k` is the source's row; the value at node `c` is the sum of the messages of the
  edges whose target is `c`. A symmetric normalisation weighs edge `k`'s message by `D (source k) · D (target k)`.
  It can be applied edge by edge, or split: every row scaled by its own node's factor BEFORE it is sent, and every
  sum scaled by the target node's factor AFTER it is formed. The two agree because every edge summed at `c` has target
  `c`, so the second factor is the same in every term and moves out of the sum — which on the extended reals is sound
  for a factor that is a nonnegative finite number (`sum_mul_of_nonneg_ne_top`), whatever the terms are.

  The array operations that spell this: a gather of rows at clamped start indices (`rowsGather`), a gather of
  entries (`entryGather`), and a scatter that adds each update row at the row its start index names and drops it
  when that row does not exist (`rowsScatter`); each is read here at an index given by coordinates.
  Last, the factor itself when it is the inverse square root of a count guarded against zero: nonnegative and finite.
-/
import Idealize.ShloMosaic.PureOps.Ideal
import Idealize.ShloMosaic.PureOps.Ideal.Laws
import Idealize.ShloMosaic.Lib.ValueIdx

noncomputable section

namespace Cert.SegmentScale

open Idealize.ShloMosaic Idealize.ShloMosaic.ValueIdx

/-! ## A nonnegative finite factor moves out of a sum of extended reals -/

/-- `(∑ a j) · d = ∑ (a j · d)` when `0 ≤ d < ⊤`: right distributivity holds for such a factor whatever the two
    summands are (an infinite summand times `d` keeps its sign, or vanishes with `d`), hence for every finite sum. -/
theorem sum_mul_of_nonneg_ne_top {ι : Type*} (s : Finset ι) (a : ι → EReal) {d : EReal} (h0 : 0 ≤ d) (ht : d ≠ ⊤) :
    (∑ j ∈ s, a j) * d = ∑ j ∈ s, a j * d := by
  classical
  induction s using Finset.induction_on with
  | empty => simp
  | insert j s hj ih =>
    rw [Finset.sum_insert hj, Finset.sum_insert hj, EReal.right_distrib_of_nonneg_of_ne_top h0 ht, ih]

/-! ## The inverse square root of a count, guarded against zero, is a nonnegative finite number -/

/-- `if 0 < v then 1/√v else 0` on the extended reals: at `v = ⊤` the inverse root is `0`, at a positive real it is a
    positive real, and otherwise the guard answers `0`. -/
theorem guardedRsqrt_nonneg_ne_top (v : EReal) :
    (0 : EReal) ≤ Scalar.select (Ideal.cmp .ogt v 0) (Ideal.rsqrt v) 0
      ∧ Scalar.select (Ideal.cmp .ogt v 0) (Ideal.rsqrt v) 0 ≠ (⊤ : EReal) := by
  unfold Scalar.select Ideal.cmp
  by_cases h : (0 : EReal) < v
  · have hb : BitVec.ofBool (decide ((0 : EReal) < v)) = 1 := by rw [decide_eq_true h]; rfl
    rw [if_pos hb]
    induction v using EReal.rec with
    | bot => exact absurd h (by simp)
    | top => exact ⟨le_refl _, by simp⟩
    | coe r =>
      have hr : 0 < r := by exact_mod_cast h
      rw [Ideal.rsqrt_coe, if_neg (not_lt.mpr hr.le), if_neg hr.ne']
      exact ⟨by exact_mod_cast inv_nonneg.mpr (Real.sqrt_nonneg r), EReal.coe_ne_top _⟩
  · have hb : ¬ BitVec.ofBool (decide ((0 : EReal) < v)) = 1 := by rw [decide_eq_false h]; decide
    rw [if_neg hb]
    exact ⟨le_refl _, by simp⟩

/-- The same for a whole vector of counts as the array operations spell it: compare with a zero vector, take the
    host's inverse square root, select it or a zero. -/
theorem guardedRsqrt_vec {s : Shape} (deg z z' : FVec Ideal s .f32) (hz : ∀ k, z k = (0 : EReal)) (hz' : ∀ k, z' k = (0 : EReal))
    (k : s.Idx) :
    (0 : EReal) ≤ select (cmpf .ogt deg z) (Host.rsqrt deg) z' k ∧ select (cmpf .ogt deg z) (Host.rsqrt deg) z' k ≠ (⊤ : EReal) := by
  have e : select (cmpf .ogt deg z) (Host.rsqrt deg) z' k = Scalar.select (Ideal.cmp .ogt (deg k) 0) (Ideal.rsqrt (deg k)) 0 := by
    show Scalar.select (Ideal.cmp .ogt (deg k) (z k)) (Ideal.rsqrt (deg k)) (z' k) = _
    rw [hz k, hz' k]
  rw [e]
  exact guardedRsqrt_nonneg_ne_top (deg k)

/-! ## Coordinates of edges and nodes -/

section Dims
variable {n e f : ℕ}

/-- The node (row) coordinate of an index of an `[n, f]` array. -/
def nodeOf (p : (⟨2, ![n, f]⟩ : Shape).Idx) : Fin n := ⟨(p 0).val, idx2_lt0 p⟩
/-- The feature (column) coordinate of an index of an `[a, f]` array. -/
def featOf {a : ℕ} (p : (⟨2, ![a, f]⟩ : Shape).Idx) : Fin f := ⟨(p 1).val, idx2_lt1 p⟩
/-- The edge (row) coordinate of an index of an `[e, f]` array of messages. -/
def edgeOf (j : (⟨2, ![e, f]⟩ : Shape).Idx) : Fin e := ⟨(j 0).val, idx2_lt0 j⟩
/-- Where edge `k`'s one start-index word sits in the `[e, 1]` array of start indices. -/
abbrev edgeIdx (k : Fin e) : (⟨2, ![e, 1]⟩ : Shape).Idx := ix2 k (0 : Fin 1)

theorem nodeOf_ix2 (r : Fin n) (q : Fin f) : nodeOf (ix2 r q) = r := rfl
theorem featOf_ix2 {a : ℕ} (r : Fin a) (q : Fin f) : featOf (ix2 r q) = q := rfl
theorem eq_ix2_node_feat (p : (⟨2, ![n, f]⟩ : Shape).Idx) : p = ix2 (nodeOf p) (featOf p) := by
  funext a; match a with | ⟨0, _⟩ => rfl | ⟨1, _⟩ => rfl

/-- A start-index word read as a signed integer and clamped into `[0, n − 1]`: the node a gather reads. -/
def clampNode {w : ℕ} (hn : 0 < n) (v : BitVec w) : Fin n := ⟨min v.toInt.toNat (n - 1), by omega⟩

/-- A word whose signed value is a node's number clamps to that node. -/
theorem clampNode_of_toInt {w : ℕ} (hn : 0 < n) (v : BitVec w) (c : Fin n) (h : v.toInt = (c.val : ℤ)) : clampNode hn v = c := by
  apply Fin.ext
  show min v.toInt.toNat (n - 1) = c.val
  rw [h, Int.toNat_natCast]
  have := c.isLt
  omega

/-! ## The three array operations' dimension numbers -/

/-- Rows of an `[n, f]` array gathered at `[e, 1]` start indices into `[e, f]`: row `k` of the result is the operand's row
    at the clamped start index of `k`. -/
abbrev rowsGather (wf : GatherDims.WF ⟨2, ![n, f]⟩ ⟨2, ![e, 1]⟩ ⟨2, ![e, f]⟩ [1] [0] [] [0] [] 1 ![1, f]) :
    GatherDims ⟨2, ![n, f]⟩ ⟨2, ![e, 1]⟩ ⟨2, ![e, f]⟩ where
  offsetDims := [1]
  collapsedSliceDims := [0]
  operandBatchingDims := []
  startIndicesBatchingDims := []
  startIndexMap := [0]
  indexVectorDim := 1
  sliceSizes := ![1, f]
  wf := wf

/-- Entries of an `[n]` array gathered at `[e, 1]` start indices into `[e]`. -/
abbrev entryGather (wf : GatherDims.WF ⟨1, ![n]⟩ ⟨2, ![e, 1]⟩ ⟨1, ![e]⟩ [] [0] [] [0] [] 1 ![1]) :
    GatherDims ⟨1, ![n]⟩ ⟨2, ![e, 1]⟩ ⟨1, ![e]⟩ where
  offsetDims := []
  collapsedSliceDims := [0]
  operandBatchingDims := []
  startIndicesBatchingDims := []
  startIndexMap := [0]
  indexVectorDim := 1
  sliceSizes := ![1]
  wf := wf

/-- Rows of an `[e, f]` array of updates added into an `[n, f]` array at the rows `[e, 1]` start indices name. -/
abbrev rowsScatter (wf : ScatterDims.WF ⟨2, ![n, f]⟩ ⟨2, ![e, 1]⟩ ⟨2, ![e, f]⟩ [1] [0] [0] 1) :
    ScatterDims ⟨2, ![n, f]⟩ ⟨2, ![e, 1]⟩ ⟨2, ![e, f]⟩ where
  updateWindowDims := [1]
  insertedWindowDims := [0]
  scatterDimsToOperandDims := [0]
  indexVectorDim := 1
  wf := wf

/-! ## The gathers read at an index -/

/-- THE ROW GATHER AT `(k, q)`: the operand at the clamped start index of edge `k`, column `q`. -/
theorem rowsGather_apply {α : Type} {w : ℕ} (hn : 0 < n)
    (wf : GatherDims.WF ⟨2, ![n, f]⟩ ⟨2, ![e, 1]⟩ ⟨2, ![e, f]⟩ [1] [0] [] [0] [] 1 ![1, f])
    (X : (⟨2, ![n, f]⟩ : Shape).Idx → α) (idx : IVec ⟨2, ![e, 1]⟩ w) (j : (⟨2, ![e, f]⟩ : Shape).Idx) :
    Host.gather (rowsGather wf) X idx j = X (ix2 (clampNode hn (idx (edgeIdx (edgeOf j)))) (featOf j)) := by
  unfold Host.gather
  congr 1
  funext a
  refine Fin.ext ?_
  have hsi : (rowsGather wf).siIdx j ⟨List.idxOf (0 : Fin 2) (rowsGather wf).startIndexMap,
      List.idxOf_lt_length_iff.2 (List.mem_singleton.mpr rfl)⟩ = edgeIdx (edgeOf j) := by
    funext b; refine Fin.ext ?_
    match b with
    | ⟨0, _⟩ => rfl
    | ⟨1, _⟩ => rfl
  match a with
  | ⟨0, _⟩ =>
    show (rowsGather wf).start j idx 0 + (rowsGather wf).batchCoord j 0 + (rowsGather wf).offCoord j 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsGather wf).startIndexMap from List.mem_singleton.mpr rfl), hsi]
    rfl
  | ⟨1, _⟩ =>
    show (rowsGather wf).start j idx 1 + (rowsGather wf).batchCoord j 1 + (rowsGather wf).offCoord j 1 = (j 1).val
    rw [GatherDims.batchCoord_eq_zero _ _ _ List.not_mem_nil]
    unfold GatherDims.start
    rw [dif_neg (show (1 : Fin 2) ∉ (rowsGather wf).startIndexMap from fun h => Nat.one_ne_zero (congrArg Fin.val (List.mem_singleton.mp h)))]
    unfold GatherDims.offCoord
    rw [dif_pos (show (1 : Fin 2) ∈ (rowsGather wf).sKept from (GatherDims.mem_sKept _ _).mpr
      ⟨fun h => Nat.one_ne_zero (congrArg Fin.val (List.mem_singleton.mp h)), List.not_mem_nil⟩)]
    simp only [Nat.zero_add, Nat.add_zero]
    rfl

/-- THE ENTRY GATHER AT `k`: the operand at the clamped start index of edge `k`. -/
theorem entryGather_apply {α : Type} {w : ℕ} (hn : 0 < n)
    (wf : GatherDims.WF ⟨1, ![n]⟩ ⟨2, ![e, 1]⟩ ⟨1, ![e]⟩ [] [0] [] [0] [] 1 ![1])
    (D : (⟨1, ![n]⟩ : Shape).Idx → α) (idx : IVec ⟨2, ![e, 1]⟩ w) (k : Fin e) :
    Host.gather (entryGather wf) D idx (ix1 k) = D (ix1 (clampNode hn (idx (edgeIdx k)))) := by
  unfold Host.gather
  congr 1
  funext a
  obtain rfl : a = 0 := Subsingleton.elim _ _
  refine Fin.ext ?_
  show (entryGather wf).start (ix1 k) idx 0 + (entryGather wf).batchCoord (ix1 k) 0 + (entryGather wf).offCoord (ix1 k) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (entryGather wf).startIndexMap from List.mem_singleton.mpr rfl)]
  have hsi : (entryGather wf).siIdx (ix1 k) ⟨List.idxOf (0 : Fin 1) (entryGather wf).startIndexMap,
      List.idxOf_lt_length_iff.2 (List.mem_singleton.mpr rfl)⟩ = edgeIdx k := by
    funext b; refine Fin.ext ?_
    match b with
    | ⟨0, _⟩ => rfl
    | ⟨1, _⟩ => rfl
  rw [hsi]
  rfl

/-! ## Where the scatter puts an update row -/

/-- An update of edge `j`'s row that lands at index `i` lands on the row its start-index word names: the word, read
    signed, IS row `i`'s number (in particular it is not negative and is below `n`; otherwise the update is dropped). -/
theorem rowsScatter_some {w : ℕ} (wf : ScatterDims.WF ⟨2, ![n, f]⟩ ⟨2, ![e, 1]⟩ ⟨2, ![e, f]⟩ [1] [0] [0] 1)
    (idx : IVec ⟨2, ![e, 1]⟩ w) (j : (⟨2, ![e, f]⟩ : Shape).Idx) (i : (⟨2, ![n, f]⟩ : Shape).Idx)
    (h : (rowsScatter wf).resultIdx? j idx = some i) : (idx (edgeIdx (edgeOf j))).toInt = ((nodeOf i).val : ℤ) := by
  have hsi : (rowsScatter wf).siIdx j ⟨List.idxOf (0 : Fin 2) (rowsScatter wf).scatterDimsToOperandDims,
      List.idxOf_lt_length_iff.2 (List.mem_singleton.mpr rfl)⟩ = edgeIdx (edgeOf j) := by
    funext b; refine Fin.ext ?_
    match b with
    | ⟨0, _⟩ => rfl
    | ⟨1, _⟩ => rfl
  have hstart : (rowsScatter wf).start j idx 0 = (idx (edgeIdx (edgeOf j))).toInt := by
    unfold ScatterDims.start
    rw [dif_pos (show (0 : Fin 2) ∈ (rowsScatter wf).scatterDimsToOperandDims from List.mem_singleton.mpr rfl), hsi]
  have hwin : (rowsScatter wf).window j 0 = 0 := by
    unfold ScatterDims.window
    rw [dif_neg (show (0 : Fin 2) ∉ (rowsScatter wf).sKept from fun h => by
      have h2 := (List.mem_filter.mp h).2
      simp at h2)]
  unfold ScatterDims.resultIdx? at h
  split at h
  · rename_i hh
    have hi := Option.some.inj h
    have h0 := (hh 0).1
    rw [hstart, hwin] at h0
    subst hi
    show (idx (edgeIdx (edgeOf j))).toInt = (((rowsScatter wf).start j idx 0 + ((rowsScatter wf).window j 0 : ℕ)).toNat : ℤ)
    rw [hstart, hwin]
    simp only [Nat.cast_zero, add_zero] at h0 ⊢
    exact (Int.toNat_of_nonneg h0).symm
  · exact absurd h (by simp)

/-! ## Scaling before the messages are sent and after they are summed, against scaling edge by edge -/

/-- THE NORMALISATION SPLIT. `H` the nodes' rows, `D` a nonnegative finite factor per node, `Z` a zero array to add into.
    Left: rows scaled by their own node's factor, gathered at the sources, summed at the targets, the sum at node
    `c` scaled by `D c`. Right: rows gathered at the sources, each edge's row scaled by the product of the factor gathered
    at its source and the factor gathered at its target — the target read through start indices `colIN` that agree
    with the scatter's `colI` wherever the latter is not negative —, then summed at the targets. Equal at every index:
    an edge summed at `c` has the word `c` as its target, which is not negative, so both readings of its target are
    `c`, the second factor is `D c` in every term, and it moves out of the sum. -/
theorem scale_split (hn : 0 < n)
    (ws : ScatterDims.WF ⟨2, ![n, f]⟩ ⟨2, ![e, 1]⟩ ⟨2, ![e, f]⟩ [1] [0] [0] 1)
    (wg : GatherDims.WF ⟨2, ![n, f]⟩ ⟨2, ![e, 1]⟩ ⟨2, ![e, f]⟩ [1] [0] [] [0] [] 1 ![1, f])
    (we : GatherDims.WF ⟨1, ![n]⟩ ⟨2, ![e, 1]⟩ ⟨1, ![e]⟩ [] [0] [] [0] [] 1 ![1])
    (H Z : FVec Ideal ⟨2, ![n, f]⟩ .f32) (D : FVec Ideal ⟨1, ![n]⟩ .f32) (rowI colI colIN : IVec ⟨2, ![e, 1]⟩ 32)
    (hZ : ∀ i, Z i = (0 : EReal)) (hD : ∀ k, (0 : EReal) ≤ D k ∧ D k ≠ (⊤ : EReal))
    (hN : ∀ k : Fin e, 0 ≤ (colI (edgeIdx k)).toInt → colIN (edgeIdx k) = colI (edgeIdx k))
    (i : (⟨2, ![n, f]⟩ : Shape).Idx) :
    (Host.scatterAdd (F := Ideal) (rowsScatter ws) Z colI
        (Host.gather (rowsGather wg) (fun p => (H p * D (ix1 (nodeOf p)) : EReal)) rowI) i : EReal) * D (ix1 (nodeOf i))
      = Host.scatterAdd (F := Ideal) (rowsScatter ws) Z colI
          (fun j => (Host.gather (rowsGather wg) H rowI j
            * (Host.gather (entryGather we) D rowI (ix1 (edgeOf j)) * Host.gather (entryGather we) D colIN (ix1 (edgeOf j))) : EReal)) i := by
  show ((Z i + ∑ j ∈ Finset.univ.filter (fun j => (rowsScatter ws).resultIdx? j colI = some i),
          Host.gather (rowsGather wg) (fun p => (H p * D (ix1 (nodeOf p)) : EReal)) rowI j : EReal)) * D (ix1 (nodeOf i))
      = Z i + ∑ j ∈ Finset.univ.filter (fun j => (rowsScatter ws).resultIdx? j colI = some i),
          (Host.gather (rowsGather wg) H rowI j
            * (Host.gather (entryGather we) D rowI (ix1 (edgeOf j)) * Host.gather (entryGather we) D colIN (ix1 (edgeOf j))) : EReal)
  rw [hZ i, zero_add, zero_add, sum_mul_of_nonneg_ne_top _ _ (hD _).1 (hD _).2]
  refine Finset.sum_congr rfl fun j hj => ?_
  have hj' : (rowsScatter ws).resultIdx? j colI = some i := (Finset.mem_filter.mp hj).2
  have ht := rowsScatter_some ws colI j i hj'
  have hnn : 0 ≤ (colI (edgeIdx (edgeOf j))).toInt := by rw [ht]; exact Int.natCast_nonneg _
  rw [rowsGather_apply hn wg, rowsGather_apply hn wg, entryGather_apply hn we, entryGather_apply hn we,
    hN (edgeOf j) hnn, clampNode_of_toInt hn _ (nodeOf i) ht, nodeOf_ix2]
  exact mul_assoc _ _ _

end Dims

end Cert.SegmentScale

end
-- ==== Proof.EdgeWeights.lean ====
/-
  The edge weights of the normalised Laplacian, as both programs compute them from the edge list.

  The edge list is a [2, E] array of words: row 0 the sources, row 1 the targets.  Both programs take the two
  rows, count for every node the edges that leave it (a scatter-add of ones at the sources into zeros: the
  degree), form  dinv = where(deg > 0, 1 / sqrt(max(deg, 1)), 0),  and weigh edge e by
  −(dinv[source_e] · dinv[target_e]); before each lookup a negative word is wrapped by adding the number of
  nodes (an index from the end), which leaves a word that already is a node number alone.

  Here: the operations spelled once (the two programs print the same operations), the wrap the identity on
  node numbers, and every weight a real number — the degree is a finite sum of ones, max(deg, 1) ≥ 1 has a
  positive real square root, and its inverse is real.
-/
import proofs.«114411_j49589692399794_2_alg».proof.Proof.LibDenseEdges
import proofs.«114411_j49589692399794_2_alg».proof.Proof.LibSegmentScale
import proofs.«114411_j49589692399794_2_alg».proof.KernelIdeal
import proofs.«114411_j49589692399794_2_alg».proof.ReferenceIdeal
import Idealize.ShloMosaic.Lib.Pipeline.Value
import Idealize.ShloMosaic.Lib.Affine

noncomputable section

open scoped BigOperators

namespace Cert.EdgeWeights

open Idealize.ShloMosaic Idealize.ShloMosaic.ValueIdx Cert.DenseEdges Cert.SegmentScale

/-! ## Scalars -/

/-- The word 0x3F800000 is 1. -/
theorem one_word : Ideal.ofBits .f32 0x3F800000#32 = (1 : EReal) := by
  simp [Ideal.ofBits, Ideal.ieee, -EReal.coe_mul]; norm_num

/-- A negative word is wrapped by adding 16384; a word that is not negative is left alone. -/
theorem wrap_word_of_nonneg (v : BitVec 32) (h : 0 ≤ v.toInt) :
    Scalar.select (IntOp.cmpi .slt v 0#32) (IntOp.addi v 16384#32) v = v := by
  unfold Scalar.select
  rw [if_neg]
  intro hc
  have := IntOp.cmpi_slt.mp hc
  have h0 : (0#32 : BitVec 32).toInt = 0 := by decide
  omega

/-- where(x > 0, 1 / sqrt(max(x, 1)), 0) of a real number is a real number. -/
theorem isReal_guarded_inv_sqrt (x : EReal) (hx : IsReal x) :
    IsReal (Scalar.select (Ideal.cmp .ogt x 0) (Ideal.div 1 (Ideal.sqrt (max x 1))) 0) := by
  unfold Scalar.select
  split
  · obtain ⟨r, rfl⟩ := hx
    have hm : max ((r : ℝ) : EReal) 1 = ((max r 1 : ℝ) : EReal) := by
      rw [← EReal.coe_one]; exact (EReal.coe_strictMono.monotone.map_max).symm
    have h1 : (1 : ℝ) ≤ max r 1 := le_max_right _ _
    have hs : 0 < Real.sqrt (max r 1) := Real.sqrt_pos.mpr (by linarith)
    rw [hm, Ideal.sqrt_coe, if_neg (by linarith)]
    unfold Ideal.div
    rw [if_neg (by exact_mod_cast hs.ne')]
    refine ⟨1 * (Real.sqrt (max r 1))⁻¹, ?_⟩
    rw [EReal.coe_mul, EReal.coe_one, EReal.coe_inv]
  · exact isReal_zero

/-! ## The operations, spelled once -/

section Ops

variable [Cert.ReferenceIdeal.Facts] [Cert.KernelIdeal.Facts]

open Cert.ReferenceIdeal Cert.ReferenceIdeal.Facts₀

/-- Row 0 of the edge list: the sources. -/
def srcRow (a13 : IVec S2x524288 32) : IVec S524288 32 :=
  shapeCast _ (extractStridedSlice S1x524288 ![0, 0] a13 slices_S2x524288_S1x524288_0_0) shapeCasts_S1x524288_S524288

/-- Row 1 of the edge list: the targets. -/
def dstRow (a13 : IVec S2x524288 32) : IVec S524288 32 :=
  shapeCast _ (extractStridedSlice S1x524288 ![1, 0] a13 slices_S2x524288_S1x524288_1_0) shapeCasts_S1x524288_S524288

/-- A negative word wrapped by adding the number of nodes. -/
def wrap (v : IVec S524288 32) : IVec S524288 32 :=
  select (cmpi .slt v (broadcastInDim S524288 ![] bcast_S_S524288 (constantI S_ 32 0#32)))
    (addi v (broadcastInDim S524288 ![] bcast_S_S524288 (constantI S_ 32 16384#32))) v

/-- A vector of words as a column [E, 1] of start indices. -/
def col (v : IVec S524288 32) : IVec S524288x1 32 := broadcastInDim S524288x1 ![0] bcast_S524288_S524288x1_0 v

/-- The degree: ones scatter-added at the sources into zeros. -/
def deg (a13 : IVec S2x524288 32) : FVec Ideal S16384 .f32 :=
  Host.scatterAdd (F := Ideal) scatter_S16384_S524288x1_S524288_n_0_0_1
    (broadcastInDim S16384 ![] bcast_S_S16384 (constant (F := Ideal) S_ .f32 0x00000000#32))
    (col (srcRow a13))
    (broadcastInDim S524288 ![] bcast_S_S524288 (constant (F := Ideal) S_ .f32 0x3F800000#32))

/-- where(deg > 0, 1 / sqrt(max(deg, 1)), 0). -/
def dinv (a13 : IVec S2x524288 32) : FVec Ideal S16384 .f32 :=
  select (cmpf .ogt (deg a13) (broadcastInDim S16384 ![] bcast_S_S16384 (constant (F := Ideal) S_ .f32 0x00000000#32)))
    (Host.divf (F := Ideal) (broadcastInDim S16384 ![] bcast_S_S16384 (constant (F := Ideal) S_ .f32 0x3F800000#32))
      (Host.sqrt (F := Ideal) (maximumf (deg a13) (broadcastInDim S16384 ![] bcast_S_S16384 (constant (F := Ideal) S_ .f32 0x3F800000#32)))))
    (broadcastInDim S16384 ![] bcast_S_S16384 (constant (F := Ideal) S_ .f32 0x00000000#32))

/-- THE EDGE WEIGHTS: −(dinv[source] · dinv[target]), each looked up at the wrapped word. -/
def edgeW (a13 : IVec S2x524288 32) : FVec Ideal S524288 .f32 :=
  Host.negf (F := Ideal) (mulf
    (Host.gather gather_S16384_S524288x1_S524288_n_0_n_n_0_1_1 (dinv a13) (col (wrap (srcRow a13))))
    (Host.gather gather_S16384_S524288x1_S524288_n_0_n_n_0_1_1 (dinv a13) (col (wrap (dstRow a13)))))

/-- The (target, source) pairs the dense matrix is scattered at: the two wrapped columns side by side. -/
def pairs (a13 : IVec S2x524288 32) : IVec Cert.KernelIdeal.S524288x2 32 :=
  concatenate Cert.KernelIdeal.S524288x2 1 [⟨S524288x1, col (wrap (dstRow a13))⟩, ⟨S524288x1, col (wrap (srcRow a13))⟩]
    Cert.KernelIdeal.Facts₀.concatenates_S524288x1_S524288x1_S524288x2_d1

/-! ## Read at an index -/

theorem srcRow_apply (a13 : IVec S2x524288 32) (e : Fin 524288) : srcRow a13 (ix1 e) = a13 (ix2 (0 : Fin 2) e) := by
  unfold srcRow
  rw [shapeCast_apply _ shapeCasts_S1x524288_S524288 (ix1 e) (ix2 (0 : Fin 1) e)
    (by rewrite [Shape.rowMajor_val_two, Shape.rowMajor_val_one]; show 0 * 524288 + e.val = e.val; omega)]
  exact extractStridedSlice_apply ![0, 0] a13 slices_S2x524288_S1x524288_0_0 (ix2 (0 : Fin 1) e) (ix2 (0 : Fin 2) e) (fun a => match a with
    | ⟨0, _⟩ => by show (0 : ℕ) = 0 + 0; omega
    | ⟨1, _⟩ => by show e.val = 0 + e.val; omega)

theorem dstRow_apply (a13 : IVec S2x524288 32) (e : Fin 524288) : dstRow a13 (ix1 e) = a13 (ix2 (1 : Fin 2) e) := by
  unfold dstRow
  rw [shapeCast_apply _ shapeCasts_S1x524288_S524288 (ix1 e) (ix2 (0 : Fin 1) e)
    (by rewrite [Shape.rowMajor_val_two, Shape.rowMajor_val_one]; show 0 * 524288 + e.val = e.val; omega)]
  exact extractStridedSlice_apply ![1, 0] a13 slices_S2x524288_S1x524288_1_0 (ix2 (0 : Fin 1) e) (ix2 (1 : Fin 2) e) (fun a => match a with
    | ⟨0, _⟩ => by show (1 : ℕ) = 1 + 0; omega
    | ⟨1, _⟩ => by show e.val = 0 + e.val; omega)

/-- THE WRAP IS THE IDENTITY on a vector of words none of which is negative. -/
theorem wrap_eq_self (v : IVec S524288 32) (h : ∀ i, 0 ≤ (v i).toInt) : wrap v = v :=
  funext fun i => wrap_word_of_nonneg (v i) (h i)

theorem col_apply (v : IVec S524288 32) (e : Fin 524288) : col v (ix2 e (0 : Fin 1)) = v (ix1 e) := by
  unfold col
  exact broadcastInDim_apply ![0] bcast_S524288_S524288x1_0 v (ix2 e (0 : Fin 1)) (ix1 e) (fun ax => by
    match ax with
    | ⟨0, _⟩ => show e.val = if (524288 : ℕ) = 1 then 0 else e.val; rw [if_neg (by decide)])

/-- The pairs: component 0 is the (wrapped) target column, component 1 the (wrapped) source column. -/
theorem pairs_apply_zero (a13 : IVec S2x524288 32) (e : Fin 524288) :
    pairs a13 (ix2 e (0 : Fin 2)) = col (wrap (dstRow a13)) (ix2 e (0 : Fin 1)) := by
  unfold pairs
  exact concatenate_pair_apply_left 1 _ _ Cert.KernelIdeal.Facts₀.concatenates_S524288x1_S524288x1_S524288x2_d1 (ix2 e (0 : Fin 2)) rfl (ix2 e (0 : Fin 1))
    (fun ax => by
      match ax with
      | ⟨0, _⟩ => rfl
      | ⟨1, _⟩ => rfl)

theorem pairs_apply_one (a13 : IVec S2x524288 32) (e : Fin 524288) :
    pairs a13 (ix2 e (1 : Fin 2)) = col (wrap (srcRow a13)) (ix2 e (0 : Fin 1)) := by
  unfold pairs
  exact concatenate_pair_apply_right 1 _ _ Cert.KernelIdeal.Facts₀.concatenates_S524288x1_S524288x1_S524288x2_d1 (ix2 e (1 : Fin 2)) rfl rfl (ix2 e (0 : Fin 1))
    (fun ax hne => by
      match ax with
      | ⟨0, _⟩ => rfl
      | ⟨1, _⟩ => exact absurd rfl hne)
    (by show (0 : ℕ) + 1 = 1; omega)

/-! ## Every weight is a real number -/

/-- A scatter-add of real numbers into real numbers gives real numbers. -/
theorem isReal_scatterAdd {s si su : Shape} {w : ℕ} {φ : FTy} (d : ScatterDims s si su) (x : FVec Ideal s φ) (idx : IVec si w)
    (upd : FVec Ideal su φ) (hx : ∀ i, IsReal (x i)) (hu : ∀ j, IsReal (upd j)) (i : s.Idx) :
    IsReal (Host.scatterAdd (F := Ideal) d x idx upd i) := by
  show IsReal (x i + ∑ j ∈ Finset.univ.filter (fun j => d.resultIdx? j idx = some i), upd j)
  exact (hx i).add (isReal_sum _ _ fun j _ => hu j)

/-- A gather reads entries of its operand. -/
theorem isReal_gather {s si t : Shape} {w : ℕ} (d : GatherDims s si t) (x : s.Idx → EReal) (idx : IVec si w)
    (hx : ∀ i, IsReal (x i)) (j : t.Idx) : IsReal (Host.gather d x idx j) := hx _

theorem zeros_apply {s : Shape} (hb : S_.BroadcastsInDim s (![] : Fin 0 → Fin s.rank)) (i : s.Idx) :
    broadcastInDim s ![] hb (constant (F := Ideal) S_ .f32 0x00000000#32) i = (0 : EReal) := Ideal.ofBits_zero_f32

theorem ones_apply {s : Shape} (hb : S_.BroadcastsInDim s (![] : Fin 0 → Fin s.rank)) (i : s.Idx) :
    broadcastInDim s ![] hb (constant (F := Ideal) S_ .f32 0x3F800000#32) i = (1 : EReal) := one_word

theorem isReal_deg (a13 : IVec S2x524288 32) (i : S16384.Idx) : IsReal (deg a13 i) := by
  unfold deg
  refine isReal_scatterAdd _ _ _ _ (fun i => ?_) (fun j => ?_) i
  · rw [zeros_apply]; exact isReal_zero
  · rw [ones_apply]; exact ⟨1, EReal.coe_one.symm⟩

/-- where(d > 0, 1 / sqrt(max(d, 1)), 0) of a real-valued vector, as the array operations spell it, is real-valued. -/
theorem isReal_guarded_vec {s : Shape} (d z z' o o' : FVec Ideal s .f32) (hz : ∀ k, z k = (0 : EReal)) (hz' : ∀ k, z' k = (0 : EReal))
    (ho : ∀ k, o k = (1 : EReal)) (ho' : ∀ k, o' k = (1 : EReal)) (hd : ∀ k, IsReal (d k)) (k : s.Idx) :
    IsReal (select (cmpf .ogt d z) (Host.divf (F := Ideal) o (Host.sqrt (F := Ideal) (maximumf d o'))) z' k) := by
  have e : select (cmpf .ogt d z) (Host.divf (F := Ideal) o (Host.sqrt (F := Ideal) (maximumf d o'))) z' k
      = Scalar.select (Ideal.cmp .ogt (d k) 0) (Ideal.div 1 (Ideal.sqrt (max (d k) 1))) 0 := by
    show Scalar.select (Ideal.cmp .ogt (d k) (z k)) (Ideal.div (o k) (Ideal.sqrt (max (d k) (o' k)))) (z' k) = _
    rw [hz k, hz' k, ho k, ho' k]
  rw [e]
  exact isReal_guarded_inv_sqrt _ (hd k)

theorem isReal_dinv (a13 : IVec S2x524288 32) (i : S16384.Idx) : IsReal (dinv a13 i) := by
  unfold dinv
  exact isReal_guarded_vec _ _ _ _ _ (zeros_apply _) (zeros_apply _) (ones_apply _) (ones_apply _) (isReal_deg a13) i

/-- EVERY EDGE WEIGHT IS A REAL NUMBER (whatever the words of the edge list are). -/
theorem isReal_edgeW (a13 : IVec S2x524288 32) (i : S524288.Idx) : IsReal (edgeW a13 i) :=
  IsReal.neg (IsReal.mul (isReal_gather _ _ _ (isReal_dinv a13) i) (isReal_gather _ _ _ (isReal_dinv a13) i))

/-! ## With every word a node number -/

section InRange
variable (a13 : IVec S2x524288 32) (h : ∀ i, 0 ≤ (a13 i).toInt ∧ (a13 i).toInt < 16384)
include h

theorem srcRow_range (i : S524288.Idx) : 0 ≤ (srcRow a13 i).toInt ∧ (srcRow a13 i).toInt < 16384 := by
  obtain ⟨e, rfl⟩ : ∃ e : Fin 524288, i = ix1 e := ⟨i 0, eq_ix1 i⟩
  rw [srcRow_apply]; exact h _

theorem dstRow_range (i : S524288.Idx) : 0 ≤ (dstRow a13 i).toInt ∧ (dstRow a13 i).toInt < 16384 := by
  obtain ⟨e, rfl⟩ : ∃ e : Fin 524288, i = ix1 e := ⟨i 0, eq_ix1 i⟩
  rw [dstRow_apply]; exact h _

/-- The wrap leaves the sources alone … -/
theorem wrap_srcRow : wrap (srcRow a13) = srcRow a13 := wrap_eq_self _ fun i => (srcRow_range a13 h i).1
/-- … and the targets. -/
theorem wrap_dstRow : wrap (dstRow a13) = dstRow a13 := wrap_eq_self _ fun i => (dstRow_range a13 h i).1

/-- Component 0 of pair e is edge e's target word, component 1 its source word. -/
theorem pairs_zero (e : Fin 524288) : pairs a13 (ix2 e (0 : Fin 2)) = a13 (ix2 (1 : Fin 2) e) := by
  rw [pairs_apply_zero, wrap_dstRow a13 h, col_apply, dstRow_apply]
theorem pairs_one (e : Fin 524288) : pairs a13 (ix2 e (1 : Fin 2)) = a13 (ix2 (0 : Fin 2) e) := by
  rw [pairs_apply_one, wrap_srcRow a13 h, col_apply, srcRow_apply]

/-- The column the edgewise route scatters at (the targets, not wrapped) is component 0 of the pairs. -/
theorem dstcol_eq_pairs (e : Fin 524288) : col (dstRow a13) (ix2 e (0 : Fin 1)) = pairs a13 (ix2 e (0 : Fin 2)) := by
  rw [pairs_zero a13 h, col_apply, dstRow_apply]

theorem pairs_zero_range (e : Fin 524288) : 0 ≤ (pairs a13 (ix2 e (0 : Fin 2))).toInt ∧ (pairs a13 (ix2 e (0 : Fin 2))).toInt < 16384 := by
  rw [pairs_zero a13 h]; exact h _
theorem pairs_one_range (e : Fin 524288) : 0 ≤ (pairs a13 (ix2 e (1 : Fin 2))).toInt ∧ (pairs a13 (ix2 e (1 : Fin 2))).toInt < 16384 := by
  rw [pairs_one a13 h]; exact h _

end InRange

/-- The column the edgewise route gathers at (the wrapped sources) is component 1 of the pairs — no hypothesis. -/
theorem srccol_eq_pairs (a13 : IVec S2x524288 32) (e : Fin 524288) :
    col (wrap (srcRow a13)) (ix2 e (0 : Fin 1)) = pairs a13 (ix2 e (1 : Fin 2)) := (pairs_apply_one a13 e).symm

end Ops

end Cert.EdgeWeights

end
-- ==== Proof.LibColumnBroadcast.lean ====
/-
  A column broadcast along the lanes, read at an index given by coordinates: an [a, 1] array broadcast to [a, b] reads, at
  (r, k), the operand's row r at its one column. (The keepdims form of a per-row scale: the row broadcast [1, b] → [a, b]
  and the unit-axis casts are the library's; this is their column counterpart, in the same style.)
-/
import Idealize.ShloMosaic.Lib.Pipeline.Value
import Idealize.ShloMosaic.Lib.ValueIdx

namespace Cert.ColumnBroadcast

open Idealize.ShloMosaic Idealize.ShloMosaic.ValueIdx

variable {α : Type}

/-- An `[a, 1]` array broadcast to `[a, b]` reads, at `(r, k)`, the operand at `(r, 0)`: on the row axis the
    coordinate is kept (and is `0` anyway when there is one row), on the unit axis it is `0`. -/
theorem broadcastTo_a1_ab_apply {a b : ℕ} (v : (⟨2, ![a, 1]⟩ : Shape).Idx → α) (h : (⟨2, ![a, 1]⟩ : Shape).Broadcasts ⟨2, ![a, b]⟩)
    (r : Fin a) (k : Fin b) : broadcastTo ⟨2, ![a, b]⟩ v h (ix2 r k) = v (ix2 r (0 : Fin 1)) := by
  refine broadcastTo_apply v h (ix2 r k) (ix2 r (0 : Fin 1)) fun ax => ?_
  match ax with
  | ⟨0, _⟩ =>
    show r.val = if a = 1 then 0 else r.val
    split
    · have := r.isLt; omega
    · rfl
  | ⟨1, _⟩ => rfl

end Cert.ColumnBroadcast
-- ==== Proof.LibChebRows.lean ====
/-
  Rows of a two-term Chebyshev graph layer and of a row-wise log-softmax, over the extended reals.

  A Chebyshev convolution of order two treats every node alone once the graph has been applied: node features `h` go
  through a first weight matrix, the features `t` propagated along the edges through a second one, and a bias is
  added — entry `j` of the node's new row is `(∑ k, h k · w₀[k, j]) + (∑ k, t k · w₁[k, j]) + b j` (`cheb`). The
  network's head sends a row `f` to `j ↦ (f j − M) − log (∑ k, exp (f k − M))`, `M` the row's largest entry
  (`logSoftmax`; `M` is a fold of `max` from a start value `z`, which both programs take to be −∞).
  This file names those row functions and reads, ROW BY ROW and for any number of rows, the array operations that
  compute them in the two forms a program may take: two matrix products into zero accumulators, a `[1, b]` bias row
  broadcast down the rows, lane reductions whose result is re-laid as a column and broadcast back (the device's);
  two `dot_general`s, a `[b]` bias given a unit axis and broadcast, host reductions broadcast back through a unit
  column (the host's). Both forms are the same row functions, which is all that joins the two programs.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«114411_j49589692399794_2_alg».proof.Proof.LibRowLayers
import proofs.«114411_j49589692399794_2_alg».proof.Proof.LibColumnBroadcast

noncomputable section

namespace Cert.ChebRows

open Idealize.ShloMosaic Idealize.ShloMosaic.ValueIdx Cert.RowLayers

/-! ## The row functions -/

/-- One Chebyshev layer of order two on a node: its own features `h` through `w0`, the propagated features `t`
    through `w1`, plus the bias. -/
def cheb {K J : ℕ} (h t : Fin K → EReal) (w0 w1 : (⟨2, ![K, J]⟩ : Shape).Idx → EReal) (b : Fin J → EReal) : Fin J → EReal :=
  fun j => ((∑ k : Fin K, h k * w0 (ix2 k j)) + (∑ k : Fin K, t k * w1 (ix2 k j))) + b j

/-- The largest entry of a row, taken as a fold of `max` from a start value `z`. -/
def rowMax {n : ℕ} (z : EReal) (f : Fin n → EReal) : EReal := (Finset.univ : Finset (Fin n)).fold max z f

/-- The start value is below the fold, so taking the maximum with it once more changes nothing. -/
theorem max_rowMax {n : ℕ} (z : EReal) (f : Fin n → EReal) : max z (rowMax z f) = rowMax z f :=
  max_eq_right ((Finset.le_fold_max z).mpr (Or.inl le_rfl))

/-- log-softmax of a row: the row shifted by its largest entry, minus the logarithm of the sum of the exponentials of
    the shifted row. -/
def logSoftmax {n : ℕ} (z : EReal) (f : Fin n → EReal) : Fin n → EReal :=
  fun j => (f j - rowMax z f) - Ideal.log (∑ k : Fin n, Ideal.exp (f k - rowMax z f))

/-! ## The Chebyshev layer as each program prints it -/

section Layer
variable {a K b : ℕ} {d : DotDims ⟨2, ![a, K]⟩ ⟨2, ![K, b]⟩ ⟨2, ![a, b]⟩} {φ₁ φ₂ : FTy}

/-- The device's layer — two products into zero accumulators, added, plus a `[1, b]` bias row broadcast down the
    rows — sends rows `p` of the two inputs to `cheb` of them. -/
theorem rowOf_cheb_device (H : RowsTimesCols d) (prec : Option ContractPrecision)
    (h t : FVec Ideal ⟨2, ![a, K]⟩ φ₁) (w0 w1 : FVec Ideal ⟨2, ![K, b]⟩ φ₂) (bias : FVec Ideal ⟨2, ![1, b]⟩ .f32)
    (hB : (⟨2, ![1, b]⟩ : Shape).Broadcasts ⟨2, ![a, b]⟩) (p : Fin a) :
    rowOf (addf (addf (matmul d prec h w0 (constant (F := Ideal) ⟨2, ![a, b]⟩ .f32 0x00000000#32))
                      (matmul d prec t w1 (constant (F := Ideal) ⟨2, ![a, b]⟩ .f32 0x00000000#32)))
                (broadcastTo ⟨2, ![a, b]⟩ bias hB)) p
      = cheb (rowOf h p) (rowOf t p) w0 w1 (rowOf bias 0) := by
  rw [rowOf_addf, rowOf_addf, rowOf_matmul_zero H, rowOf_matmul_zero H, rowOf_broadcastTo]
  rfl

/-- The host's layer — two `dot_general`s, added, plus a `[b]` bias given a unit leading axis and broadcast down the
    rows — sends rows `p` of the two inputs to `cheb` of them. -/
theorem rowOf_cheb_host (H : RowsTimesCols d) (prec : Option ContractPrecision)
    (h t : FVec Ideal ⟨2, ![a, K]⟩ φ₁) (w0 w1 : FVec Ideal ⟨2, ![K, b]⟩ φ₂) (bias : FVec Ideal ⟨1, ![b]⟩ .f32)
    (h1 : (⟨1, ![b]⟩ : Shape).BroadcastsInDim ⟨2, ![1, b]⟩ ![1]) (h2 : (⟨2, ![1, b]⟩ : Shape).BroadcastsInDim ⟨2, ![a, b]⟩ ![0, 1]) (p : Fin a) :
    rowOf (addf (addf (Host.dotGeneral (F := Ideal) d prec h w0) (Host.dotGeneral (F := Ideal) d prec t w1))
                (broadcastInDim ⟨2, ![a, b]⟩ ![0, 1] h2 (broadcastInDim ⟨2, ![1, b]⟩ ![1] h1 bias))) p
      = cheb (rowOf h p) (rowOf t p) w0 w1 (fun j => bias (ix1 j)) := by
  rw [rowOf_addf, rowOf_addf, rowOf_dotGeneral H, rowOf_dotGeneral H, rowOf_broadcastInDim_vec]
  rfl

end Layer

/-! ## Reductions along the lanes, read on a row -/

section Reductions
variable {a n : ℕ} {φ : FTy}

/-- The reduced index `p` with lane `k` put back is `(p, k)`. -/
theorem lift_lane (h : (⟨2, ![a, n]⟩ : Shape).Reduces [1] (⟨1, ![a]⟩ : Shape)) (p : Fin a)
    (k : Fin ((⟨2, ![a, n]⟩ : Shape).size 1)) : h.lift (ix1 p) k = ix2 p (⟨k.val, k.isLt⟩ : Fin n) := by
  funext c; apply Fin.ext
  fin_cases c <;> rfl

/-- The device's maximum along the lanes, at row `p`: the fold of `max` over that row from the accumulator's value. -/
theorem multiReduction_max_row (src : FVec Ideal ⟨2, ![a, n]⟩ φ) (acc : BitVec φ.bits)
    (h : (⟨2, ![a, n]⟩ : Shape).Reduces [1] (⟨1, ![a]⟩ : Shape)) (hφ : FKind.Formats φ)
    (hacc : acc = FKind.maximumf.neutral φ hφ) (p : Fin a) :
    multiReduction .maximumf [1] ⟨1, ![a]⟩ src acc h hφ hacc (ix1 p) = rowMax (Ideal.ofBits φ acc) (rowOf src p) := by
  rw [Ideal.multiReduction_maximumf_single]
  have hf : (src ∘ h.lift (ix1 p)) = fun k : Fin n => src (ix2 p k) := funext fun k => congrArg src (lift_lane h p k)
  exact congrArg (fun f => Finset.fold max (Ideal.ofBits φ acc) f (Finset.univ : Finset (Fin n))) hf

/-- The device's sum along the lanes, at row `p`: the sum of that row. -/
theorem multiReduction_add_row (src : FVec Ideal ⟨2, ![a, n]⟩ φ) (acc : BitVec φ.bits)
    (h : (⟨2, ![a, n]⟩ : Shape).Reduces [1] (⟨1, ![a]⟩ : Shape)) (hφ : FKind.Formats φ)
    (hacc : acc = FKind.add.neutral φ hφ) (p : Fin a) :
    multiReduction .add [1] ⟨1, ![a]⟩ src acc h hφ hacc (ix1 p) = ∑ k : Fin n, src (ix2 p k) := by
  rw [Ideal.multiReduction_add_single]
  show (∑ k : Fin n, src (h.lift (ix1 p) k)) = _
  exact Finset.sum_congr rfl fun k _ => congrArg src (lift_lane h p k)

/-- The host's reduce with a maximum body along the lanes, at row `p`: the fold of `max` over that row from the initial value. -/
theorem hostReduce_max_row (x : FVec Ideal ⟨2, ![a, n]⟩ φ) (init : (⟨0, ![]⟩ : Shape).Idx → Ideal φ)
    (h' : (⟨2, ![a, n]⟩ : Shape).ReducesTo [1] (⟨1, ![a]⟩ : Shape)) (h : (⟨2, ![a, n]⟩ : Shape).Reduces [1] (⟨1, ![a]⟩ : Shape))
    (hu : 0 < (⟨0, ![]⟩ : Shape).numel) (p : Fin a) :
    Host.reduce FloatOps.maximumf x init h' hu (ix1 p) = rowMax (init (Shape.Idx.first hu)) (rowOf x p) := by
  rw [Host.reduce_eq_fold_single FloatOps.maximumf x init h' h hu]
  have hf : (x ∘ h.lift (ix1 p)) = fun k : Fin n => x (ix2 p k) := funext fun k => congrArg x (lift_lane h p k)
  exact congrArg (fun f => Finset.fold max (init (Shape.Idx.first hu)) f (Finset.univ : Finset (Fin n))) hf

/-- The host's float sum along the lanes, at row `p`: the initial value plus the sum of that row. -/
theorem hostReduceAdd_row (x : FVec Ideal ⟨2, ![a, n]⟩ φ) (init : (⟨0, ![]⟩ : Shape).Idx → Ideal φ)
    (h' : (⟨2, ![a, n]⟩ : Shape).ReducesTo [1] (⟨1, ![a]⟩ : Shape)) (h : (⟨2, ![a, n]⟩ : Shape).Reduces [1] (⟨1, ![a]⟩ : Shape))
    (hu : 0 < (⟨0, ![]⟩ : Shape).numel) (p : Fin a) :
    Host.reduceAdd x init h' hu (ix1 p) = init (Shape.Idx.first hu) + ∑ k : Fin n, x (ix2 p k) := by
  simp only [Host.reduceAdd, Ideal.hostReduceAdd_def]
  rw [Ideal.hostReduceAdd_single h' h]
  refine congrArg (_ + ·) ?_
  show (∑ k : Fin n, x (h.lift (ix1 p) k)) = _
  exact Finset.sum_congr rfl fun k _ => congrArg x (lift_lane h p k)

end Reductions

/-! ## A per-row value re-laid as a column and broadcast along the lanes -/

section Column
variable {α : Type} {a n : ℕ}

/-- An `[a]` array cast to `[a, 1]` reads, at `(i, u)`, the operand at `i`. -/
theorem shapeCast_a_a1_apply (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The device's keep-dims form: an `[a]` array cast to a column and broadcast to `[a, n]` reads, at `(p, j)`, entry `p`. -/
theorem column_device_apply (v : (⟨1, ![a]⟩ : Shape).Idx → α) (hc : (⟨1, ![a]⟩ : Shape).ShapeCasts ⟨2, ![a, 1]⟩)
    (hb : (⟨2, ![a, 1]⟩ : Shape).Broadcasts ⟨2, ![a, n]⟩) (p : Fin a) (j : Fin n) :
    broadcastTo ⟨2, ![a, n]⟩ (shapeCast ⟨2, ![a, 1]⟩ v hc) hb (ix2 p j) = v (ix1 p) :=
  (Cert.ColumnBroadcast.broadcastTo_a1_ab_apply _ hb p j).trans (shapeCast_a_a1_apply v hc p 0)

/-- The host's first step: an `[a]` array given a trailing unit axis reads, at `(p, u)`, entry `p`. -/
theorem column_host_apply (v : (⟨1, ![a]⟩ : Shape).Idx → α) (h1 : (⟨1, ![a]⟩ : Shape).BroadcastsInDim ⟨2, ![a, 1]⟩ ![0])
    (p : Fin a) (u : Fin 1) : broadcastInDim ⟨2, ![a, 1]⟩ ![0] h1 v (ix2 p u) = v (ix1 p) :=
  broadcastInDim_apply ![0] h1 v (ix2 p u) (ix1 p) (fun ax => by
    match ax with
    | ⟨0, _⟩ =>
      show p.val = if a = 1 then 0 else p.val
      split
      · have := p.isLt; omega
      · rfl)

/-- The host's second step: an `[a, 1]` column broadcast to `[a, n]` reads, at `(p, j)`, the column at `(p, 0)`. -/
theorem lanes_host_apply (w : (⟨2, ![a, 1]⟩ : Shape).Idx → α) (h2 : (⟨2, ![a, 1]⟩ : Shape).BroadcastsInDim ⟨2, ![a, n]⟩ ![0, 1])
    (p : Fin a) (j : Fin n) : broadcastInDim ⟨2, ![a, n]⟩ ![0, 1] h2 w (ix2 p j) = w (ix2 p (0 : Fin 1)) :=
  broadcastInDim_apply ![0, 1] h2 w (ix2 p j) (ix2 p (0 : Fin 1)) (fun ax => by
    match ax with
    | ⟨0, _⟩ =>
      show p.val = if a = 1 then 0 else p.val
      split
      · have := p.isLt; omega
      · rfl
    | ⟨1, _⟩ => rfl)

end Column

/-! ## Arrays given row by row -/

section Arrays
variable {a K J : ℕ}

/-- Plane `o` of a stack of two `[K, J]` weight matrices. -/
def plane (W : (⟨3, ![2, K, J]⟩ : Shape).Idx → EReal) (o : Fin 2) : (⟨2, ![K, J]⟩ : Shape).Idx → EReal :=
  fun kj => W (ix3 o (kj 0) (kj 1))

theorem plane_apply (W : (⟨3, ![2, K, J]⟩ : Shape).Idx → EReal) (o : Fin 2) (k : Fin K) (j : Fin J) :
    plane W o (ix2 k j) = W (ix3 o k j) := rfl

/-- `cheb` reads its weight matrices at `(k, j)` only: matrices that agree there give the same row. -/
theorem cheb_congr (h t : Fin K → EReal) {w0 w1 w0' w1' : (⟨2, ![K, J]⟩ : Shape).Idx → EReal} (b : Fin J → EReal)
    (e0 : ∀ (k : Fin K) (j : Fin J), w0 (ix2 k j) = w0' (ix2 k j)) (e1 : ∀ (k : Fin K) (j : Fin J), w1 (ix2 k j) = w1' (ix2 k j)) :
    cheb h t w0 w1 b = cheb h t w0' w1' b := by
  funext j
  unfold cheb
  simp only [e0, e1]

/-- The hidden layer of every node: the rectified Chebyshev layer of the node's rows of `x` and of the propagated `tx`. -/
def chebReluArr (z : EReal) (x tx : (⟨2, ![a, K]⟩ : Shape).Idx → EReal) (w0 w1 : (⟨2, ![K, J]⟩ : Shape).Idx → EReal)
    (b : Fin J → EReal) : (⟨2, ![a, J]⟩ : Shape).Idx → EReal :=
  fun i => relu z (cheb (rowOf x (i 0)) (rowOf tx (i 0)) w0 w1 b) (i 1)

/-- The output layer of every node: the log-softmax of the Chebyshev layer of the node's rows. -/
def chebLogSoftmaxArr (z : EReal) (x tx : (⟨2, ![a, K]⟩ : Shape).Idx → EReal) (w0 w1 : (⟨2, ![K, J]⟩ : Shape).Idx → EReal)
    (b : Fin J → EReal) : (⟨2, ![a, J]⟩ : Shape).Idx → EReal :=
  fun i => logSoftmax z (cheb (rowOf x (i 0)) (rowOf tx (i 0)) w0 w1 b) (i 1)

theorem chebReluArr_ix2 (z : EReal) (x tx : (⟨2, ![a, K]⟩ : Shape).Idx → EReal) (w0 w1 : (⟨2, ![K, J]⟩ : Shape).Idx → EReal)
    (b : Fin J → EReal) (p : Fin a) (q : Fin J) :
    chebReluArr z x tx w0 w1 b (ix2 p q) = relu z (cheb (rowOf x p) (rowOf tx p) w0 w1 b) q := rfl

theorem chebLogSoftmaxArr_ix2 (z : EReal) (x tx : (⟨2, ![a, K]⟩ : Shape).Idx → EReal) (w0 w1 : (⟨2, ![K, J]⟩ : Shape).Idx → EReal)
    (b : Fin J → EReal) (p : Fin a) (q : Fin J) :
    chebLogSoftmaxArr z x tx w0 w1 b (ix2 p q) = logSoftmax z (cheb (rowOf x p) (rowOf tx p) w0 w1 b) q := rfl

/-- An array whose every row is the rectified layer of the inputs' rows IS the hidden-layer array. -/
theorem eq_chebReluArr_of_rows (z : EReal) (x tx : (⟨2, ![a, K]⟩ : Shape).Idx → EReal) (w0 w1 : (⟨2, ![K, J]⟩ : Shape).Idx → EReal)
    (b : Fin J → EReal) (A : (⟨2, ![a, J]⟩ : Shape).Idx → EReal)
    (hA : ∀ p : Fin a, rowOf A p = relu z (cheb (rowOf x p) (rowOf tx p) w0 w1 b)) : A = chebReluArr z x tx w0 w1 b :=
  funext fun i => (apply_eq_rowOf A i).trans (congrFun (hA (i 0)) (i 1))

/-- An array whose every entry is the log-softmax of the layer of the inputs' rows IS the output-layer array. -/
theorem eq_chebLogSoftmaxArr_of_entries (z : EReal) (x tx : (⟨2, ![a, K]⟩ : Shape).Idx → EReal) (w0 w1 : (⟨2, ![K, J]⟩ : Shape).Idx → EReal)
    (b : Fin J → EReal) (A : (⟨2, ![a, J]⟩ : Shape).Idx → EReal)
    (hA : ∀ (p : Fin a) (q : Fin J), A (ix2 p q) = logSoftmax z (cheb (rowOf x p) (rowOf tx p) w0 w1 b) q) :
    A = chebLogSoftmaxArr z x tx w0 w1 b :=
  funext fun i => (congrArg A (eq_ix2 i)).trans (hA (i 0) (i 1))

end Arrays

end Cert.ChebRows

end
-- ==== Proof.Layers.lean ====
/-
  The layers of the network between the products, spelled once.

  Both programs compute the same encoder.  From the inputs: the first hidden table  h0 = relu(x·Wt + bt);  a
  propagation of a table t along the edges,  (prop t)[n, ·] = ∑ over the edges e into n of w_e · t[source_e, ·],  as
  the edgewise program prints it (the weights given a unit trailing axis and broadcast along the columns, times the
  rows of t gathered at the wrapped sources, scatter-added at the targets into zeros);  the second hidden table
  mid(h0, prop h0) = relu(h0·W1a + (prop h0)·W1b + b1);  and the last stretch, which from the second hidden table h1
  and its propagation forms  mu = h1·Wma + (prop h1)·Wmb + bm,  logstd = min(h1·Wla + (prop h1)·Wlb + bl, 10),
  z = mu + eps · exp(logstd)  and the loss (two sums over edge lists of log-sigmoids of inner products of rows of z, and
  the divergence term from mu and logstd).  The last stretch is wrapped in two definitions, tailZ and tailL, that are
  never opened: both programs apply it to their second hidden table and its propagation.

  Read at an index: entry (n, q) of h0 is  max((∑_k x[n, k] · Wt[k, q]) + bt[q], 0);  entry (n, q) of mid(H0, T) is
  max(((∑_k H0[n, k] · W1a[k, q]) + ∑_k T[n, k] · W1b[k, q]) + b1[q], 0).
-/
import proofs.«114411_j49589692399794_2_alg».proof.Proof.EdgeWeights
import proofs.«114411_j49589692399794_2_alg».proof.Proof.LibRowLayers
import proofs.«114411_j49589692399794_2_alg».proof.Proof.LibChebRows

noncomputable section

open scoped BigOperators

namespace Cert.Layers

open Idealize.ShloMosaic Idealize.ShloMosaic.ValueIdx Cert.DenseEdges Cert.RowLayers Cert.ChebRows Cert.EdgeWeights

variable [Cert.ReferenceIdeal.Facts] [Cert.KernelIdeal.Facts]

open Cert.ReferenceIdeal Cert.ReferenceIdeal.Facts₀

/-! ## The layers -/

/-- The first hidden table: relu(x·Wt + bt). -/
def h0 (a0 : FVec Ideal S16384x16384 .f32) (a1 : FVec Ideal S16384x128 .f32) (a2 : FVec Ideal S128 .f32) : FVec Ideal S16384x128 .f32 :=
  maximumf (addf (Host.dotGeneral (F := Ideal) dot_S16384x16384_S16384x128_S16384x128_1_0_0_1_n_n none a0 a1) (broadcastInDim S16384x128 ![0, 1] bcast_S1x128_S16384x128_0_1 (broadcastInDim S1x128 ![1] bcast_S128_S1x128_1 a2))) (broadcastInDim S16384x128 ![] bcast_S_S16384x128 (constant (F := Ideal) S_ .f32 0x00000000#32))

/-- The edgewise propagation of a table of 128 columns with edge weights w. -/
def prop128 (w : FVec Ideal S524288 .f32) (a13 : IVec S2x524288 32) (t : FVec Ideal S16384x128 .f32) : FVec Ideal S16384x128 .f32 :=
  Host.scatterAdd (F := Ideal) scatter_S16384x128_S524288x1_S524288x128_1_0_0_1 (broadcastInDim S16384x128 ![] bcast_S_S16384x128 (constant (F := Ideal) S_ .f32 0x00000000#32)) (col (dstRow a13)) (mulf (broadcastInDim S524288x128 ![0, 1] bcast_S524288x1_S524288x128_0_1 (broadcastInDim S524288x1 ![0] bcast_S524288_S524288x1_0 w)) (Host.gather gather_S16384x128_S524288x1_S524288x128_1_0_n_n_0_1_1128 t (col (wrap (srcRow a13)))))

/-- The edgewise propagation of a table of 64 columns with edge weights w. -/
def prop64 (w : FVec Ideal S524288 .f32) (a13 : IVec S2x524288 32) (t : FVec Ideal S16384x64 .f32) : FVec Ideal S16384x64 .f32 :=
  Host.scatterAdd (F := Ideal) scatter_S16384x64_S524288x1_S524288x64_1_0_0_1 (broadcastInDim S16384x64 ![] bcast_S_S16384x64 (constant (F := Ideal) S_ .f32 0x00000000#32)) (col (dstRow a13)) (mulf (broadcastInDim S524288x64 ![0, 1] bcast_S524288x1_S524288x64_0_1 (broadcastInDim S524288x1 ![0] bcast_S524288_S524288x1_0 w)) (Host.gather gather_S16384x64_S524288x1_S524288x64_1_0_n_n_0_1_164 t (col (wrap (srcRow a13)))))

/-- The second hidden table from the first and its propagation: relu(H0·W1a + TXA·W1b + b1). -/
def mid (H0 TXA : FVec Ideal S16384x128 .f32) (a3 a4 : FVec Ideal S128x64 .f32) (a5 : FVec Ideal S64 .f32) : FVec Ideal S16384x64 .f32 :=
  maximumf (addf (addf (Host.dotGeneral (F := Ideal) dot_S16384x128_S128x64_S16384x64_1_0_0_1_n_n none H0 a3) (Host.dotGeneral (F := Ideal) dot_S16384x128_S128x64_S16384x64_1_0_0_1_n_n none TXA a4)) (broadcastInDim S16384x64 ![0, 1] bcast_S1x64_S16384x64_0_1 (broadcastInDim S1x64 ![1] bcast_S64_S1x64_1 a5))) (broadcastInDim S16384x64 ![] bcast_S_S16384x64 (constant (F := Ideal) S_ .f32 0x00000000#32))

/-- mu = H1·Wma + TXB·Wmb + bm. -/
def muOf (H1 TXB : FVec Ideal S16384x64 .f32) (a6 a7 : FVec Ideal S64x32 .f32) (a8 : FVec Ideal S32 .f32) : FVec Ideal S16384x32 .f32 :=
  addf (addf (Host.dotGeneral (F := Ideal) dot_S16384x64_S64x32_S16384x32_1_0_0_1_n_n none H1 a6) (Host.dotGeneral (F := Ideal) dot_S16384x64_S64x32_S16384x32_1_0_0_1_n_n none TXB a7)) (broadcastInDim S16384x32 ![0, 1] bcast_S1x32_S16384x32_0_1 (broadcastInDim S1x32 ![1] bcast_S32_S1x32_1 a8))

/-- logstd = min(H1·Wla + TXB·Wlb + bl, 10). -/
def lsOf (H1 TXB : FVec Ideal S16384x64 .f32) (a9 a10 : FVec Ideal S64x32 .f32) (a11 : FVec Ideal S32 .f32) : FVec Ideal S16384x32 .f32 :=
  minimumf (addf (addf (Host.dotGeneral (F := Ideal) dot_S16384x64_S64x32_S16384x32_1_0_0_1_n_n none H1 a9) (Host.dotGeneral (F := Ideal) dot_S16384x64_S64x32_S16384x32_1_0_0_1_n_n none TXB a10)) (broadcastInDim S16384x32 ![0, 1] bcast_S1x32_S16384x32_0_1 (broadcastInDim S1x32 ![1] bcast_S32_S1x32_1 a11))) (broadcastInDim S16384x32 ![] bcast_S_S16384x32 (constant (F := Ideal) S_ .f32 0x41200000#32))

/-- z = mu + eps · exp(logstd). -/
def zOf (mu ls a12 : FVec Ideal S16384x32 .f32) : FVec Ideal S16384x32 .f32 :=
  addf mu (mulf a12 (Host.exp (F := Ideal) ls))

/-- The loss from z, mu, logstd and the two edge lists. -/
def lossOf (z mu ls : FVec Ideal S16384x32 .f32) (a13 a14 : IVec S2x524288 32) : FVec Ideal S_ .f32 :=
  addf (addf (Host.negf (F := Ideal) (Host.divf (F := Ideal) (Host.reduceAdd (F := Ideal) (Host.log (F := Ideal) (addf (Host.divf (F := Ideal) (broadcastInDim S524288 ![] bcast_S_S524288 (constant (F := Ideal) S_ .f32 0x3F800000#32)) (addf (broadcastInDim S524288 ![] bcast_S_S524288 (constant (F := Ideal) S_ .f32 0x3F800000#32)) (Host.exp (F := Ideal) (Host.negf (F := Ideal) (Host.reduceAdd (F := Ideal) (mulf (Host.gather gather_S16384x32_S524288x1_S524288x32_1_0_n_n_0_1_132 z (broadcastInDim S524288x1 ![0] bcast_S524288_S524288x1_0 (select (cmpi .slt (shapeCast _ (extractStridedSlice S1x524288 ![0, 0] a13 slices_S2x524288_S1x524288_0_0) shapeCasts_S1x524288_S524288) (broadcastInDim S524288 ![] bcast_S_S524288 (constantI S_ 32 0#32))) (addi (shapeCast _ (extractStridedSlice S1x524288 ![0, 0] a13 slices_S2x524288_S1x524288_0_0) shapeCasts_S1x524288_S524288) (broadcastInDim S524288 ![] bcast_S_S524288 (constantI S_ 32 16384#32))) (shapeCast _ (extractStridedSlice S1x524288 ![0, 0] a13 slices_S2x524288_S1x524288_0_0) shapeCasts_S1x524288_S524288)))) (Host.gather gather_S16384x32_S524288x1_S524288x32_1_0_n_n_0_1_132 z (broadcastInDim S524288x1 ![0] bcast_S524288_S524288x1_0 (select (cmpi .slt (shapeCast _ (extractStridedSlice S1x524288 ![1, 0] a13 slices_S2x524288_S1x524288_1_0) shapeCasts_S1x524288_S524288) (broadcastInDim S524288 ![] bcast_S_S524288 (constantI S_ 32 0#32))) (addi (shapeCast _ (extractStridedSlice S1x524288 ![1, 0] a13 slices_S2x524288_S1x524288_1_0) shapeCasts_S1x524288_S524288) (broadcastInDim S524288 ![] bcast_S_S524288 (constantI S_ 32 16384#32))) (shapeCast _ (extractStridedSlice S1x524288 ![1, 0] a13 slices_S2x524288_S1x524288_1_0) shapeCasts_S1x524288_S524288))))) (constant (F := Ideal) S_ .f32 0x00000000#32) reducesTo_S524288x32_S524288_d1 h_S_))))) (broadcastInDim S524288 ![] bcast_S_S524288 (constant (F := Ideal) S_ .f32 0x26901D7D#32)))) (constant (F := Ideal) S_ .f32 0x00000000#32) reducesTo_S524288_S_d0 h_S_) (constant (F := Ideal) S_ .f32 0x49000000#32))) (Host.negf (F := Ideal) (Host.divf (F := Ideal) (Host.reduceAdd (F := Ideal) (Host.log (F := Ideal) (addf (subf (broadcastInDim S524288 ![] bcast_S_S524288 (constant (F := Ideal) S_ .f32 0x3F800000#32)) (Host.divf (F := Ideal) (broadcastInDim S524288 ![] bcast_S_S524288 (constant (F := Ideal) S_ .f32 0x3F800000#32)) (addf (broadcastInDim S524288 ![] bcast_S_S524288 (constant (F := Ideal) S_ .f32 0x3F800000#32)) (Host.exp (F := Ideal) (Host.negf (F := Ideal) (Host.reduceAdd (F := Ideal) (mulf (Host.gather gather_S16384x32_S524288x1_S524288x32_1_0_n_n_0_1_132 z (broadcastInDim S524288x1 ![0] bcast_S524288_S524288x1_0 (select (cmpi .slt (shapeCast _ (extractStridedSlice S1x524288 ![0, 0] a14 slices_S2x524288_S1x524288_0_0) shapeCasts_S1x524288_S524288) (broadcastInDim S524288 ![] bcast_S_S524288 (constantI S_ 32 0#32))) (addi (shapeCast _ (extractStridedSlice S1x524288 ![0, 0] a14 slices_S2x524288_S1x524288_0_0) shapeCasts_S1x524288_S524288) (broadcastInDim S524288 ![] bcast_S_S524288 (constantI S_ 32 16384#32))) (shapeCast _ (extractStridedSlice S1x524288 ![0, 0] a14 slices_S2x524288_S1x524288_0_0) shapeCasts_S1x524288_S524288)))) (Host.gather gather_S16384x32_S524288x1_S524288x32_1_0_n_n_0_1_132 z (broadcastInDim S524288x1 ![0] bcast_S524288_S524288x1_0 (select (cmpi .slt (shapeCast _ (extractStridedSlice S1x524288 ![1, 0] a14 slices_S2x524288_S1x524288_1_0) shapeCasts_S1x524288_S524288) (broadcastInDim S524288 ![] bcast_S_S524288 (constantI S_ 32 0#32))) (addi (shapeCast _ (extractStridedSlice S1x524288 ![1, 0] a14 slices_S2x524288_S1x524288_1_0) shapeCasts_S1x524288_S524288) (broadcastInDim S524288 ![] bcast_S_S524288 (constantI S_ 32 16384#32))) (shapeCast _ (extractStridedSlice S1x524288 ![1, 0] a14 slices_S2x524288_S1x524288_1_0) shapeCasts_S1x524288_S524288))))) (constant (F := Ideal) S_ .f32 0x00000000#32) reducesTo_S524288x32_S524288_d1 h_S_)))))) (broadcastInDim S524288 ![] bcast_S_S524288 (constant (F := Ideal) S_ .f32 0x26901D7D#32)))) (constant (F := Ideal) S_ .f32 0x00000000#32) reducesTo_S524288_S_d0 h_S_) (constant (F := Ideal) S_ .f32 0x49000000#32)))) (Host.divf (F := Ideal) (mulf (constant (F := Ideal) S_ .f32 0xBF000000#32) (Host.divf (F := Ideal) (Host.reduceAdd (F := Ideal) (Host.reduceAdd (F := Ideal) (subf (subf (addf (broadcastInDim S16384x32 ![] bcast_S_S16384x32 (constant (F := Ideal) S_ .f32 0x3F800000#32)) (mulf (broadcastInDim S16384x32 ![] bcast_S_S16384x32 (constant (F := Ideal) S_ .f32 0x40000000#32)) ls)) (mulf mu mu)) (mulf (Host.exp (F := Ideal) ls) (Host.exp (F := Ideal) ls))) (constant (F := Ideal) S_ .f32 0x00000000#32) reducesTo_S16384x32_S16384_d1 h_S_) (constant (F := Ideal) S_ .f32 0x00000000#32) reducesTo_S16384_S_d0 h_S_) (constant (F := Ideal) S_ .f32 0x46800000#32))) (constant (F := Ideal) S_ .f32 0x46800000#32))

/-- THE LAST STRETCH, first result: z from the second hidden table H1 and its propagation (given once for mu and once
    for logstd). -/
def tailZ (H1 TXBmu TXBls : FVec Ideal S16384x64 .f32) (a6 a7 : FVec Ideal S64x32 .f32) (a8 : FVec Ideal S32 .f32)
    (a9 a10 : FVec Ideal S64x32 .f32) (a11 : FVec Ideal S32 .f32) (a12 : FVec Ideal S16384x32 .f32) : FVec Ideal S16384x32 .f32 :=
  zOf (muOf H1 TXBmu a6 a7 a8) (lsOf H1 TXBls a9 a10 a11) a12

/-- THE LAST STRETCH, second result: the loss. -/
def tailL (H1 TXBmu TXBls : FVec Ideal S16384x64 .f32) (a6 a7 : FVec Ideal S64x32 .f32) (a8 : FVec Ideal S32 .f32)
    (a9 a10 : FVec Ideal S64x32 .f32) (a11 : FVec Ideal S32 .f32) (a12 : FVec Ideal S16384x32 .f32) (a13 a14 : IVec S2x524288 32) :
    FVec Ideal S_ .f32 :=
  lossOf (tailZ H1 TXBmu TXBls a6 a7 a8 a9 a10 a11 a12) (muOf H1 TXBmu a6 a7 a8) (lsOf H1 TXBls a9 a10 a11) a13 a14

/-! ## The edgewise program's tables -/

/-- The propagation of the first hidden table, edge by edge. -/
def TXA_R (a0 : FVec Ideal S16384x16384 .f32) (a1 : FVec Ideal S16384x128 .f32) (a2 : FVec Ideal S128 .f32) (a13 : IVec S2x524288 32) :
    FVec Ideal S16384x128 .f32 :=
  prop128 (edgeW a13) a13 (h0 a0 a1 a2)

/-- The second hidden table. -/
def H1R (a0 : FVec Ideal S16384x16384 .f32) (a1 : FVec Ideal S16384x128 .f32) (a2 : FVec Ideal S128 .f32)
    (a3 a4 : FVec Ideal S128x64 .f32) (a5 : FVec Ideal S64 .f32) (a13 : IVec S2x524288 32) : FVec Ideal S16384x64 .f32 :=
  mid (h0 a0 a1 a2) (TXA_R a0 a1 a2 a13) a3 a4 a5

/-- The propagation of the second hidden table, edge by edge. -/
def TXB_R (a0 : FVec Ideal S16384x16384 .f32) (a1 : FVec Ideal S16384x128 .f32) (a2 : FVec Ideal S128 .f32)
    (a3 a4 : FVec Ideal S128x64 .f32) (a5 : FVec Ideal S64 .f32) (a13 : IVec S2x524288 32) : FVec Ideal S16384x64 .f32 :=
  prop64 (edgeW a13) a13 (H1R a0 a1 a2 a3 a4 a5 a13)

/-! ## The products' dimension numbers say "rows times columns" -/

theorem rtc_x : RowsTimesCols (a := 16384) (K := 16384) (b := 128) dot_S16384x16384_S16384x128_S16384x128_1_0_0_1_n_n where
  rank := rfl
  size := rfl
  lhs0 := fun j q => by
    unfold DotDims.lhsIdx
    rw [dif_neg (show ¬(0 : Fin S16384x16384.rank) ∈ dot_S16384x16384_S16384x128_S16384x128_1_0_0_1_n_n.lhsBatch by simp [dot_S16384x16384_S16384x128_S16384x128_1_0_0_1_n_n]),
      dif_pos (show (0 : Fin S16384x16384.rank) ∈ dot_S16384x16384_S16384x128_S16384x128_1_0_0_1_n_n.lhsNonContracting by simp [dot_S16384x16384_S16384x128_S16384x128_1_0_0_1_n_n])]
    rfl
  lhs1 := fun j q => dot_S16384x16384_S16384x128_S16384x128_1_0_0_1_n_n.lhsIdx_val_of_single rfl j q
  rhs0 := fun j q => dot_S16384x16384_S16384x128_S16384x128_1_0_0_1_n_n.rhsIdx_val_of_single rfl j q
  rhs1 := fun j q => by
    unfold DotDims.rhsIdx
    rw [dif_neg (show ¬(1 : Fin S16384x128.rank) ∈ dot_S16384x16384_S16384x128_S16384x128_1_0_0_1_n_n.rhsBatch by simp [dot_S16384x16384_S16384x128_S16384x128_1_0_0_1_n_n]),
      dif_pos (show (1 : Fin S16384x128.rank) ∈ dot_S16384x16384_S16384x128_S16384x128_1_0_0_1_n_n.rhsNonContracting by simp [dot_S16384x16384_S16384x128_S16384x128_1_0_0_1_n_n])]
    rfl

theorem rtc_1 : RowsTimesCols (a := 16384) (K := 128) (b := 64) dot_S16384x128_S128x64_S16384x64_1_0_0_1_n_n where
  rank := rfl
  size := rfl
  lhs0 := fun j q => by
    unfold DotDims.lhsIdx
    rw [dif_neg (show ¬(0 : Fin S16384x128.rank) ∈ dot_S16384x128_S128x64_S16384x64_1_0_0_1_n_n.lhsBatch by simp [dot_S16384x128_S128x64_S16384x64_1_0_0_1_n_n]),
      dif_pos (show (0 : Fin S16384x128.rank) ∈ dot_S16384x128_S128x64_S16384x64_1_0_0_1_n_n.lhsNonContracting by simp [dot_S16384x128_S128x64_S16384x64_1_0_0_1_n_n])]
    rfl
  lhs1 := fun j q => dot_S16384x128_S128x64_S16384x64_1_0_0_1_n_n.lhsIdx_val_of_single rfl j q
  rhs0 := fun j q => dot_S16384x128_S128x64_S16384x64_1_0_0_1_n_n.rhsIdx_val_of_single rfl j q
  rhs1 := fun j q => by
    unfold DotDims.rhsIdx
    rw [dif_neg (show ¬(1 : Fin S128x64.rank) ∈ dot_S16384x128_S128x64_S16384x64_1_0_0_1_n_n.rhsBatch by simp [dot_S16384x128_S128x64_S16384x64_1_0_0_1_n_n]),
      dif_pos (show (1 : Fin S128x64.rank) ∈ dot_S16384x128_S128x64_S16384x64_1_0_0_1_n_n.rhsNonContracting by simp [dot_S16384x128_S128x64_S16384x64_1_0_0_1_n_n])]
    rfl

/-! ## Read at an index -/

/-- Entry (n, q) of the first hidden table. -/
theorem h0_apply (a0 : FVec Ideal S16384x16384 .f32) (a1 : FVec Ideal S16384x128 .f32) (a2 : FVec Ideal S128 .f32)
    (n : Fin 16384) (q : Fin 128) :
    h0 a0 a1 a2 (ix2 n q) = max ((∑ k : Fin 16384, a0 (ix2 n k) * a1 (ix2 k q)) + a2 (ix1 q)) 0 := by
  show rowOf (h0 a0 a1 a2) n q = _
  unfold h0
  rw [rowOf_maximumf_const, rowOf_dense_host rtc_x, Ideal.ofBits_zero_f32]
  rfl

/-- Entry (n, q) of the second hidden table. -/
theorem mid_apply (H0 TXA : FVec Ideal S16384x128 .f32) (a3 a4 : FVec Ideal S128x64 .f32) (a5 : FVec Ideal S64 .f32)
    (n : Fin 16384) (q : Fin 64) :
    mid H0 TXA a3 a4 a5 (ix2 n q)
      = max (((∑ k : Fin 128, H0 (ix2 n k) * a3 (ix2 k q)) + ∑ k : Fin 128, TXA (ix2 n k) * a4 (ix2 k q)) + a5 (ix1 q)) 0 := by
  show rowOf (mid H0 TXA a3 a4 a5) n q = _
  unfold mid
  rw [rowOf_maximumf_const, rowOf_cheb_host rtc_1, Ideal.ofBits_zero_f32]
  rfl

end Cert.Layers

end
-- ==== Proof.Realness.lean ====
/-
  Real numbers stay real numbers through the layers of the network.

  Every layer of the encoder is built from finite sums of products, sums with a bias and maxima with zero.  An
  extended real that is a real number (neither infinity) stays one under each of these, so with real-valued
  inputs every hidden table is real-valued: the rectified dense layer relu(x·W + b), the rectified two-term
  layer relu(h·W₀ + t·W₁ + b), and a table propagated through a real-valued matrix.  Real-valuedness is what the
  propagation step needs to distribute a product over the sum of parallel edges.
-/
import proofs.«114411_j49589692399794_2_alg».proof.Proof.LibDenseEdges
import proofs.«114411_j49589692399794_2_alg».proof.Proof.LibRowLayers
import proofs.«114411_j49589692399794_2_alg».proof.Proof.LibChebRows

noncomputable section

open scoped BigOperators

namespace Cert.Realness

open Idealize.ShloMosaic Idealize.ShloMosaic.ValueIdx Cert.DenseEdges Cert.RowLayers Cert.ChebRows

/-- A finite sum of products of real numbers is a real number. -/
theorem isReal_dot {K : ℕ} (f g : Fin K → EReal) (hf : ∀ k, IsReal (f k)) (hg : ∀ k, IsReal (g k)) :
    IsReal (∑ k : Fin K, f k * g k) :=
  isReal_sum _ _ fun k _ => (hf k).mul (hg k)

/-! ## On a row -/

theorem isReal_dense {K J : ℕ} (h : Fin K → EReal) (w : (⟨2, ![K, J]⟩ : Shape).Idx → EReal) (b : Fin J → EReal)
    (hh : ∀ k, IsReal (h k)) (hw : ∀ i, IsReal (w i)) (hb : ∀ j, IsReal (b j)) (j : Fin J) : IsReal (dense h w b j) :=
  (isReal_dot _ _ hh fun k => hw _).add (hb j)

theorem isReal_cheb {K J : ℕ} (h t : Fin K → EReal) (w0 w1 : (⟨2, ![K, J]⟩ : Shape).Idx → EReal) (b : Fin J → EReal)
    (hh : ∀ k, IsReal (h k)) (ht : ∀ k, IsReal (t k)) (hw0 : ∀ i, IsReal (w0 i)) (hw1 : ∀ i, IsReal (w1 i))
    (hb : ∀ j, IsReal (b j)) (j : Fin J) : IsReal (cheb h t w0 w1 b j) :=
  ((isReal_dot _ _ hh fun k => hw0 _).add (isReal_dot _ _ ht fun k => hw1 _)).add (hb j)

theorem isReal_relu {J : ℕ} (z : EReal) (f : Fin J → EReal) (hz : IsReal z) (hf : ∀ j, IsReal (f j)) (j : Fin J) :
    IsReal (relu z f j) := (hf j).max hz

/-! ## On a table given entry by entry -/

/-- h = relu(x·W + b), entry by entry, is real-valued when x, W and b are. -/
theorem isReal_of_relu_dense_entries {a K J : ℕ} (x : (⟨2, ![a, K]⟩ : Shape).Idx → EReal) (w : (⟨2, ![K, J]⟩ : Shape).Idx → EReal)
    (b : (⟨1, ![J]⟩ : Shape).Idx → EReal) (hx : ∀ i, IsReal (x i)) (hw : ∀ i, IsReal (w i)) (hb : ∀ i, IsReal (b i))
    (y : (⟨2, ![a, J]⟩ : Shape).Idx → EReal)
    (hy : ∀ (n : Fin a) (q : Fin J), y (ix2 n q) = max ((∑ k : Fin K, x (ix2 n k) * w (ix2 k q)) + b (ix1 q)) 0)
    (i : (⟨2, ![a, J]⟩ : Shape).Idx) : IsReal (y i) := by
  obtain ⟨n, q, rfl⟩ : ∃ (n : Fin a) (q : Fin J), i = ix2 n q := ⟨i 0, i 1, eq_ix2 i⟩
  rw [hy]
  exact ((isReal_dot _ _ (fun k => hx _) fun k => hw _).add (hb _)).max isReal_zero

/-- h' = relu(h·W₀ + t·W₁ + b), entry by entry, is real-valued when h, t, W₀, W₁ and b are. -/
theorem isReal_of_relu_cheb_entries {a K J : ℕ} (h t : (⟨2, ![a, K]⟩ : Shape).Idx → EReal) (w0 w1 : (⟨2, ![K, J]⟩ : Shape).Idx → EReal)
    (b : (⟨1, ![J]⟩ : Shape).Idx → EReal) (hh : ∀ i, IsReal (h i)) (ht : ∀ i, IsReal (t i)) (hw0 : ∀ i, IsReal (w0 i))
    (hw1 : ∀ i, IsReal (w1 i)) (hb : ∀ i, IsReal (b i)) (y : (⟨2, ![a, J]⟩ : Shape).Idx → EReal)
    (hy : ∀ (n : Fin a) (q : Fin J), y (ix2 n q)
      = max (((∑ k : Fin K, h (ix2 n k) * w0 (ix2 k q)) + (∑ k : Fin K, t (ix2 n k) * w1 (ix2 k q))) + b (ix1 q)) 0)
    (i : (⟨2, ![a, J]⟩ : Shape).Idx) : IsReal (y i) := by
  obtain ⟨n, q, rfl⟩ : ∃ (n : Fin a) (q : Fin J), i = ix2 n q := ⟨i 0, i 1, eq_ix2 i⟩
  rw [hy]
  exact (((isReal_dot _ _ (fun k => hh _) fun k => hw0 _).add (isReal_dot _ _ (fun k => ht _) fun k => hw1 _)).add (hb _)).max isReal_zero

/-- t' = L·t, entry by entry, is real-valued when the matrix L and the table t are. -/
theorem isReal_of_product_entries {a K J : ℕ} (L : (⟨2, ![a, K]⟩ : Shape).Idx → EReal) (t : (⟨2, ![K, J]⟩ : Shape).Idx → EReal)
    (hL : ∀ i, IsReal (L i)) (ht : ∀ i, IsReal (t i)) (y : (⟨2, ![a, J]⟩ : Shape).Idx → EReal)
    (hy : ∀ (n : Fin a) (q : Fin J), y (ix2 n q) = ∑ k : Fin K, L (ix2 n k) * t (ix2 k q))
    (i : (⟨2, ![a, J]⟩ : Shape).Idx) : IsReal (y i) := by
  obtain ⟨n, q, rfl⟩ : ∃ (n : Fin a) (q : Fin J), i = ix2 n q := ⟨i 0, i 1, eq_ix2 i⟩
  rw [hy]
  exact isReal_dot _ _ (fun k => hL _) fun k => ht _

/-- A table whose rows are the rectified dense layer of real-valued rows is real-valued. -/
theorem isReal_of_relu_dense_rows {a K J : ℕ} (x : (⟨2, ![a, K]⟩ : Shape).Idx → EReal) (w : (⟨2, ![K, J]⟩ : Shape).Idx → EReal)
    (b : Fin J → EReal) (z : EReal) (hx : ∀ i, IsReal (x i)) (hw : ∀ i, IsReal (w i)) (hb : ∀ j, IsReal (b j)) (hz : IsReal z)
    (y : (⟨2, ![a, J]⟩ : Shape).Idx → EReal) (hy : ∀ p : Fin a, rowOf y p = relu z (dense (rowOf x p) w b))
    (i : (⟨2, ![a, J]⟩ : Shape).Idx) : IsReal (y i) := by
  obtain ⟨n, q, rfl⟩ : ∃ (n : Fin a) (q : Fin J), i = ix2 n q := ⟨i 0, i 1, eq_ix2 i⟩
  show IsReal (rowOf y n q)
  rw [hy]
  exact isReal_relu _ _ hz (isReal_dense _ _ _ (fun k => hx _) hw hb) _

/-- A table whose rows are the rectified two-term layer of real-valued rows is real-valued. -/
theorem isReal_of_relu_cheb_rows {a K J : ℕ} (h t : (⟨2, ![a, K]⟩ : Shape).Idx → EReal) (w0 w1 : (⟨2, ![K, J]⟩ : Shape).Idx → EReal)
    (b : Fin J → EReal) (z : EReal) (hh : ∀ i, IsReal (h i)) (ht : ∀ i, IsReal (t i)) (hw0 : ∀ i, IsReal (w0 i))
    (hw1 : ∀ i, IsReal (w1 i)) (hb : ∀ j, IsReal (b j)) (hz : IsReal z)
    (y : (⟨2, ![a, J]⟩ : Shape).Idx → EReal) (hy : ∀ p : Fin a, rowOf y p = relu z (cheb (rowOf h p) (rowOf t p) w0 w1 b))
    (i : (⟨2, ![a, J]⟩ : Shape).Idx) : IsReal (y i) := by
  obtain ⟨n, q, rfl⟩ : ∃ (n : Fin a) (q : Fin J), i = ix2 n q := ⟨i 0, i 1, eq_ix2 i⟩
  show IsReal (rowOf y n q)
  rw [hy]
  exact isReal_relu _ _ hz (isReal_cheb _ _ _ _ _ (fun k => hh _) (fun k => ht _) hw0 hw1 hb) _

end Cert.Realness

end
-- ==== Proof.LayersReal.lean ====
/-
  Real-valued inputs give real-valued hidden tables.

  Entry (n, q) of the first hidden table is  max((∑_k x[n, k] · Wt[k, q]) + bt[q], 0)  and of the second
  max(((∑_k H0[n, k] · W1a[k, q]) + ∑_k T[n, k] · W1b[k, q]) + b1[q], 0):  finite sums of products of real numbers, a
  bias and a maximum with zero, so real numbers.
-/
import proofs.«114411_j49589692399794_2_alg».proof.Proof.Layers
import proofs.«114411_j49589692399794_2_alg».proof.Proof.Realness

noncomputable section

namespace Cert.Layers

open Idealize.ShloMosaic Idealize.ShloMosaic.ValueIdx Cert.DenseEdges

variable [Cert.ReferenceIdeal.Facts] [Cert.KernelIdeal.Facts]

open Cert.ReferenceIdeal Cert.ReferenceIdeal.Facts₀

theorem isReal_h0 (a0 : FVec Ideal S16384x16384 .f32) (a1 : FVec Ideal S16384x128 .f32) (a2 : FVec Ideal S128 .f32)
    (h0r : ∀ i, IsReal (a0 i)) (h1r : ∀ i, IsReal (a1 i)) (h2r : ∀ i, IsReal (a2 i)) (i : S16384x128.Idx) :
    IsReal (h0 a0 a1 a2 i) :=
  Cert.Realness.isReal_of_relu_dense_entries (a := 16384) (K := 16384) (J := 128) a0 a1 a2 h0r h1r h2r (h0 a0 a1 a2)
    (h0_apply a0 a1 a2) i

theorem isReal_mid (H0 TXA : FVec Ideal S16384x128 .f32) (a3 a4 : FVec Ideal S128x64 .f32) (a5 : FVec Ideal S64 .f32)
    (hH : ∀ i, IsReal (H0 i)) (hT : ∀ i, IsReal (TXA i)) (h3r : ∀ i, IsReal (a3 i)) (h4r : ∀ i, IsReal (a4 i))
    (h5r : ∀ i, IsReal (a5 i)) (i : S16384x64.Idx) : IsReal (mid H0 TXA a3 a4 a5 i) :=
  Cert.Realness.isReal_of_relu_cheb_entries (a := 16384) (K := 128) (J := 64) H0 TXA a3 a4 a5 hH hT h3r h4r h5r
    (mid H0 TXA a3 a4 a5) (mid_apply H0 TXA a3 a4 a5) i

end Cert.Layers

end
-- ==== Proof.LibRowGatherScatter.lean ====
/-
  Rows of a table gathered and scatter-added along an edge list, read at one entry.

  A table [N, C] indexed by a column [E, 1] of integer row numbers:
  * the gather of whole rows (x[idx]): entry (e, q) of the result is the table at row idx[e] — read as a
    signed integer and clamped into [0, N-1] — and column q;
  * the accumulating scatter of whole rows at the extended reals (segment_sum): entry (n, q) of the result
    is the operand's plus the sum, over the edges e whose row number read as a signed integer is exactly n,
    of the update at (e, q); an edge whose number is outside [0, N) adds nothing.
  In both the column is carried through untouched, so the operations act on each column of the table by itself,
  whatever the number C of columns: this is what lets one wide table stand for two narrow ones side by side.
-/
import Idealize.ShloMosaic.Lib.ValueIdx
import Idealize.ShloMosaic.PureOps.Ideal.Laws

noncomputable section

open scoped BigOperators

namespace Idealize.ShloMosaic.RowOps

open Idealize.ShloMosaic Idealize.ShloMosaic.ValueIdx

/-! ## The gather of whole rows -/

section Gather
variable {α : Type}

/-- The dimension numbers of x[idx] for a table [N, C] and row numbers [E, 1]: the row axis is collapsed and
    addressed by the one component of the start index, the column axis is the offset axis, slices are 1 × C. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The table row edge e reads: its row number as a signed integer, clamped into [0, N-1]. -/
def gatherRow {N E w : Nat} (hN : 0 < N) (idx : IVec ⟨2, ![E, 1]⟩ w) (e : Fin E) : Fin N :=
  ⟨min (idx (ix2 e (0 : Fin 1))).toInt.toNat (N - 1), by omega⟩

/-- THE GATHER AT (e, q): the table at edge e's row and the same column q. -/
theorem gather_rows_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (q : Fin C) :
    Host.gather (rowGatherDims N E C wf) x idx (ix2 e q) = x (ix2 (gatherRow hN idx e) q) := by
  unfold Host.gather
  congr 1
  funext a
  refine Fin.ext ?_
  match a with
  | ⟨0, _⟩ =>
    show (rowGatherDims N E C wf).start (ix2 e q) idx 0 + (rowGatherDims N E C wf).batchCoord (ix2 e q) 0
      + (rowGatherDims N E C wf).offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e q) ⟨List.idxOf (0 : Fin 2) (rowGatherDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N E C wf).start (ix2 e q) idx 1 + (rowGatherDims N E C wf).batchCoord (ix2 e q) 1
      + (rowGatherDims N E C wf).offCoord (ix2 e q) 1 = q.val
    rw [GatherDims.batchCoord_eq_zero _ _ _ List.not_mem_nil]
    have hs : (rowGatherDims N E C wf).start (ix2 e q) idx 1 = 0 := by
      unfold GatherDims.start
      rw [dif_neg (show ¬ (1 : Fin 2) ∈ ([0] : List (Fin 2)) by decide)]
    have ho : (rowGatherDims N E C wf).offCoord (ix2 e q) 1 = q.val := by
      unfold GatherDims.offCoord
      rw [dif_pos ((GatherDims.mem_sKept (rowGatherDims N E C wf) 1).mpr ⟨(by decide : (1 : Fin 2) ∉ ([0] : List (Fin 2))), List.not_mem_nil⟩)]
      rfl
    rw [hs, ho]; omega

end Gather

/-! ## The accumulating scatter of whole rows, at the extended reals -/

section Scatter

/-- The dimension numbers of segment_sum of rows [E, C] into a table [N, C] at row numbers [E, 1]: the row
    axis is inserted and addressed by the one component of the scatter index, the column axis is the window axis. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N E C w : Nat} (wf : ScatterDims.WF ⟨2, ![N, C]⟩ ⟨2, ![E, 1]⟩ ⟨2, ![E, C]⟩ [1] [0] [0] 1)

theorem start_row (idx : IVec ⟨2, ![E, 1]⟩ w) (e : Fin E) (q' : Fin C) :
    (rowScatterDims N E C wf).start (ix2 e q') idx 0 = (idx (ix2 e (0 : Fin 1))).toInt := by
  unfold ScatterDims.start
  rw [dif_pos (show (0 : Fin 2) ∈ (rowScatterDims N E C wf).scatterDimsToOperandDims from List.mem_singleton.mpr rfl)]
  have hsi : (rowScatterDims N E C wf).siIdx (ix2 e q') ⟨List.idxOf (0 : Fin 2) (rowScatterDims N E C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem start_col (idx : IVec ⟨2, ![E, 1]⟩ w) (e : Fin E) (q' : Fin C) :
    (rowScatterDims N E C wf).start (ix2 e q') idx 1 = 0 := by
  unfold ScatterDims.start
  rw [dif_neg (show ¬ (1 : Fin 2) ∈ ([0] : List (Fin 2)) by decide)]

theorem window_row (e : Fin E) (q' : Fin C) : (rowScatterDims N E C wf).window (ix2 e q') 0 = 0 := by
  unfold ScatterDims.window
  rw [dif_neg (show ¬ (0 : Fin 2) ∈ (rowScatterDims N E C wf).sKept by simp [ScatterDims.sKept, Shape.kept, List.mem_filter, List.mem_finRange])]

theorem window_col (e : Fin E) (q' : Fin C) : (rowScatterDims N E C wf).window (ix2 e q') 1 = q'.val := by
  unfold ScatterDims.window
  rw [dif_pos (show (1 : Fin 2) ∈ (rowScatterDims N E C wf).sKept by simp [ScatterDims.sKept, Shape.kept, List.mem_filter, List.mem_finRange])]
  rfl

/-- WHERE AN UPDATE LANDS: the update at (e, q') lands on (n, q) exactly when edge e's row number, read as a
    signed integer, is n, and the columns agree. -/
theorem resultIdx?_rows (idx : IVec ⟨2, ![E, 1]⟩ w) (e : Fin E) (q' : Fin C) (n : Fin N) (q : Fin C) :
    (rowScatterDims N E C wf).resultIdx? (ix2 e q') idx = some (ix2 n q)
      ↔ (idx (ix2 e (0 : Fin 1))).toInt = (n.val : ℤ) ∧ q' = q := by
  have h0 := start_row wf idx e q'
  have h1 := start_col wf idx e q'
  have w0 := window_row wf e q'
  have w1 := window_col wf e q'
  unfold ScatterDims.resultIdx?
  split
  · rename_i h
    rw [Option.some.injEq]
    constructor
    · intro hf
      have e0 := congrArg (fun f => (f 0).val) hf
      have e1 := congrArg (fun f => (f 1).val) hf
      have b0 := h 0
      rw [h0, w0] at b0
      have e0' : ((rowScatterDims N E C wf).start (ix2 e q') idx 0 + ((rowScatterDims N E C wf).window (ix2 e q') 0 : ℤ)).toNat = n.val := e0
      have e1' : ((rowScatterDims N E C wf).start (ix2 e q') idx 1 + ((rowScatterDims N E C wf).window (ix2 e q') 1 : ℤ)).toNat = q.val := e1
      rw [h0, w0] at e0'
      rw [h1, w1] at e1'
      refine ⟨by omega, Fin.ext (by omega)⟩
    · rintro ⟨hr, rfl⟩
      funext a; refine Fin.ext ?_
      match a with
      | ⟨0, _⟩ =>
        show ((rowScatterDims N E C wf).start (ix2 e q') idx 0 + ((rowScatterDims N E C wf).window (ix2 e q') 0 : ℤ)).toNat = n.val
        rw [h0, w0]; omega
      | ⟨1, _⟩ =>
        show ((rowScatterDims N E C wf).start (ix2 e q') idx 1 + ((rowScatterDims N E C wf).window (ix2 e q') 1 : ℤ)).toNat = q'.val
        rw [h1, w1]; omega
  · rename_i h
    constructor
    · intro hf; exact absurd hf (by simp)
    · rintro ⟨hr, rfl⟩
      exfalso; apply h
      intro a
      match a with
      | ⟨0, _⟩ =>
        show 0 ≤ (rowScatterDims N E C wf).start (ix2 e q') idx 0 + ((rowScatterDims N E C wf).window (ix2 e q') 0 : ℤ)
          ∧ (rowScatterDims N E C wf).start (ix2 e q') idx 0 + ((rowScatterDims N E C wf).window (ix2 e q') 0 : ℤ) < (N : ℤ)
        rw [h0, w0]; have := n.isLt; omega
      | ⟨1, _⟩ =>
        show 0 ≤ (rowScatterDims N E C wf).start (ix2 e q') idx 1 + ((rowScatterDims N E C wf).window (ix2 e q') 1 : ℤ)
          ∧ (rowScatterDims N E C wf).start (ix2 e q') idx 1 + ((rowScatterDims N E C wf).window (ix2 e q') 1 : ℤ) < (C : ℤ)
        rw [h1, w1]; have := q'.isLt; omega

/-- THE ACCUMULATING SCATTER AT (n, q), over the extended reals: the operand's entry plus the sum, over the edges
    whose row number is n, of the update's entry in the same column. -/
theorem scatterAdd_rows_apply {φ : FTy} (x : (⟨2, ![N, C]⟩ : Shape).Idx → EReal) (idx : IVec ⟨2, ![E, 1]⟩ w)
    (upd : (⟨2, ![E, C]⟩ : Shape).Idx → EReal) (n : Fin N) (q : Fin C) :
    Host.scatterAdd (F := Ideal) (φ := φ) (rowScatterDims N E C wf) x idx upd (ix2 n q)
      = x (ix2 n q) + ∑ e ∈ Finset.univ.filter (fun e : Fin E => (idx (ix2 e (0 : Fin 1))).toInt = (n.val : ℤ)), upd (ix2 e q) := by
  show x (ix2 n q) + ∑ j ∈ Finset.univ.filter (fun j => (rowScatterDims N E C wf).resultIdx? j idx = some (ix2 n q)), upd j = _
  congr 1
  rw [Finset.sum_filter, sum_idx2, Finset.sum_filter]
  refine Finset.sum_congr rfl fun e _ => ?_
  simp only [resultIdx?_rows wf idx e _ n q]
  by_cases he : (idx (ix2 e (0 : Fin 1))).toInt = (n.val : ℤ)
  · simp only [he, true_and, if_true]
    rw [Finset.sum_ite_eq' Finset.univ q (fun b => upd (ix2 e b))]
    simp
  · simp only [he, false_and, if_false]
    exact Finset.sum_const_zero

end Scatter

end Idealize.ShloMosaic.RowOps

end
-- ==== Proof.LibPairScatter.lean ====
/-
  A matrix accumulated from a list of (row, column) pairs, read at one entry.

  An operand [N, M], an index array [E, 2] whose row e holds the pair (r_e, c_e), and updates [E]: the
  accumulating scatter over the extended reals (jnp's  A.at[r, c].add(v)  with index vectors r, c) adds v_e
  to entry (r_e, c_e).  Read at (n, k), the result is the operand's entry plus the sum of v_e over the
  positions e whose pair, both components read as signed integers, is exactly (n, k); a position with either
  component outside the matrix adds nothing anywhere.  This is how a dense adjacency (or Laplacian) matrix is
  assembled from an edge list: entry (n, k) collects the weights of all parallel edges k → n.
-/
import Idealize.ShloMosaic.Lib.ValueIdx
import Idealize.ShloMosaic.PureOps.Ideal.Laws

noncomputable section

open scoped BigOperators

namespace Cert.PairScatter

open Idealize.ShloMosaic Idealize.ShloMosaic.ValueIdx

/-- The rank-1 indices are their one coordinate … -/
def idxEquiv1 {n : ℕ} : (⟨1, ![n]⟩ : Shape).Idx ≃ Fin n where
  toFun i := i 0
  invFun a := ix1 a
  left_inv i := (eq_ix1 i).symm
  right_inv _ := rfl

/-- … so a sum over them is the sum over the coordinate. -/
theorem sum_idx1 {M : Type*} [AddCommMonoid M] {n : ℕ} (f : (⟨1, ![n]⟩ : Shape).Idx → M) :
    ∑ i, f i = ∑ a : Fin n, f (ix1 a) := by
  rw [← Equiv.sum_comp (idxEquiv1 (n := n)).symm f]
  rfl

/-- The dimension numbers of  A.at[r, c].add(v)  for a matrix [N, M], pairs [E, 2] and updates [E]: both axes
    of the matrix are addressed by the two components of the index vector, an update is a single entry (no
    window axes). -/
abbrev pairScatterDims (N M E : Nat)
    (wf : ScatterDims.WF ⟨2, ![N, M]⟩ ⟨2, ![E, 2]⟩ ⟨1, ![E]⟩ [] [0, 1] [0, 1] 1) :
    ScatterDims ⟨2, ![N, M]⟩ ⟨2, ![E, 2]⟩ ⟨1, ![E]⟩ where
  updateWindowDims := []
  insertedWindowDims := [0, 1]
  scatterDimsToOperandDims := [0, 1]
  indexVectorDim := 1
  wf := wf

variable {N M E w : Nat} (wf : ScatterDims.WF ⟨2, ![N, M]⟩ ⟨2, ![E, 2]⟩ ⟨1, ![E]⟩ [] [0, 1] [0, 1] 1)

theorem row_axis_named : (0 : Fin 2) ∈ ([0, 1] : List (Fin 2)) := by decide
theorem col_axis_named : (1 : Fin 2) ∈ ([0, 1] : List (Fin 2)) := by decide

/-- On the row axis an update starts at the first component of its pair, read as a signed integer. -/
theorem start_row (idx : IVec ⟨2, ![E, 2]⟩ w) (e : Fin E) :
    (pairScatterDims N M E wf).start (ix1 e) idx 0 = (idx (ix2 e (0 : Fin 2))).toInt := by
  unfold ScatterDims.start
  rw [dif_pos (show (0 : Fin 2) ∈ (pairScatterDims N M E wf).scatterDimsToOperandDims from row_axis_named)]
  have hsi : (pairScatterDims N M E wf).siIdx (ix1 e) ⟨List.idxOf (0 : Fin 2) (pairScatterDims N M E wf).scatterDimsToOperandDims,
      List.idxOf_lt_length_iff.2 row_axis_named⟩ = ix2 e (0 : Fin 2) := by
    funext b; refine Fin.ext ?_
    match b with
    | ⟨0, _⟩ => rfl
    | ⟨1, _⟩ => rfl
  rw [hsi]

/-- On the column axis it starts at the second component. -/
theorem start_col (idx : IVec ⟨2, ![E, 2]⟩ w) (e : Fin E) :
    (pairScatterDims N M E wf).start (ix1 e) idx 1 = (idx (ix2 e (1 : Fin 2))).toInt := by
  unfold ScatterDims.start
  rw [dif_pos (show (1 : Fin 2) ∈ (pairScatterDims N M E wf).scatterDimsToOperandDims from col_axis_named)]
  have hsi : (pairScatterDims N M E wf).siIdx (ix1 e) ⟨List.idxOf (1 : Fin 2) (pairScatterDims N M E wf).scatterDimsToOperandDims,
      List.idxOf_lt_length_iff.2 col_axis_named⟩ = ix2 e (1 : Fin 2) := by
    funext b; refine Fin.ext ?_
    match b with
    | ⟨0, _⟩ => rfl
    | ⟨1, _⟩ => rfl
  rw [hsi]

/-- An update is one entry: it has no extent along either axis of the matrix. -/
theorem window_zero (e : Fin E) (a : Fin 2) : (pairScatterDims N M E wf).window (ix1 e) a = 0 := by
  unfold ScatterDims.window
  rw [dif_neg (show ¬ a ∈ (pairScatterDims N M E wf).sKept by
    simp [ScatterDims.sKept, Shape.kept, List.mem_filter, List.mem_finRange]; omega)]

/-- WHERE AN UPDATE LANDS: the update at position e lands on (n, k) exactly when its pair, read as signed
    integers, is (n, k). -/
theorem resultIdx?_pairs (idx : IVec ⟨2, ![E, 2]⟩ w) (e : Fin E) (n : Fin N) (k : Fin M) :
    (pairScatterDims N M E wf).resultIdx? (ix1 e) idx = some (ix2 n k)
      ↔ (idx (ix2 e (0 : Fin 2))).toInt = (n.val : ℤ) ∧ (idx (ix2 e (1 : Fin 2))).toInt = (k.val : ℤ) := by
  have h0 := start_row wf idx e
  have h1 := start_col wf idx e
  have w0 := window_zero wf e 0
  have w1 := window_zero wf e 1
  unfold ScatterDims.resultIdx?
  split
  · rename_i h
    rw [Option.some.injEq]
    constructor
    · intro hf
      have e0 := congrArg (fun f => (f 0).val) hf
      have e1 := congrArg (fun f => (f 1).val) hf
      have b0 := h 0
      have b1 := h 1
      rw [h0, w0] at b0
      rw [h1, w1] at b1
      have e0' : ((pairScatterDims N M E wf).start (ix1 e) idx 0 + ((pairScatterDims N M E wf).window (ix1 e) 0 : ℤ)).toNat = n.val := e0
      have e1' : ((pairScatterDims N M E wf).start (ix1 e) idx 1 + ((pairScatterDims N M E wf).window (ix1 e) 1 : ℤ)).toNat = k.val := e1
      rw [h0, w0] at e0'
      rw [h1, w1] at e1'
      exact ⟨by omega, by omega⟩
    · rintro ⟨hr, hc⟩
      funext a; refine Fin.ext ?_
      match a with
      | ⟨0, _⟩ =>
        show ((pairScatterDims N M E wf).start (ix1 e) idx 0 + ((pairScatterDims N M E wf).window (ix1 e) 0 : ℤ)).toNat = n.val
        rw [h0, w0]; omega
      | ⟨1, _⟩ =>
        show ((pairScatterDims N M E wf).start (ix1 e) idx 1 + ((pairScatterDims N M E wf).window (ix1 e) 1 : ℤ)).toNat = k.val
        rw [h1, w1]; omega
  · rename_i h
    constructor
    · intro hf; exact absurd hf (by simp)
    · rintro ⟨hr, hc⟩
      exfalso; apply h
      intro a
      match a with
      | ⟨0, _⟩ =>
        show 0 ≤ (pairScatterDims N M E wf).start (ix1 e) idx 0 + ((pairScatterDims N M E wf).window (ix1 e) 0 : ℤ)
          ∧ (pairScatterDims N M E wf).start (ix1 e) idx 0 + ((pairScatterDims N M E wf).window (ix1 e) 0 : ℤ) < (N : ℤ)
        rw [h0, w0]; have := n.isLt; omega
      | ⟨1, _⟩ =>
        show 0 ≤ (pairScatterDims N M E wf).start (ix1 e) idx 1 + ((pairScatterDims N M E wf).window (ix1 e) 1 : ℤ)
          ∧ (pairScatterDims N M E wf).start (ix1 e) idx 1 + ((pairScatterDims N M E wf).window (ix1 e) 1 : ℤ) < (M : ℤ)
        rw [h1, w1]; have := k.isLt; omega

/-- THE ACCUMULATING SCATTER AT (n, k), over the extended reals: the operand's entry plus the sum of the updates
    over the positions whose pair is (n, k). -/
theorem scatterAdd_pairs_apply {φ : FTy} (x : (⟨2, ![N, M]⟩ : Shape).Idx → EReal) (idx : IVec ⟨2, ![E, 2]⟩ w)
    (upd : (⟨1, ![E]⟩ : Shape).Idx → EReal) (n : Fin N) (k : Fin M) :
    Host.scatterAdd (F := Ideal) (φ := φ) (pairScatterDims N M E wf) x idx upd (ix2 n k)
      = x (ix2 n k) + ∑ e ∈ Finset.univ.filter (fun e : Fin E =>
          (idx (ix2 e (0 : Fin 2))).toInt = (n.val : ℤ) ∧ (idx (ix2 e (1 : Fin 2))).toInt = (k.val : ℤ)), upd (ix1 e) := by
  show x (ix2 n k) + ∑ j ∈ Finset.univ.filter (fun j => (pairScatterDims N M E wf).resultIdx? j idx = some (ix2 n k)), upd j = _
  congr 1
  rw [Finset.sum_filter, sum_idx1, Finset.sum_filter]
  refine Finset.sum_congr rfl fun e _ => ?_
  simp only [resultIdx?_pairs wf idx e n k]

end Cert.PairScatter

end
-- ==== Proof.LibDensePropagate.lean ====
/-
  One propagation step of a graph layer, two ways.

  Edges e carry a weight a_e, a target and a source node; a table t has one row per node.  The step computes,
  at node n and column q,   ∑ over the edges into n of  a_e · t[source_e, q].

  * The dense route assembles the N × N matrix  L[n, k] = ∑ of a_e over the edges k → n  by an accumulating
    scatter at (target, source) pairs into zeros, and multiplies:  (L · t)[n, q] = ∑_k L[n, k] · t[k, q].
  * The edgewise route gathers the source rows t[source_e, ·], scales row e by a_e, and scatter-adds the rows at
    their targets into zeros.

  With every node number in range — out of range the gather clamps where the scatter drops, and the two routes
  part — and real-valued weights and table (the product has to distribute over each entry's finite sum of
  parallel edges), the two routes give the same table.
-/
import Idealize.ShloMosaic.Lib.ValueIdx
import Idealize.ShloMosaic.PureOps.Ideal.Laws
import proofs.«114411_j49589692399794_2_alg».proof.Proof.LibRowLayers
import proofs.«114411_j49589692399794_2_alg».proof.Proof.LibRowGatherScatter
import proofs.«114411_j49589692399794_2_alg».proof.Proof.LibPairScatter
import proofs.«114411_j49589692399794_2_alg».proof.Proof.LibDenseEdges

noncomputable section

open scoped BigOperators

namespace Cert.DensePropagate

open Idealize.ShloMosaic Idealize.ShloMosaic.ValueIdx Idealize.ShloMosaic.RowOps
open Cert.RowLayers Cert.PairScatter Cert.DenseEdges

/-- The node a word names, when the word read as a signed integer is a node number. -/
def nodeOf {N w : ℕ} (v : BitVec w) (h : 0 ≤ v.toInt ∧ v.toInt < (N : ℤ)) : Fin N := ⟨v.toInt.toNat, by omega⟩

/-- The word reads as n exactly when the node it names is n. -/
theorem toInt_eq_iff {N w : ℕ} (v : BitVec w) (h : 0 ≤ v.toInt ∧ v.toInt < (N : ℤ)) (n : Fin N) :
    v.toInt = (n.val : ℤ) ↔ nodeOf v h = n := by
  constructor
  · intro hv; exact Fin.ext (by show v.toInt.toNat = n.val; omega)
  · intro hv
    have h2 : v.toInt.toNat = n.val := congrArg Fin.val hv
    omega

/-- In range, the row a gather reads (clamped) is the node the word names. -/
theorem gatherRow_eq_nodeOf {N E w : ℕ} (hN : 0 < N) (S : IVec ⟨2, ![E, 1]⟩ w) (e : Fin E)
    (h : 0 ≤ (S (ix2 e (0 : Fin 1))).toInt ∧ (S (ix2 e (0 : Fin 1))).toInt < (N : ℤ)) :
    gatherRow hN S e = nodeOf (S (ix2 e (0 : Fin 1))) h :=
  Fin.ext (by show min (S (ix2 e (0 : Fin 1))).toInt.toNat (N - 1) = (S (ix2 e (0 : Fin 1))).toInt.toNat; omega)

/-- THE TWO ROUTES AGREE, entry by entry. P holds the (target, source) pairs the dense route scatters at; R and S
    are the target column and the source column the edgewise route scatters and gathers at; u is the edgewise
    route's scaled rows. -/
theorem dense_route_eq_edge_route {N E C w : ℕ} (hN : 0 < N)
    (wfP : ScatterDims.WF ⟨2, ![N, N]⟩ ⟨2, ![E, 2]⟩ ⟨1, ![E]⟩ [] [0, 1] [0, 1] 1)
    (wfS : ScatterDims.WF ⟨2, ![N, C]⟩ ⟨2, ![E, 1]⟩ ⟨2, ![E, C]⟩ [1] [0] [0] 1)
    (wfG : GatherDims.WF ⟨2, ![N, C]⟩ ⟨2, ![E, 1]⟩ ⟨2, ![E, C]⟩ [1] [0] [] [0] [] 1 ![1, C])
    {D : DotDims ⟨2, ![N, N]⟩ ⟨2, ![N, C]⟩ ⟨2, ![N, C]⟩} (HD : RowsTimesCols D) (prec : Option ContractPrecision)
    (P : IVec ⟨2, ![E, 2]⟩ w) (R S : IVec ⟨2, ![E, 1]⟩ w)
    (hR : ∀ e : Fin E, R (ix2 e (0 : Fin 1)) = P (ix2 e (0 : Fin 2)))
    (hS : ∀ e : Fin E, S (ix2 e (0 : Fin 1)) = P (ix2 e (1 : Fin 2)))
    (hr : ∀ e : Fin E, 0 ≤ (P (ix2 e (0 : Fin 2))).toInt ∧ (P (ix2 e (0 : Fin 2))).toInt < (N : ℤ))
    (hs : ∀ e : Fin E, 0 ≤ (P (ix2 e (1 : Fin 2))).toInt ∧ (P (ix2 e (1 : Fin 2))).toInt < (N : ℤ))
    (z2 : FVec Ideal ⟨2, ![N, N]⟩ .f32) (hz2 : ∀ i, z2 i = (0 : EReal))
    (zc : FVec Ideal ⟨2, ![N, C]⟩ .f32) (hzc : ∀ i, zc i = (0 : EReal))
    (a : FVec Ideal ⟨1, ![E]⟩ .f32) (ha : ∀ i, IsReal (a i))
    (t : FVec Ideal ⟨2, ![N, C]⟩ .f32) (ht : ∀ i, IsReal (t i))
    (u : FVec Ideal ⟨2, ![E, C]⟩ .f32)
    (hu : ∀ (e : Fin E) (q : Fin C), u (ix2 e q) = a (ix1 e) * Host.gather (rowGatherDims N E C wfG) t S (ix2 e q))
    (n : Fin N) (q : Fin C) :
    Host.dotGeneral (F := Ideal) D prec (Host.scatterAdd (F := Ideal) (pairScatterDims N N E wfP) z2 P a) t (ix2 n q)
      = Host.scatterAdd (F := Ideal) (rowScatterDims N E C wfS) zc R u (ix2 n q) := by
  -- the dense route, entry by entry
  have hL : Host.dotGeneral (F := Ideal) D prec (Host.scatterAdd (F := Ideal) (pairScatterDims N N E wfP) z2 P a) t (ix2 n q)
      = ∑ k : Fin N, Host.scatterAdd (F := Ideal) (pairScatterDims N N E wfP) z2 P a (ix2 n k) * t (ix2 k q) :=
    congrFun (rowOf_dotGeneral HD prec (Host.scatterAdd (F := Ideal) (pairScatterDims N N E wfP) z2 P a) t n) q
  rw [hL, scatterAdd_rows_apply wfS zc R u n q, hzc]
  have key := dense_eq_edges (fun e : Fin E => nodeOf (P (ix2 e (0 : Fin 2))) (hr e))
    (fun e : Fin E => nodeOf (P (ix2 e (1 : Fin 2))) (hs e)) (fun e : Fin E => (a (ix1 e) : EReal))
    (fun k : Fin N => (t (ix2 k q) : EReal)) (fun e => ha _) (fun k => ht _) n
  refine Eq.trans ?_ (key.trans ?_)
  · refine Finset.sum_congr rfl fun k _ => ?_
    rw [scatterAdd_pairs_apply wfP z2 P a n k, hz2]
    refine congrArg (fun s : EReal => ((0 : EReal) + s) * t (ix2 k q)) ?_
    refine Finset.sum_congr (Finset.filter_congr fun e _ => ?_) fun _ _ => rfl
    rw [toInt_eq_iff _ (hr e) n, toInt_eq_iff _ (hs e) k]
  · refine congrArg (fun s : EReal => (0 : EReal) + s) ?_
    refine Finset.sum_congr (Finset.filter_congr fun e _ => ?_) fun e _ => ?_
    · rw [hR e]; exact (toInt_eq_iff _ (hr e) n).symm
    · have hs' : 0 ≤ (S (ix2 e (0 : Fin 1))).toInt ∧ (S (ix2 e (0 : Fin 1))).toInt < (N : ℤ) := by rw [hS e]; exact hs e
      have hg : gatherRow hN S e = nodeOf (P (ix2 e (1 : Fin 2))) (hs e) := by
        rw [gatherRow_eq_nodeOf hN S e hs']
        exact Fin.ext (by show (S (ix2 e (0 : Fin 1))).toInt.toNat = (P (ix2 e (1 : Fin 2))).toInt.toNat; rw [hS e])
      rw [hu e q, gather_rows_apply hN wfG t S e q, hg]

end Cert.DensePropagate

end
-- ==== Proof.Propagate.lean ====
/-
  One propagation step, as the two programs print it.

  The dense program scatters the edge weights at (target, source) pairs into a zero N × N matrix and multiplies
  the matrix by the node table: entry (n, q) of the product is  ∑_k L[n, k] · t[k, q].  The edgewise program
  gathers the source rows of the table, scales row e by the weight of edge e (the weight vector given a unit
  trailing axis and broadcast along the columns), and scatter-adds the rows at their targets into a zero
  table.  With every node number in range and real-valued weights and table the two give the same entry; this
  file states that for the dimension records the two programs print, for a table of 128 columns and for one
  of 64.
-/
import proofs.«114411_j49589692399794_2_alg».proof.Proof.LibDensePropagate
import proofs.«114411_j49589692399794_2_alg».proof.KernelIdeal
import proofs.«114411_j49589692399794_2_alg».proof.ReferenceIdeal

noncomputable section

open scoped BigOperators

namespace Cert.Propagate

open Idealize.ShloMosaic Idealize.ShloMosaic.ValueIdx Idealize.ShloMosaic.RowOps
open Cert.RowLayers Cert.PairScatter Cert.DenseEdges Cert.DensePropagate

/-- An array of the zero word is zero everywhere. -/
theorem zeros_apply {s : Shape} (hb : (⟨0, ![]⟩ : Shape).BroadcastsInDim s (![] : Fin 0 → Fin s.rank)) (i : s.Idx) :
    broadcastInDim s ![] hb (constant (F := Ideal) ⟨0, ![]⟩ .f32 0x00000000#32) i = (0 : EReal) :=
  Ideal.ofBits_zero_f32

/-- A vector given a unit trailing axis and broadcast along C columns: entry (e, q) is the vector's entry e. -/
theorem column_broadcast_apply {α : Type} {E C : ℕ} (hb1 : (⟨1, ![E]⟩ : Shape).BroadcastsInDim ⟨2, ![E, 1]⟩ ![0])
    (hb2 : (⟨2, ![E, 1]⟩ : Shape).BroadcastsInDim ⟨2, ![E, C]⟩ ![0, 1]) (a : (⟨1, ![E]⟩ : Shape).Idx → α) (e : Fin E) (q : Fin C) :
    broadcastInDim ⟨2, ![E, C]⟩ ![0, 1] hb2 (broadcastInDim ⟨2, ![E, 1]⟩ ![0] hb1 a) (ix2 e q) = a (ix1 e) := by
  rw [broadcastInDim_apply ![0, 1] hb2 _ (ix2 e q) (ix2 e (0 : Fin 1)) (fun ax => by
        match ax with
        | ⟨0, _⟩ => show e.val = if E = 1 then 0 else e.val; split <;> [(have := e.isLt; omega); rfl]
        | ⟨1, _⟩ => show (0 : ℕ) = if (1 : ℕ) = 1 then 0 else q.val; rw [if_pos rfl]),
      broadcastInDim_apply ![0] hb1 a (ix2 e (0 : Fin 1)) (ix1 e) (fun ax => by
        match ax with
        | ⟨0, _⟩ => show e.val = if E = 1 then 0 else e.val; split <;> [(have := e.isLt; omega); rfl])]

/-- A vector given a unit trailing axis: entry (e, 0) is the vector's entry e. -/
theorem column_apply {α : Type} {E : ℕ} (hb1 : (⟨1, ![E]⟩ : Shape).BroadcastsInDim ⟨2, ![E, 1]⟩ ![0])
    (a : (⟨1, ![E]⟩ : Shape).Idx → α) (e : Fin E) :
    broadcastInDim ⟨2, ![E, 1]⟩ ![0] hb1 a (ix2 e (0 : Fin 1)) = a (ix1 e) :=
  broadcastInDim_apply ![0] hb1 a (ix2 e (0 : Fin 1)) (ix1 e) (fun ax => by
    match ax with
    | ⟨0, _⟩ => show e.val = if E = 1 then 0 else e.val; split <;> [(have := e.isLt; omega); rfl])

/-- THE TWO ROUTES AGREE, the dense one as a sum: row n of the scattered matrix against column q of the table is the
    edgewise route's entry (n, q).  P holds the (target, source) pairs; R and S are the target and the source column;
    u is the edgewise route's scaled rows. -/
theorem dense_sum_eq_edge_route {N E C w : ℕ} (hN : 0 < N)
    (wfP : ScatterDims.WF ⟨2, ![N, N]⟩ ⟨2, ![E, 2]⟩ ⟨1, ![E]⟩ [] [0, 1] [0, 1] 1)
    (wfS : ScatterDims.WF ⟨2, ![N, C]⟩ ⟨2, ![E, 1]⟩ ⟨2, ![E, C]⟩ [1] [0] [0] 1)
    (wfG : GatherDims.WF ⟨2, ![N, C]⟩ ⟨2, ![E, 1]⟩ ⟨2, ![E, C]⟩ [1] [0] [] [0] [] 1 ![1, C])
    (P : IVec ⟨2, ![E, 2]⟩ w) (R S : IVec ⟨2, ![E, 1]⟩ w)
    (hR : ∀ e : Fin E, R (ix2 e (0 : Fin 1)) = P (ix2 e (0 : Fin 2)))
    (hS : ∀ e : Fin E, S (ix2 e (0 : Fin 1)) = P (ix2 e (1 : Fin 2)))
    (hr : ∀ e : Fin E, 0 ≤ (P (ix2 e (0 : Fin 2))).toInt ∧ (P (ix2 e (0 : Fin 2))).toInt < (N : ℤ))
    (hs : ∀ e : Fin E, 0 ≤ (P (ix2 e (1 : Fin 2))).toInt ∧ (P (ix2 e (1 : Fin 2))).toInt < (N : ℤ))
    (z2 : FVec Ideal ⟨2, ![N, N]⟩ .f32) (hz2 : ∀ i, z2 i = (0 : EReal))
    (zc : FVec Ideal ⟨2, ![N, C]⟩ .f32) (hzc : ∀ i, zc i = (0 : EReal))
    (a : FVec Ideal ⟨1, ![E]⟩ .f32) (ha : ∀ i, IsReal (a i))
    (t : FVec Ideal ⟨2, ![N, C]⟩ .f32) (ht : ∀ i, IsReal (t i))
    (u : FVec Ideal ⟨2, ![E, C]⟩ .f32)
    (hu : ∀ (e : Fin E) (q : Fin C), u (ix2 e q) = a (ix1 e) * Host.gather (rowGatherDims N E C wfG) t S (ix2 e q))
    (n : Fin N) (q : Fin C) :
    ∑ k : Fin N, Host.scatterAdd (F := Ideal) (pairScatterDims N N E wfP) z2 P a (ix2 n k) * t (ix2 k q)
      = Host.scatterAdd (F := Ideal) (rowScatterDims N E C wfS) zc R u (ix2 n q) := by
  rw [scatterAdd_rows_apply wfS zc R u n q, hzc]
  have key := dense_eq_edges (fun e : Fin E => nodeOf (P (ix2 e (0 : Fin 2))) (hr e))
    (fun e : Fin E => nodeOf (P (ix2 e (1 : Fin 2))) (hs e)) (fun e : Fin E => (a (ix1 e) : EReal))
    (fun k : Fin N => (t (ix2 k q) : EReal)) (fun e => ha _) (fun k => ht _) n
  refine Eq.trans ?_ (key.trans ?_)
  · refine Finset.sum_congr rfl fun k _ => ?_
    rw [scatterAdd_pairs_apply wfP z2 P a n k, hz2]
    refine congrArg (fun s : EReal => ((0 : EReal) + s) * t (ix2 k q)) ?_
    refine Finset.sum_congr (Finset.filter_congr fun e _ => ?_) fun _ _ => rfl
    rw [toInt_eq_iff _ (hr e) n, toInt_eq_iff _ (hs e) k]
  · refine congrArg (fun s : EReal => (0 : EReal) + s) ?_
    refine Finset.sum_congr (Finset.filter_congr fun e _ => ?_) fun e _ => ?_
    · rw [hR e]; exact (toInt_eq_iff _ (hr e) n).symm
    · have hs' : 0 ≤ (S (ix2 e (0 : Fin 1))).toInt ∧ (S (ix2 e (0 : Fin 1))).toInt < (N : ℤ) := by rw [hS e]; exact hs e
      have hg : gatherRow hN S e = nodeOf (P (ix2 e (1 : Fin 2))) (hs e) := by
        rw [gatherRow_eq_nodeOf hN S e hs']
        exact Fin.ext (by show (S (ix2 e (0 : Fin 1))).toInt.toNat = (P (ix2 e (1 : Fin 2))).toInt.toNat; rw [hS e])
      rw [hu e q, gather_rows_apply hN wfG t S e q, hg]

/-- The same sum is a real number: the dense route keeps real-valued data real-valued. -/
theorem isReal_dense_sum {N E w : ℕ} {C : ℕ}
    (wfP : ScatterDims.WF ⟨2, ![N, N]⟩ ⟨2, ![E, 2]⟩ ⟨1, ![E]⟩ [] [0, 1] [0, 1] 1)
    (P : IVec ⟨2, ![E, 2]⟩ w)
    (z2 : FVec Ideal ⟨2, ![N, N]⟩ .f32) (hz2 : ∀ i, z2 i = (0 : EReal))
    (a : FVec Ideal ⟨1, ![E]⟩ .f32) (ha : ∀ i, IsReal (a i))
    (t : FVec Ideal ⟨2, ![N, C]⟩ .f32) (ht : ∀ i, IsReal (t i))
    (n : Fin N) (q : Fin C) :
    IsReal (∑ k : Fin N, Host.scatterAdd (F := Ideal) (pairScatterDims N N E wfP) z2 P a (ix2 n k) * t (ix2 k q)) := by
  refine isReal_sum _ _ fun k _ => IsReal.mul ?_ (ht _)
  rw [scatterAdd_pairs_apply wfP z2 P a n k, hz2]
  exact isReal_zero.add (isReal_sum _ _ fun e _ => ha _)

section Printed

variable [Cert.KernelIdeal.Facts] [Cert.ReferenceIdeal.Facts]

/-- The dense program's scatter record is the pair scatter's. -/
theorem pair_record :
    Cert.KernelIdeal.scatter_S16384x16384_S524288x2_S524288_n_01_01_1
      = pairScatterDims 16384 16384 524288 Cert.KernelIdeal.Facts₀.scatter_S16384x16384_S524288x2_S524288_n_01_01_1_wf := rfl

/-- The edgewise program's records, 128 columns. -/
theorem row_scatter_record_128 :
    Cert.ReferenceIdeal.scatter_S16384x128_S524288x1_S524288x128_1_0_0_1
      = rowScatterDims 16384 524288 128 Cert.ReferenceIdeal.Facts₀.scatter_S16384x128_S524288x1_S524288x128_1_0_0_1_wf := rfl
theorem row_gather_record_128 :
    Cert.ReferenceIdeal.gather_S16384x128_S524288x1_S524288x128_1_0_n_n_0_1_1128
      = rowGatherDims 16384 524288 128 Cert.ReferenceIdeal.Facts₀.gather_S16384x128_S524288x1_S524288x128_1_0_n_n_0_1_1128_wf := rfl

/-- The edgewise program's records, 64 columns. -/
theorem row_scatter_record_64 :
    Cert.ReferenceIdeal.scatter_S16384x64_S524288x1_S524288x64_1_0_0_1
      = rowScatterDims 16384 524288 64 Cert.ReferenceIdeal.Facts₀.scatter_S16384x64_S524288x1_S524288x64_1_0_0_1_wf := rfl
theorem row_gather_record_64 :
    Cert.ReferenceIdeal.gather_S16384x64_S524288x1_S524288x64_1_0_n_n_0_1_164
      = rowGatherDims 16384 524288 64 Cert.ReferenceIdeal.Facts₀.gather_S16384x64_S524288x1_S524288x64_1_0_n_n_0_1_164_wf := rfl

/-- ONE PROPAGATION STEP, 128 columns, as printed: the dense program's matrix (its scatter of the weights w at the
    pairs into zeros) row n against column q of a real-valued table t is the edgewise program's entry (n, q) — its
    scatter-add at the target column of (w broadcast along the columns) × (the table's rows gathered at the source
    column) into zeros. -/
theorem propagate_128
    (pairs : IVec ⟨2, ![524288, 2]⟩ 32) (dstcol srccol : IVec ⟨2, ![524288, 1]⟩ 32)
    (hdst : ∀ e : Fin 524288, dstcol (ix2 e (0 : Fin 1)) = pairs (ix2 e (0 : Fin 2)))
    (hsrc : ∀ e : Fin 524288, srccol (ix2 e (0 : Fin 1)) = pairs (ix2 e (1 : Fin 2)))
    (hr : ∀ e : Fin 524288, 0 ≤ (pairs (ix2 e (0 : Fin 2))).toInt ∧ (pairs (ix2 e (0 : Fin 2))).toInt < 16384)
    (hs : ∀ e : Fin 524288, 0 ≤ (pairs (ix2 e (1 : Fin 2))).toInt ∧ (pairs (ix2 e (1 : Fin 2))).toInt < 16384)
    (z2 : FVec Ideal ⟨2, ![16384, 16384]⟩ .f32) (hz2 : ∀ i, z2 i = (0 : EReal))
    (zc : FVec Ideal ⟨2, ![16384, 128]⟩ .f32) (hzc : ∀ i, zc i = (0 : EReal))
    (w : FVec Ideal ⟨1, ![524288]⟩ .f32) (hw : ∀ i, IsReal (w i))
    (t : FVec Ideal ⟨2, ![16384, 128]⟩ .f32) (ht : ∀ i, IsReal (t i))
    (n : Fin 16384) (q : Fin 128) :
    ∑ k : Fin 16384, Host.scatterAdd (F := Ideal) Cert.KernelIdeal.scatter_S16384x16384_S524288x2_S524288_n_01_01_1 z2 pairs w (ix2 n k) * t (ix2 k q)
      = Host.scatterAdd (F := Ideal) Cert.ReferenceIdeal.scatter_S16384x128_S524288x1_S524288x128_1_0_0_1 zc dstcol
          (mulf (broadcastInDim Cert.ReferenceIdeal.S524288x128 ![0, 1] Cert.ReferenceIdeal.Facts₀.bcast_S524288x1_S524288x128_0_1
                  (broadcastInDim Cert.ReferenceIdeal.S524288x1 ![0] Cert.ReferenceIdeal.Facts₀.bcast_S524288_S524288x1_0 w))
            (Host.gather Cert.ReferenceIdeal.gather_S16384x128_S524288x1_S524288x128_1_0_n_n_0_1_1128 t srccol)) (ix2 n q) := by
  rw [pair_record, row_scatter_record_128, row_gather_record_128]
  exact dense_sum_eq_edge_route (by decide) _ _ _ pairs dstcol srccol hdst hsrc hr hs z2 hz2 zc hzc w hw t ht _
    (fun e q => by rw [mulf_apply, column_broadcast_apply]) n q

/-- ONE PROPAGATION STEP, 64 columns, as printed. -/
theorem propagate_64
    (pairs : IVec ⟨2, ![524288, 2]⟩ 32) (dstcol srccol : IVec ⟨2, ![524288, 1]⟩ 32)
    (hdst : ∀ e : Fin 524288, dstcol (ix2 e (0 : Fin 1)) = pairs (ix2 e (0 : Fin 2)))
    (hsrc : ∀ e : Fin 524288, srccol (ix2 e (0 : Fin 1)) = pairs (ix2 e (1 : Fin 2)))
    (hr : ∀ e : Fin 524288, 0 ≤ (pairs (ix2 e (0 : Fin 2))).toInt ∧ (pairs (ix2 e (0 : Fin 2))).toInt < 16384)
    (hs : ∀ e : Fin 524288, 0 ≤ (pairs (ix2 e (1 : Fin 2))).toInt ∧ (pairs (ix2 e (1 : Fin 2))).toInt < 16384)
    (z2 : FVec Ideal ⟨2, ![16384, 16384]⟩ .f32) (hz2 : ∀ i, z2 i = (0 : EReal))
    (zc : FVec Ideal ⟨2, ![16384, 64]⟩ .f32) (hzc : ∀ i, zc i = (0 : EReal))
    (w : FVec Ideal ⟨1, ![524288]⟩ .f32) (hw : ∀ i, IsReal (w i))
    (t : FVec Ideal ⟨2, ![16384, 64]⟩ .f32) (ht : ∀ i, IsReal (t i))
    (n : Fin 16384) (q : Fin 64) :
    ∑ k : Fin 16384, Host.scatterAdd (F := Ideal) Cert.KernelIdeal.scatter_S16384x16384_S524288x2_S524288_n_01_01_1 z2 pairs w (ix2 n k) * t (ix2 k q)
      = Host.scatterAdd (F := Ideal) Cert.ReferenceIdeal.scatter_S16384x64_S524288x1_S524288x64_1_0_0_1 zc dstcol
          (mulf (broadcastInDim Cert.ReferenceIdeal.S524288x64 ![0, 1] Cert.ReferenceIdeal.Facts₀.bcast_S524288x1_S524288x64_0_1
                  (broadcastInDim Cert.ReferenceIdeal.S524288x1 ![0] Cert.ReferenceIdeal.Facts₀.bcast_S524288_S524288x1_0 w))
            (Host.gather Cert.ReferenceIdeal.gather_S16384x64_S524288x1_S524288x64_1_0_n_n_0_1_164 t srccol)) (ix2 n q) := by
  rw [pair_record, row_scatter_record_64, row_gather_record_64]
  exact dense_sum_eq_edge_route (by decide) _ _ _ pairs dstcol srccol hdst hsrc hr hs z2 hz2 zc hzc w hw t ht _
    (fun e q => by rw [mulf_apply, column_broadcast_apply]) n q

end Printed

end Cert.Propagate

end
-- ==== Proof.Join.lean ====
/-
  The two programs' results agree.

  The dense program scatter-adds the edge weights at the (target, source) pairs into a zero N × N matrix P and takes
  three products: H0 = relu(x·Wt + bt), T = P·H0 and, with H1 = relu(H0·W1a + T·W1b + b1), T' = P·H1.  The edgewise
  program computes the same H0 and propagates it, and then H1, edge by edge.  Under the precondition every word of the
  edge list is a node number and every float input is real-valued; then the edge weights are real numbers, H0 and H1
  are real-valued, and row n of P against column q of a real-valued table is the edgewise propagation's entry (n, q)
  (the propagation step).  So the dense program's three tables are the edgewise program's, and the last stretch —
  the same function of the second hidden table and its propagation on both sides — gives the same two results.
-/
import proofs.«114411_j49589692399794_2_alg».proof.Proof.Layers
import proofs.«114411_j49589692399794_2_alg».proof.Proof.LayersReal
import proofs.«114411_j49589692399794_2_alg».proof.Proof.Propagate

noncomputable section

open scoped BigOperators

namespace Cert.Join

open Idealize.ShloMosaic Idealize.ShloMosaic.ValueIdx Cert.DenseEdges Cert.Layers Cert.EdgeWeights

variable [Cert.ReferenceIdeal.Facts] [Cert.KernelIdeal.Facts]

open Cert.ReferenceIdeal Cert.ReferenceIdeal.Facts₀

/-- THE DENSE PROPAGATION MATRIX: the edge weights scatter-added at the (target, source) pairs into zeros. -/
def Pmat (a13 : IVec S2x524288 32) : FVec Ideal Cert.KernelIdeal.S16384x16384 .f32 :=
  Host.scatterAdd (F := Ideal) Cert.KernelIdeal.scatter_S16384x16384_S524288x2_S524288_n_01_01_1
    (broadcastInDim Cert.KernelIdeal.S16384x16384 ![] Cert.KernelIdeal.Facts₀.bcast_S_S16384x16384 (constant (F := Ideal) S_ .f32 0x00000000#32))
    (pairs a13) (edgeW a13)

section InRange
variable (a13 : IVec S2x524288 32) (h : ∀ i, 0 ≤ (a13 i).toInt ∧ (a13 i).toInt < 16384)
include h

/-- Row n of the matrix against column q of a real-valued table of 128 columns is the edgewise propagation's entry. -/
theorem dense_eq_prop128 (t : FVec Ideal S16384x128 .f32) (ht : ∀ i, IsReal (t i)) (n : Fin 16384) (q : Fin 128) :
    ∑ k : Fin 16384, Pmat a13 (ix2 n k) * t (ix2 k q) = prop128 (edgeW a13) a13 t (ix2 n q) := by
  unfold Pmat prop128
  exact Cert.Propagate.propagate_128 (pairs a13) (col (dstRow a13)) (col (wrap (srcRow a13)))
    (dstcol_eq_pairs a13 h) (srccol_eq_pairs a13) (pairs_zero_range a13 h) (pairs_one_range a13 h)
    _ (Cert.EdgeWeights.zeros_apply _) _ (Cert.EdgeWeights.zeros_apply _) (edgeW a13) (isReal_edgeW a13) t ht n q

/-- The same for a table of 64 columns. -/
theorem dense_eq_prop64 (t : FVec Ideal S16384x64 .f32) (ht : ∀ i, IsReal (t i)) (n : Fin 16384) (q : Fin 64) :
    ∑ k : Fin 16384, Pmat a13 (ix2 n k) * t (ix2 k q) = prop64 (edgeW a13) a13 t (ix2 n q) := by
  unfold Pmat prop64
  exact Cert.Propagate.propagate_64 (pairs a13) (col (dstRow a13)) (col (wrap (srcRow a13)))
    (dstcol_eq_pairs a13 h) (srccol_eq_pairs a13) (pairs_zero_range a13 h) (pairs_one_range a13 h)
    _ (Cert.EdgeWeights.zeros_apply _) _ (Cert.EdgeWeights.zeros_apply _) (edgeW a13) (isReal_edgeW a13) t ht n q

/-- The propagation of a real-valued table is real-valued. -/
theorem isReal_prop128 (t : FVec Ideal S16384x128 .f32) (ht : ∀ i, IsReal (t i)) (i : S16384x128.Idx) :
    IsReal (prop128 (edgeW a13) a13 t i) := by
  obtain ⟨n, q, rfl⟩ : ∃ (n : Fin 16384) (q : Fin 128), i = ix2 n q := ⟨i 0, i 1, eq_ix2 i⟩
  rw [← dense_eq_prop128 a13 h t ht n q]
  unfold Pmat
  rw [Cert.Propagate.pair_record]
  exact Cert.Propagate.isReal_dense_sum _ (pairs a13) _ (Cert.EdgeWeights.zeros_apply _) (edgeW a13) (isReal_edgeW a13) t ht n q

end InRange

/-- A table with the first hidden table's entries is the first hidden table. -/
theorem eq_h0 (a0 : FVec Ideal S16384x16384 .f32) (a1 : FVec Ideal S16384x128 .f32) (a2 : FVec Ideal S128 .f32)
    (H0K : FVec Ideal S16384x128 .f32)
    (hH0 : ∀ (n : Fin 16384) (q : Fin 128), H0K (ix2 n q) = max ((∑ k : Fin 16384, a0 (ix2 n k) * a1 (ix2 k q)) + a2 (ix1 q)) 0) :
    H0K = h0 a0 a1 a2 := by
  funext i
  obtain ⟨n, q, rfl⟩ : ∃ (n : Fin 16384) (q : Fin 128), i = ix2 n q := ⟨i 0, i 1, eq_ix2 i⟩
  rw [hH0, h0_apply]

/-- THE TWO PROGRAMS' RESULTS AGREE.  H0K, TXAK and TXBK are the dense program's three products, given by their
    entries: the first hidden table, the matrix times it, and the matrix times the second hidden table. -/
theorem results_eq (a0 : FVec Ideal S16384x16384 .f32) (a1 : FVec Ideal S16384x128 .f32) (a2 : FVec Ideal S128 .f32)
    (a3 a4 : FVec Ideal S128x64 .f32) (a5 : FVec Ideal S64 .f32) (a6 a7 : FVec Ideal S64x32 .f32) (a8 : FVec Ideal S32 .f32)
    (a9 a10 : FVec Ideal S64x32 .f32) (a11 : FVec Ideal S32 .f32) (a12 : FVec Ideal S16384x32 .f32) (a13 a14 : IVec S2x524288 32)
    (r0 : ∀ i, IsReal (a0 i)) (r1 : ∀ i, IsReal (a1 i)) (r2 : ∀ i, IsReal (a2 i)) (r3 : ∀ i, IsReal (a3 i))
    (r4 : ∀ i, IsReal (a4 i)) (r5 : ∀ i, IsReal (a5 i))
    (h : ∀ i, 0 ≤ (a13 i).toInt ∧ (a13 i).toInt < 16384)
    (H0K TXAK : FVec Ideal S16384x128 .f32) (TXBK : FVec Ideal S16384x64 .f32)
    (hH0 : ∀ (n : Fin 16384) (q : Fin 128), H0K (ix2 n q) = max ((∑ k : Fin 16384, a0 (ix2 n k) * a1 (ix2 k q)) + a2 (ix1 q)) 0)
    (hTXA : ∀ (n : Fin 16384) (q : Fin 128), TXAK (ix2 n q) = ∑ k : Fin 16384, Pmat a13 (ix2 n k) * H0K (ix2 k q))
    (hTXB : ∀ (n : Fin 16384) (q : Fin 64), TXBK (ix2 n q) = ∑ k : Fin 16384, Pmat a13 (ix2 n k) * mid H0K TXAK a3 a4 a5 (ix2 k q)) :
    tailZ (mid H0K TXAK a3 a4 a5) TXBK TXBK a6 a7 a8 a9 a10 a11 a12
        = tailZ (H1R a0 a1 a2 a3 a4 a5 a13) (TXB_R a0 a1 a2 a3 a4 a5 a13) (TXB_R a0 a1 a2 a3 a4 a5 a13) a6 a7 a8 a9 a10 a11 a12
      ∧ tailL (mid H0K TXAK a3 a4 a5) TXBK TXBK a6 a7 a8 a9 a10 a11 a12 a13 a14
        = tailL (H1R a0 a1 a2 a3 a4 a5 a13) (TXB_R a0 a1 a2 a3 a4 a5 a13) (TXB_R a0 a1 a2 a3 a4 a5 a13) a6 a7 a8 a9 a10 a11 a12 a13 a14 := by
  have e0 : H0K = h0 a0 a1 a2 := eq_h0 a0 a1 a2 H0K hH0
  subst e0
  have rH0 : ∀ i, IsReal (h0 a0 a1 a2 i) := isReal_h0 a0 a1 a2 r0 r1 r2
  have eA : TXAK = TXA_R a0 a1 a2 a13 := by
    funext i
    obtain ⟨n, q, rfl⟩ : ∃ (n : Fin 16384) (q : Fin 128), i = ix2 n q := ⟨i 0, i 1, eq_ix2 i⟩
    rw [hTXA]
    exact dense_eq_prop128 a13 h _ rH0 n q
  subst eA
  have rH1 : ∀ i, IsReal (H1R a0 a1 a2 a3 a4 a5 a13 i) :=
    isReal_mid _ _ a3 a4 a5 rH0 (isReal_prop128 a13 h _ rH0) r3 r4 r5
  have eB : TXBK = TXB_R a0 a1 a2 a3 a4 a5 a13 := by
    funext i
    obtain ⟨n, q, rfl⟩ : ∃ (n : Fin 16384) (q : Fin 64), i = ix2 n q := ⟨i 0, i 1, eq_ix2 i⟩
    rw [hTXB]
    exact dense_eq_prop64 a13 h _ rH1 n q
  subst eB
  exact ⟨rfl, rfl⟩

end Cert.Join

end
-- ==== Proof.KStretches.lean ====
/-
  The dense program's host operations between its three products, read as the named layers.

  Between the products the program applies host operations in order; what a buffer holds after a stretch is the
  stretch's operations applied to what the buffers held before it.  Read that way, from any contents X of the buffers
  at the stretch's start: the matrix the second and third products multiply by is the edge weights scatter-added at
  the (target, source) pairs into zeros, and the first product's bias array is the bias vector as one row; the table
  the third product multiplies is mid of the first product's output and the second's; and the two results are the
  last stretch tailZ / tailL of that table and the third product's output.
-/
import proofs.«114411_j49589692399794_2_alg».proof.Proof.Gen.KernelIdeal.Launch
import proofs.«114411_j49589692399794_2_alg».proof.Proof.KRunWrites
import proofs.«114411_j49589692399794_2_alg».proof.Proof.Join

set_option maxRecDepth 16384
set_option maxHeartbeats 4000000

noncomputable section

namespace Cert.KernelIdeal.Stretch

open Idealize.ShloMosaic Idealize.ShloMosaic.TcCoe Idealize.ShloMosaic.Tactic Idealize.ShloMosaic.ValueIdx
open Idealize.SL Idealize.SL.Sem
open Cert.KernelIdeal Cert.KernelIdeal.Gen

variable [Cert.ReferenceIdeal.Facts]

variable (X : Valuation τ sig (Elt Ideal))

/-! ## Before the first product -/

/-- The rows of the edge list: sources and targets. -/
theorem src_row : StableHlo.after main_part0_ops0 X (Proc.devRef .tc main_v1) = Cert.EdgeWeights.srcRow (X (Proc.devRef .tc main_arg13)) := by
  after_results
  rfl
theorem dst_row : StableHlo.after main_part0_ops0 X (Proc.devRef .tc main_v3) = Cert.EdgeWeights.dstRow (X (Proc.devRef .tc main_arg13)) := by
  after_results
  rfl

/-- The first stretch: the degrees compared with zero, the inverse square roots of max(degree, 1), and a zero. -/
theorem deg_pos_at :
    StableHlo.after main_part0_ops0 X (Proc.devRef .tc main_v13)
      = cmpf (F := Ideal) .ogt (Cert.EdgeWeights.deg (X (Proc.devRef .tc main_arg13)))
          (broadcastInDim S16384 ![] Facts₀.bcast_S_S16384 (constant (F := Ideal) S_ .f32 0x00000000#32)) := by
  after_results_simp
  rfl
theorem inv_sqrt_at :
    StableHlo.after main_part0_ops0 X (Proc.devRef .tc main_v18)
      = Host.divf (F := Ideal) (broadcastInDim S16384 ![] Facts₀.bcast_S_S16384 (constant (F := Ideal) S_ .f32 0x3F800000#32))
          (Host.sqrt (F := Ideal) (maximumf (Cert.EdgeWeights.deg (X (Proc.devRef .tc main_arg13)))
            (broadcastInDim S16384 ![] Facts₀.bcast_S_S16384 (constant (F := Ideal) S_ .f32 0x3F800000#32)))) := by
  after_results_simp
  rfl
theorem zero_at :
    StableHlo.after main_part0_ops0 X (Proc.devRef .tc main_cst_4) = constant (F := Ideal) S_ .f32 0x00000000#32 := by
  after_results_simp <;> rfl

/-- The second stretch: the choice between the two. -/
theorem where_at (Y : Valuation τ sig (Elt Ideal)) :
    StableHlo.after main_part0_ops1 Y (Proc.devRef .tc main_v19)
      = (select (Y (Proc.devRef .tc main_v13)) (Y (Proc.devRef .tc main_v18) : FVec Ideal S16384 .f32)
          (broadcastInDim S16384 ![] Facts₀.bcast_S_S16384 (id (Y (Proc.devRef .tc main_cst_4) : FVec Ideal S_ .f32))) : FVec Ideal S16384 .f32) := by
  after_results
  rfl

/-- The inverse square roots of the degrees, after the first two stretches. -/
theorem dinv_at :
    StableHlo.after main_part0_ops1 (StableHlo.after main_part0_ops0 X) (Proc.devRef .tc main_v19) = Cert.EdgeWeights.dinv (X (Proc.devRef .tc main_arg13)) := by
  rw [where_at, deg_pos_at, inv_sqrt_at, zero_at]
  rfl

section Third
variable (Y : Valuation τ sig (Elt Ideal))

/-- The third stretch: the edge weights from the inverse square roots and the two rows … -/
theorem w_at :
    StableHlo.after main_part0_ops2 Y (Proc.devRef .tc main_v35)
      = (Host.negf (F := Ideal) (mulf
          (Host.gather Cert.ReferenceIdeal.gather_S16384_S524288x1_S524288_n_0_n_n_0_1_1 (Y (Proc.devRef .tc main_v19) : FVec Ideal S16384 .f32) (Cert.EdgeWeights.col (Cert.EdgeWeights.wrap (Y (Proc.devRef .tc main_v1)))))
          (Host.gather Cert.ReferenceIdeal.gather_S16384_S524288x1_S524288_n_0_n_n_0_1_1 (Y (Proc.devRef .tc main_v19) : FVec Ideal S16384 .f32) (Cert.EdgeWeights.col (Cert.EdgeWeights.wrap (Y (Proc.devRef .tc main_v3)))))) : FVec Ideal S524288 .f32) := by
  after_results_simp
  rfl
/-- … a zero matrix … -/
theorem zeros_at :
    StableHlo.after main_part0_ops2 Y (Proc.devRef .tc main_v36)
      = broadcastInDim S16384x16384 ![] Facts₀.bcast_S_S16384x16384 (constant (F := Ideal) S_ .f32 0x00000000#32) := by
  after_results_simp <;> rfl
/-- … the wrapped targets … -/
theorem wrapped_dst_at : StableHlo.after main_part0_ops2 Y (Proc.devRef .tc main_v41) = Cert.EdgeWeights.wrap (Y (Proc.devRef .tc main_v3)) := by
  after_results_simp
  rfl
/-- … and the two pieces the wrapped sources are made of after it. -/
theorem src_neg_at :
    StableHlo.after main_part0_ops2 Y (Proc.devRef .tc main_v43)
      = cmpi .slt (Y (Proc.devRef .tc main_v1)) (broadcastInDim S524288 ![] Facts₀.bcast_S_S524288 (constantI S_ 32 0#32)) := by
  after_results_simp <;> rfl
theorem nodes_at :
    StableHlo.after main_part0_ops2 Y (Proc.devRef .tc main_v44)
      = broadcastInDim S524288 ![] Facts₀.bcast_S_S524288 (constantI S_ 32 16384#32) := by
  after_results_simp <;> rfl

/-- The fourth stretch: the scatter of the weights at the pairs. -/
theorem scatter_at :
    StableHlo.after main_part1_ops0 Y (Proc.devRef .tc main_v50)
      = Host.scatterAdd (F := Ideal) (φ := .f32) scatter_S16384x16384_S524288x2_S524288_n_01_01_1 (Y (Proc.devRef .tc main_v36) : FVec Ideal S16384x16384 .f32)
          (concatenate S524288x2 1
            [⟨S524288x1, Cert.EdgeWeights.col (Y (Proc.devRef .tc main_v41))⟩,
             ⟨S524288x1, Cert.EdgeWeights.col (select (Y (Proc.devRef .tc main_v43)) (addi (Y (Proc.devRef .tc main_v1)) (Y (Proc.devRef .tc main_v44))) (Y (Proc.devRef .tc main_v1)))⟩]
            Facts₀.concatenates_S524288x1_S524288x1_S524288x2_d1)
          (Y (Proc.devRef .tc main_v35) : FVec Ideal S524288 .f32) := by
  after_results
  rfl

end Third

/-- THE MATRIX the second and third products multiply by. -/
theorem pmat :
    StableHlo.after main_part1_ops0 (StableHlo.after main_part0_ops2 (StableHlo.after main_part0_ops1 (StableHlo.after main_part0_ops0 X)))
        (Proc.devRef .tc main_v50)
      = Cert.Join.Pmat (X (Proc.devRef .tc main_arg13)) := by
  rw [scatter_at, zeros_at, wrapped_dst_at, src_neg_at, nodes_at, w_at,
    Cert.KernelIdeal.Run.main_part0_ops2_keeps _ main_v1 (by decide),
    Cert.KernelIdeal.Run.main_part0_ops1_keeps _ main_v1 (by decide),
    Cert.KernelIdeal.Run.main_part0_ops1_keeps _ main_v3 (by decide),
    dinv_at, src_row, dst_row]
  rfl

/-- The first product's bias array: the bias vector as one row. -/
theorem bias_row (q : Fin 128) :
    StableHlo.after main_part1_ops0 (StableHlo.after main_part0_ops2 (StableHlo.after main_part0_ops1 (StableHlo.after main_part0_ops0 X)))
        (Proc.devRef .tc main_v51) (ix2 (0 : Fin 1) q)
      = X (Proc.devRef .tc main_arg2) (ix1 q) := by
  have e : StableHlo.after main_part1_ops0 (StableHlo.after main_part0_ops2 (StableHlo.after main_part0_ops1 (StableHlo.after main_part0_ops0 X)))
        (Proc.devRef .tc main_v51) = shapeCast _ (X (Proc.devRef .tc main_arg2)) shapeCasts_S128_S1x128 := by
    after_results_simp
    rfl
  rw [e]
  exact shapeCast_apply _ shapeCasts_S128_S1x128 (ix2 (0 : Fin 1) q) (ix1 q)
    (by rewrite [Shape.rowMajor_val_two, Shape.rowMajor_val_one]; show q.val = 0 * 128 + q.val; omega)

/-- The rows of the second edge list. -/
theorem src_row' : StableHlo.after main_part0_ops0 X (Proc.devRef .tc main_v5) = Cert.EdgeWeights.srcRow (X (Proc.devRef .tc main_arg14)) := by
  after_results
  rfl
theorem dst_row' : StableHlo.after main_part0_ops0 X (Proc.devRef .tc main_v7) = Cert.EdgeWeights.dstRow (X (Proc.devRef .tc main_arg14)) := by
  after_results
  rfl

/-! ## Between the second product and the third -/

/-- THE TABLE the third product multiplies: mid of the first product's output and the second's. -/
theorem h1 :
    StableHlo.after main_part1_ops4 (StableHlo.after main_part1_ops3 (StableHlo.after main_part1_ops2 X)) (Proc.devRef .tc main_v61)
      = Cert.Layers.mid (X (Proc.devRef .tc main_v52)) (X (Proc.devRef .tc main_v54)) (X (Proc.devRef .tc main_arg3)) (X (Proc.devRef .tc main_arg4)) (X (Proc.devRef .tc main_arg5)) := by
  after_results
  rfl

/-! ## After the third product -/

/-- THE FIRST RESULT. -/
theorem z :
    StableHlo.after main_part3_ops0 (StableHlo.after main_part2_ops0 (StableHlo.after main_part1_ops5 X)) (Proc.devRef .tc main_v80)
      = Cert.Layers.tailZ (X (Proc.devRef .tc main_v61)) (X (Proc.devRef .tc main_v63)) (X (Proc.devRef .tc main_v63))
          (X (Proc.devRef .tc main_arg6)) (X (Proc.devRef .tc main_arg7)) (X (Proc.devRef .tc main_arg8)) (X (Proc.devRef .tc main_arg9)) (X (Proc.devRef .tc main_arg10)) (X (Proc.devRef .tc main_arg11)) (X (Proc.devRef .tc main_arg12)) := by
  after_results_simp
  rfl

set_option maxHeartbeats 16000000 in
/-- THE SECOND RESULT, given that the rows of the two edge lists are still in their buffers. -/
theorem loss
    (hv1 : X (Proc.devRef .tc main_v1) = Cert.EdgeWeights.srcRow (X (Proc.devRef .tc main_arg13)))
    (hv3 : X (Proc.devRef .tc main_v3) = Cert.EdgeWeights.dstRow (X (Proc.devRef .tc main_arg13)))
    (hv5 : X (Proc.devRef .tc main_v5) = Cert.EdgeWeights.srcRow (X (Proc.devRef .tc main_arg14)))
    (hv7 : X (Proc.devRef .tc main_v7) = Cert.EdgeWeights.dstRow (X (Proc.devRef .tc main_arg14))) :
    StableHlo.after main_part3_ops0 (StableHlo.after main_part2_ops0 (StableHlo.after main_part1_ops5 X)) (Proc.devRef .tc main_v154)
      = Cert.Layers.tailL (X (Proc.devRef .tc main_v61)) (X (Proc.devRef .tc main_v63)) (X (Proc.devRef .tc main_v63))
          (X (Proc.devRef .tc main_arg6)) (X (Proc.devRef .tc main_arg7)) (X (Proc.devRef .tc main_arg8)) (X (Proc.devRef .tc main_arg9)) (X (Proc.devRef .tc main_arg10)) (X (Proc.devRef .tc main_arg11)) (X (Proc.devRef .tc main_arg12)) (X (Proc.devRef .tc main_arg13)) (X (Proc.devRef .tc main_arg14)) := by
  after_results_simp
  rw [hv1, hv3, hv5, hv7]
  rfl

end Cert.KernelIdeal.Stretch

end
-- ==== Proof.KValue.lean ====
import proofs.«114411_j49589692399794_2_alg».proof.Proof.KRunLaunch
import proofs.«114411_j49589692399794_2_alg».proof.Proof.Reg0Value
import proofs.«114411_j49589692399794_2_alg».proof.Proof.Reg1Acc
import proofs.«114411_j49589692399794_2_alg».proof.Proof.Reg2Value
import proofs.«114411_j49589692399794_2_alg».proof.Proof.KStretches

set_option maxRecDepth 16384

noncomputable section

open scoped BigOperators

namespace Cert.KernelIdeal.Run

open Idealize.ShloMosaic Idealize.ShloMosaic.TcCoe Idealize.ShloMosaic.ValueIdx
open Idealize.SL.Sem
open Cert.KernelIdeal Cert.KernelIdeal.Gen

variable [Cert.ReferenceIdeal.Facts]

variable (m : (ℓ : Loc nD τ sig) → Buf (Elt Ideal) ℓ) (ρ : Dev nD → PrngReg)

/-! # The dense program's two results as the named layers of its arguments

Walking the fold of buffer contents back from the end: the two results are the last stretch of host operations
applied to the table H1 and the third product's output; the third product's output is the matrix times H1; H1 is
the middle layer of the first product's output H0 and the second product's output; the second product's output is
the matrix times H0; H0 is the rectified dense layer of the first two arguments and the bias; and the matrix is the
edge weights scattered at the (target, source) pairs.  Every argument is read where nothing has written it. -/

/-- The first product's output: the rectified dense layer of the adjacency rows. -/
def H0K (c : Dev nD) : S16384x128.Idx → EReal :=
  Reg0.layer (m ((c : Thread nD τ).loc main_arg0)) (m ((c : Thread nD τ).loc main_arg1)) (W4 m ρ c (Proc.devRef .tc main_v51))

/-- The second product's output: the matrix times H0. -/
def TXAK (c : Dev nD) : S16384x128.Idx → EReal :=
  Reg1.prod (Cert.Join.Pmat (m ((c : Thread nD τ).loc main_arg13))) (H0K m ρ c)

/-- The table the third product multiplies. -/
def H1K (c : Dev nD) : S16384x64.Idx → EReal :=
  Cert.Layers.mid (H0K m ρ c) (TXAK m ρ c) (m ((c : Thread nD τ).loc main_arg3)) (m ((c : Thread nD τ).loc main_arg4)) (m ((c : Thread nD τ).loc main_arg5))

/-- The third product's output: the matrix times H1. -/
def TXBK (c : Dev nD) : S16384x64.Idx → EReal :=
  Reg2.prod (Cert.Join.Pmat (m ((c : Thread nD τ).loc main_arg13))) (H1K m ρ c)

/-- Equal operands, equal layers. -/
theorem layer0_congr {A A' : S16384x16384.Idx → EReal} {W W' : S16384x128.Idx → EReal} {B B' : S1x128.Idx → EReal}
    (hA : A = A') (hW : W = W') (hB : B = B') : Reg0.layer A W B = Reg0.layer A' W' B' := by rw [hA, hW, hB]
theorem prod1_congr {A A' : S16384x16384.Idx → EReal} {W W' : S16384x128.Idx → EReal}
    (hA : A = A') (hW : W = W') : Reg1.prod A W = Reg1.prod A' W' := by rw [hA, hW]
theorem prod2_congr {A A' : S16384x16384.Idx → EReal} {W W' : S16384x64.Idx → EReal}
    (hA : A = A') (hW : W = W') : Reg2.prod A W = Reg2.prod A' W' := by rw [hA, hW]

/-! ## Buffers nothing has written yet -/

/-- Up to the second product's exit: a buffer no stretch so far writes and that is no array of the first two products. -/
theorem W7_untouched (c : Dev nD) (r : Ref sig .tc)
    (h1 : r ∉ main_part0_ops0_W) (h2 : r ∉ main_part0_ops1_W) (h3 : r ∉ main_part0_ops2_W) (h4 : r ∉ main_part1_ops0_W)
    (h6 : r ∉ main_part1_ops1_W) (a0 : ∀ w, Pipeline.arrRef spec0 w ≠ r) (a1 : ∀ w, Pipeline.arrRef spec1 w ≠ r) :
    W7 m ρ c (Proc.devRef .tc r) = m ((c : Thread nD τ).loc r) :=
  calc W7 m ρ c (Proc.devRef .tc r)
    _ = W6 m ρ c (Proc.devRef .tc r) := W7_of_ne m ρ c r a1
    _ = W5 m ρ c (Proc.devRef .tc r) := main_part1_ops1_keeps _ r h6
    _ = W4 m ρ c (Proc.devRef .tc r) := W5_of_ne m ρ c r a0
    _ = m ((c : Thread nD τ).loc r) := W4_keeps m ρ c r h1 h2 h3 h4

/-- Up to the third product's exit. -/
theorem W11_untouched (c : Dev nD) (r : Ref sig .tc)
    (h1 : r ∉ main_part0_ops0_W) (h2 : r ∉ main_part0_ops1_W) (h3 : r ∉ main_part0_ops2_W) (h4 : r ∉ main_part1_ops0_W)
    (h6 : r ∉ main_part1_ops1_W) (h8 : r ∉ main_part1_ops2_W) (h9 : r ∉ main_part1_ops3_W) (h10 : r ∉ main_part1_ops4_W)
    (a0 : ∀ w, Pipeline.arrRef spec0 w ≠ r) (a1 : ∀ w, Pipeline.arrRef spec1 w ≠ r) (a2 : ∀ w, Pipeline.arrRef spec2 w ≠ r) :
    W11 m ρ c (Proc.devRef .tc r) = m ((c : Thread nD τ).loc r) :=
  calc W11 m ρ c (Proc.devRef .tc r)
    _ = W10 m ρ c (Proc.devRef .tc r) := W11_of_ne m ρ c r a2
    _ = W9 m ρ c (Proc.devRef .tc r) := main_part1_ops4_keeps _ r h10
    _ = W8 m ρ c (Proc.devRef .tc r) := main_part1_ops3_keeps _ r h9
    _ = W7 m ρ c (Proc.devRef .tc r) := main_part1_ops2_keeps _ r h8
    _ = m ((c : Thread nD τ).loc r) := W7_untouched m ρ c r h1 h2 h3 h4 h6 a0 a1

/-- A buffer the first stretch wrote and nothing since, at the third product's exit. -/
theorem W11_from_W1 (c : Dev nD) (r : Ref sig .tc)
    (h2 : r ∉ main_part0_ops1_W) (h3 : r ∉ main_part0_ops2_W) (h4 : r ∉ main_part1_ops0_W)
    (h6 : r ∉ main_part1_ops1_W) (h8 : r ∉ main_part1_ops2_W) (h9 : r ∉ main_part1_ops3_W) (h10 : r ∉ main_part1_ops4_W)
    (a0 : ∀ w, Pipeline.arrRef spec0 w ≠ r) (a1 : ∀ w, Pipeline.arrRef spec1 w ≠ r) (a2 : ∀ w, Pipeline.arrRef spec2 w ≠ r) :
    W11 m ρ c (Proc.devRef .tc r) = W1 m ρ c (Proc.devRef .tc r) :=
  calc W11 m ρ c (Proc.devRef .tc r)
    _ = W10 m ρ c (Proc.devRef .tc r) := W11_of_ne m ρ c r a2
    _ = W9 m ρ c (Proc.devRef .tc r) := main_part1_ops4_keeps _ r h10
    _ = W8 m ρ c (Proc.devRef .tc r) := main_part1_ops3_keeps _ r h9
    _ = W7 m ρ c (Proc.devRef .tc r) := main_part1_ops2_keeps _ r h8
    _ = W6 m ρ c (Proc.devRef .tc r) := W7_of_ne m ρ c r a1
    _ = W5 m ρ c (Proc.devRef .tc r) := main_part1_ops1_keeps _ r h6
    _ = W4 m ρ c (Proc.devRef .tc r) := W5_of_ne m ρ c r a0
    _ = W3 m ρ c (Proc.devRef .tc r) := main_part1_ops0_keeps _ r h4
    _ = W2 m ρ c (Proc.devRef .tc r) := main_part0_ops2_keeps _ r h3
    _ = W1 m ρ c (Proc.devRef .tc r) := main_part0_ops1_keeps _ r h2

theorem W7_main_arg3 (c : Dev nD) : W7 m ρ c (Proc.devRef .tc main_arg3) = m ((c : Thread nD τ).loc main_arg3) :=
  W7_untouched m ρ c main_arg3 (by decide) (by decide) (by decide) (by decide) (by decide) (by decide) (by decide)
theorem W7_main_arg4 (c : Dev nD) : W7 m ρ c (Proc.devRef .tc main_arg4) = m ((c : Thread nD τ).loc main_arg4) :=
  W7_untouched m ρ c main_arg4 (by decide) (by decide) (by decide) (by decide) (by decide) (by decide) (by decide)
theorem W7_main_arg5 (c : Dev nD) : W7 m ρ c (Proc.devRef .tc main_arg5) = m ((c : Thread nD τ).loc main_arg5) :=
  W7_untouched m ρ c main_arg5 (by decide) (by decide) (by decide) (by decide) (by decide) (by decide) (by decide)
theorem W11_main_arg6 (c : Dev nD) : W11 m ρ c (Proc.devRef .tc main_arg6) = m ((c : Thread nD τ).loc main_arg6) :=
  W11_untouched m ρ c main_arg6 (by decide) (by decide) (by decide) (by decide) (by decide) (by decide) (by decide) (by decide) (by decide) (by decide) (by decide)
theorem W11_main_arg7 (c : Dev nD) : W11 m ρ c (Proc.devRef .tc main_arg7) = m ((c : Thread nD τ).loc main_arg7) :=
  W11_untouched m ρ c main_arg7 (by decide) (by decide) (by decide) (by decide) (by decide) (by decide) (by decide) (by decide) (by decide) (by decide) (by decide)
theorem W11_main_arg8 (c : Dev nD) : W11 m ρ c (Proc.devRef .tc main_arg8) = m ((c : Thread nD τ).loc main_arg8) :=
  W11_untouched m ρ c main_arg8 (by decide) (by decide) (by decide) (by decide) (by decide) (by decide) (by decide) (by decide) (by decide) (by decide) (by decide)
theorem W11_main_arg9 (c : Dev nD) : W11 m ρ c (Proc.devRef .tc main_arg9) = m ((c : Thread nD τ).loc main_arg9) :=
  W11_untouched m ρ c main_arg9 (by decide) (by decide) (by decide) (by decide) (by decide) (by decide) (by decide) (by decide) (by decide) (by decide) (by decide)
theorem W11_main_arg10 (c : Dev nD) : W11 m ρ c (Proc.devRef .tc main_arg10) = m ((c : Thread nD τ).loc main_arg10) :=
  W11_untouched m ρ c main_arg10 (by decide) (by decide) (by decide) (by decide) (by decide) (by decide) (by decide) (by decide) (by decide) (by decide) (by decide)
theorem W11_main_arg11 (c : Dev nD) : W11 m ρ c (Proc.devRef .tc main_arg11) = m ((c : Thread nD τ).loc main_arg11) :=
  W11_untouched m ρ c main_arg11 (by decide) (by decide) (by decide) (by decide) (by decide) (by decide) (by decide) (by decide) (by decide) (by decide) (by decide)
theorem W11_main_arg12 (c : Dev nD) : W11 m ρ c (Proc.devRef .tc main_arg12) = m ((c : Thread nD τ).loc main_arg12) :=
  W11_untouched m ρ c main_arg12 (by decide) (by decide) (by decide) (by decide) (by decide) (by decide) (by decide) (by decide) (by decide) (by decide) (by decide)
theorem W11_main_arg13 (c : Dev nD) : W11 m ρ c (Proc.devRef .tc main_arg13) = m ((c : Thread nD τ).loc main_arg13) :=
  W11_untouched m ρ c main_arg13 (by decide) (by decide) (by decide) (by decide) (by decide) (by decide) (by decide) (by decide) (by decide) (by decide) (by decide)
theorem W11_main_arg14 (c : Dev nD) : W11 m ρ c (Proc.devRef .tc main_arg14) = m ((c : Thread nD τ).loc main_arg14) :=
  W11_untouched m ρ c main_arg14 (by decide) (by decide) (by decide) (by decide) (by decide) (by decide) (by decide) (by decide) (by decide) (by decide) (by decide)

/-! ## The matrix -/

theorem W4_v50 (c : Dev nD) : W4 m ρ c (Proc.devRef .tc main_v50) = Cert.Join.Pmat (m ((c : Thread nD τ).loc main_arg13)) :=
  Stretch.pmat (W0 m ρ c)

theorem W6_v50 (c : Dev nD) : W6 m ρ c (Proc.devRef .tc main_v50) = Cert.Join.Pmat (m ((c : Thread nD τ).loc main_arg13)) :=
  calc W6 m ρ c (Proc.devRef .tc main_v50)
    _ = W5 m ρ c (Proc.devRef .tc main_v50) := main_part1_ops1_keeps _ main_v50 (by decide)
    _ = W4 m ρ c (Proc.devRef .tc main_v50) := W5_of_ne m ρ c main_v50 (by decide)
    _ = _ := W4_v50 m ρ c

theorem W10_v50 (c : Dev nD) : W10 m ρ c (Proc.devRef .tc main_v50) = Cert.Join.Pmat (m ((c : Thread nD τ).loc main_arg13)) :=
  calc W10 m ρ c (Proc.devRef .tc main_v50)
    _ = W9 m ρ c (Proc.devRef .tc main_v50) := main_part1_ops4_keeps _ main_v50 (by decide)
    _ = W8 m ρ c (Proc.devRef .tc main_v50) := main_part1_ops3_keeps _ main_v50 (by decide)
    _ = W7 m ρ c (Proc.devRef .tc main_v50) := main_part1_ops2_keeps _ main_v50 (by decide)
    _ = W6 m ρ c (Proc.devRef .tc main_v50) := W7_in m ρ c 0 rfl
    _ = _ := W6_v50 m ρ c

/-! ## The first product -/

theorem W5_v52 (c : Dev nD) : W5 m ρ c (Proc.devRef .tc main_v52) = H0K m ρ c := by
  refine (W5_arr m ρ c 3).trans ((Reg0.final (V4 m ρ) c).trans ?_)
  have e0 : V4 m ρ c (Pipeline.arrRef spec0 0) = m ((c : Thread nD τ).loc main_arg0) :=
    W4_keeps m ρ c main_arg0 (by decide) (by decide) (by decide) (by decide)
  have e1 : V4 m ρ c (Pipeline.arrRef spec0 1) = m ((c : Thread nD τ).loc main_arg1) :=
    W4_keeps m ρ c main_arg1 (by decide) (by decide) (by decide) (by decide)
  exact layer0_congr e0 e1 rfl

theorem W6_v52 (c : Dev nD) : W6 m ρ c (Proc.devRef .tc main_v52) = H0K m ρ c :=
  (main_part1_ops1_keeps _ main_v52 (by decide)).trans (W5_v52 m ρ c)

theorem W7_v52 (c : Dev nD) : W7 m ρ c (Proc.devRef .tc main_v52) = H0K m ρ c :=
  (W7_in m ρ c 1 rfl).trans (W6_v52 m ρ c)

/-! ## The second product -/

theorem W7_v54 (c : Dev nD) : W7 m ρ c (Proc.devRef .tc main_v54) = TXAK m ρ c := by
  refine (W7_arr m ρ c 3).trans ((Reg1.final (V6 m ρ) c).trans ?_)
  have e0 : V6 m ρ c (Pipeline.arrRef spec1 0) = Cert.Join.Pmat (m ((c : Thread nD τ).loc main_arg13)) := W6_v50 m ρ c
  have e1 : V6 m ρ c (Pipeline.arrRef spec1 1) = H0K m ρ c := W6_v52 m ρ c
  exact prod1_congr e0 e1

/-! ## The table between -/

theorem W10_v61 (c : Dev nD) : W10 m ρ c (Proc.devRef .tc main_v61) = H1K m ρ c := by
  refine (Stretch.h1 (W7 m ρ c)).trans ?_
  unfold H1K
  rw [W7_v52 m ρ c, W7_v54 m ρ c, W7_main_arg3 m ρ c, W7_main_arg4 m ρ c, W7_main_arg5 m ρ c]

theorem W11_v61 (c : Dev nD) : W11 m ρ c (Proc.devRef .tc main_v61) = H1K m ρ c :=
  (W11_in m ρ c 1 rfl).trans (W10_v61 m ρ c)

/-! ## The third product -/

theorem W11_v63 (c : Dev nD) : W11 m ρ c (Proc.devRef .tc main_v63) = TXBK m ρ c := by
  refine (W11_arr m ρ c 3).trans ((Reg2.final (V10 m ρ) c).trans ?_)
  have e0 : V10 m ρ c (Pipeline.arrRef spec2 0) = Cert.Join.Pmat (m ((c : Thread nD τ).loc main_arg13)) := W10_v50 m ρ c
  have e1 : V10 m ρ c (Pipeline.arrRef spec2 1) = H1K m ρ c := W10_v61 m ρ c
  exact prod2_congr e0 e1

/-! ## The rows of the edge lists, still in their buffers at the end -/

theorem W11_v1 (c : Dev nD) : W11 m ρ c (Proc.devRef .tc main_v1) = Cert.EdgeWeights.srcRow (W11 m ρ c (Proc.devRef .tc main_arg13)) := by
  rw [W11_main_arg13 m ρ c]
  exact (W11_from_W1 m ρ c main_v1 (by decide) (by decide) (by decide) (by decide) (by decide) (by decide) (by decide) (by decide) (by decide) (by decide)).trans (Stretch.src_row (W0 m ρ c))
theorem W11_v3 (c : Dev nD) : W11 m ρ c (Proc.devRef .tc main_v3) = Cert.EdgeWeights.dstRow (W11 m ρ c (Proc.devRef .tc main_arg13)) := by
  rw [W11_main_arg13 m ρ c]
  exact (W11_from_W1 m ρ c main_v3 (by decide) (by decide) (by decide) (by decide) (by decide) (by decide) (by decide) (by decide) (by decide) (by decide)).trans (Stretch.dst_row (W0 m ρ c))
theorem W11_v5 (c : Dev nD) : W11 m ρ c (Proc.devRef .tc main_v5) = Cert.EdgeWeights.srcRow (W11 m ρ c (Proc.devRef .tc main_arg14)) := by
  rw [W11_main_arg14 m ρ c]
  exact (W11_from_W1 m ρ c main_v5 (by decide) (by decide) (by decide) (by decide) (by decide) (by decide) (by decide) (by decide) (by decide) (by decide)).trans (Stretch.src_row' (W0 m ρ c))
theorem W11_v7 (c : Dev nD) : W11 m ρ c (Proc.devRef .tc main_v7) = Cert.EdgeWeights.dstRow (W11 m ρ c (Proc.devRef .tc main_arg14)) := by
  rw [W11_main_arg14 m ρ c]
  exact (W11_from_W1 m ρ c main_v7 (by decide) (by decide) (by decide) (by decide) (by decide) (by decide) (by decide) (by decide) (by decide) (by decide)).trans (Stretch.dst_row' (W0 m ρ c))

/-! ## The two results -/

/-- THE FIRST RESULT, as the last stretch of the kernel's own layers. -/
theorem Wfin_z (c : Dev nD) :
    Wfin m ρ c (Proc.devRef .tc main_v80)
      = Cert.Layers.tailZ (H1K m ρ c) (TXBK m ρ c) (TXBK m ρ c)
          (m ((c : Thread nD τ).loc main_arg6)) (m ((c : Thread nD τ).loc main_arg7)) (m ((c : Thread nD τ).loc main_arg8))
          (m ((c : Thread nD τ).loc main_arg9)) (m ((c : Thread nD τ).loc main_arg10)) (m ((c : Thread nD τ).loc main_arg11))
          (m ((c : Thread nD τ).loc main_arg12)) := by
  refine (Stretch.z (W11 m ρ c)).trans ?_
  rw [W11_v61 m ρ c, W11_v63 m ρ c, W11_main_arg6 m ρ c, W11_main_arg7 m ρ c, W11_main_arg8 m ρ c, W11_main_arg9 m ρ c,
    W11_main_arg10 m ρ c, W11_main_arg11 m ρ c, W11_main_arg12 m ρ c]

/-- THE SECOND RESULT. -/
theorem Wfin_loss (c : Dev nD) :
    Wfin m ρ c (Proc.devRef .tc main_v154)
      = Cert.Layers.tailL (H1K m ρ c) (TXBK m ρ c) (TXBK m ρ c)
          (m ((c : Thread nD τ).loc main_arg6)) (m ((c : Thread nD τ).loc main_arg7)) (m ((c : Thread nD τ).loc main_arg8))
          (m ((c : Thread nD τ).loc main_arg9)) (m ((c : Thread nD τ).loc main_arg10)) (m ((c : Thread nD τ).loc main_arg11))
          (m ((c : Thread nD τ).loc main_arg12)) (m ((c : Thread nD τ).loc main_arg13)) (m ((c : Thread nD τ).loc main_arg14)) := by
  refine (Stretch.loss (W11 m ρ c) (W11_v1 m ρ c) (W11_v3 m ρ c) (W11_v5 m ρ c) (W11_v7 m ρ c)).trans ?_
  rw [W11_v61 m ρ c, W11_v63 m ρ c, W11_main_arg6 m ρ c, W11_main_arg7 m ρ c, W11_main_arg8 m ρ c, W11_main_arg9 m ρ c,
    W11_main_arg10 m ρ c, W11_main_arg11 m ρ c, W11_main_arg12 m ρ c, W11_main_arg13 m ρ c, W11_main_arg14 m ρ c]

/-! ## The three products entry by entry, in the form the comparison with the edgewise program takes -/

/-- The rectified dense layer's entry (n, q), over float arrays. -/
def dense0 (a0 : FVec Ideal S16384x16384 .f32) (a1 : FVec Ideal S16384x128 .f32) (a2 : FVec Ideal S128 .f32) (n : Fin 16384) (q : Fin 128) : EReal :=
  max ((∑ k : Fin 16384, a0 (ix2 n k) * a1 (ix2 k q)) + a2 (ix1 q)) 0

theorem H0K_apply (c : Dev nD) (n : Fin 16384) (q : Fin 128) :
    H0K m ρ c (ix2 n q)
      = dense0 (m ((c : Thread nD τ).loc main_arg0)) (m ((c : Thread nD τ).loc main_arg1)) (m ((c : Thread nD τ).loc main_arg2)) n q := by
  have hb : W4 m ρ c (Proc.devRef .tc main_v51) (ix2 (0 : Fin 1) q) = m ((c : Thread nD τ).loc main_arg2) (ix1 q) :=
    Stretch.bias_row (W0 m ρ c) q
  unfold H0K dense0
  rw [Reg0.layer_ix2, hb] <;> rfl

theorem TXAK_apply (c : Dev nD) (n : Fin 16384) (q : Fin 128) :
    TXAK m ρ c (ix2 n q) = ∑ k : Fin 16384, Cert.Join.Pmat (m ((c : Thread nD τ).loc main_arg13)) (ix2 n k) * H0K m ρ c (ix2 k q) := rfl

theorem TXBK_apply (c : Dev nD) (n : Fin 16384) (q : Fin 64) :
    TXBK m ρ c (ix2 n q) = ∑ k : Fin 16384, Cert.Join.Pmat (m ((c : Thread nD τ).loc main_arg13)) (ix2 n k) * H1K m ρ c (ix2 k q) := rfl

/-! ## The run with its results named -/

/-- THE RUN, WITH VALUES: every weakly fair execution terminates without a fault, the two results are the last
    stretch of the kernel's layers, and every argument array ends as launched. -/
theorem run_values : θ_run defs (onTc (τ := τ) (main (F := Ideal))) ⟨m, fun _ => 0, ρ⟩ (fun r => ∀ c : Dev nD,
      r.2.mem ((c.tc : Thread nD τ).loc main_v80) = Wfin m ρ c (Proc.devRef .tc main_v80)
      ∧ r.2.mem ((c.tc : Thread nD τ).loc main_v154) = Wfin m ρ c (Proc.devRef .tc main_v154)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c =>
    ⟨h c _ (mem_uc main_v80 (by decide)), h c _ (mem_uc main_v154 (by decide)),
      (h c _ (mem_uc main_arg0 (by decide))).trans (Wfin_main_arg0 m ρ c),
      (h c _ (mem_uc main_arg1 (by decide))).trans (Wfin_main_arg1 m ρ c),
      (h c _ (mem_uc main_arg2 (by decide))).trans (Wfin_main_arg2 m ρ c),
      (h c _ (mem_uc main_arg3 (by decide))).trans (Wfin_main_arg3 m ρ c),
      (h c _ (mem_uc main_arg4 (by decide))).trans (Wfin_main_arg4 m ρ c),
      (h c _ (mem_uc main_arg5 (by decide))).trans (Wfin_main_arg5 m ρ c),
      (h c _ (mem_uc main_arg6 (by decide))).trans (Wfin_main_arg6 m ρ c),
      (h c _ (mem_uc main_arg7 (by decide))).trans (Wfin_main_arg7 m ρ c),
      (h c _ (mem_uc main_arg8 (by decide))).trans (Wfin_main_arg8 m ρ c),
      (h c _ (mem_uc main_arg9 (by decide))).trans (Wfin_main_arg9 m ρ c),
      (h c _ (mem_uc main_arg10 (by decide))).trans (Wfin_main_arg10 m ρ c),
      (h c _ (mem_uc main_arg11 (by decide))).trans (Wfin_main_arg11 m ρ c),
      (h c _ (mem_uc main_arg12 (by decide))).trans (Wfin_main_arg12 m ρ c),
      (h c _ (mem_uc main_arg13 (by decide))).trans (Wfin_main_arg13 m ρ c),
      (h c _ (mem_uc main_arg14 (by decide))).trans (Wfin_main_arg14 m ρ c)⟩) (run_all m ρ)

end Cert.KernelIdeal.Run

end
-- ==== Proof.RefLayers.lean ====
/-
  The edgewise program's results, through its named tables.

  The program's run gives each result as one composed term of the inputs.  Read stage by stage, that term is: the
  first hidden table h0; its edgewise propagation with the edge weights; the second hidden table mid(h0, prop h0);
  that table's edgewise propagation (computed twice, once for mu and once for logstd, by the same operations); and
  the last stretch tailZ / tailL applied to the second hidden table and its propagation.  Every equation here holds
  by unfolding the definitions: the two sides are the same operations on the same operands.
-/
import proofs.«114411_j49589692399794_2_alg».proof.Proof.RefReadP
import proofs.«114411_j49589692399794_2_alg».proof.Proof.Layers

set_option maxRecDepth 8192

noncomputable section

namespace Cert.RefLayers

open Cert.ReferenceIdeal Cert.ReferenceIdeal.Gen Idealize.ShloMosaic Idealize.ShloMosaic.TcCoe Idealize.SL.Sem Idealize.ShloMosaic.StableHlo
open Cert.ReferenceIdeal.Read Cert.Layers Cert.EdgeWeights

variable [Cert.KernelIdeal.Facts]

section Stages
variable (a0 : FVec Ideal S16384x16384 .f32) (a1 : FVec Ideal S16384x128 .f32) (a2 : FVec Ideal S128 .f32)
    (a3 a4 : FVec Ideal S128x64 .f32) (a5 : FVec Ideal S64 .f32) (a6 a7 : FVec Ideal S64x32 .f32) (a8 : FVec Ideal S32 .f32)
    (a9 a10 : FVec Ideal S64x32 .f32) (a11 : FVec Ideal S32 .f32) (a12 : FVec Ideal S16384x32 .f32) (a13 a14 : IVec S2x524288 32)

/-- The first hidden table. -/
theorem ref_h0 : val_main_v20 (F := Ideal) a0 a1 a2 = h0 a0 a1 a2 := rfl

/-- The edge weights, each of the three times the program computes them. -/
theorem ref_w : val_main_v36 (F := Ideal) a13 = edgeW a13 := rfl
theorem ref_w' : val_main_v72 (F := Ideal) a13 = edgeW a13 := rfl
theorem ref_w'' : val_main_v107 (F := Ideal) a13 = edgeW a13 := rfl

/-- The propagation of the first hidden table. -/
theorem ref_txa : val_main_v49 (F := Ideal) a0 a1 a2 a13 = TXA_R a0 a1 a2 a13 := rfl

/-- The second hidden table. -/
theorem ref_h1 : val_main_v56 (F := Ideal) a0 a1 a2 a3 a4 a5 a13 = H1R a0 a1 a2 a3 a4 a5 a13 := rfl

/-- The propagation of the second hidden table, as computed for mu and as computed for logstd. -/
theorem ref_txb : val_main_v85 (F := Ideal) a0 a1 a2 a3 a4 a5 a13 = TXB_R a0 a1 a2 a3 a4 a5 a13 := rfl
theorem ref_txb' : val_main_v120 (F := Ideal) a0 a1 a2 a3 a4 a5 a13 = TXB_R a0 a1 a2 a3 a4 a5 a13 := rfl

/-- THE FIRST RESULT is the last stretch's z of the second hidden table and its propagation. -/
theorem ref_z : val_main_v131 (F := Ideal) a0 a1 a2 a3 a4 a5 a6 a7 a8 a9 a10 a11 a12 a13
    = tailZ (H1R a0 a1 a2 a3 a4 a5 a13) (TXB_R a0 a1 a2 a3 a4 a5 a13) (TXB_R a0 a1 a2 a3 a4 a5 a13) a6 a7 a8 a9 a10 a11 a12 := rfl

/-- THE SECOND RESULT is the last stretch's loss. -/
theorem ref_loss : val_main_v209 (F := Ideal) a0 a1 a2 a3 a4 a5 a6 a7 a8 a9 a10 a11 a12 a13 a14
    = tailL (H1R a0 a1 a2 a3 a4 a5 a13) (TXB_R a0 a1 a2 a3 a4 a5 a13) (TXB_R a0 a1 a2 a3 a4 a5 a13) a6 a7 a8 a9 a10 a11 a12 a13 a14 := rfl

end Stages

/-- The run's first result term, through the named tables. -/
theorem res_z (m : (ℓ : Loc nD τ sig) → Buf (Elt Ideal) ℓ) (c : Dev nD) :
    Cert.ReferenceIdeal.Value.res_main_v131 m c
      = tailZ (H1R (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg13))) (TXB_R (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg13))) (TXB_R (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg13)))
          (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) :=
  (val_main_v131_eq m c).trans (ref_z ..)

/-- The run's second result term, through the named tables. -/
theorem res_loss (m : (ℓ : Loc nD τ sig) → Buf (Elt Ideal) ℓ) (c : Dev nD) :
    Cert.ReferenceIdeal.Value.res_main_v209 m c
      = tailL (H1R (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg13))) (TXB_R (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg13))) (TXB_R (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg13)))
          (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) :=
  (val_main_v209_eq m c).trans (ref_loss ..)

end Cert.RefLayers

end
-- ==== Proof.PreFacts.lean ====
/-
  What the precondition says of the inputs.

  The precondition is one boolean: the conjunction, input by input, of "every entry has absolute value below
  +∞" for the thirteen float inputs, and of "every word is at least 0 and below 16384" for the edge list.  An
  extended real whose absolute value max(x, −x) is below +∞ is neither infinity, so it is a real number; a word
  that compares ≥ 0 and < 16384 as a signed integer is a node number.  A conjunction computed by a fold of
  "and" from 1 that came out 1 had a 1 at every position, which turns the one boolean into one fact per entry.
-/
import proofs.«114411_j49589692399794_2_alg».proof.Pre_finite_inputs
import proofs.«114411_j49589692399794_2_alg».proof.Proof.LibDenseEdges
import Idealize.ShloMosaic.Lib.ReduceAll
import Idealize.ShloMosaic.Lib.ValueIdx
import Idealize.ShloMosaic.PureOps.Ideal.Laws

noncomputable section

namespace Cert.PreFacts

open Idealize.ShloMosaic Idealize.ShloMosaic.ValueIdx Cert.Pre_finite_inputs Cert.DenseEdges

/-- The result shape of a reduction over all axes has one index. -/
instance : Subsingleton S_.Idx := ⟨fun a b => funext fun d => d.elim0⟩

/-- The word 0x7F800000 is +∞. -/
theorem inf_word : Ideal.ofBits .f32 0x7F800000#32 = (⊤ : EReal) := by
  simp [Ideal.ofBits, Ideal.ieee]

/-- An extended real whose absolute value is below +∞ is a real number. -/
theorem isReal_of_abs_lt (x : EReal) (h : Ideal.cmp .olt (max x (-x)) (Ideal.ofBits .f32 0x7F800000#32) = 1#1) : IsReal x := by
  rw [inf_word] at h
  induction x using EReal.rec with
  | bot => simp [Ideal.cmp] at h
  | top => simp [Ideal.cmp] at h
  | coe r => exact ⟨r, rfl⟩

/-- A word at least 0 and below 16384, both compared signed, is a node number. -/
theorem node_of_cmp (v : BitVec 32)
    (h : IntOp.andi (IntOp.cmpi .sge v 0#32) (IntOp.cmpi .slt v 16384#32) = 1#1) : 0 ≤ v.toInt ∧ v.toInt < 16384 := by
  rw [IntOp.andi_eq_one, IntOp.cmpi_sge, IntOp.cmpi_slt] at h
  have h0 : (0#32 : BitVec 32).toInt = 0 := by decide
  have h1 : (16384#32 : BitVec 32).toInt = 16384 := by decide
  rw [h0] at h; rw [h1] at h
  exact h

theorem andi_apply {s : Shape} {w : Nat} (x y : IVec s w) (i : s.Idx) : andi x y i = IntOp.andi (x i) (y i) := rfl

/-- One float input: its conjunct of the precondition makes every entry a real number. -/
theorem all_real {s : Shape} (x : FVec Ideal s .f32) (hb : S_.BroadcastsInDim s (![] : Fin 0 → Fin s.rank)) {axes : List (Fin s.rank)}
    (hr : s.ReducesTo axes S_) (hu : 0 < S_.numel)
    (e : Host.reduce IntOp.andi (cmpf .olt (Host.absf x) (broadcastInDim s ![] hb (constant (F := Ideal) S_ .f32 0x7F800000#32)))
      (constantI S_ 1 1#1) hr hu ix0 = 1#1)
    (i : s.Idx) : IsReal (x i) :=
  isReal_of_abs_lt (x i) (Host.reduce_andi_all _ _ hr hu ix0 e i)

/-- The edge list: its conjunct makes every word a node number. -/
theorem all_nodes {s : Shape} (x : IVec s 32) (hb : S_.BroadcastsInDim s (![] : Fin 0 → Fin s.rank)) {axes : List (Fin s.rank)}
    (hr : s.ReducesTo axes S_) (hu : 0 < S_.numel)
    (e : Host.reduce IntOp.andi (andi (cmpi .sge x (broadcastInDim s ![] hb (constantI S_ 32 0#32)))
        (cmpi .slt x (broadcastInDim s ![] hb (constantI S_ 32 16384#32)))) (constantI S_ 1 1#1) hr hu ix0 = 1#1)
    (i : s.Idx) : 0 ≤ (x i).toInt ∧ (x i).toInt < 16384 :=
  node_of_cmp (x i) (Host.reduce_andi_all _ _ hr hu ix0 e i)

variable [Cert.Pre_finite_inputs.Facts]

/-- What the precondition says, input by input. -/
structure InputsOK (a0 : FVec Ideal S16384x16384 .f32) (a1 : FVec Ideal S16384x128 .f32) (a2 : FVec Ideal S128 .f32)
    (a3 a4 : FVec Ideal S128x64 .f32) (a5 : FVec Ideal S64 .f32) (a6 a7 : FVec Ideal S64x32 .f32) (a8 : FVec Ideal S32 .f32)
    (a9 a10 : FVec Ideal S64x32 .f32) (a11 : FVec Ideal S32 .f32) (a12 : FVec Ideal S16384x32 .f32)
    (a13 : IVec S2x524288 32) : Prop where
  x_adj : ∀ i, IsReal (a0 i)
  wt : ∀ i, IsReal (a1 i)
  bt : ∀ i, IsReal (a2 i)
  w1a : ∀ i, IsReal (a3 i)
  w1b : ∀ i, IsReal (a4 i)
  b1 : ∀ i, IsReal (a5 i)
  wma : ∀ i, IsReal (a6 i)
  wmb : ∀ i, IsReal (a7 i)
  bm : ∀ i, IsReal (a8 i)
  wla : ∀ i, IsReal (a9 i)
  wlb : ∀ i, IsReal (a10 i)
  bl : ∀ i, IsReal (a11 i)
  eps : ∀ i, IsReal (a12 i)
  edges : ∀ i, 0 ≤ (a13 i).toInt ∧ (a13 i).toInt < 16384

/-- THE PRECONDITION DECODED: every float input real-valued, every word of the edge list a node number. -/
theorem inputsOK_of_pre (a0 : FVec Ideal S16384x16384 .f32) (a1 : FVec Ideal S16384x128 .f32) (a2 : FVec Ideal S128 .f32)
    (a3 a4 : FVec Ideal S128x64 .f32) (a5 : FVec Ideal S64 .f32) (a6 a7 : FVec Ideal S64x32 .f32) (a8 : FVec Ideal S32 .f32)
    (a9 a10 : FVec Ideal S64x32 .f32) (a11 : FVec Ideal S32 .f32) (a12 : FVec Ideal S16384x32 .f32)
    (a13 a14 : IVec S2x524288 32)
    (h : Cert.Pre_finite_inputs.fn (F := Ideal) a0 a1 a2 a3 a4 a5 a6 a7 a8 a9 a10 a11 a12 a13 a14 = (fun _ => 1#1)) :
    InputsOK a0 a1 a2 a3 a4 a5 a6 a7 a8 a9 a10 a11 a12 a13 := by
  have e := congrFun h ix0
  dsimp only [fn, fn_part1, fn_part2, fn_part3, fn_part4] at e
  simp only [andi_apply, IntOp.andi_eq_one] at e
  obtain ⟨⟨⟨⟨⟨⟨⟨⟨⟨⟨⟨⟨⟨e0, e1⟩, e2⟩, e3⟩, e4⟩, e5⟩, e6⟩, e7⟩, e8⟩, e9⟩, e10⟩, e11⟩, e12⟩, e13⟩ := e
  exact ⟨all_real a0 _ _ _ e0, all_real a1 _ _ _ e1, all_real a2 _ _ _ e2, all_real a3 _ _ _ e3, all_real a4 _ _ _ e4,
    all_real a5 _ _ _ e5, all_real a6 _ _ _ e6, all_real a7 _ _ _ e7, all_real a8 _ _ _ e8, all_real a9 _ _ _ e9,
    all_real a10 _ _ _ e10, all_real a11 _ _ _ e11, all_real a12 _ _ _ e12, all_nodes a13 _ _ _ e13⟩

end Cert.PreFacts

end
-- ==== Proof.Algebraic.lean ====
/-
  The algebraic claim: under the precondition the two programs' results are equal.

  The dense program's run ends with its two results at the last stretch tailZ / tailL of its second hidden table and
  of its third product's output; the edgewise program's run ends with its results at the same last stretch of its own
  second hidden table and that table's edgewise propagation.  The precondition makes every float input real-valued
  and every word of the edge list a node number, and then the dense program's three products are the edgewise
  program's tables (the propagation step), so the results are equal.  Both runs leave the arguments unchanged.  The
  common value of each result is the edgewise form, written over the dense program's arguments; the edgewise
  program's arguments are equal to them by hypothesis.
-/
import proofs.«114411_j49589692399794_2_alg».proof.Defs
import proofs.«114411_j49589692399794_2_alg».proof.Proof.KValue
import proofs.«114411_j49589692399794_2_alg».proof.Proof.RefLayers
import proofs.«114411_j49589692399794_2_alg».proof.Proof.PreFacts
import proofs.«114411_j49589692399794_2_alg».proof.Proof.Join

set_option maxRecDepth 8192

noncomputable section

namespace Cert.Algebraic

open Idealize.ShloMosaic Idealize.ShloMosaic.TcCoe Idealize.SL.Sem Idealize.ShloMosaic.ValueIdx
open Cert.Layers Cert.Join

section
variable [hK : Cert.KernelIdeal.Facts] [hR : Cert.ReferenceIdeal.Facts] [hP : Cert.Pre_finite_inputs.Facts]

/-- The first result's common value on device c: the edgewise form over the dense program's arguments. -/
def zVal (m : (ℓ : Loc Cert.KernelIdeal.nD Cert.KernelIdeal.τ Cert.KernelIdeal.sig) → Buf (Elt Ideal) ℓ) (c : Dev Cert.KernelIdeal.nD) :
    Buf (Elt Ideal) ((c.tc : Thread Cert.KernelIdeal.nD Cert.KernelIdeal.τ).loc Cert.KernelIdeal.main_v80) :=
  tailZ (H1R (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg13))) (TXB_R (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg13))) (TXB_R (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg13)))
    (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))

/-- The second result's common value on device c. -/
def lossVal (m : (ℓ : Loc Cert.KernelIdeal.nD Cert.KernelIdeal.τ Cert.KernelIdeal.sig) → Buf (Elt Ideal) ℓ) (c : Dev Cert.KernelIdeal.nD) :
    Buf (Elt Ideal) ((c.tc : Thread Cert.KernelIdeal.nD Cert.KernelIdeal.τ).loc Cert.KernelIdeal.main_v154) :=
  tailL (H1R (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg13))) (TXB_R (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg13))) (TXB_R (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg13)))
    (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))

/-- THE DENSE PROGRAM'S RESULTS are the common values, under the precondition. -/
theorem kernel_values (m : (ℓ : Loc Cert.KernelIdeal.nD Cert.KernelIdeal.τ Cert.KernelIdeal.sig) → Buf (Elt Ideal) ℓ)
    (g : Dev Cert.KernelIdeal.nD → PrngReg) (hpre : Cert.Pre_KernelIdeal m) (c : Dev Cert.KernelIdeal.nD) :
    Cert.KernelIdeal.Run.Wfin m g c (Proc.devRef .tc Cert.KernelIdeal.main_v80) = zVal m c
      ∧ Cert.KernelIdeal.Run.Wfin m g c (Proc.devRef .tc Cert.KernelIdeal.main_v154) = lossVal m c := by
  have ok := Cert.PreFacts.inputsOK_of_pre (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (hpre c)
  have key := results_eq (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))
    ok.x_adj ok.wt ok.bt ok.w1a ok.w1b ok.b1 ok.edges
    (Cert.KernelIdeal.Run.H0K m g c) (Cert.KernelIdeal.Run.TXAK m g c) (Cert.KernelIdeal.Run.TXBK m g c)
    (Cert.KernelIdeal.Run.H0K_apply m g c) (Cert.KernelIdeal.Run.TXAK_apply m g c) (Cert.KernelIdeal.Run.TXBK_apply m g c)
  exact ⟨(Cert.KernelIdeal.Run.Wfin_z m g c).trans key.1, (Cert.KernelIdeal.Run.Wfin_loss m g c).trans key.2⟩

/-- THE EDGEWISE PROGRAM'S RESULTS are the common values, its arguments being the dense program's. -/
theorem reference_values (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (e4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (e5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (e6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (e7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (e8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (e9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (e10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (e11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (e12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (e13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (e14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) :
    Cert.ReferenceIdeal.Value.res_main_v131 m' c = zVal m c ∧ Cert.ReferenceIdeal.Value.res_main_v209 m' c = lossVal m c := by
  constructor
  · rw [Cert.RefLayers.res_z, e0, e1, e2, e3, e4, e5, e6, e7, e8, e9, e10, e11, e12, e13]
    rfl
  · rw [Cert.RefLayers.res_loss, e0, e1, e2, e3, e4, e5, e6, e7, e8, e9, e10, e11, e12, e13, e14]
    rfl

end

/-- THE ALGEBRAIC CLAIM. -/
theorem algebraic [hK : Cert.KernelIdeal.Facts] [hR : Cert.ReferenceIdeal.Facts] [hP : Cert.Pre_finite_inputs.Facts] :
    Cert.algebraic_KernelIdeal_ReferenceIdeal := by
  intro m g m' g' hpre hagree
  refine ⟨zVal m, lossVal m, ?_, ?_⟩
  · exact (θ_run (Cert.KernelIdeal.defs (F := Ideal)) _ _).mono
      (fun _ h c => ⟨(h c).1.trans (kernel_values m g hpre c).1, (h c).2.1.trans (kernel_values m g hpre c).2, (h c).2.2⟩)
      (Cert.KernelIdeal.Run.run_values m g)
  · exact (θ_run (Cert.ReferenceIdeal.defs (F := Ideal)) _ _).mono
      (fun _ h c => by
        obtain ⟨e0, e1, e2, e3, e4, e5, e6, e7, e8, e9, e10, e11, e12, e13, e14⟩ := hagree c
        have rv := reference_values m m' c e0 e1 e2 e3 e4 e5 e6 e7 e8 e9 e10 e11 e12 e13 e14
        exact ⟨(h c).1.trans rv.1, (h c).2.1.trans rv.2, (h c).2.2⟩)
      (Cert.ReferenceIdeal.Value.run (F := Ideal) m' g')

end Cert.Algebraic

end
-- ==== Proof.lean ====
/-
  The dense and the edgewise graph encoder give the same results.

  Both programs compute the node degrees, the symmetric normalisation weights of the edges, a rectified dense layer of
  the adjacency rows, two rounds of propagation along the edges, each followed by a two-term layer, and from the last
  table the sampled embedding and the loss.  They differ only in how a table is propagated.  The edgewise program
  gathers the source rows, scales each by its edge's weight and adds it into the target's row.  The dense program
  first adds every edge weight into entry (target, source) of a zero N × N matrix and then multiplies the matrix by
  the table, block by block over the contracted axis.  Entry (n, q) of the matrix product is
  ∑ₖ (∑ over edges k → n of the weight) · t[k, q], and with real-valued weights and table the product distributes
  over the inner sum, giving ∑ over edges into n of weight · t[source, q]: the edgewise value.  Real-valuedness
  comes from the finite inputs (sums, products and maxima of real numbers are real numbers), and that every edge
  lands inside the matrix from the node numbers being in range.  Everything after the last propagation is the same
  operations on both sides.

  The three frames say that each program runs to the end and leaves its arguments untouched; they hold for any
  inputs.  The idealisation rewrote nothing, so there is nothing to preserve.
-/
import proofs.«114411_j49589692399794_2_alg».proof.Defs
import proofs.«114411_j49589692399794_2_alg».proof.Proof.Gen.Kernel
import proofs.«114411_j49589692399794_2_alg».proof.Proof.Gen.KernelIdeal
import proofs.«114411_j49589692399794_2_alg».proof.Proof.Gen.ReferenceIdeal
import proofs.«114411_j49589692399794_2_alg».proof.Proof.Gen.Pre_finite_inputs
import proofs.«114411_j49589692399794_2_alg».proof.Proof.Frames
import proofs.«114411_j49589692399794_2_alg».proof.Proof.FrameRef
import proofs.«114411_j49589692399794_2_alg».proof.Proof.Algebraic

noncomputable section

namespace Cert.Proof

theorem claim : Cert.Claim :=
  ⟨Cert.Kernel.Gen.facts, Cert.KernelIdeal.Gen.facts, Cert.ReferenceIdeal.Gen.facts, Cert.Pre_finite_inputs.Gen.facts,
    Cert.Frames.frame_Kernel (hK := Cert.Kernel.Gen.facts) (hP := Cert.Pre_finite_inputs.Gen.facts),
    Cert.Frames.frame_KernelIdeal (hK := Cert.KernelIdeal.Gen.facts) (hP := Cert.Pre_finite_inputs.Gen.facts),
    Cert.Frames.frame_ReferenceIdeal (hR := Cert.ReferenceIdeal.Gen.facts) (hP := Cert.Pre_finite_inputs.Gen.facts),
    Cert.Frames.preserves,
    Cert.Algebraic.algebraic (hK := Cert.KernelIdeal.Gen.facts) (hR := Cert.ReferenceIdeal.Gen.facts) (hP := Cert.Pre_finite_inputs.Gen.facts)⟩

end Cert.Proof

end
